-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v174)) (v1 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_v164) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S75000x128 : S_.BroadcastsInDim S75000x128 (![] : Fin 0 → Fin S75000x128.rank)
  reducesTo_S75000x128_S_d0_1 : S75000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S1500000 : S_.BroadcastsInDim S1500000 (![] : Fin 0 → Fin S1500000.rank)
  reducesTo_S1500000_S_d0 : S1500000.ReducesTo [0] S_

variable [Facts]

def fn_part4 {F : FTy → Type} [FloatOps F] (main_arg3 : IVec S1500000 32) (main_v67 : IVec S_ 1) : IVec S_ 1 :=
  let main_c_26 : IVec S_ 32 := constantI S_ 32 0#32
  let main_v68 : IVec S1500000 32 := broadcastInDim S1500000 ![] bcast_S_S1500000 main_c_26
  let main_v69 : IVec S1500000 1 := cmpi .sge main_arg3 main_v68
  let main_c_27 : IVec S_ 1 := constantI S_ 1 1#1
  let main_v70 : IVec S_ 1 := (fun x v => Host.reduce IntOp.andi x v reducesTo_S1500000_S_d0 h_S_) main_v69 main_c_27
  let main_v71 : IVec S_ 1 := andi main_v67 main_v70
  main_v71

def fn_part3 {F : FTy → Type} [FloatOps F] (main_arg2 : IVec S1500000 32) (main_arg3 : IVec S1500000 32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S1500000 32 := broadcastInDim S1500000 ![] bcast_S_S1500000 main_c_24
  let main_v65 : IVec S1500000 1 := cmpi .sge main_arg2 main_v64
  let main_c_25 : IVec S_ 1 := constantI S_ 1 1#1
  let main_v66 : IVec S_ 1 := (fun x v => Host.reduce IntOp.andi x v reducesTo_S1500000_S_d0 h_S_) main_v65 main_c_25
  let main_v67 : IVec S_ 1 := andi main_v63 main_v66
  fn_part4 (F := F) main_arg3 main_v67

def fn_part2 {F : FTy → Type} [FloatOps F] (main_arg2 : IVec S1500000 32) (main_arg3 : IVec S1500000 32) (main_arg9 : FVec F S3x128 .f32) (main_arg10 : FVec F S3x128x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_arg14 main_v48 main_v49 main_v50

def fn_part1 {F : FTy → Type} [FloatOps F] (main_arg2 : IVec S1500000 32) (main_arg3 : IVec S1500000 32) (main_arg6 : FVec F S128x128 .f32) (main_arg7 : FVec F S128 .f32) (main_arg8 : FVec F S3x128x128 .f32) (main_arg9 : FVec F S3x128 .f32) (main_arg10 : FVec F S3x128x128 .f32) (main_arg11 : FVec F S128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg3 main_arg9 main_arg10 main_arg11 main_arg12 main_arg13 main_arg14 main_v33

def fn {F : FTy → Type} [FloatOps F] (main_arg0 : FVec F S150000x64 .f32) (main_arg1 : FVec F S75000x128 .f32) (main_arg2 : IVec S1500000 32) (main_arg3 : IVec S1500000 32) (main_arg4 : FVec F S64x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S128 .f32) (main_arg12 : FVec F S128 .f32) (main_arg13 : FVec F S128 .f32) (main_arg14 : FVec F S128 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S75000x128 .f32 := Host.absf main_arg1
  let main_cst_0 : FVec F S_ .f32 := constant S_ .f32 0x7F800000#32
  let main_v5 : FVec F S75000x128 .f32 := broadcastInDim S75000x128 ![] bcast_S_S75000x128 main_cst_0
  let main_v6 : IVec S75000x128 1 := cmpf .olt main_v4 main_v5
  let main_c_1 : IVec S_ 1 := constantI S_ 1 1#1
  let main_v7 : IVec S_ 1 := (fun x v => Host.reduce IntOp.andi x v reducesTo_S75000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_v13 main_v16
-- ==== Kernel.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S1x128 : Shape := ⟨2, ![1, 128]⟩
abbrev S150000x128 : Shape := ⟨2, ![150000, 128]⟩
abbrev S5000x64 : Shape := ⟨2, ![5000, 64]⟩
abbrev S5000x128 : Shape := ⟨2, ![5000, 128]⟩
abbrev S_ : Shape := ⟨0, ![]⟩
abbrev S75000 : Shape := ⟨1, ![75000]⟩
abbrev S1500000x1 : Shape := ⟨2, ![1500000, 1]⟩
abbrev S150000 : Shape := ⟨1, ![150000]⟩
abbrev S75000x1 : Shape := ⟨2, ![75000, 1]⟩
abbrev S150000x1 : Shape := ⟨2, ![150000, 1]⟩
abbrev S1500000x128 : Shape := ⟨2, ![1500000, 128]⟩
abbrev S1x128x128 : Shape := ⟨3, ![1, 128, 128]⟩
abbrev S5000x1 : Shape := ⟨2, ![5000, 1]⟩
abbrev S5000 : Shape := ⟨1, ![5000]⟩

abbrev nBuf : Space → Nat
  | .hbm => 231
  | .vmem => 82
  | .smem => 0
  | _ => 0

abbrev hbmTy0_0 (i : Nat) : BufTy := match i % 128 with
  | 0 => ⟨S150000x64, .f32⟩
  | 1 => ⟨S75000x128, .f32⟩
  | 2 => ⟨S1500000, .i32⟩
  | 3 => ⟨S1500000, .i32⟩
  | 4 => ⟨S64x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S128, .f32⟩
  | 12 => ⟨S128, .f32⟩
  | 13 => ⟨S128, .f32⟩
  | 14 => ⟨S128, .f32⟩
  | 15 => ⟨S1x128, .f32⟩
  | 16 => ⟨S150000x128, .f32⟩
  | 17 => ⟨S1x128, .f32⟩
  | 18 => ⟨S75000x128, .f32⟩
  | 19 => ⟨S_, .i32⟩
  | 20 => ⟨S1500000, .i32⟩
  | 21 => ⟨S_, .i32⟩
  | 22 => ⟨S75000, .i32⟩
  | 23 => ⟨S_, .i32⟩
  | 24 => ⟨S1500000, .i32⟩
  | 25 => ⟨S1500000, .i1⟩
  | 26 => ⟨S_, .i32⟩
  | 27 => ⟨S1500000, .i32⟩
  | 28 => ⟨S1500000, .i32⟩
  | 29 => ⟨S1500000, .i32⟩
  | 30 => ⟨S1500000x1, .i32⟩
  | 31 => ⟨S75000, .i32⟩
  | 32 => ⟨S_, .i32⟩
  | 33 => ⟨S150000, .i32⟩
  | 34 => ⟨S_, .i32⟩
  | 35 => ⟨S1500000, .i32⟩
  | 36 => ⟨S1500000, .i1⟩
  | 37 => ⟨S_, .i32⟩
  | 38 => ⟨S1500000, .i32⟩
  | 39 => ⟨S1500000, .i32⟩
  | 40 => ⟨S1500000, .i32⟩
  | 41 => ⟨S1500000x1, .i32⟩
  | 42 => ⟨S150000, .i32⟩
  | 43 => ⟨S75000, .f32⟩
  | 44 => ⟨S_, .f32⟩
  | 45 => ⟨S75000, .f32⟩
  | 46 => ⟨S75000, .f32⟩
  | 47 => ⟨S_, .f32⟩
  | 48 => ⟨S75000, .f32⟩
  | 49 => ⟨S75000, .f32⟩
  | 50 => ⟨S75000x1, .f32⟩
  | 51 => ⟨S150000, .f32⟩
  | 52 => ⟨S_, .f32⟩
  | 53 => ⟨S150000, .f32⟩
  | 54 => ⟨S150000, .f32⟩
  | 55 => ⟨S_, .f32⟩
  | 56 => ⟨S150000, .f32⟩
  | 57 => ⟨S150000, .f32⟩
  | 58 => ⟨S150000x1, .f32⟩
  | 59 => ⟨S_, .i32⟩
  | 60 => ⟨S1500000, .i32⟩
  | 61 => ⟨S1500000, .i1⟩
  | 62 => ⟨S_, .i32⟩
  | 63 => ⟨S1500000, .i32⟩
  | 64 => ⟨S1500000, .i32⟩
  | 65 => ⟨S1500000, .i32⟩
  | 66 => ⟨S1500000x1, .i32⟩
  | 67 => ⟨S1500000x128, .f32⟩
  | 68 => ⟨S_, .f32⟩
  | 69 => ⟨S75000x128, .f32⟩
  | 70 => ⟨S_, .i32⟩
  | 71 => ⟨S1500000, .i32⟩
  | 72 => ⟨S1500000, .i1⟩
  | 73 => ⟨S_, .i32⟩
  | 74 => ⟨S1500000, .i32⟩
  | 75 => ⟨S1500000, .i32⟩
  | 76 => ⟨S1500000, .i32⟩
  | 77 => ⟨S1500000x1, .i32⟩
  | 78 => ⟨S75000x128, .f32⟩
  | 79 => ⟨S_, .i32⟩
  | 80 => ⟨S1500000, .i32⟩
  | 81 => ⟨S1500000, .i1⟩
  | 82 => ⟨S_, .i32⟩
  | 83 => ⟨S1500000, .i32⟩
  | 84 => ⟨S1500000, .i32⟩
  | 85 => ⟨S1500000, .i32⟩
  | 86 => ⟨S1500000x1, .i32⟩
  | 87 => ⟨S1500000x128, .f32⟩
  | 88 => ⟨S_, .f32⟩
  | 89 => ⟨S150000x128, .f32⟩
  | 90 => ⟨S_, .i32⟩
  | 91 => ⟨S1500000, .i32⟩
  | 92 => ⟨S1500000, .i1⟩
  | 93 => ⟨S_, .i32⟩
  | 94 => ⟨S1500000, .i32⟩
  | 95 => ⟨S1500000, .i32⟩
  | 96 => ⟨S1500000, .i32⟩
  | 97 => ⟨S1500000x1, .i32⟩
  | 98 => ⟨S150000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S75000x128, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S150000x128, .f32⟩
  | 115 => ⟨S_, .i32⟩
  | 116 => ⟨S1500000, .i32⟩
  | 117 => ⟨S1500000, .i1⟩
  | 118 => ⟨S_, .i32⟩
  | 119 => ⟨S1500000, .i32⟩
  | 120 => ⟨S1500000, .i32⟩
  | 121 => ⟨S1500000, .i32⟩
  | 122 => ⟨S1500000x1, .i32⟩
  | 123 => ⟨S1500000x128, .f32⟩
  | 124 => ⟨S_, .f32⟩
  | 125 => ⟨S75000x128, .f32⟩
  | 126 => ⟨S_, .i32⟩
  | 127 => ⟨S1500000, .i32⟩
  | _ => ⟨S150000x64, .f32⟩

abbrev hbmTy0_1 (i : Nat) : BufTy := match i % 128 with
  | 0 => ⟨S1500000, .i1⟩
  | 1 => ⟨S_, .i32⟩
  | 2 => ⟨S1500000, .i32⟩
  | 3 => ⟨S1500000, .i32⟩
  | 4 => ⟨S1500000, .i32⟩
  | 5 => ⟨S1500000x1, .i32⟩
  | 6 => ⟨S75000x128, .f32⟩
  | 7 => ⟨S_, .i32⟩
  | 8 => ⟨S1500000, .i32⟩
  | 9 => ⟨S1500000, .i1⟩
  | 10 => ⟨S_, .i32⟩
  | 11 => ⟨S1500000, .i32⟩
  | 12 => ⟨S1500000, .i32⟩
  | 13 => ⟨S1500000, .i32⟩
  | 14 => ⟨S1500000x1, .i32⟩
  | 15 => ⟨S1500000x128, .f32⟩
  | 16 => ⟨S_, .f32⟩
  | 17 => ⟨S150000x128, .f32⟩
  | 18 => ⟨S_, .i32⟩
  | 19 => ⟨S1500000, .i32⟩
  | 20 => ⟨S1500000, .i1⟩
  | 21 => ⟨S_, .i32⟩
  | 22 => ⟨S1500000, .i32⟩
  | 23 => ⟨S1500000, .i32⟩
  | 24 => ⟨S1500000, .i32⟩
  | 25 => ⟨S1500000x1, .i32⟩
  | 26 => ⟨S150000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S75000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S150000x128, .f32⟩
  | 43 => ⟨S_, .i32⟩
  | 44 => ⟨S1500000, .i32⟩
  | 45 => ⟨S1500000, .i1⟩
  | 46 => ⟨S_, .i32⟩
  | 47 => ⟨S1500000, .i32⟩
  | 48 => ⟨S1500000, .i32⟩
  | 49 => ⟨S1500000, .i32⟩
  | 50 => ⟨S1500000x1, .i32⟩
  | 51 => ⟨S1500000x128, .f32⟩
  | 52 => ⟨S_, .f32⟩
  | 53 => ⟨S75000x128, .f32⟩
  | 54 => ⟨S_, .i32⟩
  | 55 => ⟨S1500000, .i32⟩
  | 56 => ⟨S1500000, .i1⟩
  | 57 => ⟨S_, .i32⟩
  | 58 => ⟨S1500000, .i32⟩
  | 59 => ⟨S1500000, .i32⟩
  | 60 => ⟨S1500000, .i32⟩
  | 61 => ⟨S1500000x1, .i32⟩
  | 62 => ⟨S75000x128, .f32⟩
  | 63 => ⟨S_, .i32⟩
  | 64 => ⟨S1500000, .i32⟩
  | 65 => ⟨S1500000, .i1⟩
  | 66 => ⟨S_, .i32⟩
  | 67 => ⟨S1500000, .i32⟩
  | 68 => ⟨S1500000, .i32⟩
  | 69 => ⟨S1500000, .i32⟩
  | 70 => ⟨S1500000x1, .i32⟩
  | 71 => ⟨S1500000x128, .f32⟩
  | 72 => ⟨S_, .f32⟩
  | 73 => ⟨S150000x128, .f32⟩
  | 74 => ⟨S_, .i32⟩
  | 75 => ⟨S1500000, .i32⟩
  | 76 => ⟨S1500000, .i1⟩
  | 77 => ⟨S_, .i32⟩
  | 78 => ⟨S1500000, .i32⟩
  | 79 => ⟨S1500000, .i32⟩
  | 80 => ⟨S1500000, .i32⟩
  | 81 => ⟨S1500000x1, .i32⟩
  | 82 => ⟨S150000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S1x128, .f32⟩
  | 91 => ⟨S1x128, .f32⟩
  | 92 => ⟨S75000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S1x128, .f32⟩
  | 101 => ⟨S1x128, .f32⟩
  | 102 => ⟨S150000x128, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S5000x1, .f32⟩
  | .local _ .vmem, ⟨64, _⟩ => ⟨S5000x1, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S128x128, .f32⟩
  | .local _ .vmem, ⟨74, _⟩ => ⟨S1x128, .f32⟩
  | .local _ .vmem, ⟨75, _⟩ => ⟨S128x128, .f32⟩
  | .local _ .vmem, ⟨76, _⟩ => ⟨S5000x1, .f32⟩
  | .local _ .vmem, ⟨77, _⟩ => ⟨S5000x1, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_9 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_c_12 : Ref sig .tc := ⟨.hbm, 70, rfl⟩
abbrev main_v41 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_14 : Ref sig .tc := ⟨.hbm, 79, rfl⟩
abbrev main_v48 : Ref sig .tc := ⟨.hbm, 80, rfl⟩
abbrev main_v49 : Ref sig .tc := ⟨.hbm, 81, rfl⟩
abbrev main_c_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_16 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_c_22 : Ref sig .tc := ⟨.hbm, 126, rfl⟩
abbrev main_v87 : Ref sig .tc := ⟨.hbm, 127, rfl⟩
abbrev main_v88 : Ref sig .tc := ⟨.hbm, 128, rfl⟩
abbrev main_c_23 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_24 : Ref sig .tc := ⟨.hbm, 135, rfl⟩
abbrev main_v94 : Ref sig .tc := ⟨.hbm, 136, rfl⟩
abbrev main_v95 : Ref sig .tc := ⟨.hbm, 137, rfl⟩
abbrev main_c_25 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_26 : Ref sig .tc := ⟨.hbm, 144, rfl⟩
abbrev main_v101 : Ref sig .tc := ⟨.hbm, 145, rfl⟩
abbrev main_c_27 : Ref sig .tc := ⟨.hbm, 146, rfl⟩
abbrev main_v102 : Ref sig .tc := ⟨.hbm, 147, rfl⟩
abbrev main_v103 : Ref sig .tc := ⟨.hbm, 148, rfl⟩
abbrev main_c_28 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_29 : Ref sig .tc := ⟨.hbm, 171, rfl⟩
abbrev main_v125 : Ref sig .tc := ⟨.hbm, 172, rfl⟩
abbrev main_v126 : Ref sig .tc := ⟨.hbm, 173, rfl⟩
abbrev main_c_30 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_31 : Ref sig .tc := ⟨.hbm, 180, rfl⟩
abbrev main_v132 : Ref sig .tc := ⟨.hbm, 181, rfl⟩
abbrev main_c_32 : Ref sig .tc := ⟨.hbm, 182, rfl⟩
abbrev main_v133 : Ref sig .tc := ⟨.hbm, 183, rfl⟩
abbrev main_v134 : Ref sig .tc := ⟨.hbm, 184, rfl⟩
abbrev main_c_33 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_c_34 : Ref sig .tc := ⟨.hbm, 191, rfl⟩
abbrev main_v140 : Ref sig .tc := ⟨.hbm, 192, rfl⟩
abbrev main_v141 : Ref sig .tc := ⟨.hbm, 193, rfl⟩
abbrev main_c_35 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_36 : Ref sig .tc := ⟨.hbm, 200, rfl⟩
abbrev main_v147 : Ref sig .tc := ⟨.hbm, 201, rfl⟩
abbrev main_c_37 : Ref sig .tc := ⟨.hbm, 202, rfl⟩
abbrev main_v148 : Ref sig .tc := ⟨.hbm, 203, rfl⟩
abbrev main_v149 : Ref sig .tc := ⟨.hbm, 204, rfl⟩
abbrev main_c_38 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg5_1 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg8_0 : Ref sig .tc := ⟨.vmem, 67, rfl⟩
abbrev cc6_stg8_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg5_1 : Ref sig .tc := ⟨.vmem, 77, rfl⟩
abbrev cc7_stg6_0 : Ref sig .tc := ⟨.vmem, 78, rfl⟩
abbrev cc7_stg7_0 : Ref sig .tc := ⟨.vmem, 79, rfl⟩
abbrev cc7_stg8_0 : Ref sig .tc := ⟨.vmem, 80, rfl⟩
abbrev cc7_stg8_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64
abbrev cc6_sem6_0 : DmaSem sig := 65
abbrev cc6_sem7_0 : DmaSem sig := 66
abbrev cc6_sem8_0 : DmaSem sig := 67
abbrev cc6_sem8_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem5_1 : DmaSem sig := 77
abbrev cc7_sem6_0 : DmaSem sig := 78
abbrev cc7_sem7_0 : DmaSem sig := 79
abbrev cc7_sem8_0 : DmaSem sig := 80
abbrev cc7_sem8_1 : DmaSem sig := 81

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![15], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![30], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S1500000 : S_.BroadcastsInDim S1500000 (![] : Fin 0 → Fin S1500000.rank)
  bcast_S_S75000 : S_.BroadcastsInDim S75000 (![] : Fin 0 → Fin S75000.rank)
  bcast_S1500000_S1500000x1_0 : S1500000.BroadcastsInDim S1500000x1 (![0] : Fin 1 → Fin S1500000x1.rank)
  bcast_S_S150000 : S_.BroadcastsInDim S150000 (![] : Fin 0 → Fin S150000.rank)
  shapeCasts_S75000_S75000x1 : S75000.ShapeCasts S75000x1
  shapeCasts_S150000_S150000x1 : S150000.ShapeCasts S150000x1
  bcast_S_S75000x128 : S_.BroadcastsInDim S75000x128 (![] : Fin 0 → Fin S75000x128.rank)
  bcast_S_S150000x128 : S_.BroadcastsInDim S150000x128 (![] : Fin 0 → Fin S150000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reduces_S5000x128_S5000 : S5000x128.Reduces [1] S5000
  shapeCasts_S5000_S5000x1 : S5000.ShapeCasts S5000x1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  scatter_S75000_S1500000x1_S1500000_n_0_0_1_wf : ScatterDims.WF S75000 S1500000x1 S1500000 [] [0] [0] 1
  scatter_S150000_S1500000x1_S1500000_n_0_0_1_wf : ScatterDims.WF S150000 S1500000x1 S1500000 [] [0] [0] 1
  gather_S150000x128_S1500000x1_S1500000x128_1_0_n_n_0_1_1128_wf : GatherDims.WF S150000x128 S1500000x1 S1500000x128 [1] [0] [] [0] [] 1 ![1, 128]
  scatter_S75000x128_S1500000x1_S1500000x128_1_0_0_1_wf : ScatterDims.WF S75000x128 S1500000x1 S1500000x128 [1] [0] [0] 1
  gather_S75000x128_S1500000x1_S1500000x128_1_0_n_n_0_1_1128_wf : GatherDims.WF S75000x128 S1500000x1 S1500000x128 [1] [0] [] [0] [] 1 ![1, 128]
  scatter_S150000x128_S1500000x1_S1500000x128_1_0_0_1_wf : ScatterDims.WF S150000x128 S1500000x1 S1500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S150000x128.size a
  hwx0_3 : ∀ i : grid0.Coords, EltTy.bits .f32 = 32 ∨ (Rect.block (s := S150000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S75000x128.size a
  hwx1_3 : ∀ i : grid1.Coords, EltTy.bits .f32 = 32 ∨ (Rect.block (s := S75000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S75000x1.size a
  hwx2_5 : ∀ i : grid2.Coords, EltTy.bits .f32 = 32 ∨ (Rect.block (s := S75000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S75000x128.size a
  hwx2_6 : ∀ i : grid2.Coords, EltTy.bits .f32 = 32 ∨ (Rect.block (s := S75000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S150000x128.size a
  hwx3_0 : ∀ i : grid3.Coords, EltTy.bits .f32 = 32 ∨ (Rect.block (s := S150000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S150000x128.size a
  hwx3_1 : ∀ i : grid3.Coords, EltTy.bits .f32 = 32 ∨ (Rect.block (s := S150000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S150000x1.size a
  hwx3_5 : ∀ i : grid3.Coords, EltTy.bits .f32 = 32 ∨ (Rect.block (s := S150000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S150000x128.size a
  hwx3_6 : ∀ i : grid3.Coords, EltTy.bits .f32 = 32 ∨ (Rect.block (s := S150000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S75000x128.size a
  hwx4_0 : ∀ i : grid4.Coords, EltTy.bits .f32 = 32 ∨ (Rect.block (s := S75000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S75000x128.size a
  hwx4_1 : ∀ i : grid4.Coords, EltTy.bits .f32 = 32 ∨ (Rect.block (s := S75000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S75000x1.size a
  hwx4_5 : ∀ i : grid4.Coords, EltTy.bits .f32 = 32 ∨ (Rect.block (s := S75000x1) S5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S75000x128.size a
  hwx4_6 : ∀ i : grid4.Coords, EltTy.bits .f32 = 32 ∨ (Rect.block (s := S75000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S150000x128.size a
  hwx5_0 : ∀ i : grid5.Coords, EltTy.bits .f32 = 32 ∨ (Rect.block (s := S150000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S150000x128.size a
  hwx5_1 : ∀ i : grid5.Coords, EltTy.bits .f32 = 32 ∨ (Rect.block (s := S150000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S150000x1.size a
  hwx5_5 : ∀ i : grid5.Coords, EltTy.bits .f32 = 32 ∨ (Rect.block (s := S150000x1) S5000x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S150000x128.size a
  hwx5_6 : ∀ i : grid5.Coords, EltTy.bits .f32 = 32 ∨ (Rect.block (s := S150000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S75000x128.size a
  hwx6_0 : ∀ i : grid6.Coords, EltTy.bits .f32 = 32 ∨ (Rect.block (s := S75000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S75000x128.size a
  hwx6_1 : ∀ i : grid6.Coords, EltTy.bits .f32 = 32 ∨ (Rect.block (s := S75000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S75000x1.size a
  hwx6_5 : ∀ i : grid6.Coords, EltTy.bits .f32 = 32 ∨ (Rect.block (s := S75000x1) S5000x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S75000x128.size a
  hwx6_8 : ∀ i : grid6.Coords, EltTy.bits .f32 = 32 ∨ (Rect.block (s := S75000x128) S5000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S150000x128.size a
  hwx7_0 : ∀ i : grid7.Coords, EltTy.bits .f32 = 32 ∨ (Rect.block (s := S150000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S150000x128.size a
  hwx7_1 : ∀ i : grid7.Coords, EltTy.bits .f32 = 32 ∨ (Rect.block (s := S150000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S150000x1.size a
  hwx7_5 : ∀ i : grid7.Coords, EltTy.bits .f32 = 32 ∨ (Rect.block (s := S150000x1) S5000x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S150000x128.size a
  hwx7_8 : ∀ i : grid7.Coords, EltTy.bits .f32 = 32 ∨ (Rect.block (s := S150000x128) S5000x128.size (cc7_transform_8 i) (hinb7_8 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S75000_S1500000x1_S1500000_n_0_0_1 : ScatterDims S75000 S1500000x1 S1500000 where
  updateWindowDims := []
  insertedWindowDims := [0]
  scatterDimsToOperandDims := [0]
  indexVectorDim := 1
  wf := scatter_S75000_S1500000x1_S1500000_n_0_0_1_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S75000x128_S1500000x1_S1500000x128_1_0_0_1 : ScatterDims S75000x128 S1500000x1 S1500000x128 where
  updateWindowDims := [1]
  insertedWindowDims := [0]
  scatterDimsToOperandDims := [0]
  indexVectorDim := 1
  wf := scatter_S75000x128_S1500000x1_S1500000x128_1_0_0_1_wf
def gather_S75000x128_S1500000x1_S1500000x128_1_0_n_n_0_1_1128 : GatherDims S75000x128 S1500000x1 S1500000x128 where
  offsetDims := [1]
  collapsedSliceDims := [0]
  operandBatchingDims := []
  startIndicesBatchingDims := []
  startIndexMap := [0]
  indexVectorDim := 1
  sliceSizes := ![1, 128]
  wf := gather_S75000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v78) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v93) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v26) S5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v116) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v32) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v124) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v139) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v156) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v161) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v160) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v26) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v162) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v163) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v164) S5000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v154) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v124) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v166) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v171) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v170) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v32) S5000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v172) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v173) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v174) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S150000x64 : Shape := ⟨2, ![150000, 64]⟩
abbrev S75000x128 : Shape := ⟨2, ![75000, 128]⟩
abbrev S1500000 : Shape := ⟨1, ![1500000]⟩
abbrev S64x128 : Shape := ⟨2, ![64, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S150000x128 : Shape := ⟨2, ![150000, 128]⟩
abbrev S1x128 : Shape := ⟨2, ![1, 128]⟩
abbrev S1x128x128 : Shape := ⟨3, ![1, 128, 128]⟩
abbrev S_ : Shape := ⟨0, ![]⟩
abbrev S1500000x1 : Shape := ⟨2, ![1500000, 1]⟩
abbrev S1500000x128 : Shape := ⟨2, ![1500000, 128]⟩
abbrev S75000 : Shape := ⟨1, ![75000]⟩
abbrev S75000x1 : Shape := ⟨2, ![75000, 1]⟩
abbrev S150000 : Shape := ⟨1, ![150000]⟩
abbrev S150000x1 : Shape := ⟨2, ![150000, 1]⟩

abbrev nBuf : Space → Nat
  | .hbm => 321
  | .vmem => 0
  | .smem => 0
  | _ => 0

abbrev hbmTy0_0 (i : Nat) : BufTy := match i % 128 with
  | 0 => ⟨S150000x64, .f32⟩
  | 1 => ⟨S75000x128, .f32⟩
  | 2 => ⟨S1500000, .i32⟩
  | 3 => ⟨S1500000, .i32⟩
  | 4 => ⟨S64x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S128, .f32⟩
  | 12 => ⟨S128, .f32⟩
  | 13 => ⟨S128, .f32⟩
  | 14 => ⟨S128, .f32⟩
  | 15 => ⟨S150000x128, .f32⟩
  | 16 => ⟨S1x128, .f32⟩
  | 17 => ⟨S150000x128, .f32⟩
  | 18 => ⟨S150000x128, .f32⟩
  | 19 => ⟨S75000x128, .f32⟩
  | 20 => ⟨S1x128, .f32⟩
  | 21 => ⟨S75000x128, .f32⟩
  | 22 => ⟨S75000x128, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S_, .i32⟩
  | 30 => ⟨S1500000, .i32⟩
  | 31 => ⟨S1500000, .i1⟩
  | 32 => ⟨S_, .i32⟩
  | 33 => ⟨S1500000, .i32⟩
  | 34 => ⟨S1500000, .i32⟩
  | 35 => ⟨S1500000, .i32⟩
  | 36 => ⟨S1500000x1, .i32⟩
  | 37 => ⟨S1500000x128, .f32⟩
  | 38 => ⟨S_, .f32⟩
  | 39 => ⟨S75000x128, .f32⟩
  | 40 => ⟨S1500000x1, .i32⟩
  | 41 => ⟨S75000x128, .f32⟩
  | 42 => ⟨S_, .f32⟩
  | 43 => ⟨S1500000, .f32⟩
  | 44 => ⟨S_, .f32⟩
  | 45 => ⟨S75000, .f32⟩
  | 46 => ⟨S1500000x1, .i32⟩
  | 47 => ⟨S75000, .f32⟩
  | 48 => ⟨S_, .f32⟩
  | 49 => ⟨S75000, .f32⟩
  | 50 => ⟨S75000, .f32⟩
  | 51 => ⟨S75000x1, .f32⟩
  | 52 => ⟨S75000x128, .f32⟩
  | 53 => ⟨S75000x128, .f32⟩
  | 54 => ⟨S75000x128, .f32⟩
  | 55 => ⟨S1x128, .f32⟩
  | 56 => ⟨S75000x128, .f32⟩
  | 57 => ⟨S75000x128, .f32⟩
  | 58 => ⟨S75000x128, .f32⟩
  | 59 => ⟨S75000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S_, .i32⟩
  | 67 => ⟨S1500000, .i32⟩
  | 68 => ⟨S1500000, .i1⟩
  | 69 => ⟨S_, .i32⟩
  | 70 => ⟨S1500000, .i32⟩
  | 71 => ⟨S1500000, .i32⟩
  | 72 => ⟨S1500000, .i32⟩
  | 73 => ⟨S1500000x1, .i32⟩
  | 74 => ⟨S1500000x128, .f32⟩
  | 75 => ⟨S_, .f32⟩
  | 76 => ⟨S150000x128, .f32⟩
  | 77 => ⟨S1500000x1, .i32⟩
  | 78 => ⟨S150000x128, .f32⟩
  | 79 => ⟨S_, .f32⟩
  | 80 => ⟨S1500000, .f32⟩
  | 81 => ⟨S_, .f32⟩
  | 82 => ⟨S150000, .f32⟩
  | 83 => ⟨S1500000x1, .i32⟩
  | 84 => ⟨S150000, .f32⟩
  | 85 => ⟨S_, .f32⟩
  | 86 => ⟨S150000, .f32⟩
  | 87 => ⟨S150000, .f32⟩
  | 88 => ⟨S150000x1, .f32⟩
  | 89 => ⟨S150000x128, .f32⟩
  | 90 => ⟨S150000x128, .f32⟩
  | 91 => ⟨S150000x128, .f32⟩
  | 92 => ⟨S1x128, .f32⟩
  | 93 => ⟨S150000x128, .f32⟩
  | 94 => ⟨S150000x128, .f32⟩
  | 95 => ⟨S150000x128, .f32⟩
  | 96 => ⟨S150000x128, .f32⟩
  | 97 => ⟨S_, .f32⟩
  | 98 => ⟨S150000x128, .f32⟩
  | 99 => ⟨S150000x128, .f32⟩
  | 100 => ⟨S_, .f32⟩
  | 101 => ⟨S75000x128, .f32⟩
  | 102 => ⟨S75000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S_, .i32⟩
  | 110 => ⟨S1500000, .i32⟩
  | 111 => ⟨S1500000, .i1⟩
  | 112 => ⟨S_, .i32⟩
  | 113 => ⟨S1500000, .i32⟩
  | 114 => ⟨S1500000, .i32⟩
  | 115 => ⟨S1500000, .i32⟩
  | 116 => ⟨S1500000x1, .i32⟩
  | 117 => ⟨S1500000x128, .f32⟩
  | 118 => ⟨S_, .f32⟩
  | 119 => ⟨S75000x128, .f32⟩
  | 120 => ⟨S1500000x1, .i32⟩
  | 121 => ⟨S75000x128, .f32⟩
  | 122 => ⟨S_, .f32⟩
  | 123 => ⟨S1500000, .f32⟩
  | 124 => ⟨S_, .f32⟩
  | 125 => ⟨S75000, .f32⟩
  | 126 => ⟨S1500000x1, .i32⟩
  | 127 => ⟨S75000, .f32⟩
  | _ => ⟨S150000x64, .f32⟩

abbrev hbmTy0_1 (i : Nat) : BufTy := match i % 128 with
  | 0 => ⟨S_, .f32⟩
  | 1 => ⟨S75000, .f32⟩
  | 2 => ⟨S75000, .f32⟩
  | 3 => ⟨S75000x1, .f32⟩
  | 4 => ⟨S75000x128, .f32⟩
  | 5 => ⟨S75000x128, .f32⟩
  | 6 => ⟨S75000x128, .f32⟩
  | 7 => ⟨S1x128, .f32⟩
  | 8 => ⟨S75000x128, .f32⟩
  | 9 => ⟨S75000x128, .f32⟩
  | 10 => ⟨S75000x128, .f32⟩
  | 11 => ⟨S75000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S_, .i32⟩
  | 19 => ⟨S1500000, .i32⟩
  | 20 => ⟨S1500000, .i1⟩
  | 21 => ⟨S_, .i32⟩
  | 22 => ⟨S1500000, .i32⟩
  | 23 => ⟨S1500000, .i32⟩
  | 24 => ⟨S1500000, .i32⟩
  | 25 => ⟨S1500000x1, .i32⟩
  | 26 => ⟨S1500000x128, .f32⟩
  | 27 => ⟨S_, .f32⟩
  | 28 => ⟨S150000x128, .f32⟩
  | 29 => ⟨S1500000x1, .i32⟩
  | 30 => ⟨S150000x128, .f32⟩
  | 31 => ⟨S_, .f32⟩
  | 32 => ⟨S1500000, .f32⟩
  | 33 => ⟨S_, .f32⟩
  | 34 => ⟨S150000, .f32⟩
  | 35 => ⟨S1500000x1, .i32⟩
  | 36 => ⟨S150000, .f32⟩
  | 37 => ⟨S_, .f32⟩
  | 38 => ⟨S150000, .f32⟩
  | 39 => ⟨S150000, .f32⟩
  | 40 => ⟨S150000x1, .f32⟩
  | 41 => ⟨S150000x128, .f32⟩
  | 42 => ⟨S150000x128, .f32⟩
  | 43 => ⟨S150000x128, .f32⟩
  | 44 => ⟨S1x128, .f32⟩
  | 45 => ⟨S150000x128, .f32⟩
  | 46 => ⟨S150000x128, .f32⟩
  | 47 => ⟨S150000x128, .f32⟩
  | 48 => ⟨S150000x128, .f32⟩
  | 49 => ⟨S_, .f32⟩
  | 50 => ⟨S150000x128, .f32⟩
  | 51 => ⟨S150000x128, .f32⟩
  | 52 => ⟨S_, .f32⟩
  | 53 => ⟨S75000x128, .f32⟩
  | 54 => ⟨S75000x128, .f32⟩
  | 55 => ⟨S1x128x128, .f32⟩
  | 56 => ⟨S128x128, .f32⟩
  | 57 => ⟨S1x128, .f32⟩
  | 58 => ⟨S128, .f32⟩
  | 59 => ⟨S1x128x128, .f32⟩
  | 60 => ⟨S128x128, .f32⟩
  | 61 => ⟨S_, .i32⟩
  | 62 => ⟨S1500000, .i32⟩
  | 63 => ⟨S1500000, .i1⟩
  | 64 => ⟨S_, .i32⟩
  | 65 => ⟨S1500000, .i32⟩
  | 66 => ⟨S1500000, .i32⟩
  | 67 => ⟨S1500000, .i32⟩
  | 68 => ⟨S1500000x1, .i32⟩
  | 69 => ⟨S1500000x128, .f32⟩
  | 70 => ⟨S_, .f32⟩
  | 71 => ⟨S75000x128, .f32⟩
  | 72 => ⟨S1500000x1, .i32⟩
  | 73 => ⟨S75000x128, .f32⟩
  | 74 => ⟨S_, .f32⟩
  | 75 => ⟨S1500000, .f32⟩
  | 76 => ⟨S_, .f32⟩
  | 77 => ⟨S75000, .f32⟩
  | 78 => ⟨S1500000x1, .i32⟩
  | 79 => ⟨S75000, .f32⟩
  | 80 => ⟨S_, .f32⟩
  | 81 => ⟨S75000, .f32⟩
  | 82 => ⟨S75000, .f32⟩
  | 83 => ⟨S75000x1, .f32⟩
  | 84 => ⟨S75000x128, .f32⟩
  | 85 => ⟨S75000x128, .f32⟩
  | 86 => ⟨S75000x128, .f32⟩
  | 87 => ⟨S1x128, .f32⟩
  | 88 => ⟨S75000x128, .f32⟩
  | 89 => ⟨S75000x128, .f32⟩
  | 90 => ⟨S75000x128, .f32⟩
  | 91 => ⟨S75000x128, .f32⟩
  | 92 => ⟨S1x128x128, .f32⟩
  | 93 => ⟨S128x128, .f32⟩
  | 94 => ⟨S1x128, .f32⟩
  | 95 => ⟨S128, .f32⟩
  | 96 => ⟨S1x128x128, .f32⟩
  | 97 => ⟨S128x128, .f32⟩
  | 98 => ⟨S_, .i32⟩
  | 99 => ⟨S1500000, .i32⟩
  | 100 => ⟨S1500000, .i1⟩
  | 101 => ⟨S_, .i32⟩
  | 102 => ⟨S1500000, .i32⟩
  | 103 => ⟨S1500000, .i32⟩
  | 104 => ⟨S1500000, .i32⟩
  | 105 => ⟨S1500000x1, .i32⟩
  | 106 => ⟨S1500000x128, .f32⟩
  | 107 => ⟨S_, .f32⟩
  | 108 => ⟨S150000x128, .f32⟩
  | 109 => ⟨S1500000x1, .i32⟩
  | 110 => ⟨S150000x128, .f32⟩
  | 111 => ⟨S_, .f32⟩
  | 112 => ⟨S1500000, .f32⟩
  | 113 => ⟨S_, .f32⟩
  | 114 => ⟨S150000, .f32⟩
  | 115 => ⟨S1500000x1, .i32⟩
  | 116 => ⟨S150000, .f32⟩
  | 117 => ⟨S_, .f32⟩
  | 118 => ⟨S150000, .f32⟩
  | 119 => ⟨S150000, .f32⟩
  | 120 => ⟨S150000x1, .f32⟩
  | 121 => ⟨S150000x128, .f32⟩
  | 122 => ⟨S150000x128, .f32⟩
  | 123 => ⟨S150000x128, .f32⟩
  | 124 => ⟨S1x128, .f32⟩
  | 125 => ⟨S150000x128, .f32⟩
  | 126 => ⟨S150000x128, .f32⟩
  | 127 => ⟨S150000x128, .f32⟩
  | _ => ⟨S150000x64, .f32⟩

abbrev hbmTy0_2 (i : Nat) : BufTy := match i % 128 with
  | 0 => ⟨S150000x128, .f32⟩
  | 1 => ⟨S_, .f32⟩
  | 2 => ⟨S150000x128, .f32⟩
  | 3 => ⟨S150000x128, .f32⟩
  | 4 => ⟨S_, .f32⟩
  | 5 => ⟨S75000x128, .f32⟩
  | 6 => ⟨S75000x128, .f32⟩
  | 7 => ⟨S_, .f32⟩
  | 8 => ⟨S150000, .f32⟩
  | 9 => ⟨S150000x1, .f32⟩
  | 10 => ⟨S_, .f32⟩
  | 11 => ⟨S150000x1, .f32⟩
  | 12 => ⟨S150000x1, .f32⟩
  | 13 => ⟨S150000x128, .f32⟩
  | 14 => ⟨S150000x128, .f32⟩
  | 15 => ⟨S150000x128, .f32⟩
  | 16 => ⟨S_, .f32⟩
  | 17 => ⟨S150000, .f32⟩
  | 18 => ⟨S150000x1, .f32⟩
  | 19 => ⟨S_, .f32⟩
  | 20 => ⟨S150000x1, .f32⟩
  | 21 => ⟨S150000x1, .f32⟩
  | 22 => ⟨S150000x128, .f32⟩
  | 23 => ⟨S150000x128, .f32⟩
  | 24 => ⟨S_, .f32⟩
  | 25 => ⟨S150000x1, .f32⟩
  | 26 => ⟨S150000x1, .f32⟩
  | 27 => ⟨S150000x1, .f32⟩
  | 28 => ⟨S150000x128, .f32⟩
  | 29 => ⟨S150000x128, .f32⟩
  | 30 => ⟨S1x128, .f32⟩
  | 31 => ⟨S150000x128, .f32⟩
  | 32 => ⟨S150000x128, .f32⟩
  | 33 => ⟨S1x128, .f32⟩
  | 34 => ⟨S150000x128, .f32⟩
  | 35 => ⟨S150000x128, .f32⟩
  | 36 => ⟨S_, .f32⟩
  | 37 => ⟨S75000, .f32⟩
  | 38 => ⟨S75000x1, .f32⟩
  | 39 => ⟨S_, .f32⟩
  | 40 => ⟨S75000x1, .f32⟩
  | 41 => ⟨S75000x1, .f32⟩
  | 42 => ⟨S75000x128, .f32⟩
  | 43 => ⟨S75000x128, .f32⟩
  | 44 => ⟨S75000x128, .f32⟩
  | 45 => ⟨S_, .f32⟩
  | 46 => ⟨S75000, .f32⟩
  | 47 => ⟨S75000x1, .f32⟩
  | 48 => ⟨S_, .f32⟩
  | 49 => ⟨S75000x1, .f32⟩
  | 50 => ⟨S75000x1, .f32⟩
  | 51 => ⟨S75000x128, .f32⟩
  | 52 => ⟨S75000x128, .f32⟩
  | 53 => ⟨S_, .f32⟩
  | 54 => ⟨S75000x1, .f32⟩
  | 55 => ⟨S75000x1, .f32⟩
  | 56 => ⟨S75000x1, .f32⟩
  | 57 => ⟨S75000x128, .f32⟩
  | 58 => ⟨S75000x128, .f32⟩
  | 59 => ⟨S1x128, .f32⟩
  | 60 => ⟨S75000x128, .f32⟩
  | 61 => ⟨S75000x128, .f32⟩
  | 62 => ⟨S1x128, .f32⟩
  | 63 => ⟨S75000x128, .f32⟩
  | 64 => ⟨S75000x128, .f32⟩
  | _ => ⟨S150000x64, .f32⟩

abbrev hbmTy (i : Nat) : BufTy := match i / 128 with
  | 0 => hbmTy0_0 i
  | 1 => hbmTy0_1 i
  | 2 => hbmTy0_2 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call0_cst : Ref sig .tc := ⟨.hbm, 97, rfl⟩
abbrev main_call0_v0 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_10 : Ref sig .tc := ⟨.hbm, 109, rfl⟩
abbrev main_v78 : Ref sig .tc := ⟨.hbm, 110, rfl⟩
abbrev main_v79 : Ref sig .tc := ⟨.hbm, 111, rfl⟩
abbrev main_c_11 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_12 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_16 : Ref sig .tc := ⟨.hbm, 146, rfl⟩
abbrev main_v109 : Ref sig .tc := ⟨.hbm, 147, rfl⟩
abbrev main_v110 : Ref sig .tc := ⟨.hbm, 148, rfl⟩
abbrev main_c_17 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_18 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_19 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_21 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_call2_cst : Ref sig .tc := ⟨.hbm, 177, rfl⟩
abbrev main_call2_v0 : Ref sig .tc := ⟨.hbm, 178, rfl⟩
abbrev main_v134 : Ref sig .tc := ⟨.hbm, 179, rfl⟩
abbrev main_call3_cst : Ref sig .tc := ⟨.hbm, 180, rfl⟩
abbrev main_call3_v0 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_22 : Ref sig .tc := ⟨.hbm, 189, rfl⟩
abbrev main_v142 : Ref sig .tc := ⟨.hbm, 190, rfl⟩
abbrev main_v143 : Ref sig .tc := ⟨.hbm, 191, rfl⟩
abbrev main_c_23 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_24 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_25 : Ref sig .tc := ⟨.hbm, 202, rfl⟩
abbrev main_v152 : Ref sig .tc := ⟨.hbm, 203, rfl⟩
abbrev main_cst_26 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_27 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_c_28 : Ref sig .tc := ⟨.hbm, 226, rfl⟩
abbrev main_v173 : Ref sig .tc := ⟨.hbm, 227, rfl⟩
abbrev main_v174 : Ref sig .tc := ⟨.hbm, 228, rfl⟩
abbrev main_c_29 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_30 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_31 : Ref sig .tc := ⟨.hbm, 239, rfl⟩
abbrev main_v183 : Ref sig .tc := ⟨.hbm, 240, rfl⟩
abbrev main_cst_32 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_33 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_call4_cst : Ref sig .tc := ⟨.hbm, 257, rfl⟩
abbrev main_call4_v0 : Ref sig .tc := ⟨.hbm, 258, rfl⟩
abbrev main_v198 : Ref sig .tc := ⟨.hbm, 259, rfl⟩
abbrev main_call5_cst : Ref sig .tc := ⟨.hbm, 260, rfl⟩
abbrev main_call5_v0 : Ref sig .tc := ⟨.hbm, 261, rfl⟩
abbrev main_v199 : Ref sig .tc := ⟨.hbm, 262, rfl⟩
abbrev main_cst_34 : Ref sig .tc := ⟨.hbm, 263, rfl⟩
abbrev main_v200 : Ref sig .tc := ⟨.hbm, 264, rfl⟩
abbrev main_v201 : Ref sig .tc := ⟨.hbm, 265, rfl⟩
abbrev main_cst_35 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_36 : Ref sig .tc := ⟨.hbm, 272, rfl⟩
abbrev main_v207 : Ref sig .tc := ⟨.hbm, 273, rfl⟩
abbrev main_v208 : Ref sig .tc := ⟨.hbm, 274, rfl⟩
abbrev main_cst_37 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_cst_38 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_39 : Ref sig .tc := ⟨.hbm, 292, rfl⟩
abbrev main_v224 : Ref sig .tc := ⟨.hbm, 293, rfl⟩
abbrev main_v225 : Ref sig .tc := ⟨.hbm, 294, rfl⟩
abbrev main_cst_40 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_cst_41 : Ref sig .tc := ⟨.hbm, 301, rfl⟩
abbrev main_v231 : Ref sig .tc := ⟨.hbm, 302, rfl⟩
abbrev main_v232 : Ref sig .tc := ⟨.hbm, 303, rfl⟩
abbrev main_cst_42 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_43 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S1x128_S75000x128_0_1 : S1x128.BroadcastsInDim S75000x128 (![0, 1] : Fin 2 → Fin S75000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S75000x128 : S_.BroadcastsInDim S75000x128 (![] : Fin 0 → Fin S75000x128.rank)
  bcast_S_S75000 : S_.BroadcastsInDim S75000 (![] : Fin 0 → Fin S75000.rank)
  bcast_S75000_S75000x1_0 : S75000.BroadcastsInDim S75000x1 (![0] : Fin 1 → Fin S75000x1.rank)
  bcast_S75000x1_S75000x128_0_1 : S75000x1.BroadcastsInDim S75000x128 (![0, 1] : Fin 2 → Fin S75000x128.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S150000x128_S150000_d1 : S150000x128.ReducesTo [1] S150000
  h_S_ : 0 < S_.numel
  bcast_S_S150000x1 : S_.BroadcastsInDim S150000x1 (![] : Fin 0 → Fin S150000x1.rank)
  reducesTo_S75000x128_S75000_d1 : S75000x128.ReducesTo [1] S75000
  bcast_S_S75000x1 : S_.BroadcastsInDim S75000x1 (![] : Fin 0 → Fin S75000x1.rank)
  dot_S150000x64_S64x128_S150000x128_1_0_0_1_n_n_wf : DotDims.WF S150000x64 S64x128 S150000x128 [1] [0] [0] [1] [] []
  dot_S75000x128_S128x128_S75000x128_1_0_0_1_n_n_wf : DotDims.WF S75000x128 S128x128 S75000x128 [1] [0] [0] [1] [] []
  gather_S150000x128_S1500000x1_S1500000x128_1_0_n_n_0_1_1128_wf : GatherDims.WF S150000x128 S1500000x1 S1500000x128 [1] [0] [] [0] [] 1 ![1, 128]
  scatter_S75000x128_S1500000x1_S1500000x128_1_0_0_1_wf : ScatterDims.WF S75000x128 S1500000x1 S1500000x128 [1] [0] [0] 1
  scatter_S75000_S1500000x1_S1500000_n_0_0_1_wf : ScatterDims.WF S75000 S1500000x1 S1500000 [] [0] [0] 1
  gather_S75000x128_S1500000x1_S1500000x128_1_0_n_n_0_1_1128_wf : GatherDims.WF S75000x128 S1500000x1 S1500000x128 [1] [0] [] [0] [] 1 ![1, 128]
  scatter_S150000x128_S1500000x1_S1500000x128_1_0_0_1_wf : ScatterDims.WF S150000x128 S1500000x1 S1500000x128 [1] [0] [0] 1
  scatter_S150000_S1500000x1_S1500000_n_0_0_1_wf : ScatterDims.WF S150000 S1500000x1 S1500000 [] [0] [0] 1
  dot_S150000x128_S128x128_S150000x128_1_0_0_1_n_n_wf : DotDims.WF S150000x128 S128x128 S150000x128 [1] [0] [0] [1] [] []

variable [Facts₀]

def dot_S150000x64_S64x128_S150000x128_1_0_0_1_n_n : DotDims S150000x64 S64x128 S150000x128 where
  lhsContracting := [1]
  rhsContracting := [0]
  lhsNonContracting := [0]
  rhsNonContracting := [1]
  lhsBatch := []
  rhsBatch := []
  wf := dot_S150000x64_S64x128_S150000x128_1_0_0_1_n_n_wf
def dot_S75000x128_S128x128_S75000x128_1_0_0_1_n_n : DotDims S75000x128 S128x128 S75000x128 where
  lhsContracting := [1]
  rhsContracting := [0]
  lhsNonContracting := [0]
  rhsNonContracting := [1]
  lhsBatch := []
  rhsBatch := []
  wf := dot_S75000x128_S128x128_S75000x128_1_0_0_1_n_n_wf
def gather_S150000x128_S1500000x1_S1500000x128_1_0_n_n_0_1_1128 : GatherDims S150000x128 S1500000x1 S1500000x128 where
  offsetDims := [1]
  collapsedSliceDims := [0]
  operandBatchingDims := []
  startIndicesBatchingDims := []
  startIndexMap := [0]
  indexVectorDim := 1
  sliceSizes := ![1, 128]
  wf := gather_S150000x128_S1500000x1_S1500000x128_1_0_n_n_0_1_1128_wf
def scatter_S75000x128_S1500000x1_S1500000x128_1_0_0_1 : ScatterDims S75000x128 S1500000x1 S1500000x128 where
  updateWindowDims := [1]
  insertedWindowDims := [0]
  scatterDimsToOperandDims := [0]
  indexVectorDim := 1
  wf := scatter_S75000x128_S1500000x1_S1500000x128_1_0_0_1_wf
def scatter_S75000_S1500000x1_S1500000_n_0_0_1 : ScatterDims S75000 S1500000x1 S1500000 where
  updateWindowDims := []
  insertedWindowDims := [0]
  scatterDimsToOperandDims := [0]
  indexVectorDim := 1
  wf := scatter_S75000_S1500000x1_S1500000_n_0_0_1_wf
def gather_S75000x128_S1500000x1_S1500000x128_1_0_n_n_0_1_1128 : GatherDims S75000x128 S1500000x1 S1500000x128 where
  offsetDims := [1]
  collapsedSliceDims := [0]
  operandBatchingDims := []
  startIndicesBatchingDims := []
  startIndexMap := [0]
  indexVectorDim := 1
  sliceSizes := ![1, 128]
  wf := gather_S75000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf

class Facts : Prop extends Facts₀ where

variable [Facts]
-- ==== Proof.RefDefs.lean ====
/-
  The reference's two results as ONE structured term of its argument arrays.

  The reference projects both node tables (x·W + b), runs three rounds of mean aggregation — for the books, gather the
  users' rows at the edges' (wrapped) user numbers, add them up at the edges' book numbers as given, divide by the
  larger of the number of incoming edges and 1, apply the round's two weight matrices and bias, rectify; for the users
  the same with the roles exchanged — and normalises every row of both tables (mean, variance, scale, shift). The
  definitions below spell those steps exactly as the program's operations compose.
-/
import proofs.«113985_j6949257085118_2_alg».proof.Proof.Gen.ReferenceIdeal
import Idealize.ShloMosaic.PureOps.Ideal

set_option maxRecDepth 16384

noncomputable section

namespace Cert.ReferenceIdeal.RefDefs

open Cert.ReferenceIdeal Cert.ReferenceIdeal.Gen Idealize.ShloMosaic Idealize.ShloMosaic.TcCoe Idealize.SL.Sem

variable {F : FTy → Type} [FloatOps F]

/-- An edge's user number with a negative one wrapped around the table's length. -/
def wrapSrc (A2 : IVec S1500000 32) : IVec S1500000 32 := select (cmpi .slt A2 (broadcastInDim S1500000 ![] bcast_S_S1500000 (constantI S_ 32 0#32))) (addi A2 (broadcastInDim S1500000 ![] bcast_S_S1500000 (constantI S_ 32 150000#32))) A2
/-- An edge's book number, wrapped likewise. -/
def wrapDst (A3 : IVec S1500000 32) : IVec S1500000 32 := select (cmpi .slt A3 (broadcastInDim S1500000 ![] bcast_S_S1500000 (constantI S_ 32 0#32))) (addi A3 (broadcastInDim S1500000 ![] bcast_S_S1500000 (constantI S_ 32 75000#32))) A3

/-- The user projection x·W + b. -/
def u0 (A0 : FVec F S150000x64 .f32) (A4 : FVec F S64x128 .f32) (A5 : FVec F S128 .f32) : FVec F S150000x128 .f32 := addf (Host.dotGeneral dot_S150000x64_S64x128_S150000x128_1_0_0_1_n_n none A0 A4) (broadcastInDim S150000x128 ![0, 1] bcast_S1x128_S150000x128_0_1 (broadcastInDim S1x128 ![1] bcast_S128_S1x128_1 A5))
/-- The book projection. -/
def b0 (A1 : FVec F S75000x128 .f32) (A6 : FVec F S128x128 .f32) (A7 : FVec F S128 .f32) : FVec F S75000x128 .f32 := addf (Host.dotGeneral dot_S75000x128_S128x128_S75000x128_1_0_0_1_n_n none A1 A6) (broadcastInDim S75000x128 ![0, 1] bcast_S1x128_S75000x128_0_1 (broadcastInDim S1x128 ![1] bcast_S128_S1x128_1 A7))

/-- Per user, the sum of the book rows over the edges that name the user (book numbers wrapped for the gather, user
    numbers as given for the sum). -/
def sumUser (A2 A3 : IVec S1500000 32) (b : FVec F S75000x128 .f32) : FVec F S150000x128 .f32 := Host.scatterAdd scatter_S150000x128_S1500000x1_S1500000x128_1_0_0_1 (broadcastInDim S150000x128 ![] bcast_S_S150000x128 (constant S_ .f32 0x00000000#32)) (broadcastInDim S1500000x1 ![0] bcast_S1500000_S1500000x1_0 A2) (Host.gather gather_S75000x128_S1500000x1_S1500000x128_1_0_n_n_0_1_1128 b (broadcastInDim S1500000x1 ![0] bcast_S1500000_S1500000x1_0 (wrapDst A3)))
/-- Per book, the sum of the user rows over the edges that name the book. -/
def sumBook (A2 A3 : IVec S1500000 32) (u : FVec F S150000x128 .f32) : FVec F S75000x128 .f32 := Host.scatterAdd scatter_S75000x128_S1500000x1_S1500000x128_1_0_0_1 (broadcastInDim S75000x128 ![] bcast_S_S75000x128 (constant S_ .f32 0x00000000#32)) (broadcastInDim S1500000x1 ![0] bcast_S1500000_S1500000x1_0 A3) (Host.gather gather_S150000x128_S1500000x1_S1500000x128_1_0_n_n_0_1_1128 u (broadcastInDim S1500000x1 ![0] bcast_S1500000_S1500000x1_0 (wrapSrc A2)))
/-- Per user, the larger of its number of edges and 1. -/
def cntUser (A2 : IVec S1500000 32) : FVec F S150000 .f32 := maximumf (Host.scatterAdd scatter_S150000_S1500000x1_S1500000_n_0_0_1 (broadcastInDim S150000 ![] bcast_S_S150000 (constant S_ .f32 0x00000000#32)) (broadcastInDim S1500000x1 ![0] bcast_S1500000_S1500000x1_0 A2) (broadcastInDim S1500000 ![] bcast_S_S1500000 (constant S_ .f32 0x3F800000#32))) (broadcastInDim S150000 ![] bcast_S_S150000 (constant S_ .f32 0x3F800000#32))
/-- Per book, the larger of its number of edges and 1. -/
def cntBook (A3 : IVec S1500000 32) : FVec F S75000 .f32 := maximumf (Host.scatterAdd scatter_S75000_S1500000x1_S1500000_n_0_0_1 (broadcastInDim S75000 ![] bcast_S_S75000 (constant S_ .f32 0x00000000#32)) (broadcastInDim S1500000x1 ![0] bcast_S1500000_S1500000x1_0 A3) (broadcastInDim S1500000 ![] bcast_S_S1500000 (constant S_ .f32 0x3F800000#32))) (broadcastInDim S75000 ![] bcast_S_S75000 (constant S_ .f32 0x3F800000#32))

/-- Round `i`'s left weights, bias and right weights: slab `i` of the stacked arrays. -/
def wl0 (A8 : FVec F S3x128x128 .f32) : FVec F S128x128 .f32 := shapeCast _ (extractStridedSlice S1x128x128 ![0, 0, 0] A8 slices_S3x128x128_S1x128x128_0_0_0) shapeCasts_S1x128x128_S128x128
def wl1 (A8 : FVec F S3x128x128 .f32) : FVec F S128x128 .f32 := shapeCast _ (extractStridedSlice S1x128x128 ![1, 0, 0] A8 slices_S3x128x128_S1x128x128_1_0_0) shapeCasts_S1x128x128_S128x128
def wl2 (A8 : FVec F S3x128x128 .f32) : FVec F S128x128 .f32 := shapeCast _ (extractStridedSlice S1x128x128 ![2, 0, 0] A8 slices_S3x128x128_S1x128x128_2_0_0) shapeCasts_S1x128x128_S128x128
def bl0 (A9 : FVec F S3x128 .f32) : FVec F S128 .f32 := shapeCast _ (extractStridedSlice S1x128 ![0, 0] A9 slices_S3x128_S1x128_0_0) shapeCasts_S1x128_S128
def bl1 (A9 : FVec F S3x128 .f32) : FVec F S128 .f32 := shapeCast _ (extractStridedSlice S1x128 ![1, 0] A9 slices_S3x128_S1x128_1_0) shapeCasts_S1x128_S128
def bl2 (A9 : FVec F S3x128 .f32) : FVec F S128 .f32 := shapeCast _ (extractStridedSlice S1x128 ![2, 0] A9 slices_S3x128_S1x128_2_0) shapeCasts_S1x128_S128
def wr0 (A10 : FVec F S3x128x128 .f32) : FVec F S128x128 .f32 := shapeCast _ (extractStridedSlice S1x128x128 ![0, 0, 0] A10 slices_S3x128x128_S1x128x128_0_0_0) shapeCasts_S1x128x128_S128x128
def wr1 (A10 : FVec F S3x128x128 .f32) : FVec F S128x128 .f32 := shapeCast _ (extractStridedSlice S1x128x128 ![1, 0, 0] A10 slices_S3x128x128_S1x128x128_1_0_0) shapeCasts_S1x128x128_S128x128
def wr2 (A10 : FVec F S3x128x128 .f32) : FVec F S128x128 .f32 := shapeCast _ (extractStridedSlice S1x128x128 ![2, 0, 0] A10 slices_S3x128x128_S1x128x128_2_0_0) shapeCasts_S1x128x128_S128x128

/-- One round for the users: rectify (mean·Wl + bl + x·Wr), the mean being the summed rows over the count. -/
def layerUser (summed : FVec F S150000x128 .f32) (cnt : FVec F S150000 .f32) (x : FVec F S150000x128 .f32)
    (wl : FVec F S128x128 .f32) (bl : FVec F S128 .f32) (wr : FVec F S128x128 .f32) : FVec F S150000x128 .f32 :=
  maximumf (addf (addf (Host.dotGeneral dot_S150000x128_S128x128_S150000x128_1_0_0_1_n_n none (Host.divf summed (broadcastInDim S150000x128 ![0, 1] bcast_S150000x1_S150000x128_0_1 (broadcastInDim S150000x1 ![0] bcast_S150000_S150000x1_0 cnt))) wl) (broadcastInDim S150000x128 ![0, 1] bcast_S1x128_S150000x128_0_1 (broadcastInDim S1x128 ![1] bcast_S128_S1x128_1 bl))) (Host.dotGeneral dot_S150000x128_S128x128_S150000x128_1_0_0_1_n_n none x wr)) (broadcastInDim S150000x128 ![] bcast_S_S150000x128 (constant S_ .f32 0x00000000#32))
/-- One round for the books. -/
def layerBook (summed : FVec F S75000x128 .f32) (cnt : FVec F S75000 .f32) (x : FVec F S75000x128 .f32)
    (wl : FVec F S128x128 .f32) (bl : FVec F S128 .f32) (wr : FVec F S128x128 .f32) : FVec F S75000x128 .f32 :=
  maximumf (addf (addf (Host.dotGeneral dot_S75000x128_S128x128_S75000x128_1_0_0_1_n_n none (Host.divf summed (broadcastInDim S75000x128 ![0, 1] bcast_S75000x1_S75000x128_0_1 (broadcastInDim S75000x1 ![0] bcast_S75000_S75000x1_0 cnt))) wl) (broadcastInDim S75000x128 ![0, 1] bcast_S1x128_S75000x128_0_1 (broadcastInDim S1x128 ![1] bcast_S128_S1x128_1 bl))) (Host.dotGeneral dot_S75000x128_S128x128_S75000x128_1_0_0_1_n_n none x wr)) (broadcastInDim S75000x128 ![] bcast_S_S75000x128 (constant S_ .f32 0x00000000#32))

/-- Row normalisation of the user table: (x − mean)·rsqrt(variance + ε)·γ + β, mean and variance over a row's 128 entries. -/
def normUser (X : FVec F S150000x128 .f32) (g b : FVec F S128 .f32) : FVec F S150000x128 .f32 :=
  addf (mulf (mulf (subf X (broadcastInDim S150000x128 ![0, 1] bcast_S150000x1_S150000x128_0_1 (Host.divf (broadcastInDim S150000x1 ![0] bcast_S150000_S150000x1_0 (Host.reduceAdd X (constant S_ .f32 0x00000000#32) reducesTo_S150000x128_S150000_d1 h_S_)) (broadcastInDim S150000x1 ![] bcast_S_S150000x1 (constant S_ .f32 0x43000000#32))))) (broadcastInDim S150000x128 ![0, 1] bcast_S150000x1_S150000x128_0_1 (Host.rsqrt (addf (Host.divf (broadcastInDim S150000x1 ![0] bcast_S150000_S150000x1_0 (Host.reduceAdd (mulf (subf X (broadcastInDim S150000x128 ![0, 1] bcast_S150000x1_S150000x128_0_1 (Host.divf (broadcastInDim S150000x1 ![0] bcast_S150000_S150000x1_0 (Host.reduceAdd X (constant S_ .f32 0x00000000#32) reducesTo_S150000x128_S150000_d1 h_S_)) (broadcastInDim S150000x1 ![] bcast_S_S150000x1 (constant S_ .f32 0x43000000#32))))) (subf X (broadcastInDim S150000x128 ![0, 1] bcast_S150000x1_S150000x128_0_1 (Host.divf (broadcastInDim S150000x1 ![0] bcast_S150000_S150000x1_0 (Host.reduceAdd X (constant S_ .f32 0x00000000#32) reducesTo_S150000x128_S150000_d1 h_S_)) (broadcastInDim S150000x1 ![] bcast_S_S150000x1 (constant S_ .f32 0x43000000#32)))))) (constant S_ .f32 0x00000000#32) reducesTo_S150000x128_S150000_d1 h_S_)) (broadcastInDim S150000x1 ![] bcast_S_S150000x1 (constant S_ .f32 0x43000000#32))) (broadcastInDim S150000x1 ![] bcast_S_S150000x1 (constant S_ .f32 0x3727C5AC#32)))))) (broadcastInDim S150000x128 ![0, 1] bcast_S1x128_S150000x128_0_1 (broadcastInDim S1x128 ![1] bcast_S128_S1x128_1 g))) (broadcastInDim S150000x128 ![0, 1] bcast_S1x128_S150000x128_0_1 (broadcastInDim S1x128 ![1] bcast_S128_S1x128_1 b))
/-- Row normalisation of the book table. -/
def normBook (X : FVec F S75000x128 .f32) (g b : FVec F S128 .f32) : FVec F S75000x128 .f32 :=
  addf (mulf (mulf (subf X (broadcastInDim S75000x128 ![0, 1] bcast_S75000x1_S75000x128_0_1 (Host.divf (broadcastInDim S75000x1 ![0] bcast_S75000_S75000x1_0 (Host.reduceAdd X (constant S_ .f32 0x00000000#32) reducesTo_S75000x128_S75000_d1 h_S_)) (broadcastInDim S75000x1 ![] bcast_S_S75000x1 (constant S_ .f32 0x43000000#32))))) (broadcastInDim S75000x128 ![0, 1] bcast_S75000x1_S75000x128_0_1 (Host.rsqrt (addf (Host.divf (broadcastInDim S75000x1 ![0] bcast_S75000_S75000x1_0 (Host.reduceAdd (mulf (subf X (broadcastInDim S75000x128 ![0, 1] bcast_S75000x1_S75000x128_0_1 (Host.divf (broadcastInDim S75000x1 ![0] bcast_S75000_S75000x1_0 (Host.reduceAdd X (constant S_ .f32 0x00000000#32) reducesTo_S75000x128_S75000_d1 h_S_)) (broadcastInDim S75000x1 ![] bcast_S_S75000x1 (constant S_ .f32 0x43000000#32))))) (subf X (broadcastInDim S75000x128 ![0, 1] bcast_S75000x1_S75000x128_0_1 (Host.divf (broadcastInDim S75000x1 ![0] bcast_S75000_S75000x1_0 (Host.reduceAdd X (constant S_ .f32 0x00000000#32) reducesTo_S75000x128_S75000_d1 h_S_)) (broadcastInDim S75000x1 ![] bcast_S_S75000x1 (constant S_ .f32 0x43000000#32)))))) (constant S_ .f32 0x00000000#32) reducesTo_S75000x128_S75000_d1 h_S_)) (broadcastInDim S75000x1 ![] bcast_S_S75000x1 (constant S_ .f32 0x43000000#32))) (broadcastInDim S75000x1 ![] bcast_S_S75000x1 (constant S_ .f32 0x3727C5AC#32)))))) (broadcastInDim S75000x128 ![0, 1] bcast_S1x128_S75000x128_0_1 (broadcastInDim S1x128 ![1] bcast_S128_S1x128_1 g))) (broadcastInDim S75000x128 ![0, 1] bcast_S1x128_S75000x128_0_1 (broadcastInDim S1x128 ![1] bcast_S128_S1x128_1 b))

section Tables
variable (A0 : FVec F S150000x64 .f32) (A1 : FVec F S75000x128 .f32) (A2 A3 : IVec S1500000 32) (A4 : FVec F S64x128 .f32)
  (A5 : FVec F S128 .f32) (A6 : FVec F S128x128 .f32) (A7 : FVec F S128 .f32) (A8 : FVec F S3x128x128 .f32) (A9 : FVec F S3x128 .f32)
  (A10 : FVec F S3x128x128 .f32)

/-- The user and book tables after each round. -/
def u1 : FVec F S150000x128 .f32 := layerUser (sumUser A2 A3 (b0 A1 A6 A7)) (cntUser A2) (u0 A0 A4 A5) (wl0 A8) (bl0 A9) (wr0 A10)
def b1 : FVec F S75000x128 .f32 := layerBook (sumBook A2 A3 (u0 A0 A4 A5)) (cntBook A3) (b0 A1 A6 A7) (wl0 A8) (bl0 A9) (wr0 A10)
def u2 : FVec F S150000x128 .f32 := layerUser (sumUser A2 A3 (b1 A0 A1 A2 A3 A4 A5 A6 A7 A8 A9 A10)) (cntUser A2) (u1 A0 A1 A2 A3 A4 A5 A6 A7 A8 A9 A10) (wl1 A8) (bl1 A9) (wr1 A10)
def b2 : FVec F S75000x128 .f32 := layerBook (sumBook A2 A3 (u1 A0 A1 A2 A3 A4 A5 A6 A7 A8 A9 A10)) (cntBook A3) (b1 A0 A1 A2 A3 A4 A5 A6 A7 A8 A9 A10) (wl1 A8) (bl1 A9) (wr1 A10)
def u3 : FVec F S150000x128 .f32 := layerUser (sumUser A2 A3 (b2 A0 A1 A2 A3 A4 A5 A6 A7 A8 A9 A10)) (cntUser A2) (u2 A0 A1 A2 A3 A4 A5 A6 A7 A8 A9 A10) (wl2 A8) (bl2 A9) (wr2 A10)
def b3 : FVec F S75000x128 .f32 := layerBook (sumBook A2 A3 (u2 A0 A1 A2 A3 A4 A5 A6 A7 A8 A9 A10)) (cntBook A3) (b2 A0 A1 A2 A3 A4 A5 A6 A7 A8 A9 A10) (wl2 A8) (bl2 A9) (wr2 A10)
end Tables

end Cert.ReferenceIdeal.RefDefs

end
-- ==== Proof.RefTerm.lean ====
/-
  The reference's run ends with its two results at the structured terms of RefDefs: the composed term of the program's
  306 operations IS the normalised third-round table, by unfolding the definitions.
-/
import proofs.«113985_j6949257085118_2_alg».proof.Proof.RefRun
import proofs.«113985_j6949257085118_2_alg».proof.Proof.RefDefs

set_option maxRecDepth 16384

noncomputable section

namespace Cert.ReferenceIdeal.RefTerm

open Cert.ReferenceIdeal Cert.ReferenceIdeal.Gen Cert.ReferenceIdeal.RefDefs Idealize.ShloMosaic Idealize.ShloMosaic.TcCoe Idealize.SL.Sem

variable {F : FTy → Type} [FloatOps F]

variable (m : (ℓ : Loc nD τ sig) → Buf (Elt F) ℓ) (c : Dev nD)

/-- The argument arrays as the run finds them. -/
abbrev arg0 : FVec F S150000x64 .f32 := m ((c.tc : Thread nD τ).loc main_arg0)
abbrev arg1 : FVec F S75000x128 .f32 := m ((c.tc : Thread nD τ).loc main_arg1)
abbrev arg2 : IVec S1500000 32 := m ((c.tc : Thread nD τ).loc main_arg2)
abbrev arg3 : IVec S1500000 32 := m ((c.tc : Thread nD τ).loc main_arg3)
abbrev arg4 : FVec F S64x128 .f32 := m ((c.tc : Thread nD τ).loc main_arg4)
abbrev arg5 : FVec F S128 .f32 := m ((c.tc : Thread nD τ).loc main_arg5)
abbrev arg6 : FVec F S128x128 .f32 := m ((c.tc : Thread nD τ).loc main_arg6)
abbrev arg7 : FVec F S128 .f32 := m ((c.tc : Thread nD τ).loc main_arg7)
abbrev arg8 : FVec F S3x128x128 .f32 := m ((c.tc : Thread nD τ).loc main_arg8)
abbrev arg9 : FVec F S3x128 .f32 := m ((c.tc : Thread nD τ).loc main_arg9)
abbrev arg10 : FVec F S3x128x128 .f32 := m ((c.tc : Thread nD τ).loc main_arg10)
abbrev arg11 : FVec F S128 .f32 := m ((c.tc : Thread nD τ).loc main_arg11)
abbrev arg12 : FVec F S128 .f32 := m ((c.tc : Thread nD τ).loc main_arg12)
abbrev arg13 : FVec F S128 .f32 := m ((c.tc : Thread nD τ).loc main_arg13)
abbrev arg14 : FVec F S128 .f32 := m ((c.tc : Thread nD τ).loc main_arg14)

set_option maxHeartbeats 4000000 in
/-- The run's user result is the normalised third-round user table. -/
theorem user_result : RunP.res_main_v223 m c
    = normUser (u3 (arg0 m c) (arg1 m c) (arg2 m c) (arg3 m c) (arg4 m c) (arg5 m c) (arg6 m c) (arg7 m c) (arg8 m c) (arg9 m c) (arg10 m c)) (arg11 m c) (arg12 m c) := by
  unfold RunP.res_main_v223
  rfl

set_option maxHeartbeats 4000000 in
/-- The run's book result is the normalised third-round book table. -/
theorem book_result : RunP.res_main_v247 m c
    = normBook (b3 (arg0 m c) (arg1 m c) (arg2 m c) (arg3 m c) (arg4 m c) (arg5 m c) (arg6 m c) (arg7 m c) (arg8 m c) (arg9 m c) (arg10 m c)) (arg13 m c) (arg14 m c) := by
  unfold RunP.res_main_v247
  rfl

end Cert.ReferenceIdeal.RefTerm

end
-- ==== Proof.IndexFacts.lean ====
import proofs.«113985_j6949257085118_2_alg».proof.Defs
import Idealize.ShloMosaic.Lib.Affine
import Idealize.ShloMosaic.Lib.ReduceAll
import Idealize.ShloMosaic.Lib.ValueIdx
import Idealize.ShloMosaic.PureOps.Ideal
import Idealize.ShloMosaic.PureOps.IdealRules
import Idealize.ShloMosaic.PureOps.Ideal.Laws
import Idealize.ShloMosaic.PureOps.Contract

noncomputable section

namespace Cert.IndexFacts

open Idealize.ShloMosaic

/-! ## Wrapping a non-negative index is the identity

`x.at[idx]` first replaces a negative index `i` by `i + n`: `select (idx < 0) (idx + n) idx`.
Where every index is non-negative the comparison is false everywhere and the select returns `idx`. -/

/-- On indices that are all non-negative (read signed), `select (idx < 0) (idx + n) idx = idx`. -/
theorem wrap_of_nonneg {s : Shape} (idx : IVec s 32) (hidx : ∀ e, 0 ≤ (idx e).toInt) (n : BitVec 32)
    (hb hb' : (⟨0, ![]⟩ : Shape).BroadcastsInDim s (![] : Fin 0 → Fin s.rank)) :
    select (cmpi .slt idx (broadcastInDim s ![] hb (constantI ⟨0, ![]⟩ 32 0#32)))
        (addi idx (broadcastInDim s ![] hb' (constantI ⟨0, ![]⟩ 32 n))) idx = idx := by
  funext e
  have hne : ¬ IntOp.cmpi .slt (idx e) 0#32 = 1#1 := by
    rw [IntOp.cmpi_slt]
    have h0 : (0#32 : BitVec 32).toInt = 0 := by decide
    have := hidx e
    omega
  simp only [select, cmpi, broadcastInDim, constantI, Scalar.select]
  exact if_neg hne

/-- The same, spelled with the shapes and the broadcast witness the kernel program prints. -/
example [Cert.KernelIdeal.Facts] (idx : IVec Cert.KernelIdeal.S1500000 32) (hidx : ∀ e, 0 ≤ (idx e).toInt) :
    select (cmpi .slt idx (broadcastInDim Cert.KernelIdeal.S1500000 ![] Cert.KernelIdeal.Facts₀.bcast_S_S1500000 (constantI Cert.KernelIdeal.S_ 32 0#32)))
        (addi idx (broadcastInDim Cert.KernelIdeal.S1500000 ![] Cert.KernelIdeal.Facts₀.bcast_S_S1500000 (constantI Cert.KernelIdeal.S_ 32 75000#32))) idx = idx :=
  wrap_of_nonneg idx hidx _ _ _

/-! ## The precondition's last two conjuncts: every edge index is non-negative

The printed precondition is a chain of `and`s; its last two operands are
`jnp.all(edge_src >= 0)` and `jnp.all(edge_dst >= 0)`, each a reduction by `and` of a signed comparison
with the zero splat. Unfolding the chain (definitionally) exposes those two operands and leaves everything
before them as one opaque word. -/

section Pre

open Cert.Pre_finite_inputs in
/-- `jnp.all(a >= 0)` as the precondition prints it. -/
abbrev allNonneg [Cert.Pre_finite_inputs.Facts] (a : IVec Cert.Pre_finite_inputs.S1500000 32) : IVec Cert.Pre_finite_inputs.S_ 1 :=
  Host.reduce IntOp.andi
    (cmpi .sge a (broadcastInDim S1500000 ![] Facts.bcast_S_S1500000 (constantI S_ 32 0#32)))
    (constantI S_ 1 1#1) Facts.reducesTo_S1500000_S_d0 Facts.h_S_

open Cert.Pre_finite_inputs in
/-- The precondition is `(X and all(arg2 >= 0)) and all(arg3 >= 0)` for some word `X` (everything before). -/
theorem fn_tail [Cert.Pre_finite_inputs.Facts] {F : FTy → Type} [FloatOps F]
    (a0 : FVec F S150000x64 .f32) (a1 : FVec F S75000x128 .f32) (a2 a3 : IVec S1500000 32)
    (a4 : FVec F S64x128 .f32) (a5 : FVec F S128 .f32) (a6 : FVec F S128x128 .f32) (a7 : FVec F S128 .f32)
    (a8 : FVec F S3x128x128 .f32) (a9 : FVec F S3x128 .f32) (a10 : FVec F S3x128x128 .f32)
    (a11 a12 a13 a14 : FVec F S128 .f32) :
    ∃ X : IVec S_ 1, fn (F := F) a0 a1 a2 a3 a4 a5 a6 a7 a8 a9 a10 a11 a12 a13 a14
      = andi (andi X (allNonneg a2)) (allNonneg a3) :=
  ⟨_, rfl⟩

instance : Subsingleton Cert.Pre_finite_inputs.S_.Idx := ⟨fun a b => funext fun d => d.elim0⟩

/-- A reduction `jnp.all(a >= 0)` that is 1 says every element of `a` is non-negative (read signed). -/
theorem nonneg_of_allNonneg [Cert.Pre_finite_inputs.Facts] (a : IVec Cert.Pre_finite_inputs.S1500000 32)
    (h : allNonneg a ValueIdx.ix0 = 1#1) (e : Cert.Pre_finite_inputs.S1500000.Idx) : 0 ≤ (a e).toInt := by
  have h1 := Host.reduce_andi_all _ _ _ _ ValueIdx.ix0 h e
  have h2 := IntOp.cmpi_sge.1 h1
  have h0 : (0#32 : BitVec 32).toInt = 0 := by decide
  exact h0 ▸ h2

open Idealize.SL.Sem

variable [Cert.Pre_finite_inputs.Facts]
variable (m : (ℓ : Loc Cert.KernelIdeal.nD Cert.KernelIdeal.τ Cert.KernelIdeal.sig) → Buf (Elt Ideal) ℓ)

/-- Under the kernel's precondition both edge-index arrays are non-negative everywhere, on every device. -/
theorem src_dst_nonneg (h : Cert.Pre_KernelIdeal m) (c : Dev Cert.KernelIdeal.nD) :
    (∀ e : Cert.KernelIdeal.S1500000.Idx, 0 ≤ (m ((c.tc : Thread Cert.KernelIdeal.nD Cert.KernelIdeal.τ).loc Cert.KernelIdeal.main_arg2) e).toInt)
    ∧ (∀ e : Cert.KernelIdeal.S1500000.Idx, 0 ≤ (m ((c.tc : Thread Cert.KernelIdeal.nD Cert.KernelIdeal.τ).loc Cert.KernelIdeal.main_arg3) e).toInt) := by
  obtain ⟨X, hX⟩ := fn_tail (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
  have e0 := congrFun (hX.symm.trans (h c)) ValueIdx.ix0
  obtain ⟨e1, h3⟩ := IntOp.andi_eq_one.1 e0
  obtain ⟨-, h2⟩ := IntOp.andi_eq_one.1 e1
  exact ⟨nonneg_of_allNonneg _ h2, nonneg_of_allNonneg _ h3⟩

/-- `edge_src` (argument 2) is non-negative everywhere. -/
theorem src_nonneg (h : Cert.Pre_KernelIdeal m) (c : Dev Cert.KernelIdeal.nD) (e : Cert.KernelIdeal.S1500000.Idx) :
    0 ≤ (m ((c.tc : Thread Cert.KernelIdeal.nD Cert.KernelIdeal.τ).loc Cert.KernelIdeal.main_arg2) e).toInt :=
  (src_dst_nonneg m h c).1 e

/-- `edge_dst` (argument 3) is non-negative everywhere. -/
theorem dst_nonneg (h : Cert.Pre_KernelIdeal m) (c : Dev Cert.KernelIdeal.nD) (e : Cert.KernelIdeal.S1500000.Idx) :
    0 ≤ (m ((c.tc : Thread Cert.KernelIdeal.nD Cert.KernelIdeal.τ).loc Cert.KernelIdeal.main_arg3) e).toInt :=
  (src_dst_nonneg m h c).2 e

end Pre

/-! ## Counting with integers is counting with floats

The kernel counts how many edges land on each node with an integer scatter-add of ones and converts
the count; the reference scatter-adds the float one. The integer fold at node `i` is the number of updates
whose result index is `i` (as a 32-bit word); with fewer than `2^31` updates that word read signed is the
number itself. The exact float scatter-add is `0 + ∑ 1` over the same set of updates: its cardinality. -/

section Count

/-- A fold whose step adds one at `i` exactly on the list elements satisfying `p` ends, at `i`, at the start
    plus the number of such elements. -/
theorem foldl_count_apply {ι κ : Type} (p : ι → Bool) (i : κ)
    (step : (κ → BitVec 32) → ι → (κ → BitVec 32))
    (hstep : ∀ r n, step r n i = if p n then r i + 1#32 else r i) :
    ∀ (l : List ι) (x : κ → BitVec 32), l.foldl step x i = x i + BitVec.ofNat 32 (l.countP p)
  | [], x => by simp
  | a :: l, x => by
    rw [List.foldl_cons, foldl_count_apply p i step hstep l, hstep, List.countP_cons]
    by_cases h : p a = true
    · simp only [h, if_true, BitVec.ofNat_add, BitVec.add_assoc]
      congr 1
      exact BitVec.add_comm _ _
    · simp [h]

/-- The elements of `Fin n` satisfying `p`, counted along the list `0, …, n-1` or as a finite set. -/
theorem countP_finRange (n : Nat) (p : Fin n → Bool) :
    (List.finRange n).countP p = (Finset.univ.filter fun k => p k = true).card := by
  rw [Finset.card, Finset.filter_val, ← Multiset.countP_eq_card_filter, Finset.val_univ_fin, Multiset.coe_countP]
  simp

variable {s si u : Shape} {w : Nat} (d : ScatterDims s si u) (idx : IVec si w)

/-- The number of updates whose result index is `i`. -/
def hits (i : s.Idx) : Nat := (Finset.univ.filter fun j : u.Idx => d.resultIdx? j idx = some i).card

theorem hits_le (i : s.Idx) : hits d idx i ≤ u.numel := by
  rw [← u.card_idx]
  exact Finset.card_le_univ _

/-- The integer scatter-add of ones into zeros is, at each element, the number of updates landing there. -/
theorem scatter_ones_apply (x : s.Idx → BitVec 32) (upd : u.Idx → BitVec 32) (hupd : ∀ j, upd j = 1#32) (i : s.Idx) :
    Host.scatter d IntOp.addi x idx upd i = x i + BitVec.ofNat 32 (hits d idx i) := by
  unfold Host.scatter
  rw [foldl_count_apply (fun n => decide (d.resultIdx? (u.rowMajor.symm n) idx = some i)) i]
  · congr 2
    rw [countP_finRange, hits]
    refine Finset.card_equiv u.rowMajor.symm fun n => ?_
    simp
  · intro r n
    cases h : d.resultIdx? (u.rowMajor.symm n) idx with
    | none => simp
    | some k =>
      by_cases hk : i = k
      · subst hk; simp [IntOp.addi, hupd]
      · have hk' : ¬ k = i := fun e => hk e.symm
        simp [hk, hk']

/-- A count below `2^31`, as a 32-bit word read signed, is itself. -/
theorem toInt_ofNat_of_lt (k : Nat) (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- The exact float scatter-add of ones into zeros is, at each element, the number of updates landing there. -/
theorem scatterAdd_ones_apply (x : FVec Ideal s .f32) (upd : FVec Ideal u .f32) (hx : ∀ i, x i = 0) (hupd : ∀ j, upd j = 1)
    (i : s.Idx) : Host.scatterAdd (F := Ideal) d x idx upd i = ((hits d idx i : ℝ) : EReal) := by
  show Ideal.hostScatterAdd d x idx upd i = _
  unfold Ideal.hostScatterAdd
  rw [hx, zero_add, Finset.sum_congr rfl fun j _ => hupd j, Finset.sum_const, nsmul_one, hits]
  rfl

/-- THE COUNT: the integer scatter-add of ones, converted, is the float scatter-add of ones. -/
theorem sitofp_scatter_ones (hu : u.numel < 2 ^ 31) (idx : IVec si 32)
    (h0 h0' : (⟨0, ![]⟩ : Shape).BroadcastsInDim s (![] : Fin 0 → Fin s.rank))
    (h1 h1' : (⟨0, ![]⟩ : Shape).BroadcastsInDim u (![] : Fin 0 → Fin u.rank)) :
    sitofp (F := Ideal) .f32 (Host.scatter d IntOp.addi (broadcastInDim s ![] h0 (constantI ⟨0, ![]⟩ 32 0#32)) idx
        (broadcastInDim u ![] h1 (constantI ⟨0, ![]⟩ 32 1#32)))
      = Host.scatterAdd (F := Ideal) d (broadcastInDim s ![] h0' (constant ⟨0, ![]⟩ .f32 0x00000000#32)) idx
        (broadcastInDim u ![] h1' (constant ⟨0, ![]⟩ .f32 0x3F800000#32)) := by
  funext i
  have hR := scatterAdd_ones_apply d idx (broadcastInDim s ![] h0' (constant ⟨0, ![]⟩ .f32 0x00000000#32))
    (broadcastInDim u ![] h1' (constant ⟨0, ![]⟩ .f32 0x3F800000#32))
    (fun _ => Ideal.ofBits_zero_f32) (fun _ => IdealRules.sign_bit.ideal_onePat .f32) i
  have hL := scatter_ones_apply d idx (broadcastInDim s ![] h0 (constantI ⟨0, ![]⟩ 32 0#32))
    (broadcastInDim u ![] h1 (constantI ⟨0, ![]⟩ 32 1#32)) (fun _ => rfl) i
  rw [hR]
  show (((Host.scatter d IntOp.addi _ idx _ i).toInt : ℝ) : EReal) = _
  rw [hL]
  show ((((0#32 : BitVec 32) + BitVec.ofNat 32 (hits d idx i)).toInt : ℝ) : EReal) = _
  rw [BitVec.zero_add, toInt_ofNat_of_lt _ (lt_of_le_of_lt (hits_le d idx i) hu)]
  simp

/-- The same, spelled with the shapes, the dimension record and the witnesses the kernel program prints
    (its node count of one node type; the other instantiates the same way). -/
example [Cert.KernelIdeal.Facts] (idx : IVec Cert.KernelIdeal.S1500000x1 32) :
    sitofp (F := Ideal) .f32 (Host.scatter Cert.KernelIdeal.scatter_S75000_S1500000x1_S1500000_n_0_0_1 IntOp.addi
        (broadcastInDim Cert.KernelIdeal.S75000 ![] Cert.KernelIdeal.Facts₀.bcast_S_S75000 (constantI Cert.KernelIdeal.S_ 32 0#32)) idx
        (broadcastInDim Cert.KernelIdeal.S1500000 ![] Cert.KernelIdeal.Facts₀.bcast_S_S1500000 (constantI Cert.KernelIdeal.S_ 32 1#32)))
      = Host.scatterAdd (F := Ideal) Cert.KernelIdeal.scatter_S75000_S1500000x1_S1500000_n_0_0_1
        (broadcastInDim Cert.KernelIdeal.S75000 ![] Cert.KernelIdeal.Facts₀.bcast_S_S75000 (constant Cert.KernelIdeal.S_ .f32 0x00000000#32)) idx
        (broadcastInDim Cert.KernelIdeal.S1500000 ![] Cert.KernelIdeal.Facts₀.bcast_S_S1500000 (constant Cert.KernelIdeal.S_ .f32 0x3F800000#32)) :=
  sitofp_scatter_ones _ (by decide) idx _ _ _ _

/-! ## The clamped degree is a real number at least one

The reference divides by `max(count, 1)`: the exact float count is the cardinality of a finite set, a
natural number as a real, and its maximum with one is a real number at least one. -/

/-- The float scatter-add of ones clamped below by one is, at each element, `max (#updates landing there) 1`. -/
theorem maximumf_scatterAdd_ones_apply (idx : IVec si w)
    (h0 h2 : (⟨0, ![]⟩ : Shape).BroadcastsInDim s (![] : Fin 0 → Fin s.rank))
    (h1 : (⟨0, ![]⟩ : Shape).BroadcastsInDim u (![] : Fin 0 → Fin u.rank)) (i : s.Idx) :
    maximumf (Host.scatterAdd (F := Ideal) d (broadcastInDim s ![] h0 (constant ⟨0, ![]⟩ .f32 0x00000000#32)) idx
        (broadcastInDim u ![] h1 (constant ⟨0, ![]⟩ .f32 0x3F800000#32)))
      (broadcastInDim s ![] h2 (constant ⟨0, ![]⟩ .f32 0x3F800000#32)) i
      = ((max (hits d idx i : ℝ) 1 : ℝ) : EReal) := by
  have hR := scatterAdd_ones_apply d idx (broadcastInDim s ![] h0 (constant ⟨0, ![]⟩ .f32 0x00000000#32))
    (broadcastInDim u ![] h1 (constant ⟨0, ![]⟩ .f32 0x3F800000#32))
    (fun _ => Ideal.ofBits_zero_f32) (fun _ => IdealRules.sign_bit.ideal_onePat .f32) i
  have hone : Ideal.ofBits .f32 0x3F800000#32 = 1 := IdealRules.sign_bit.ideal_onePat .f32
  show max (Host.scatterAdd (F := Ideal) d _ idx _ i) (Ideal.ofBits .f32 0x3F800000#32) = _
  rw [hR, hone, ← EReal.coe_one]
  exact (EReal.coe_strictMono.monotone.map_max).symm

/-- The reference's degree at a node is a real number at least one. -/
theorem degree_ge_one (idx : IVec si w)
    (h0 h2 : (⟨0, ![]⟩ : Shape).BroadcastsInDim s (![] : Fin 0 → Fin s.rank))
    (h1 : (⟨0, ![]⟩ : Shape).BroadcastsInDim u (![] : Fin 0 → Fin u.rank)) (i : s.Idx) :
    ∃ q : ℝ, 1 ≤ q ∧ maximumf (Host.scatterAdd (F := Ideal) d (broadcastInDim s ![] h0 (constant ⟨0, ![]⟩ .f32 0x00000000#32)) idx
        (broadcastInDim u ![] h1 (constant ⟨0, ![]⟩ .f32 0x3F800000#32)))
      (broadcastInDim s ![] h2 (constant ⟨0, ![]⟩ .f32 0x3F800000#32)) i = ((q : ℝ) : EReal) :=
  ⟨max (hits d idx i : ℝ) 1, le_max_right _ _, maximumf_scatterAdd_ones_apply d idx h0 h2 h1 i⟩

end Count

end Cert.IndexFacts

end
-- ==== Proof.BlocksProj.lean ====
import proofs.«113985_j6949257085118_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access, however they are spelt. -/
private theorem zero_offsets : (![0, 0] : Fin 2 → Nat) = fun _ => 0 := funext fun a => by fin_cases a <;> rfl

/-! ## Region 0: 30 points, blocks of 5000 rows of 150000-row arrays -/

/-- The body's one store covers the staging buffer and its loads read whole blocks: the buffer ends at the payload of the blocks. -/
theorem out0_eq (x0 : Vec F S5000x64 .f32) (x1 : Vec F S64x128 .f32) (x2 : Vec F S1x128 .f32) :
    out0_3 x0 x1 x2 = k0_pay1 x0 x1 x2 := by
  unfold out0_3
  rw [View.canon_unit_zero zero_offsets]
  simp only [View.ld_unit_zero (S := S5000x64) zero_offsets, View.ld_unit_zero (S := S64x128) zero_offsets, View.ld_unit_zero (S := S1x128) zero_offsets]

/-- Window 0's printed index map, decided over the 30 points: block row `t`, block column 0. -/
theorem index0_0 : ∀ t : Fin cfg0.N, win0_0.index t (0 : Fin 2) = t.val ∧ win0_0.index t (1 : Fin 2) = 0 :=
  (by decide +kernel : ∀ t : Fin grid0.N, _)
/-- Window 1's printed index map, decided over the 30 points: block 0 on both axes (the block is the whole array). -/
theorem index0_1 : ∀ t : Fin cfg0.N, win0_1.index t (0 : Fin 2) = 0 ∧ win0_1.index t (1 : Fin 2) = 0 :=
  (by decide +kernel : ∀ t : Fin grid0.N, _)
/-- Window 2's printed index map, decided over the 30 points: block 0 on both axes (the block is the whole array). -/
theorem index0_2 : ∀ t : Fin cfg0.N, win0_2.index t (0 : Fin 2) = 0 ∧ win0_2.index t (1 : Fin 2) = 0 :=
  (by decide +kernel : ∀ t : Fin grid0.N, _)
/-- Window 3's printed index map, decided over the 30 points: block row `t`, block column 0. -/
theorem index0_3 : ∀ t : Fin cfg0.N, win0_3.index t (0 : Fin 2) = t.val ∧ win0_3.index t (1 : Fin 2) = 0 :=
  (by decide +kernel : ∀ t : Fin grid0.N, _)

/-- Row `p` of block `t` is a row of the 150000-row arrays. -/
theorem row_lt0 (t : Fin cfg0.N) (p : Fin 5000) : 5000 * t.val + p.val < 150000 := by
  have h : t.val < 30 := N_0 ▸ t.isLt
  omega

/-- Window 0's block at point `t`, read at row `p` and column `j`, is its array at row `5000 t + p`, column `j`. -/
theorem iblk0_w0 (c : Dev nD) (t : Fin cfg0.N) (p : Fin 5000) (j : Fin 64) :
    iblk0 V c 0 t (ix2 p j) = V c (Pipeline.arrRef spec0 0) (ix2 ⟨5000 * t.val + p.val, row_lt0 t p⟩ j) := by
  obtain ⟨e0, e1⟩ := index0_0 t
  show V c (Pipeline.arrRef spec0 0) (((cfg0.win 0).blk t).view.emb (ix2 p j)) = _
  congr 1
  funext a; apply Fin.ext
  match a with
  | ⟨0, _⟩ => show win0_0.index t (0 : Fin 2) * 5000 + 1 * p.val = 5000 * t.val + p.val; omega
  | ⟨1, _⟩ => show win0_0.index t (1 : Fin 2) * 64 + 1 * j.val = j.val; omega

/-- Window 1's block is its whole array at every point, index by index. -/
theorem iblk0_w1_apply (c : Dev nD) (t : Fin cfg0.N) (y : S64x128.Idx) :
    iblk0 V c 1 t y = V c (Pipeline.arrRef spec0 1) y := by
  obtain ⟨e0, e1⟩ := index0_1 t
  show V c (Pipeline.arrRef spec0 1) (((cfg0.win 1).blk t).view.emb y) = _
  congr 1
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- Window 1's block is its whole array at every point. -/
theorem iblk0_w1 (c : Dev nD) (t : Fin cfg0.N) : iblk0 V c 1 t = V c (Pipeline.arrRef spec0 1) :=
  funext fun y => iblk0_w1_apply V c t y

/-- Window 2's block is its whole array at every point, index by index. -/
theorem iblk0_w2_apply (c : Dev nD) (t : Fin cfg0.N) (y : S1x128.Idx) :
    iblk0 V c 2 t y = V c (Pipeline.arrRef spec0 2) y := by
  obtain ⟨e0, e1⟩ := index0_2 t
  show V c (Pipeline.arrRef spec0 2) (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 2's block is its whole array at every point. -/
theorem iblk0_w2 (c : Dev nD) (t : Fin cfg0.N) : iblk0 V c 2 t = V c (Pipeline.arrRef spec0 2) :=
  funext fun y => iblk0_w2_apply V c t y

/-- An index of the output array is in point `t`'s block iff each coordinate is in the block's range on its axis. -/
theorem mem_blk0 (t : Fin cfg0.N) (i : S150000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every index of the output array is in the block of the point its row names: row `r` is in block `r / 5000`. -/
theorem cover0 (i : S150000x128.Idx) : ∃ t : Fin cfg0.N, (cfg0.win 3).flush t = true ∧ i ∈ ((cfg0.win 3).blk t).view.set := by
  have hi0 : (i 0).val < 150000 := (i 0).isLt
  have hi1 : (i 1).val < 128 := (i 1).isLt
  have hN : (i 0).val / 5000 < cfg0.N := by
    show (i 0).val / 5000 < grid0.N
    rw [N_0]; omega
  refine ⟨⟨(i 0).val / 5000, hN⟩, flush0_3 _, ?_⟩
  rw [mem_blk0]
  obtain ⟨e0, e1⟩ := index0_3 ⟨(i 0).val / 5000, hN⟩
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e1]
    omega

/-- What point `t` leaves in the output's staging buffer, at an index of the block, is `G` at the index of the array under it. -/
theorem left0 (c : Dev nD) (G : S150000x128.Idx → Elt F .f32)
    (hG : ∀ (t : Fin cfg0.N) (p : Fin 5000) (j : Fin 128),
      out0_3 (iblk0 V c 0 t) (iblk0 V c 1 t) (iblk0 V c 2 t) (ix2 p j)
        = G (ix2 ⟨5000 * t.val + p.val, row_lt0 t p⟩ j))
    (t : Fin cfg0.N) (y : S5000x128.Idx) :
    out0_3 (iblk0 V c 0 t) (iblk0 V c 1 t) (iblk0 V c 2 t) y = G (((cfg0.win 3).blk t).view.emb y) := by
  obtain ⟨p, j, rfl⟩ : ∃ (p : Fin 5000) (j : Fin 128), y = ix2 p j := ⟨y 0, y 1, eq_ix2 y⟩
  obtain ⟨e0, e1⟩ := index0_3 t
  rw [hG t p j]
  congr 1
  funext a; apply Fin.ext
  match a with
  | ⟨0, _⟩ => show 5000 * t.val + p.val = win0_3.index t (0 : Fin 2) * 5000 + 1 * p.val; omega
  | ⟨1, _⟩ => show j.val = win0_3.index t (1 : Fin 2) * 128 + 1 * j.val; omega

/-- THE OUTPUT ARRAY after the region: any `G` that every point's block of results agrees with, row `5000 t + p` for row `p` of block `t`. -/
theorem arr0 (c : Dev nD) (G : S150000x128.Idx → Elt F .f32)
    (hG : ∀ (t : Fin cfg0.N) (p : Fin 5000) (j : Fin 128),
      out0_3 (iblk0 V c 0 t) (iblk0 V c 1 t) (iblk0 V c 2 t) (ix2 p j)
        = G (ix2 ⟨5000 * t.val + p.val, row_lt0 t p⟩ j)) :
    (dat0 V c).arrAt 3 cfg0.N = G := by
  refine (dat0 V c).arrAt_eq_of_cover 3 G (fun t _ => ?_) cover0
  show (cfg0.win 3).cut (grid0.coords t) ((dat0 V c).after 3 t) = _
  rw [after0_3]
  funext y
  exact left0 V c G hG t y

/-! ## Region 1: 15 points, blocks of 5000 rows of 75000-row arrays -/

/-- The body's one store covers the staging buffer and its loads read whole blocks: the buffer ends at the payload of the blocks. -/
theorem out1_eq (x0 : Vec F S5000x128 .f32) (x1 : Vec F S128x128 .f32) (x2 : Vec F S1x128 .f32) :
    out1_3 x0 x1 x2 = k1_pay1 x0 x1 x2 := by
  unfold out1_3
  rw [View.canon_unit_zero zero_offsets]
  simp only [View.ld_unit_zero (S := S5000x128) zero_offsets, View.ld_unit_zero (S := S128x128) zero_offsets, View.ld_unit_zero (S := S1x128) zero_offsets]

/-- Window 0's printed index map, decided over the 15 points: block row `t`, block column 0. -/
theorem index1_0 : ∀ t : Fin cfg1.N, win1_0.index t (0 : Fin 2) = t.val ∧ win1_0.index t (1 : Fin 2) = 0 :=
  (by decide +kernel : ∀ t : Fin grid1.N, _)
/-- Window 1's printed index map, decided over the 15 points: block 0 on both axes (the block is the whole array). -/
theorem index1_1 : ∀ t : Fin cfg1.N, win1_1.index t (0 : Fin 2) = 0 ∧ win1_1.index t (1 : Fin 2) = 0 :=
  (by decide +kernel : ∀ t : Fin grid1.N, _)
/-- Window 2's printed index map, decided over the 15 points: block 0 on both axes (the block is the whole array). -/
theorem index1_2 : ∀ t : Fin cfg1.N, win1_2.index t (0 : Fin 2) = 0 ∧ win1_2.index t (1 : Fin 2) = 0 :=
  (by decide +kernel : ∀ t : Fin grid1.N, _)
/-- Window 3's printed index map, decided over the 15 points: block row `t`, block column 0. -/
theorem index1_3 : ∀ t : Fin cfg1.N, win1_3.index t (0 : Fin 2) = t.val ∧ win1_3.index t (1 : Fin 2) = 0 :=
  (by decide +kernel : ∀ t : Fin grid1.N, _)

/-- Row `p` of block `t` is a row of the 75000-row arrays. -/
theorem row_lt1 (t : Fin cfg1.N) (p : Fin 5000) : 5000 * t.val + p.val < 75000 := by
  have h : t.val < 15 := N_1 ▸ t.isLt
  omega

/-- Window 0's block at point `t`, read at row `p` and column `j`, is its array at row `5000 t + p`, column `j`. -/
theorem iblk1_w0 (c : Dev nD) (t : Fin cfg1.N) (p : Fin 5000) (j : Fin 128) :
    iblk1 V c 0 t (ix2 p j) = V c (Pipeline.arrRef spec1 0) (ix2 ⟨5000 * t.val + p.val, row_lt1 t p⟩ j) := by
  obtain ⟨e0, e1⟩ := index1_0 t
  show V c (Pipeline.arrRef spec1 0) (((cfg1.win 0).blk t).view.emb (ix2 p j)) = _
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * j.val = j.val; omega

/-- Window 1's block is its whole array at every point, index by index. -/
theorem iblk1_w1_apply (c : Dev nD) (t : Fin cfg1.N) (y : S128x128.Idx) :
    iblk1 V c 1 t y = V c (Pipeline.arrRef spec1 1) y := by
  obtain ⟨e0, e1⟩ := index1_1 t
  show V c (Pipeline.arrRef spec1 1) (((cfg1.win 1).blk t).view.emb y) = _
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 1's block is its whole array at every point. -/
theorem iblk1_w1 (c : Dev nD) (t : Fin cfg1.N) : iblk1 V c 1 t = V c (Pipeline.arrRef spec1 1) :=
  funext fun y => iblk1_w1_apply V c t y

/-- Window 2's block is its whole array at every point, index by index. -/
theorem iblk1_w2_apply (c : Dev nD) (t : Fin cfg1.N) (y : S1x128.Idx) :
    iblk1 V c 2 t y = V c (Pipeline.arrRef spec1 2) y := by
  obtain ⟨e0, e1⟩ := index1_2 t
  show V c (Pipeline.arrRef spec1 2) (((cfg1.win 2).blk t).view.emb y) = _
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 2's block is its whole array at every point. -/
theorem iblk1_w2 (c : Dev nD) (t : Fin cfg1.N) : iblk1 V c 2 t = V c (Pipeline.arrRef spec1 2) :=
  funext fun y => iblk1_w2_apply V c t y

/-- An index of the output array is in point `t`'s block iff each coordinate is in the block's range on its axis. -/
theorem mem_blk1 (t : Fin cfg1.N) (i : S75000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v3).slice (win1_3.rect t)).set ↔ _
  rw [View.set_slice_whole, Rect.mem_set_unit]
  exact Iff.rfl

/-- Every index of the output array is in the block of the point its row names: row `r` is in block `r / 5000`. -/
theorem cover1 (i : S75000x128.Idx) : ∃ t : Fin cfg1.N, (cfg1.win 3).flush t = true ∧ i ∈ ((cfg1.win 3).blk t).view.set := by
  have hi0 : (i 0).val < 75000 := (i 0).isLt
  have hi1 : (i 1).val < 128 := (i 1).isLt
  have hN : (i 0).val / 5000 < cfg1.N := by
    show (i 0).val / 5000 < grid1.N
    rw [N_1]; omega
  refine ⟨⟨(i 0).val / 5000, hN⟩, flush1_3 _, ?_⟩
  rw [mem_blk1]
  obtain ⟨e0, e1⟩ := index1_3 ⟨(i 0).val / 5000, hN⟩
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e1]
    omega

/-- What point `t` leaves in the output's staging buffer, at an index of the block, is `G` at the index of the array under it. -/
theorem left1 (c : Dev nD) (G : S75000x128.Idx → Elt F .f32)
    (hG : ∀ (t : Fin cfg1.N) (p : Fin 5000) (j : Fin 128),
      out1_3 (iblk1 V c 0 t) (iblk1 V c 1 t) (iblk1 V c 2 t) (ix2 p j)
        = G (ix2 ⟨5000 * t.val + p.val, row_lt1 t p⟩ j))
    (t : Fin cfg1.N) (y : S5000x128.Idx) :
    out1_3 (iblk1 V c 0 t) (iblk1 V c 1 t) (iblk1 V c 2 t) y = G (((cfg1.win 3).blk t).view.emb y) := by
  obtain ⟨p, j, rfl⟩ : ∃ (p : Fin 5000) (j : Fin 128), y = ix2 p j := ⟨y 0, y 1, eq_ix2 y⟩
  obtain ⟨e0, e1⟩ := index1_3 t
  rw [hG t p j]
  congr 1
  funext a; apply Fin.ext
  match a with
  | ⟨0, _⟩ => show 5000 * t.val + p.val = win1_3.index t (0 : Fin 2) * 5000 + 1 * p.val; omega
  | ⟨1, _⟩ => show j.val = win1_3.index t (1 : Fin 2) * 128 + 1 * j.val; omega

/-- THE OUTPUT ARRAY after the region: any `G` that every point's block of results agrees with, row `5000 t + p` for row `p` of block `t`. -/
theorem arr1 (c : Dev nD) (G : S75000x128.Idx → Elt F .f32)
    (hG : ∀ (t : Fin cfg1.N) (p : Fin 5000) (j : Fin 128),
      out1_3 (iblk1 V c 0 t) (iblk1 V c 1 t) (iblk1 V c 2 t) (ix2 p j)
        = G (ix2 ⟨5000 * t.val + p.val, row_lt1 t p⟩ j)) :
    (dat1 V c).arrAt 3 cfg1.N = G := by
  refine (dat1 V c).arrAt_eq_of_cover 3 G (fun t _ => ?_) cover1
  show (cfg1.win 3).cut (grid1.coords t) ((dat1 V c).after 3 t) = _
  rw [after1_3]
  funext y
  exact left1 V c G hG t y

end Cert.KernelIdeal.Blocks

end
-- ==== Proof.BlocksSage.lean ====
import proofs.«113985_j6949257085118_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access, however they are spelt. -/
private theorem zero_offsets : (![0, 0] : Fin 2 → Nat) = fun _ => 0 := funext fun a => by fin_cases a <;> rfl

/-! ## Region 2: 15 points, blocks of 5000 rows of 75000-row arrays -/

/-- The body's one store covers the staging buffer and its loads read whole blocks: the buffer ends at the payload of the blocks. -/
theorem out2_eq (x0 : Vec F S5000x128 .f32) (x1 : Vec F S5000x128 .f32) (x2 : Vec F S128x128 .f32) (x3 : Vec F S1x128 .f32) (x4 : Vec F S128x128 .f32) (x5 : Vec F S5000x1 .f32) :
    out2_6 x0 x1 x2 x3 x4 x5 = k2_pay1 x0 x5 x1 x2 x4 x3 := by
  unfold out2_6
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 15 points: block row `t`, block column 0. -/
theorem index2_0 : ∀ t : Fin cfg2.N, win2_0.index t (0 : Fin 2) = t.val ∧ win2_0.index t (1 : Fin 2) = 0 :=
  (by decide +kernel : ∀ t : Fin grid2.N, _)
/-- Window 1's printed index map, decided over the 15 points: block row `t`, block column 0. -/
theorem index2_1 : ∀ t : Fin cfg2.N, win2_1.index t (0 : Fin 2) = t.val ∧ win2_1.index t (1 : Fin 2) = 0 :=
  (by decide +kernel : ∀ t : Fin grid2.N, _)
/-- Window 2's printed index map, decided over the 15 points: block 0 on both axes (the block is the whole array). -/
theorem index2_2 : ∀ t : Fin cfg2.N, win2_2.index t (0 : Fin 2) = 0 ∧ win2_2.index t (1 : Fin 2) = 0 :=
  (by decide +kernel : ∀ t : Fin grid2.N, _)
/-- Window 3's printed index map, decided over the 15 points: block 0 on both axes (the block is the whole array). -/
theorem index2_3 : ∀ t : Fin cfg2.N, win2_3.index t (0 : Fin 2) = 0 ∧ win2_3.index t (1 : Fin 2) = 0 :=
  (by decide +kernel : ∀ t : Fin grid2.N, _)
/-- Window 4's printed index map, decided over the 15 points: block 0 on both axes (the block is the whole array). -/
theorem index2_4 : ∀ t : Fin cfg2.N, win2_4.index t (0 : Fin 2) = 0 ∧ win2_4.index t (1 : Fin 2) = 0 :=
  (by decide +kernel : ∀ t : Fin grid2.N, _)
/-- Window 5's printed index map, decided over the 15 points: block row `t`, block column 0. -/
theorem index2_5 : ∀ t : Fin cfg2.N, win2_5.index t (0 : Fin 2) = t.val ∧ win2_5.index t (1 : Fin 2) = 0 :=
  (by decide +kernel : ∀ t : Fin grid2.N, _)
/-- Window 6's printed index map, decided over the 15 points: block row `t`, block column 0. -/
theorem index2_6 : ∀ t : Fin cfg2.N, win2_6.index t (0 : Fin 2) = t.val ∧ win2_6.index t (1 : Fin 2) = 0 :=
  (by decide +kernel : ∀ t : Fin grid2.N, _)

/-- Row `p` of block `t` is a row of the 75000-row arrays. -/
theorem row_lt2 (t : Fin cfg2.N) (p : Fin 5000) : 5000 * t.val + p.val < 75000 := by
  have h : t.val < 15 := N_2 ▸ t.isLt
  omega

/-- Window 0's block at point `t`, read at row `p` and column `j`, is its array at row `5000 t + p`, column `j`. -/
theorem iblk2_w0 (c : Dev nD) (t : Fin cfg2.N) (p : Fin 5000) (j : Fin 128) :
    iblk2 V c 0 t (ix2 p j) = V c (Pipeline.arrRef spec2 0) (ix2 ⟨5000 * t.val + p.val, row_lt2 t p⟩ j) := by
  obtain ⟨e0, e1⟩ := index2_0 t
  show V c (Pipeline.arrRef spec2 0) (((cfg2.win 0).blk t).view.emb (ix2 p j)) = _
  congr 1
  funext a; apply Fin.ext
  match a with
  | ⟨0, _⟩ => show win2_0.index t (0 : Fin 2) * 5000 + 1 * p.val = 5000 * t.val + p.val; omega
  | ⟨1, _⟩ => show win2_0.index t (1 : Fin 2) * 128 + 1 * j.val = j.val; omega

/-- Window 1's block at point `t`, read at row `p` and column `j`, is its array at row `5000 t + p`, column `j`. -/
theorem iblk2_w1 (c : Dev nD) (t : Fin cfg2.N) (p : Fin 5000) (j : Fin 128) :
    iblk2 V c 1 t (ix2 p j) = V c (Pipeline.arrRef spec2 1) (ix2 ⟨5000 * t.val + p.val, row_lt2 t p⟩ j) := by
  obtain ⟨e0, e1⟩ := index2_1 t
  show V c (Pipeline.arrRef spec2 1) (((cfg2.win 1).blk t).view.emb (ix2 p j)) = _
  congr 1
  funext a; apply Fin.ext
  match a with
  | ⟨0, _⟩ => show win2_1.index t (0 : Fin 2) * 5000 + 1 * p.val = 5000 * t.val + p.val; omega
  | ⟨1, _⟩ => show win2_1.index t (1 : Fin 2) * 128 + 1 * j.val = j.val; omega

/-- Window 2's block is its whole array at every point, index by index. -/
theorem iblk2_w2_apply (c : Dev nD) (t : Fin cfg2.N) (y : S128x128.Idx) :
    iblk2 V c 2 t y = V c (Pipeline.arrRef spec2 2) y := by
  obtain ⟨e0, e1⟩ := index2_2 t
  show V c (Pipeline.arrRef spec2 2) (((cfg2.win 2).blk t).view.emb y) = _
  congr 1
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 2's block is its whole array at every point. -/
theorem iblk2_w2 (c : Dev nD) (t : Fin cfg2.N) : iblk2 V c 2 t = V c (Pipeline.arrRef spec2 2) :=
  funext fun y => iblk2_w2_apply V c t y

/-- Window 3's block is its whole array at every point, index by index. -/
theorem iblk2_w3_apply (c : Dev nD) (t : Fin cfg2.N) (y : S1x128.Idx) :
    iblk2 V c 3 t y = V c (Pipeline.arrRef spec2 3) y := by
  obtain ⟨e0, e1⟩ := index2_3 t
  show V c (Pipeline.arrRef spec2 3) (((cfg2.win 3).blk t).view.emb y) = _
  congr 1
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 3's block is its whole array at every point. -/
theorem iblk2_w3 (c : Dev nD) (t : Fin cfg2.N) : iblk2 V c 3 t = V c (Pipeline.arrRef spec2 3) :=
  funext fun y => iblk2_w3_apply V c t y

/-- Window 4's block is its whole array at every point, index by index. -/
theorem iblk2_w4_apply (c : Dev nD) (t : Fin cfg2.N) (y : S128x128.Idx) :
    iblk2 V c 4 t y = V c (Pipeline.arrRef spec2 4) y := by
  obtain ⟨e0, e1⟩ := index2_4 t
  show V c (Pipeline.arrRef spec2 4) (((cfg2.win 4).blk t).view.emb y) = _
  congr 1
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 4's block is its whole array at every point. -/
theorem iblk2_w4 (c : Dev nD) (t : Fin cfg2.N) : iblk2 V c 4 t = V c (Pipeline.arrRef spec2 4) :=
  funext fun y => iblk2_w4_apply V c t y

/-- Window 5's block at point `t`, read at row `p` and column `j`, is its array at row `5000 t + p`, column `j`. -/
theorem iblk2_w5 (c : Dev nD) (t : Fin cfg2.N) (p : Fin 5000) (j : Fin 1) :
    iblk2 V c 5 t (ix2 p j) = V c (Pipeline.arrRef spec2 5) (ix2 ⟨5000 * t.val + p.val, row_lt2 t p⟩ j) := by
  obtain ⟨e0, e1⟩ := index2_5 t
  show V c (Pipeline.arrRef spec2 5) (((cfg2.win 5).blk t).view.emb (ix2 p j)) = _
  congr 1
  funext a; apply Fin.ext
  match a with
  | ⟨0, _⟩ => show win2_5.index t (0 : Fin 2) * 5000 + 1 * p.val = 5000 * t.val + p.val; omega
  | ⟨1, _⟩ => show win2_5.index t (1 : Fin 2) * 1 + 1 * j.val = j.val; omega

/-- An index of the output array is in point `t`'s block iff each coordinate is in the block's range on its axis. -/
theorem mem_blk2 (t : Fin cfg2.N) (i : S75000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v70).slice (win2_6.rect t)).set ↔ _
  rw [View.set_slice_whole, Rect.mem_set_unit]
  exact Iff.rfl

/-- Every index of the output array is in the block of the point its row names: row `r` is in block `r / 5000`. -/
theorem cover2 (i : S75000x128.Idx) : ∃ t : Fin cfg2.N, (cfg2.win 6).flush t = true ∧ i ∈ ((cfg2.win 6).blk t).view.set := by
  have hi0 : (i 0).val < 75000 := (i 0).isLt
  have hi1 : (i 1).val < 128 := (i 1).isLt
  have hN : (i 0).val / 5000 < cfg2.N := by
    show (i 0).val / 5000 < grid2.N
    rw [N_2]; omega
  refine ⟨⟨(i 0).val / 5000, hN⟩, flush2_6 _, ?_⟩
  rw [mem_blk2]
  obtain ⟨e0, e1⟩ := index2_6 ⟨(i 0).val / 5000, hN⟩
  intro a
  match a with
  | ⟨0, _⟩ =>
    show win2_6.index ⟨(i 0).val / 5000, hN⟩ (0 : Fin 2) * 5000 ≤ (i 0).val ∧ (i 0).val < win2_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, hN⟩ (1 : Fin 2) * 128 ≤ (i 1).val ∧ (i 1).val < win2_6.index ⟨(i 0).val / 5000, hN⟩ (1 : Fin 2) * 128 + 128
    rw [e1]
    omega

/-- What point `t` leaves in the output's staging buffer, at an index of the block, is `G` at the index of the array under it. -/
theorem left2 (c : Dev nD) (G : S75000x128.Idx → Elt F .f32)
    (hG : ∀ (t : Fin cfg2.N) (p : Fin 5000) (j : Fin 128),
      out2_6 (iblk2 V c 0 t) (iblk2 V c 1 t) (iblk2 V c 2 t) (iblk2 V c 3 t) (iblk2 V c 4 t) (iblk2 V c 5 t) (ix2 p j)
        = G (ix2 ⟨5000 * t.val + p.val, row_lt2 t p⟩ j))
    (t : Fin cfg2.N) (y : S5000x128.Idx) :
    out2_6 (iblk2 V c 0 t) (iblk2 V c 1 t) (iblk2 V c 2 t) (iblk2 V c 3 t) (iblk2 V c 4 t) (iblk2 V c 5 t) y = G (((cfg2.win 6).blk t).view.emb y) := by
  obtain ⟨p, j, rfl⟩ : ∃ (p : Fin 5000) (j : Fin 128), y = ix2 p j := ⟨y 0, y 1, eq_ix2 y⟩
  obtain ⟨e0, e1⟩ := index2_6 t
  rw [hG t p j]
  congr 1
  funext a; apply Fin.ext
  match a with
  | ⟨0, _⟩ => show 5000 * t.val + p.val = win2_6.index t (0 : Fin 2) * 5000 + 1 * p.val; omega
  | ⟨1, _⟩ => show j.val = win2_6.index t (1 : Fin 2) * 128 + 1 * j.val; omega

/-- THE OUTPUT ARRAY after the region: any `G` that every point's block of results agrees with, row `5000 t + p` for row `p` of block `t`. -/
theorem arr2 (c : Dev nD) (G : S75000x128.Idx → Elt F .f32)
    (hG : ∀ (t : Fin cfg2.N) (p : Fin 5000) (j : Fin 128),
      out2_6 (iblk2 V c 0 t) (iblk2 V c 1 t) (iblk2 V c 2 t) (iblk2 V c 3 t) (iblk2 V c 4 t) (iblk2 V c 5 t) (ix2 p j)
        = G (ix2 ⟨5000 * t.val + p.val, row_lt2 t p⟩ j)) :
    (dat2 V c).arrAt 6 cfg2.N = G := by
  refine (dat2 V c).arrAt_eq_of_cover 6 G (fun t _ => ?_) cover2
  show (cfg2.win 6).cut (grid2.coords t) ((dat2 V c).after 6 t) = _
  rw [after2_6]
  funext y
  exact left2 V c G hG t y

/-! ## Region 3: 30 points, blocks of 5000 rows of 150000-row arrays -/

/-- The body's one store covers the staging buffer and its loads read whole blocks: the buffer ends at the payload of the blocks. -/
theorem out3_eq (x0 : Vec F S5000x128 .f32) (x1 : Vec F S5000x128 .f32) (x2 : Vec F S128x128 .f32) (x3 : Vec F S1x128 .f32) (x4 : Vec F S128x128 .f32) (x5 : Vec F S5000x1 .f32) :
    out3_6 x0 x1 x2 x3 x4 x5 = k3_pay1 x0 x5 x1 x2 x4 x3 := by
  unfold out3_6
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 30 points: block row `t`, block column 0. -/
theorem index3_0 : ∀ t : Fin cfg3.N, win3_0.index t (0 : Fin 2) = t.val ∧ win3_0.index t (1 : Fin 2) = 0 :=
  (by decide +kernel : ∀ t : Fin grid3.N, _)
/-- Window 1's printed index map, decided over the 30 points: block row `t`, block column 0. -/
theorem index3_1 : ∀ t : Fin cfg3.N, win3_1.index t (0 : Fin 2) = t.val ∧ win3_1.index t (1 : Fin 2) = 0 :=
  (by decide +kernel : ∀ t : Fin grid3.N, _)
/-- Window 2's printed index map, decided over the 30 points: block 0 on both axes (the block is the whole array). -/
theorem index3_2 : ∀ t : Fin cfg3.N, win3_2.index t (0 : Fin 2) = 0 ∧ win3_2.index t (1 : Fin 2) = 0 :=
  (by decide +kernel : ∀ t : Fin grid3.N, _)
/-- Window 3's printed index map, decided over the 30 points: block 0 on both axes (the block is the whole array). -/
theorem index3_3 : ∀ t : Fin cfg3.N, win3_3.index t (0 : Fin 2) = 0 ∧ win3_3.index t (1 : Fin 2) = 0 :=
  (by decide +kernel : ∀ t : Fin grid3.N, _)
/-- Window 4's printed index map, decided over the 30 points: block 0 on both axes (the block is the whole array). -/
theorem index3_4 : ∀ t : Fin cfg3.N, win3_4.index t (0 : Fin 2) = 0 ∧ win3_4.index t (1 : Fin 2) = 0 :=
  (by decide +kernel : ∀ t : Fin grid3.N, _)
/-- Window 5's printed index map, decided over the 30 points: block row `t`, block column 0. -/
theorem index3_5 : ∀ t : Fin cfg3.N, win3_5.index t (0 : Fin 2) = t.val ∧ win3_5.index t (1 : Fin 2) = 0 :=
  (by decide +kernel : ∀ t : Fin grid3.N, _)
/-- Window 6's printed index map, decided over the 30 points: block row `t`, block column 0. -/
theorem index3_6 : ∀ t : Fin cfg3.N, win3_6.index t (0 : Fin 2) = t.val ∧ win3_6.index t (1 : Fin 2) = 0 :=
  (by decide +kernel : ∀ t : Fin grid3.N, _)

/-- Row `p` of block `t` is a row of the 150000-row arrays. -/
theorem row_lt3 (t : Fin cfg3.N) (p : Fin 5000) : 5000 * t.val + p.val < 150000 := by
  have h : t.val < 30 := N_3 ▸ t.isLt
  omega

/-- Window 0's block at point `t`, read at row `p` and column `j`, is its array at row `5000 t + p`, column `j`. -/
theorem iblk3_w0 (c : Dev nD) (t : Fin cfg3.N) (p : Fin 5000) (j : Fin 128) :
    iblk3 V c 0 t (ix2 p j) = V c (Pipeline.arrRef spec3 0) (ix2 ⟨5000 * t.val + p.val, row_lt3 t p⟩ j) := by
  obtain ⟨e0, e1⟩ := index3_0 t
  show V c (Pipeline.arrRef spec3 0) (((cfg3.win 0).blk t).view.emb (ix2 p j)) = _
  congr 1
  funext a; apply Fin.ext
  match a with
  | ⟨0, _⟩ => show win3_0.index t (0 : Fin 2) * 5000 + 1 * p.val = 5000 * t.val + p.val; omega
  | ⟨1, _⟩ => show win3_0.index t (1 : Fin 2) * 128 + 1 * j.val = j.val; omega

/-- Window 1's block at point `t`, read at row `p` and column `j`, is its array at row `5000 t + p`, column `j`. -/
theorem iblk3_w1 (c : Dev nD) (t : Fin cfg3.N) (p : Fin 5000) (j : Fin 128) :
    iblk3 V c 1 t (ix2 p j) = V c (Pipeline.arrRef spec3 1) (ix2 ⟨5000 * t.val + p.val, row_lt3 t p⟩ j) := by
  obtain ⟨e0, e1⟩ := index3_1 t
  show V c (Pipeline.arrRef spec3 1) (((cfg3.win 1).blk t).view.emb (ix2 p j)) = _
  congr 1
  funext a; apply Fin.ext
  match a with
  | ⟨0, _⟩ => show win3_1.index t (0 : Fin 2) * 5000 + 1 * p.val = 5000 * t.val + p.val; omega
  | ⟨1, _⟩ => show win3_1.index t (1 : Fin 2) * 128 + 1 * j.val = j.val; omega

/-- Window 2's block is its whole array at every point, index by index. -/
theorem iblk3_w2_apply (c : Dev nD) (t : Fin cfg3.N) (y : S128x128.Idx) :
    iblk3 V c 2 t y = V c (Pipeline.arrRef spec3 2) y := by
  obtain ⟨e0, e1⟩ := index3_2 t
  show V c (Pipeline.arrRef spec3 2) (((cfg3.win 2).blk t).view.emb y) = _
  congr 1
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 2's block is its whole array at every point. -/
theorem iblk3_w2 (c : Dev nD) (t : Fin cfg3.N) : iblk3 V c 2 t = V c (Pipeline.arrRef spec3 2) :=
  funext fun y => iblk3_w2_apply V c t y

/-- Window 3's block is its whole array at every point, index by index. -/
theorem iblk3_w3_apply (c : Dev nD) (t : Fin cfg3.N) (y : S1x128.Idx) :
    iblk3 V c 3 t y = V c (Pipeline.arrRef spec3 3) y := by
  obtain ⟨e0, e1⟩ := index3_3 t
  show V c (Pipeline.arrRef spec3 3) (((cfg3.win 3).blk t).view.emb y) = _
  congr 1
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 3's block is its whole array at every point. -/
theorem iblk3_w3 (c : Dev nD) (t : Fin cfg3.N) : iblk3 V c 3 t = V c (Pipeline.arrRef spec3 3) :=
  funext fun y => iblk3_w3_apply V c t y

/-- Window 4's block is its whole array at every point, index by index. -/
theorem iblk3_w4_apply (c : Dev nD) (t : Fin cfg3.N) (y : S128x128.Idx) :
    iblk3 V c 4 t y = V c (Pipeline.arrRef spec3 4) y := by
  obtain ⟨e0, e1⟩ := index3_4 t
  show V c (Pipeline.arrRef spec3 4) (((cfg3.win 4).blk t).view.emb y) = _
  congr 1
  funext a; apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 4's block is its whole array at every point. -/
theorem iblk3_w4 (c : Dev nD) (t : Fin cfg3.N) : iblk3 V c 4 t = V c (Pipeline.arrRef spec3 4) :=
  funext fun y => iblk3_w4_apply V c t y

/-- Window 5's block at point `t`, read at row `p` and column `j`, is its array at row `5000 t + p`, column `j`. -/
theorem iblk3_w5 (c : Dev nD) (t : Fin cfg3.N) (p : Fin 5000) (j : Fin 1) :
    iblk3 V c 5 t (ix2 p j) = V c (Pipeline.arrRef spec3 5) (ix2 ⟨5000 * t.val + p.val, row_lt3 t p⟩ j) := by
  obtain ⟨e0, e1⟩ := index3_5 t
  show V c (Pipeline.arrRef spec3 5) (((cfg3.win 5).blk t).view.emb (ix2 p j)) = _
  congr 1
  funext a; apply Fin.ext
  match a with
  | ⟨0, _⟩ => show win3_5.index t (0 : Fin 2) * 5000 + 1 * p.val = 5000 * t.val + p.val; omega
  | ⟨1, _⟩ => show win3_5.index t (1 : Fin 2) * 1 + 1 * j.val = j.val; omega

/-- An index of the output array is in point `t`'s block iff each coordinate is in the block's range on its axis. -/
theorem mem_blk3 (t : Fin cfg3.N) (i : S150000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v78).slice (win3_6.rect t)).set ↔ _
  rw [View.set_slice_whole, Rect.mem_set_unit]
  exact Iff.rfl

/-- Every index of the output array is in the block of the point its row names: row `r` is in block `r / 5000`. -/
theorem cover3 (i : S150000x128.Idx) : ∃ t : Fin cfg3.N, (cfg3.win 6).flush t = true ∧ i ∈ ((cfg3.win 6).blk t).view.set := by
  have hi0 : (i 0).val < 150000 := (i 0).isLt
  have hi1 : (i 1).val < 128 := (i 1).isLt
  have hN : (i 0).val / 5000 < cfg3.N := by
    show (i 0).val / 5000 < grid3.N
    rw [N_3]; omega
  refine ⟨⟨(i 0).val / 5000, hN⟩, flush3_6 _, ?_⟩
  rw [mem_blk3]
  obtain ⟨e0, e1⟩ := index3_6 ⟨(i 0).val / 5000, hN⟩
  intro a
  match a with
  | ⟨0, _⟩ =>
    show win3_6.index ⟨(i 0).val / 5000, hN⟩ (0 : Fin 2) * 5000 ≤ (i 0).val ∧ (i 0).val < win3_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win3_6.index ⟨(i 0).val / 5000, hN⟩ (1 : Fin 2) * 128 ≤ (i 1).val ∧ (i 1).val < win3_6.index ⟨(i 0).val / 5000, hN⟩ (1 : Fin 2) * 128 + 128
    rw [e1]
    omega

/-- What point `t` leaves in the output's staging buffer, at an index of the block, is `G` at the index of the array under it. -/
theorem left3 (c : Dev nD) (G : S150000x128.Idx → Elt F .f32)
    (hG : ∀ (t : Fin cfg3.N) (p : Fin 5000) (j : Fin 128),
      out3_6 (iblk3 V c 0 t) (iblk3 V c 1 t) (iblk3 V c 2 t) (iblk3 V c 3 t) (iblk3 V c 4 t) (iblk3 V c 5 t) (ix2 p j)
        = G (ix2 ⟨5000 * t.val + p.val, row_lt3 t p⟩ j))
    (t : Fin cfg3.N) (y : S5000x128.Idx) :
    out3_6 (iblk3 V c 0 t) (iblk3 V c 1 t) (iblk3 V c 2 t) (iblk3 V c 3 t) (iblk3 V c 4 t) (iblk3 V c 5 t) y = G (((cfg3.win 6).blk t).view.emb y) := by
  obtain ⟨p, j, rfl⟩ : ∃ (p : Fin 5000) (j : Fin 128), y = ix2 p j := ⟨y 0, y 1, eq_ix2 y⟩
  obtain ⟨e0, e1⟩ := index3_6 t
  rw [hG t p j]
  congr 1
  funext a; apply Fin.ext
  match a with
  | ⟨0, _⟩ => show 5000 * t.val + p.val = win3_6.index t (0 : Fin 2) * 5000 + 1 * p.val; omega
  | ⟨1, _⟩ => show j.val = win3_6.index t (1 : Fin 2) * 128 + 1 * j.val; omega

/-- THE OUTPUT ARRAY after the region: any `G` that every point's block of results agrees with, row `5000 t + p` for row `p` of block `t`. -/
theorem arr3 (c : Dev nD) (G : S150000x128.Idx → Elt F .f32)
    (hG : ∀ (t : Fin cfg3.N) (p : Fin 5000) (j : Fin 128),
      out3_6 (iblk3 V c 0 t) (iblk3 V c 1 t) (iblk3 V c 2 t) (iblk3 V c 3 t) (iblk3 V c 4 t) (iblk3 V c 5 t) (ix2 p j)
        = G (ix2 ⟨5000 * t.val + p.val, row_lt3 t p⟩ j)) :
    (dat3 V c).arrAt 6 cfg3.N = G := by
  refine (dat3 V c).arrAt_eq_of_cover 6 G (fun t _ => ?_) cover3
  show (cfg3.win 6).cut (grid3.coords t) ((dat3 V c).after 6 t) = _
  rw [after3_6]
  funext y
  exact left3 V c G hG t y

/-! ## Region 4: 15 points, blocks of 5000 rows of 75000-row arrays -/

/-- The body's one store covers the staging buffer and its loads read whole blocks: the buffer ends at the payload of the blocks. -/
theorem out4_eq (x0 : Vec F S5000x128 .f32) (x1 : Vec F S5000x128 .f32) (x2 : Vec F S128x128 .f32) (x3 : Vec F S1x128 .f32) (x4 : Vec F S128x128 .f32) (x5 : Vec F S5000x1 .f32) :
    out4_6 x0 x1 x2 x3 x4 x5 = k4_pay1 x0 x5 x1 x2 x4 x3 := by
  unfold out4_6
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 15 points: block row `t`, block column 0. -/
theorem index4_0 : ∀ t : Fin cfg4.N, win4_0.index t (0 : Fin 2) = t.val ∧ win4_0.index t (1 : Fin 2) = 0 :=
  (by decide +kernel : ∀ t : Fin grid4.N, _)
/-- Window 1's printed index map, decided over the 15 points: block row `t`, block column 0. -/
theorem index4_1 : ∀ t : Fin cfg4.N, win4_1.index t (0 : Fin 2) = t.val ∧ win4_1.index t (1 : Fin 2) = 0 :=
  (by decide +kernel : ∀ t : Fin grid4.N, _)
/-- Window 2's printed index map, decided over the 15 points: block 0 on both axes (the block is the whole array). -/
theorem index4_2 : ∀ t : Fin cfg4.N, win4_2.index t (0 : Fin 2) = 0 ∧ win4_2.index t (1 : Fin 2) = 0 :=
  (by decide +kernel : ∀ t : Fin grid4.N, _)
/-- Window 3's printed index map, decided over the 15 points: block 0 on both axes (the block is the whole array). -/
theorem index4_3 : ∀ t : Fin cfg4.N, win4_3.index t (0 : Fin 2) = 0 ∧ win4_3.index t (1 : Fin 2) = 0 :=
  (by decide +kernel : ∀ t : Fin grid4.N, _)
/-- Window 4's printed index map, decided over the 15 points: block 0 on both axes (the block is the whole array). -/
theorem index4_4 : ∀ t : Fin cfg4.N, win4_4.index t (0 : Fin 2) = 0 ∧ win4_4.index t (1 : Fin 2) = 0 :=
  (by decide +kernel : ∀ t : Fin grid4.N, _)
/-- Window 5's printed index map, decided over the 15 points: block row `t`, block column 0. -/
theorem index4_5 : ∀ t : Fin cfg4.N, win4_5.index t (0 : Fin 2) = t.val ∧ win4_5.index t (1 : Fin 2) = 0 :=
  (by decide +kernel : ∀ t : Fin grid4.N, _)
/-- Window 6's printed index map, decided over the 15 points: block row `t`, block column 0. -/
theorem index4_6 : ∀ t : Fin cfg4.N, win4_6.index t (0 : Fin 2) = t.val ∧ win4_6.index t (1 : Fin 2) = 0 :=
  (by decide +kernel : ∀ t : Fin grid4.N, _)

/-- Row `p` of block `t` is a row of the 75000-row arrays. -/
theorem row_lt4 (t : Fin cfg4.N) (p : Fin 5000) : 5000 * t.val + p.val < 75000 := by
  have h : t.val < 15 := N_4 ▸ t.isLt
  omega

/-- Window 0's block at point `t`, read at row `p` and column `j`, is its array at row `5000 t + p`, column `j`. -/
theorem iblk4_w0 (c : Dev nD) (t : Fin cfg4.N) (p : Fin 5000) (j : Fin 128) :
    iblk4 V c 0 t (ix2 p j) = V c (Pipeline.arrRef spec4 0) (ix2 ⟨5000 * t.val + p.val, row_lt4 t p⟩ j) := by
  obtain ⟨e0, e1⟩ := index4_0 t
  show V c (Pipeline.arrRef spec4 0) (((cfg4.win 0).blk t).view.emb (ix2 p j)) = _
  congr 1
  funext a; apply Fin.ext
  match a with
  | ⟨0, _⟩ => show win4_0.index t (0 : Fin 2) * 5000 + 1 * p.val = 5000 * t.val + p.val; omega
  | ⟨1, _⟩ => show win4_0.index t (1 : Fin 2) * 128 + 1 * j.val = j.val; omega

/-- Window 1's block at point `t`, read at row `p` and column `j`, is its array at row `5000 t + p`, column `j`. -/
theorem iblk4_w1 (c : Dev nD) (t : Fin cfg4.N) (p : Fin 5000) (j : Fin 128) :
    iblk4 V c 1 t (ix2 p j) = V c (Pipeline.arrRef spec4 1) (ix2 ⟨5000 * t.val + p.val, row_lt4 t p⟩ j) := by
  obtain ⟨e0, e1⟩ := index4_1 t
  show V c (Pipeline.arrRef spec4 1) (((cfg4.win 1).blk t).view.emb (ix2 p j)) = _
  congr 1
  funext a; apply Fin.ext
  match a with
  | ⟨0, _⟩ => show win4_1.index t (0 : Fin 2) * 5000 + 1 * p.val = 5000 * t.val + p.val; omega
  | ⟨1, _⟩ => show win4_1.index t (1 : Fin 2) * 128 + 1 * j.val = j.val; omega

/-- Window 2's block is its whole array at every point, index by index. -/
theorem iblk4_w2_apply (c : Dev nD) (t : Fin cfg4.N) (y : S128x128.Idx) :
    iblk4 V c 2 t y = V c (Pipeline.arrRef spec4 2) y := by
  obtain ⟨e0, e1⟩ := index4_2 t
  show V c (Pipeline.arrRef spec4 2) (((cfg4.win 2).blk t).view.emb y) = _
  congr 1
  funext a; apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- Window 2's block is its whole array at every point. -/
theorem iblk4_w2 (c : Dev nD) (t : Fin cfg4.N) : iblk4 V c 2 t = V c (Pipeline.arrRef spec4 2) :=
  funext fun y => iblk4_w2_apply V c t y

/-- Window 3's block is its whole array at every point, index by index. -/
theorem iblk4_w3_apply (c : Dev nD) (t : Fin cfg4.N) (y : S1x128.Idx) :
    iblk4 V c 3 t y = V c (Pipeline.arrRef spec4 3) y := by
  obtain ⟨e0, e1⟩ := index4_3 t
  show V c (Pipeline.arrRef spec4 3) (((cfg4.win 3).blk t).view.emb y) = _
  congr 1
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 3's block is its whole array at every point. -/
theorem iblk4_w3 (c : Dev nD) (t : Fin cfg4.N) : iblk4 V c 3 t = V c (Pipeline.arrRef spec4 3) :=
  funext fun y => iblk4_w3_apply V c t y

/-- Window 4's block is its whole array at every point, index by index. -/
theorem iblk4_w4_apply (c : Dev nD) (t : Fin cfg4.N) (y : S128x128.Idx) :
    iblk4 V c 4 t y = V c (Pipeline.arrRef spec4 4) y := by
  obtain ⟨e0, e1⟩ := index4_4 t
  show V c (Pipeline.arrRef spec4 4) (((cfg4.win 4).blk t).view.emb y) = _
  congr 1
  funext a; apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- Window 4's block is its whole array at every point. -/
theorem iblk4_w4 (c : Dev nD) (t : Fin cfg4.N) : iblk4 V c 4 t = V c (Pipeline.arrRef spec4 4) :=
  funext fun y => iblk4_w4_apply V c t y

/-- Window 5's block at point `t`, read at row `p` and column `j`, is its array at row `5000 t + p`, column `j`. -/
theorem iblk4_w5 (c : Dev nD) (t : Fin cfg4.N) (p : Fin 5000) (j : Fin 1) :
    iblk4 V c 5 t (ix2 p j) = V c (Pipeline.arrRef spec4 5) (ix2 ⟨5000 * t.val + p.val, row_lt4 t p⟩ j) := by
  obtain ⟨e0, e1⟩ := index4_5 t
  show V c (Pipeline.arrRef spec4 5) (((cfg4.win 5).blk t).view.emb (ix2 p j)) = _
  congr 1
  funext a; apply Fin.ext
  match a with
  | ⟨0, _⟩ => show win4_5.index t (0 : Fin 2) * 5000 + 1 * p.val = 5000 * t.val + p.val; omega
  | ⟨1, _⟩ => show win4_5.index t (1 : Fin 2) * 1 + 1 * j.val = j.val; omega

/-- An index of the output array is in point `t`'s block iff each coordinate is in the block's range on its axis. -/
theorem mem_blk4 (t : Fin cfg4.N) (i : S75000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v116).slice (win4_6.rect t)).set ↔ _
  rw [View.set_slice_whole, Rect.mem_set_unit]
  exact Iff.rfl

/-- Every index of the output array is in the block of the point its row names: row `r` is in block `r / 5000`. -/
theorem cover4 (i : S75000x128.Idx) : ∃ t : Fin cfg4.N, (cfg4.win 6).flush t = true ∧ i ∈ ((cfg4.win 6).blk t).view.set := by
  have hi0 : (i 0).val < 75000 := (i 0).isLt
  have hi1 : (i 1).val < 128 := (i 1).isLt
  have hN : (i 0).val / 5000 < cfg4.N := by
    show (i 0).val / 5000 < grid4.N
    rw [N_4]; omega
  refine ⟨⟨(i 0).val / 5000, hN⟩, flush4_6 _, ?_⟩
  rw [mem_blk4]
  obtain ⟨e0, e1⟩ := index4_6 ⟨(i 0).val / 5000, hN⟩
  intro a
  match a with
  | ⟨0, _⟩ =>
    show win4_6.index ⟨(i 0).val / 5000, hN⟩ (0 : Fin 2) * 5000 ≤ (i 0).val ∧ (i 0).val < win4_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win4_6.index ⟨(i 0).val / 5000, hN⟩ (1 : Fin 2) * 128 ≤ (i 1).val ∧ (i 1).val < win4_6.index ⟨(i 0).val / 5000, hN⟩ (1 : Fin 2) * 128 + 128
    rw [e1]
    omega

/-- What point `t` leaves in the output's staging buffer, at an index of the block, is `G` at the index of the array under it. -/
theorem left4 (c : Dev nD) (G : S75000x128.Idx → Elt F .f32)
    (hG : ∀ (t : Fin cfg4.N) (p : Fin 5000) (j : Fin 128),
      out4_6 (iblk4 V c 0 t) (iblk4 V c 1 t) (iblk4 V c 2 t) (iblk4 V c 3 t) (iblk4 V c 4 t) (iblk4 V c 5 t) (ix2 p j)
        = G (ix2 ⟨5000 * t.val + p.val, row_lt4 t p⟩ j))
    (t : Fin cfg4.N) (y : S5000x128.Idx) :
    out4_6 (iblk4 V c 0 t) (iblk4 V c 1 t) (iblk4 V c 2 t) (iblk4 V c 3 t) (iblk4 V c 4 t) (iblk4 V c 5 t) y = G (((cfg4.win 6).blk t).view.emb y) := by
  obtain ⟨p, j, rfl⟩ : ∃ (p : Fin 5000) (j : Fin 128), y = ix2 p j := ⟨y 0, y 1, eq_ix2 y⟩
  obtain ⟨e0, e1⟩ := index4_6 t
  rw [hG t p j]
  congr 1
  funext a; apply Fin.ext
  match a with
  | ⟨0, _⟩ => show 5000 * t.val + p.val = win4_6.index t (0 : Fin 2) * 5000 + 1 * p.val; omega
  | ⟨1, _⟩ => show j.val = win4_6.index t (1 : Fin 2) * 128 + 1 * j.val; omega

/-- THE OUTPUT ARRAY after the region: any `G` that every point's block of results agrees with, row `5000 t + p` for row `p` of block `t`. -/
theorem arr4 (c : Dev nD) (G : S75000x128.Idx → Elt F .f32)
    (hG : ∀ (t : Fin cfg4.N) (p : Fin 5000) (j : Fin 128),
      out4_6 (iblk4 V c 0 t) (iblk4 V c 1 t) (iblk4 V c 2 t) (iblk4 V c 3 t) (iblk4 V c 4 t) (iblk4 V c 5 t) (ix2 p j)
        = G (ix2 ⟨5000 * t.val + p.val, row_lt4 t p⟩ j)) :
    (dat4 V c).arrAt 6 cfg4.N = G := by
  refine (dat4 V c).arrAt_eq_of_cover 6 G (fun t _ => ?_) cover4
  show (cfg4.win 6).cut (grid4.coords t) ((dat4 V c).after 6 t) = _
  rw [after4_6]
  funext y
  exact left4 V c G hG t y

/-! ## Region 5: 30 points, blocks of 5000 rows of 150000-row arrays -/

/-- The body's one store covers the staging buffer and its loads read whole blocks: the buffer ends at the payload of the blocks. -/
theorem out5_eq (x0 : Vec F S5000x128 .f32) (x1 : Vec F S5000x128 .f32) (x2 : Vec F S128x128 .f32) (x3 : Vec F S1x128 .f32) (x4 : Vec F S128x128 .f32) (x5 : Vec F S5000x1 .f32) :
    out5_6 x0 x1 x2 x3 x4 x5 = k5_pay1 x0 x5 x1 x2 x4 x3 := by
  unfold out5_6
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 30 points: block row `t`, block column 0. -/
theorem index5_0 : ∀ t : Fin cfg5.N, win5_0.index t (0 : Fin 2) = t.val ∧ win5_0.index t (1 : Fin 2) = 0 :=
  (by decide +kernel : ∀ t : Fin grid5.N, _)
/-- Window 1's printed index map, decided over the 30 points: block row `t`, block column 0. -/
theorem index5_1 : ∀ t : Fin cfg5.N, win5_1.index t (0 : Fin 2) = t.val ∧ win5_1.index t (1 : Fin 2) = 0 :=
  (by decide +kernel : ∀ t : Fin grid5.N, _)
/-- Window 2's printed index map, decided over the 30 points: block 0 on both axes (the block is the whole array). -/
theorem index5_2 : ∀ t : Fin cfg5.N, win5_2.index t (0 : Fin 2) = 0 ∧ win5_2.index t (1 : Fin 2) = 0 :=
  (by decide +kernel : ∀ t : Fin grid5.N, _)
/-- Window 3's printed index map, decided over the 30 points: block 0 on both axes (the block is the whole array). -/
theorem index5_3 : ∀ t : Fin cfg5.N, win5_3.index t (0 : Fin 2) = 0 ∧ win5_3.index t (1 : Fin 2) = 0 :=
  (by decide +kernel : ∀ t : Fin grid5.N, _)
/-- Window 4's printed index map, decided over the 30 points: block 0 on both axes (the block is the whole array). -/
theorem index5_4 : ∀ t : Fin cfg5.N, win5_4.index t (0 : Fin 2) = 0 ∧ win5_4.index t (1 : Fin 2) = 0 :=
  (by decide +kernel : ∀ t : Fin grid5.N, _)
/-- Window 5's printed index map, decided over the 30 points: block row `t`, block column 0. -/
theorem index5_5 : ∀ t : Fin cfg5.N, win5_5.index t (0 : Fin 2) = t.val ∧ win5_5.index t (1 : Fin 2) = 0 :=
  (by decide +kernel : ∀ t : Fin grid5.N, _)
/-- Window 6's printed index map, decided over the 30 points: block row `t`, block column 0. -/
theorem index5_6 : ∀ t : Fin cfg5.N, win5_6.index t (0 : Fin 2) = t.val ∧ win5_6.index t (1 : Fin 2) = 0 :=
  (by decide +kernel : ∀ t : Fin grid5.N, _)

/-- Row `p` of block `t` is a row of the 150000-row arrays. -/
theorem row_lt5 (t : Fin cfg5.N) (p : Fin 5000) : 5000 * t.val + p.val < 150000 := by
  have h : t.val < 30 := N_5 ▸ t.isLt
  omega

/-- Window 0's block at point `t`, read at row `p` and column `j`, is its array at row `5000 t + p`, column `j`. -/
theorem iblk5_w0 (c : Dev nD) (t : Fin cfg5.N) (p : Fin 5000) (j : Fin 128) :
    iblk5 V c 0 t (ix2 p j) = V c (Pipeline.arrRef spec5 0) (ix2 ⟨5000 * t.val + p.val, row_lt5 t p⟩ j) := by
  obtain ⟨e0, e1⟩ := index5_0 t
  show V c (Pipeline.arrRef spec5 0) (((cfg5.win 0).blk t).view.emb (ix2 p j)) = _
  congr 1
  funext a; apply Fin.ext
  match a with
  | ⟨0, _⟩ => show win5_0.index t (0 : Fin 2) * 5000 + 1 * p.val = 5000 * t.val + p.val; omega
  | ⟨1, _⟩ => show win5_0.index t (1 : Fin 2) * 128 + 1 * j.val = j.val; omega

/-- Window 1's block at point `t`, read at row `p` and column `j`, is its array at row `5000 t + p`, column `j`. -/
theorem iblk5_w1 (c : Dev nD) (t : Fin cfg5.N) (p : Fin 5000) (j : Fin 128) :
    iblk5 V c 1 t (ix2 p j) = V c (Pipeline.arrRef spec5 1) (ix2 ⟨5000 * t.val + p.val, row_lt5 t p⟩ j) := by
  obtain ⟨e0, e1⟩ := index5_1 t
  show V c (Pipeline.arrRef spec5 1) (((cfg5.win 1).blk t).view.emb (ix2 p j)) = _
  congr 1
  funext a; apply Fin.ext
  match a with
  | ⟨0, _⟩ => show win5_1.index t (0 : Fin 2) * 5000 + 1 * p.val = 5000 * t.val + p.val; omega
  | ⟨1, _⟩ => show win5_1.index t (1 : Fin 2) * 128 + 1 * j.val = j.val; omega

/-- Window 2's block is its whole array at every point, index by index. -/
theorem iblk5_w2_apply (c : Dev nD) (t : Fin cfg5.N) (y : S128x128.Idx) :
    iblk5 V c 2 t y = V c (Pipeline.arrRef spec5 2) y := by
  obtain ⟨e0, e1⟩ := index5_2 t
  show V c (Pipeline.arrRef spec5 2) (((cfg5.win 2).blk t).view.emb y) = _
  congr 1
  funext a; apply Fin.ext
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- Window 2's block is its whole array at every point. -/
theorem iblk5_w2 (c : Dev nD) (t : Fin cfg5.N) : iblk5 V c 2 t = V c (Pipeline.arrRef spec5 2) :=
  funext fun y => iblk5_w2_apply V c t y

/-- Window 3's block is its whole array at every point, index by index. -/
theorem iblk5_w3_apply (c : Dev nD) (t : Fin cfg5.N) (y : S1x128.Idx) :
    iblk5 V c 3 t y = V c (Pipeline.arrRef spec5 3) y := by
  obtain ⟨e0, e1⟩ := index5_3 t
  show V c (Pipeline.arrRef spec5 3) (((cfg5.win 3).blk t).view.emb y) = _
  congr 1
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 3's block is its whole array at every point. -/
theorem iblk5_w3 (c : Dev nD) (t : Fin cfg5.N) : iblk5 V c 3 t = V c (Pipeline.arrRef spec5 3) :=
  funext fun y => iblk5_w3_apply V c t y

/-- Window 4's block is its whole array at every point, index by index. -/
theorem iblk5_w4_apply (c : Dev nD) (t : Fin cfg5.N) (y : S128x128.Idx) :
    iblk5 V c 4 t y = V c (Pipeline.arrRef spec5 4) y := by
  obtain ⟨e0, e1⟩ := index5_4 t
  show V c (Pipeline.arrRef spec5 4) (((cfg5.win 4).blk t).view.emb y) = _
  congr 1
  funext a; apply Fin.ext
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- Window 4's block is its whole array at every point. -/
theorem iblk5_w4 (c : Dev nD) (t : Fin cfg5.N) : iblk5 V c 4 t = V c (Pipeline.arrRef spec5 4) :=
  funext fun y => iblk5_w4_apply V c t y

/-- Window 5's block at point `t`, read at row `p` and column `j`, is its array at row `5000 t + p`, column `j`. -/
theorem iblk5_w5 (c : Dev nD) (t : Fin cfg5.N) (p : Fin 5000) (j : Fin 1) :
    iblk5 V c 5 t (ix2 p j) = V c (Pipeline.arrRef spec5 5) (ix2 ⟨5000 * t.val + p.val, row_lt5 t p⟩ j) := by
  obtain ⟨e0, e1⟩ := index5_5 t
  show V c (Pipeline.arrRef spec5 5) (((cfg5.win 5).blk t).view.emb (ix2 p j)) = _
  congr 1
  funext a; apply Fin.ext
  match a with
  | ⟨0, _⟩ => show win5_5.index t (0 : Fin 2) * 5000 + 1 * p.val = 5000 * t.val + p.val; omega
  | ⟨1, _⟩ => show win5_5.index t (1 : Fin 2) * 1 + 1 * j.val = j.val; omega

/-- An index of the output array is in point `t`'s block iff each coordinate is in the block's range on its axis. -/
theorem mem_blk5 (t : Fin cfg5.N) (i : S150000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v124).slice (win5_6.rect t)).set ↔ _
  rw [View.set_slice_whole, Rect.mem_set_unit]
  exact Iff.rfl

/-- Every index of the output array is in the block of the point its row names: row `r` is in block `r / 5000`. -/
theorem cover5 (i : S150000x128.Idx) : ∃ t : Fin cfg5.N, (cfg5.win 6).flush t = true ∧ i ∈ ((cfg5.win 6).blk t).view.set := by
  have hi0 : (i 0).val < 150000 := (i 0).isLt
  have hi1 : (i 1).val < 128 := (i 1).isLt
  have hN : (i 0).val / 5000 < cfg5.N := by
    show (i 0).val / 5000 < grid5.N
    rw [N_5]; omega
  refine ⟨⟨(i 0).val / 5000, hN⟩, flush5_6 _, ?_⟩
  rw [mem_blk5]
  obtain ⟨e0, e1⟩ := index5_6 ⟨(i 0).val / 5000, hN⟩
  intro a
  match a with
  | ⟨0, _⟩ =>
    show win5_6.index ⟨(i 0).val / 5000, hN⟩ (0 : Fin 2) * 5000 ≤ (i 0).val ∧ (i 0).val < win5_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win5_6.index ⟨(i 0).val / 5000, hN⟩ (1 : Fin 2) * 128 ≤ (i 1).val ∧ (i 1).val < win5_6.index ⟨(i 0).val / 5000, hN⟩ (1 : Fin 2) * 128 + 128
    rw [e1]
    omega

/-- What point `t` leaves in the output's staging buffer, at an index of the block, is `G` at the index of the array under it. -/
theorem left5 (c : Dev nD) (G : S150000x128.Idx → Elt F .f32)
    (hG : ∀ (t : Fin cfg5.N) (p : Fin 5000) (j : Fin 128),
      out5_6 (iblk5 V c 0 t) (iblk5 V c 1 t) (iblk5 V c 2 t) (iblk5 V c 3 t) (iblk5 V c 4 t) (iblk5 V c 5 t) (ix2 p j)
        = G (ix2 ⟨5000 * t.val + p.val, row_lt5 t p⟩ j))
    (t : Fin cfg5.N) (y : S5000x128.Idx) :
    out5_6 (iblk5 V c 0 t) (iblk5 V c 1 t) (iblk5 V c 2 t) (iblk5 V c 3 t) (iblk5 V c 4 t) (iblk5 V c 5 t) y = G (((cfg5.win 6).blk t).view.emb y) := by
  obtain ⟨p, j, rfl⟩ : ∃ (p : Fin 5000) (j : Fin 128), y = ix2 p j := ⟨y 0, y 1, eq_ix2 y⟩
  obtain ⟨e0, e1⟩ := index5_6 t
  rw [hG t p j]
  congr 1
  funext a; apply Fin.ext
  match a with
  | ⟨0, _⟩ => show 5000 * t.val + p.val = win5_6.index t (0 : Fin 2) * 5000 + 1 * p.val; omega
  | ⟨1, _⟩ => show j.val = win5_6.index t (1 : Fin 2) * 128 + 1 * j.val; omega

/-- THE OUTPUT ARRAY after the region: any `G` that every point's block of results agrees with, row `5000 t + p` for row `p` of block `t`. -/
theorem arr5 (c : Dev nD) (G : S150000x128.Idx → Elt F .f32)
    (hG : ∀ (t : Fin cfg5.N) (p : Fin 5000) (j : Fin 128),
      out5_6 (iblk5 V c 0 t) (iblk5 V c 1 t) (iblk5 V c 2 t) (iblk5 V c 3 t) (iblk5 V c 4 t) (iblk5 V c 5 t) (ix2 p j)
        = G (ix2 ⟨5000 * t.val + p.val, row_lt5 t p⟩ j)) :
    (dat5 V c).arrAt 6 cfg5.N = G := by
  refine (dat5 V c).arrAt_eq_of_cover 6 G (fun t _ => ?_) cover5
  show (cfg5.win 6).cut (grid5.coords t) ((dat5 V c).after 6 t) = _
  rw [after5_6]
  funext y
  exact left5 V c G hG t y

end Cert.KernelIdeal.Blocks

end
-- ==== Proof.BlocksNorm.lean ====
import proofs.«113985_j6949257085118_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access, however they are spelt. -/
private theorem zero_offsets : (![0, 0] : Fin 2 → Nat) = fun _ => 0 := funext fun a => by fin_cases a <;> rfl

/-! ## Region 6: 15 points, blocks of 5000 rows of 75000-row arrays -/

/-- The body's one store covers the staging buffer and its loads read whole blocks: the buffer ends at the payload of the blocks. -/
theorem out6_eq (x0 : Vec F S5000x128 .f32) (x1 : Vec F S5000x128 .f32) (x2 : Vec F S128x128 .f32) (x3 : Vec F S1x128 .f32) (x4 : Vec F S128x128 .f32) (x5 : Vec F S5000x1 .f32) (x6 : Vec F S1x128 .f32) (x7 : Vec F S1x128 .f32) :
    out6_8 x0 x1 x2 x3 x4 x5 x6 x7 = k6_pay1 (k6_pay4 x0 x5 x1 x2 x4 x3) (k6_pay5 x0 x5 x1 x2 x4 x3) (k6_pay6 (F := F)) x6 x7 := by
  unfold out6_8
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 15 points: block row `t`, block column 0. -/
theorem index6_0 : ∀ t : Fin cfg6.N, win6_0.index t (0 : Fin 2) = t.val ∧ win6_0.index t (1 : Fin 2) = 0 :=
  (by decide +kernel : ∀ t : Fin grid6.N, _)
/-- Window 1's printed index map, decided over the 15 points: block row `t`, block column 0. -/
theorem index6_1 : ∀ t : Fin cfg6.N, win6_1.index t (0 : Fin 2) = t.val ∧ win6_1.index t (1 : Fin 2) = 0 :=
  (by decide +kernel : ∀ t : Fin grid6.N, _)
/-- Window 2's printed index map, decided over the 15 points: block 0 on both axes (the block is the whole array). -/
theorem index6_2 : ∀ t : Fin cfg6.N, win6_2.index t (0 : Fin 2) = 0 ∧ win6_2.index t (1 : Fin 2) = 0 :=
  (by decide +kernel : ∀ t : Fin grid6.N, _)
/-- Window 3's printed index map, decided over the 15 points: block 0 on both axes (the block is the whole array). -/
theorem index6_3 : ∀ t : Fin cfg6.N, win6_3.index t (0 : Fin 2) = 0 ∧ win6_3.index t (1 : Fin 2) = 0 :=
  (by decide +kernel : ∀ t : Fin grid6.N, _)
/-- Window 4's printed index map, decided over the 15 points: block 0 on both axes (the block is the whole array). -/
theorem index6_4 : ∀ t : Fin cfg6.N, win6_4.index t (0 : Fin 2) = 0 ∧ win6_4.index t (1 : Fin 2) = 0 :=
  (by decide +kernel : ∀ t : Fin grid6.N, _)
/-- Window 5's printed index map, decided over the 15 points: block row `t`, block column 0. -/
theorem index6_5 : ∀ t : Fin cfg6.N, win6_5.index t (0 : Fin 2) = t.val ∧ win6_5.index t (1 : Fin 2) = 0 :=
  (by decide +kernel : ∀ t : Fin grid6.N, _)
/-- Window 6's printed index map, decided over the 15 points: block 0 on both axes (the block is the whole array). -/
theorem index6_6 : ∀ t : Fin cfg6.N, win6_6.index t (0 : Fin 2) = 0 ∧ win6_6.index t (1 : Fin 2) = 0 :=
  (by decide +kernel : ∀ t : Fin grid6.N, _)
/-- Window 7's printed index map, decided over the 15 points: block 0 on both axes (the block is the whole array). -/
theorem index6_7 : ∀ t : Fin cfg6.N, win6_7.index t (0 : Fin 2) = 0 ∧ win6_7.index t (1 : Fin 2) = 0 :=
  (by decide +kernel : ∀ t : Fin grid6.N, _)
/-- Window 8's printed index map, decided over the 15 points: block row `t`, block column 0. -/
theorem index6_8 : ∀ t : Fin cfg6.N, win6_8.index t (0 : Fin 2) = t.val ∧ win6_8.index t (1 : Fin 2) = 0 :=
  (by decide +kernel : ∀ t : Fin grid6.N, _)

/-- Row `p` of block `t` is a row of the 75000-row arrays. -/
theorem row_lt6 (t : Fin cfg6.N) (p : Fin 5000) : 5000 * t.val + p.val < 75000 := by
  have h : t.val < 15 := N_6 ▸ t.isLt
  omega

/-- Window 0's block at point `t`, read at row `p` and column `j`, is its array at row `5000 t + p`, column `j`. -/
theorem iblk6_w0 (c : Dev nD) (t : Fin cfg6.N) (p : Fin 5000) (j : Fin 128) :
    iblk6 V c 0 t (ix2 p j) = V c (Pipeline.arrRef spec6 0) (ix2 ⟨5000 * t.val + p.val, row_lt6 t p⟩ j) := by
  obtain ⟨e0, e1⟩ := index6_0 t
  show V c (Pipeline.arrRef spec6 0) (((cfg6.win 0).blk t).view.emb (ix2 p j)) = _
  congr 1
  funext a; apply Fin.ext
  match a with
  | ⟨0, _⟩ => show win6_0.index t (0 : Fin 2) * 5000 + 1 * p.val = 5000 * t.val + p.val; omega
  | ⟨1, _⟩ => show win6_0.index t (1 : Fin 2) * 128 + 1 * j.val = j.val; omega

/-- Window 1's block at point `t`, read at row `p` and column `j`, is its array at row `5000 t + p`, column `j`. -/
theorem iblk6_w1 (c : Dev nD) (t : Fin cfg6.N) (p : Fin 5000) (j : Fin 128) :
    iblk6 V c 1 t (ix2 p j) = V c (Pipeline.arrRef spec6 1) (ix2 ⟨5000 * t.val + p.val, row_lt6 t p⟩ j) := by
  obtain ⟨e0, e1⟩ := index6_1 t
  show V c (Pipeline.arrRef spec6 1) (((cfg6.win 1).blk t).view.emb (ix2 p j)) = _
  congr 1
  funext a; apply Fin.ext
  match a with
  | ⟨0, _⟩ => show win6_1.index t (0 : Fin 2) * 5000 + 1 * p.val = 5000 * t.val + p.val; omega
  | ⟨1, _⟩ => show win6_1.index t (1 : Fin 2) * 128 + 1 * j.val = j.val; omega

/-- Window 2's block is its whole array at every point, index by index. -/
theorem iblk6_w2_apply (c : Dev nD) (t : Fin cfg6.N) (y : S128x128.Idx) :
    iblk6 V c 2 t y = V c (Pipeline.arrRef spec6 2) y := by
  obtain ⟨e0, e1⟩ := index6_2 t
  show V c (Pipeline.arrRef spec6 2) (((cfg6.win 2).blk t).view.emb y) = _
  congr 1
  funext a; apply Fin.ext
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- Window 2's block is its whole array at every point. -/
theorem iblk6_w2 (c : Dev nD) (t : Fin cfg6.N) : iblk6 V c 2 t = V c (Pipeline.arrRef spec6 2) :=
  funext fun y => iblk6_w2_apply V c t y

/-- Window 3's block is its whole array at every point, index by index. -/
theorem iblk6_w3_apply (c : Dev nD) (t : Fin cfg6.N) (y : S1x128.Idx) :
    iblk6 V c 3 t y = V c (Pipeline.arrRef spec6 3) y := by
  obtain ⟨e0, e1⟩ := index6_3 t
  show V c (Pipeline.arrRef spec6 3) (((cfg6.win 3).blk t).view.emb y) = _
  congr 1
  funext a; apply Fin.ext
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Window 3's block is its whole array at every point. -/
theorem iblk6_w3 (c : Dev nD) (t : Fin cfg6.N) : iblk6 V c 3 t = V c (Pipeline.arrRef spec6 3) :=
  funext fun y => iblk6_w3_apply V c t y

/-- Window 4's block is its whole array at every point, index by index. -/
theorem iblk6_w4_apply (c : Dev nD) (t : Fin cfg6.N) (y : S128x128.Idx) :
    iblk6 V c 4 t y = V c (Pipeline.arrRef spec6 4) y := by
  obtain ⟨e0, e1⟩ := index6_4 t
  show V c (Pipeline.arrRef spec6 4) (((cfg6.win 4).blk t).view.emb y) = _
  congr 1
  funext a; apply Fin.ext
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- Window 4's block is its whole array at every point. -/
theorem iblk6_w4 (c : Dev nD) (t : Fin cfg6.N) : iblk6 V c 4 t = V c (Pipeline.arrRef spec6 4) :=
  funext fun y => iblk6_w4_apply V c t y

/-- Window 5's block at point `t`, read at row `p` and column `j`, is its array at row `5000 t + p`, column `j`. -/
theorem iblk6_w5 (c : Dev nD) (t : Fin cfg6.N) (p : Fin 5000) (j : Fin 1) :
    iblk6 V c 5 t (ix2 p j) = V c (Pipeline.arrRef spec6 5) (ix2 ⟨5000 * t.val + p.val, row_lt6 t p⟩ j) := by
  obtain ⟨e0, e1⟩ := index6_5 t
  show V c (Pipeline.arrRef spec6 5) (((cfg6.win 5).blk t).view.emb (ix2 p j)) = _
  congr 1
  funext a; apply Fin.ext
  match a with
  | ⟨0, _⟩ => show win6_5.index t (0 : Fin 2) * 5000 + 1 * p.val = 5000 * t.val + p.val; omega
  | ⟨1, _⟩ => show win6_5.index t (1 : Fin 2) * 1 + 1 * j.val = j.val; omega

/-- Window 6's block is its whole array at every point, index by index. -/
theorem iblk6_w6_apply (c : Dev nD) (t : Fin cfg6.N) (y : S1x128.Idx) :
    iblk6 V c 6 t y = V c (Pipeline.arrRef spec6 6) y := by
  obtain ⟨e0, e1⟩ := index6_6 t
  show V c (Pipeline.arrRef spec6 6) (((cfg6.win 6).blk t).view.emb y) = _
  congr 1
  funext a; apply Fin.ext
  match a with
  | ⟨0, _⟩ => show win6_6.index t (0 : Fin 2) * 1 + 1 * (y 0).val = (y 0).val; omega
  | ⟨1, _⟩ => show win6_6.index t (1 : Fin 2) * 128 + 1 * (y 1).val = (y 1).val; omega

/-- Window 6's block is its whole array at every point. -/
theorem iblk6_w6 (c : Dev nD) (t : Fin cfg6.N) : iblk6 V c 6 t = V c (Pipeline.arrRef spec6 6) :=
  funext fun y => iblk6_w6_apply V c t y

/-- Window 7's block is its whole array at every point, index by index. -/
theorem iblk6_w7_apply (c : Dev nD) (t : Fin cfg6.N) (y : S1x128.Idx) :
    iblk6 V c 7 t y = V c (Pipeline.arrRef spec6 7) y := by
  obtain ⟨e0, e1⟩ := index6_7 t
  show V c (Pipeline.arrRef spec6 7) (((cfg6.win 7).blk t).view.emb y) = _
  congr 1
  funext a; apply Fin.ext
  match a with
  | ⟨0, _⟩ => show win6_7.index t (0 : Fin 2) * 1 + 1 * (y 0).val = (y 0).val; omega
  | ⟨1, _⟩ => show win6_7.index t (1 : Fin 2) * 128 + 1 * (y 1).val = (y 1).val; omega

/-- Window 7's block is its whole array at every point. -/
theorem iblk6_w7 (c : Dev nD) (t : Fin cfg6.N) : iblk6 V c 7 t = V c (Pipeline.arrRef spec6 7) :=
  funext fun y => iblk6_w7_apply V c t y

/-- An index of the output array is in point `t`'s block iff each coordinate is in the block's range on its axis. -/
theorem mem_blk6 (t : Fin cfg6.N) (i : S75000x128.Idx) :
    i ∈ ((cfg6.win 8).blk t).view.set ↔ ∀ a : Fin 2, win6_8.index t a * S5000x128.size a ≤ (i a).val ∧ (i a).val < win6_8.index t a * S5000x128.size a + S5000x128.size a := by
  show i ∈ ((View.whole main_v164).slice (win6_8.rect t)).set ↔ _
  rw [View.set_slice_whole, Rect.mem_set_unit]
  exact Iff.rfl

/-- Every index of the output array is in the block of the point its row names: row `r` is in block `r / 5000`. -/
theorem cover6 (i : S75000x128.Idx) : ∃ t : Fin cfg6.N, (cfg6.win 8).flush t = true ∧ i ∈ ((cfg6.win 8).blk t).view.set := by
  have hi0 : (i 0).val < 75000 := (i 0).isLt
  have hi1 : (i 1).val < 128 := (i 1).isLt
  have hN : (i 0).val / 5000 < cfg6.N := by
    show (i 0).val / 5000 < grid6.N
    rw [N_6]; omega
  refine ⟨⟨(i 0).val / 5000, hN⟩, flush6_8 _, ?_⟩
  rw [mem_blk6]
  obtain ⟨e0, e1⟩ := index6_8 ⟨(i 0).val / 5000, hN⟩
  intro a
  match a with
  | ⟨0, _⟩ =>
    show win6_8.index ⟨(i 0).val / 5000, hN⟩ (0 : Fin 2) * 5000 ≤ (i 0).val ∧ (i 0).val < win6_8.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win6_8.index ⟨(i 0).val / 5000, hN⟩ (1 : Fin 2) * 128 ≤ (i 1).val ∧ (i 1).val < win6_8.index ⟨(i 0).val / 5000, hN⟩ (1 : Fin 2) * 128 + 128
    rw [e1]
    omega

/-- What point `t` leaves in the output's staging buffer, at an index of the block, is `G` at the index of the array under it. -/
theorem left6 (c : Dev nD) (G : S75000x128.Idx → Elt F .f32)
    (hG : ∀ (t : Fin cfg6.N) (p : Fin 5000) (j : Fin 128),
      out6_8 (iblk6 V c 0 t) (iblk6 V c 1 t) (iblk6 V c 2 t) (iblk6 V c 3 t) (iblk6 V c 4 t) (iblk6 V c 5 t) (iblk6 V c 6 t) (iblk6 V c 7 t) (ix2 p j)
        = G (ix2 ⟨5000 * t.val + p.val, row_lt6 t p⟩ j))
    (t : Fin cfg6.N) (y : S5000x128.Idx) :
    out6_8 (iblk6 V c 0 t) (iblk6 V c 1 t) (iblk6 V c 2 t) (iblk6 V c 3 t) (iblk6 V c 4 t) (iblk6 V c 5 t) (iblk6 V c 6 t) (iblk6 V c 7 t) y = G (((cfg6.win 8).blk t).view.emb y) := by
  obtain ⟨p, j, rfl⟩ : ∃ (p : Fin 5000) (j : Fin 128), y = ix2 p j := ⟨y 0, y 1, eq_ix2 y⟩
  obtain ⟨e0, e1⟩ := index6_8 t
  rw [hG t p j]
  congr 1
  funext a; apply Fin.ext
  match a with
  | ⟨0, _⟩ => show 5000 * t.val + p.val = win6_8.index t (0 : Fin 2) * 5000 + 1 * p.val; omega
  | ⟨1, _⟩ => show j.val = win6_8.index t (1 : Fin 2) * 128 + 1 * j.val; omega

/-- THE OUTPUT ARRAY after the region: any `G` that every point's block of results agrees with, row `5000 t + p` for row `p` of block `t`. -/
theorem arr6 (c : Dev nD) (G : S75000x128.Idx → Elt F .f32)
    (hG : ∀ (t : Fin cfg6.N) (p : Fin 5000) (j : Fin 128),
      out6_8 (iblk6 V c 0 t) (iblk6 V c 1 t) (iblk6 V c 2 t) (iblk6 V c 3 t) (iblk6 V c 4 t) (iblk6 V c 5 t) (iblk6 V c 6 t) (iblk6 V c 7 t) (ix2 p j)
        = G (ix2 ⟨5000 * t.val + p.val, row_lt6 t p⟩ j)) :
    (dat6 V c).arrAt 8 cfg6.N = G := by
  refine (dat6 V c).arrAt_eq_of_cover 8 G (fun t _ => ?_) cover6
  show (cfg6.win 8).cut (grid6.coords t) ((dat6 V c).after 8 t) = _
  rw [after6_8]
  funext y
  exact left6 V c G hG t y

/-! ## Region 7: 30 points, blocks of 5000 rows of 150000-row arrays -/

/-- The body's one store covers the staging buffer and its loads read whole blocks: the buffer ends at the payload of the blocks. -/
theorem out7_eq (x0 : Vec F S5000x128 .f32) (x1 : Vec F S5000x128 .f32) (x2 : Vec F S128x128 .f32) (x3 : Vec F S1x128 .f32) (x4 : Vec F S128x128 .f32) (x5 : Vec F S5000x1 .f32) (x6 : Vec F S1x128 .f32) (x7 : Vec F S1x128 .f32) :
    out7_8 x0 x1 x2 x3 x4 x5 x6 x7 = k7_pay1 (k7_pay4 x0 x5 x1 x2 x4 x3) (k7_pay5 x0 x5 x1 x2 x4 x3) (k7_pay6 (F := F)) x6 x7 := by
  unfold out7_8
  rw [View.canon_unit_zero zero_offsets]
  simp only [View.ld_unit_zero (S := S5000x128) zero_offsets, View.ld_unit_zero (S := S128x128) zero_offsets, View.ld_unit_zero (S := S1x128) zero_offsets, View.ld_unit_zero (S := S5000x1) zero_offsets]

/-- Window 0's printed index map, decided over the 30 points: block row `t`, block column 0. -/
theorem index7_0 : ∀ t : Fin cfg7.N, win7_0.index t (0 : Fin 2) = t.val ∧ win7_0.index t (1 : Fin 2) = 0 :=
  (by decide +kernel : ∀ t : Fin grid7.N, _)
/-- Window 1's printed index map, decided over the 30 points: block row `t`, block column 0. -/
theorem index7_1 : ∀ t : Fin cfg7.N, win7_1.index t (0 : Fin 2) = t.val ∧ win7_1.index t (1 : Fin 2) = 0 :=
  (by decide +kernel : ∀ t : Fin grid7.N, _)
/-- Window 2's printed index map, decided over the 30 points: block 0 on both axes (the block is the whole array). -/
theorem index7_2 : ∀ t : Fin cfg7.N, win7_2.index t (0 : Fin 2) = 0 ∧ win7_2.index t (1 : Fin 2) = 0 :=
  (by decide +kernel : ∀ t : Fin grid7.N, _)
/-- Window 3's printed index map, decided over the 30 points: block 0 on both axes (the block is the whole array). -/
theorem index7_3 : ∀ t : Fin cfg7.N, win7_3.index t (0 : Fin 2) = 0 ∧ win7_3.index t (1 : Fin 2) = 0 :=
  (by decide +kernel : ∀ t : Fin grid7.N, _)
/-- Window 4's printed index map, decided over the 30 points: block 0 on both axes (the block is the whole array). -/
theorem index7_4 : ∀ t : Fin cfg7.N, win7_4.index t (0 : Fin 2) = 0 ∧ win7_4.index t (1 : Fin 2) = 0 :=
  (by decide +kernel : ∀ t : Fin grid7.N, _)
/-- Window 5's printed index map, decided over the 30 points: block row `t`, block column 0. -/
theorem index7_5 : ∀ t : Fin cfg7.N, win7_5.index t (0 : Fin 2) = t.val ∧ win7_5.index t (1 : Fin 2) = 0 :=
  (by decide +kernel : ∀ t : Fin grid7.N, _)
/-- Window 6's printed index map, decided over the 30 points: block 0 on both axes (the block is the whole array). -/
theorem index7_6 : ∀ t : Fin cfg7.N, win7_6.index t (0 : Fin 2) = 0 ∧ win7_6.index t (1 : Fin 2) = 0 :=
  (by decide +kernel : ∀ t : Fin grid7.N, _)
/-- Window 7's printed index map, decided over the 30 points: block 0 on both axes (the block is the whole array). -/
theorem index7_7 : ∀ t : Fin cfg7.N, win7_7.index t (0 : Fin 2) = 0 ∧ win7_7.index t (1 : Fin 2) = 0 :=
  (by decide +kernel : ∀ t : Fin grid7.N, _)
/-- Window 8's printed index map, decided over the 30 points: block row `t`, block column 0. -/
theorem index7_8 : ∀ t : Fin cfg7.N, win7_8.index t (0 : Fin 2) = t.val ∧ win7_8.index t (1 : Fin 2) = 0 :=
  (by decide +kernel : ∀ t : Fin grid7.N, _)

/-- Row `p` of block `t` is a row of the 150000-row arrays. -/
theorem row_lt7 (t : Fin cfg7.N) (p : Fin 5000) : 5000 * t.val + p.val < 150000 := by
  have h : t.val < 30 := N_7 ▸ t.isLt
  omega

/-- Window 0's block at point `t`, read at row `p` and column `j`, is its array at row `5000 t + p`, column `j`. -/
theorem iblk7_w0 (c : Dev nD) (t : Fin cfg7.N) (p : Fin 5000) (j : Fin 128) :
    iblk7 V c 0 t (ix2 p j) = V c (Pipeline.arrRef spec7 0) (ix2 ⟨5000 * t.val + p.val, row_lt7 t p⟩ j) := by
  obtain ⟨e0, e1⟩ := index7_0 t
  show V c (Pipeline.arrRef spec7 0) (((cfg7.win 0).blk t).view.emb (ix2 p j)) = _
  congr 1
  funext a; apply Fin.ext
  match a with
  | ⟨0, _⟩ => show win7_0.index t (0 : Fin 2) * 5000 + 1 * p.val = 5000 * t.val + p.val; omega
  | ⟨1, _⟩ => show win7_0.index t (1 : Fin 2) * 128 + 1 * j.val = j.val; omega

/-- Window 1's block at point `t`, read at row `p` and column `j`, is its array at row `5000 t + p`, column `j`. -/
theorem iblk7_w1 (c : Dev nD) (t : Fin cfg7.N) (p : Fin 5000) (j : Fin 128) :
    iblk7 V c 1 t (ix2 p j) = V c (Pipeline.arrRef spec7 1) (ix2 ⟨5000 * t.val + p.val, row_lt7 t p⟩ j) := by
  obtain ⟨e0, e1⟩ := index7_1 t
  show V c (Pipeline.arrRef spec7 1) (((cfg7.win 1).blk t).view.emb (ix2 p j)) = _
  congr 1
  funext a; apply Fin.ext
  match a with
  | ⟨0, _⟩ => show win7_1.index t (0 : Fin 2) * 5000 + 1 * p.val = 5000 * t.val + p.val; omega
  | ⟨1, _⟩ => show win7_1.index t (1 : Fin 2) * 128 + 1 * j.val = j.val; omega

/-- Window 2's block is its whole array at every point, index by index. -/
theorem iblk7_w2_apply (c : Dev nD) (t : Fin cfg7.N) (y : S128x128.Idx) :
    iblk7 V c 2 t y = V c (Pipeline.arrRef spec7 2) y := by
  obtain ⟨e0, e1⟩ := index7_2 t
  show V c (Pipeline.arrRef spec7 2) (((cfg7.win 2).blk t).view.emb y) = _
  congr 1
  funext a; apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega

/-- Window 2's block is its whole array at every point. -/
theorem iblk7_w2 (c : Dev nD) (t : Fin cfg7.N) : iblk7 V c 2 t = V c (Pipeline.arrRef spec7 2) :=
  funext fun y => iblk7_w2_apply V c t y

/-- Window 3's block is its whole array at every point, index by index. -/
theorem iblk7_w3_apply (c : Dev nD) (t : Fin cfg7.N) (y : S1x128.Idx) :
    iblk7 V c 3 t y = V c (Pipeline.arrRef spec7 3) y := by
  obtain ⟨e0, e1⟩ := index7_3 t
  show V c (Pipeline.arrRef spec7 3) (((cfg7.win 3).blk t).view.emb y) = _
  congr 1
  funext a; apply Fin.ext
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- Window 3's block is its whole array at every point. -/
theorem iblk7_w3 (c : Dev nD) (t : Fin cfg7.N) : iblk7 V c 3 t = V c (Pipeline.arrRef spec7 3) :=
  funext fun y => iblk7_w3_apply V c t y

/-- Window 4's block is its whole array at every point, index by index. -/
theorem iblk7_w4_apply (c : Dev nD) (t : Fin cfg7.N) (y : S128x128.Idx) :
    iblk7 V c 4 t y = V c (Pipeline.arrRef spec7 4) y := by
  obtain ⟨e0, e1⟩ := index7_4 t
  show V c (Pipeline.arrRef spec7 4) (((cfg7.win 4).blk t).view.emb y) = _
  congr 1
  funext a; apply Fin.ext
  match a with
  | ⟨0, _⟩ => show win7_4.index t (0 : Fin 2) * 128 + 1 * (y 0).val = (y 0).val; omega
  | ⟨1, _⟩ => show win7_4.index t (1 : Fin 2) * 128 + 1 * (y 1).val = (y 1).val; omega

/-- Window 4's block is its whole array at every point. -/
theorem iblk7_w4 (c : Dev nD) (t : Fin cfg7.N) : iblk7 V c 4 t = V c (Pipeline.arrRef spec7 4) :=
  funext fun y => iblk7_w4_apply V c t y

/-- Window 5's block at point `t`, read at row `p` and column `j`, is its array at row `5000 t + p`, column `j`. -/
theorem iblk7_w5 (c : Dev nD) (t : Fin cfg7.N) (p : Fin 5000) (j : Fin 1) :
    iblk7 V c 5 t (ix2 p j) = V c (Pipeline.arrRef spec7 5) (ix2 ⟨5000 * t.val + p.val, row_lt7 t p⟩ j) := by
  obtain ⟨e0, e1⟩ := index7_5 t
  show V c (Pipeline.arrRef spec7 5) (((cfg7.win 5).blk t).view.emb (ix2 p j)) = _
  congr 1
  funext a; apply Fin.ext
  match a with
  | ⟨0, _⟩ => show win7_5.index t (0 : Fin 2) * 5000 + 1 * p.val = 5000 * t.val + p.val; omega
  | ⟨1, _⟩ => show win7_5.index t (1 : Fin 2) * 1 + 1 * j.val = j.val; omega

/-- Window 6's block is its whole array at every point, index by index. -/
theorem iblk7_w6_apply (c : Dev nD) (t : Fin cfg7.N) (y : S1x128.Idx) :
    iblk7 V c 6 t y = V c (Pipeline.arrRef spec7 6) y := by
  obtain ⟨e0, e1⟩ := index7_6 t
  show V c (Pipeline.arrRef spec7 6) (((cfg7.win 6).blk t).view.emb y) = _
  congr 1
  funext a; apply Fin.ext
  match a with
  | ⟨0, _⟩ => show win7_6.index t (0 : Fin 2) * 1 + 1 * (y 0).val = (y 0).val; omega
  | ⟨1, _⟩ => show win7_6.index t (1 : Fin 2) * 128 + 1 * (y 1).val = (y 1).val; omega

/-- Window 6's block is its whole array at every point. -/
theorem iblk7_w6 (c : Dev nD) (t : Fin cfg7.N) : iblk7 V c 6 t = V c (Pipeline.arrRef spec7 6) :=
  funext fun y => iblk7_w6_apply V c t y

/-- Window 7's block is its whole array at every point, index by index. -/
theorem iblk7_w7_apply (c : Dev nD) (t : Fin cfg7.N) (y : S1x128.Idx) :
    iblk7 V c 7 t y = V c (Pipeline.arrRef spec7 7) y := by
  obtain ⟨e0, e1⟩ := index7_7 t
  show V c (Pipeline.arrRef spec7 7) (((cfg7.win 7).blk t).view.emb y) = _
  congr 1
  funext a; apply Fin.ext
  match a with
  | ⟨0, _⟩ => show win7_7.index t (0 : Fin 2) * 1 + 1 * (y 0).val = (y 0).val; omega
  | ⟨1, _⟩ => show win7_7.index t (1 : Fin 2) * 128 + 1 * (y 1).val = (y 1).val; omega

/-- Window 7's block is its whole array at every point. -/
theorem iblk7_w7 (c : Dev nD) (t : Fin cfg7.N) : iblk7 V c 7 t = V c (Pipeline.arrRef spec7 7) :=
  funext fun y => iblk7_w7_apply V c t y

/-- An index of the output array is in point `t`'s block iff each coordinate is in the block's range on its axis. -/
theorem mem_blk7 (t : Fin cfg7.N) (i : S150000x128.Idx) :
    i ∈ ((cfg7.win 8).blk t).view.set ↔ ∀ a : Fin 2, win7_8.index t a * S5000x128.size a ≤ (i a).val ∧ (i a).val < win7_8.index t a * S5000x128.size a + S5000x128.size a := by
  show i ∈ ((View.whole main_v174).slice (win7_8.rect t)).set ↔ _
  rw [View.set_slice_whole, Rect.mem_set_unit]
  exact Iff.rfl

/-- Every index of the output array is in the block of the point its row names: row `r` is in block `r / 5000`. -/
theorem cover7 (i : S150000x128.Idx) : ∃ t : Fin cfg7.N, (cfg7.win 8).flush t = true ∧ i ∈ ((cfg7.win 8).blk t).view.set := by
  have hi0 : (i 0).val < 150000 := (i 0).isLt
  have hi1 : (i 1).val < 128 := (i 1).isLt
  have hN : (i 0).val / 5000 < cfg7.N := by
    show (i 0).val / 5000 < grid7.N
    rw [N_7]; omega
  refine ⟨⟨(i 0).val / 5000, hN⟩, flush7_8 _, ?_⟩
  rw [mem_blk7]
  obtain ⟨e0, e1⟩ := index7_8 ⟨(i 0).val / 5000, hN⟩
  intro a
  match a with
  | ⟨0, _⟩ =>
    show win7_8.index ⟨(i 0).val / 5000, hN⟩ (0 : Fin 2) * 5000 ≤ (i 0).val ∧ (i 0).val < win7_8.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win7_8.index ⟨(i 0).val / 5000, hN⟩ (1 : Fin 2) * 128 ≤ (i 1).val ∧ (i 1).val < win7_8.index ⟨(i 0).val / 5000, hN⟩ (1 : Fin 2) * 128 + 128
    rw [e1]
    omega

/-- What point `t` leaves in the output's staging buffer, at an index of the block, is `G` at the index of the array under it. -/
theorem left7 (c : Dev nD) (G : S150000x128.Idx → Elt F .f32)
    (hG : ∀ (t : Fin cfg7.N) (p : Fin 5000) (j : Fin 128),
      out7_8 (iblk7 V c 0 t) (iblk7 V c 1 t) (iblk7 V c 2 t) (iblk7 V c 3 t) (iblk7 V c 4 t) (iblk7 V c 5 t) (iblk7 V c 6 t) (iblk7 V c 7 t) (ix2 p j)
        = G (ix2 ⟨5000 * t.val + p.val, row_lt7 t p⟩ j))
    (t : Fin cfg7.N) (y : S5000x128.Idx) :
    out7_8 (iblk7 V c 0 t) (iblk7 V c 1 t) (iblk7 V c 2 t) (iblk7 V c 3 t) (iblk7 V c 4 t) (iblk7 V c 5 t) (iblk7 V c 6 t) (iblk7 V c 7 t) y = G (((cfg7.win 8).blk t).view.emb y) := by
  obtain ⟨p, j, rfl⟩ : ∃ (p : Fin 5000) (j : Fin 128), y = ix2 p j := ⟨y 0, y 1, eq_ix2 y⟩
  obtain ⟨e0, e1⟩ := index7_8 t
  rw [hG t p j]
  congr 1
  funext a; apply Fin.ext
  match a with
  | ⟨0, _⟩ => show 5000 * t.val + p.val = win7_8.index t (0 : Fin 2) * 5000 + 1 * p.val; omega
  | ⟨1, _⟩ => show j.val = win7_8.index t (1 : Fin 2) * 128 + 1 * j.val; omega

/-- THE OUTPUT ARRAY after the region: any `G` that every point's block of results agrees with, row `5000 t + p` for row `p` of block `t`. -/
theorem arr7 (c : Dev nD) (G : S150000x128.Idx → Elt F .f32)
    (hG : ∀ (t : Fin cfg7.N) (p : Fin 5000) (j : Fin 128),
      out7_8 (iblk7 V c 0 t) (iblk7 V c 1 t) (iblk7 V c 2 t) (iblk7 V c 3 t) (iblk7 V c 4 t) (iblk7 V c 5 t) (iblk7 V c 6 t) (iblk7 V c 7 t) (ix2 p j)
        = G (ix2 ⟨5000 * t.val + p.val, row_lt7 t p⟩ j)) :
    (dat7 V c).arrAt 8 cfg7.N = G := by
  refine (dat7 V c).arrAt_eq_of_cover 8 G (fun t _ => ?_) cover7
  show (cfg7.win 8).cut (grid7.coords t) ((dat7 V c).after 8 t) = _
  rw [after7_8]
  funext y
  exact left7 V c G hG t y

end Cert.KernelIdeal.Blocks

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.RowMath.lean ====
/-
  The row functions of a mean-aggregating graph layer and of a row normalisation over the extended reals, and the
  one algebraic step between the two ways the layer is written.

  A layer sends a node's row `x` and the sum `s` of its neighbours' rows to
  `relu (mean · Wl + x · Wr + bl)`. One program scales the sum by a reciprocal count before the product and
  adds the bias last (`sageK`); the other divides the sum by the count and adds the bias between the two products
  (`sageR`). They agree as soon as multiplying by the reciprocal is dividing by the count, entry by entry
  (`sageK_eq_sageR`), and that holds for every count that is a nonzero real number (`mul_div_one`):
  no finiteness of the entries is used, only that addition on the extended reals commutes and associates.

  `lnRow` is the normalisation of a row: subtract the mean, scale by the reciprocal square root of the variance
  plus `eps`, then by `g`, and add `b`.
-/
import Idealize.ShloMosaic.PureOps.Ideal
import Idealize.ShloMosaic.Lib.ValueIdx

noncomputable section

namespace Cert.SageRows

open Idealize.ShloMosaic Idealize.ShloMosaic.ValueIdx

/-- A row of 128 extended reals. -/
abbrev Row := Fin 128 → EReal

/-- A 128 × 128 matrix of extended reals, indexed as the arrays are. -/
abbrev Mat128 := (⟨2, ![128, 128]⟩ : Shape).Idx → EReal

/-- The layer with the neighbour sum `s` scaled by `inv` first and the bias added last. -/
def sageK (s : Row) (inv : EReal) (x : Row) (wl wr : Mat128) (bl : Row) (z : EReal) : Row :=
  fun j => max (((∑ k, (s k * inv) * wl (ix2 k j)) + (∑ k, x k * wr (ix2 k j))) + bl j) z

/-- The layer with the neighbour sum `s` divided by `cnt` and the bias added between the two products. -/
def sageR (s : Row) (cnt : EReal) (x : Row) (wl wr : Mat128) (bl : Row) (z : EReal) : Row :=
  fun j => max (((∑ k, Ideal.div (s k) cnt * wl (ix2 k j)) + bl j) + (∑ k, x k * wr (ix2 k j))) z

/-- The normalisation of a row `v` over its `n` entries, with scale `g` and shift `b`. -/
def lnRow (v g b : Row) (n eps : EReal) : Row :=
  let mu := Ideal.div (∑ k, v k) n
  let var := Ideal.div (∑ k, (v k - mu) * (v k - mu)) n
  fun j => (v j - mu) * Ideal.rsqrt (var + eps) * g j + b j

/-- The two layers agree when scaling by `inv` is dividing by `cnt`. -/
theorem sageK_eq_sageR {s : Row} {inv cnt : EReal} {x : Row} {wl wr : Mat128} {bl : Row} {z : EReal}
    (h : ∀ v : EReal, v * inv = Ideal.div v cnt) : sageK s inv x wl wr bl z = sageR s cnt x wl wr bl z := by
  funext j
  unfold sageK sageR
  simp only [h]
  rw [add_right_comm]

/-- Division by a nonzero real number is multiplication by the quotient of one by it, at the infinities too. -/
theorem mul_div_one {r : ℝ} (hr : r ≠ 0) (v : EReal) : v * Ideal.div 1 (r : EReal) = Ideal.div v (r : EReal) := by
  rw [Ideal.div_coe hr, Ideal.div_coe hr, one_mul]

/-- The same for a count that is at least one. -/
theorem mul_div_one_of_one_le {r : ℝ} (hr : 1 ≤ r) (v : EReal) : v * Ideal.div 1 (r : EReal) = Ideal.div v (r : EReal) :=
  mul_div_one (by intro h; rw [h] at hr; exact absurd hr (by norm_num)) v

end Cert.SageRows

end
-- ==== Proof.RowMathKernel.lean ====
/-
  The kernel's blocks, row by row, at the ideal values.

  Each block of 5000 rows is computed from loaded blocks by pointwise operations, matrix products into a zero
  accumulator, broadcasts of a bias row or of a per-row column, and sums along the 128 lanes. None of them mixes
  rows, so row `p` of a block's result is a function of row `p` of its inputs: a dense layer for the two
  projections (`rowOf_k0_pay1`, `rowOf_k1_pay1`), the mean-aggregating layer `sageK` for the four copies of
  the layer body (`rowOf_k2_pay1`; the other copies are the same term), and that layer followed by the row
  normalisation `lnRow` for the last body (`rowOf_k6_pay1`). A change of float format is the identity on
  extended reals and a cast to the same shape is the identity, so neither leaves a trace.
-/
import proofs.«113985_j6949257085118_2_alg».proof.Proof.Gen.KernelIdeal.Skeleton
import proofs.«113985_j6949257085118_2_alg».proof.Proof.LibRowLayers
import proofs.«113985_j6949257085118_2_alg».proof.Proof.LibColumnBroadcast
import proofs.«113985_j6949257085118_2_alg».proof.Proof.RowMath
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section
namespace Cert.SageRows
open Idealize.ShloMosaic Idealize.ShloMosaic.ValueIdx Cert.RowLayers Cert.ColumnBroadcast Cert.KernelIdeal Cert.KernelIdeal.Gen

/-- The dimension numbers of the 128-wide product say "rows times columns". -/
theorem dims128 : RowsTimesCols dot_S5000x128_S128x128_S5000x128_1_0_0_1_n_n :=
  ⟨rfl, rfl, fun _ _ => rfl, fun _ _ => rfl, fun _ _ => rfl, fun _ _ => rfl⟩

/-! ## The two projections -/

/-- So do those of the 64-wide product. -/
theorem dims64 : RowsTimesCols dot_S5000x64_S64x128_S5000x128_1_0_0_1_n_n :=
  ⟨rfl, rfl, fun _ _ => rfl, fun _ _ => rfl, fun _ _ => rfl, fun _ _ => rfl⟩

/-- The first projection's block on a row: a dense layer of the row. -/
theorem rowOf_k0_pay1 (v0 : Vec Ideal S5000x64 .f32) (v2 : Vec Ideal S64x128 .f32) (v5 : Vec Ideal S1x128 .f32) (p : Fin 5000) :
    rowOf (k0_pay1 v0 v2 v5) p = dense (rowOf v0 p) v2 (rowOf v5 0) := by
  unfold k0_pay1
  simp only [shapeCast_self]
  exact rowOf_dense_device dims64 none _ _ v5 _ p

/-- The second projection's block on a row. -/
theorem rowOf_k1_pay1 (v0 : Vec Ideal S5000x128 .f32) (v2 : Vec Ideal S128x128 .f32) (v5 : Vec Ideal S1x128 .f32) (p : Fin 5000) :
    rowOf (k1_pay1 v0 v2 v5) p = dense (rowOf v0 p) v2 (rowOf v5 0) := by
  unfold k1_pay1
  simp only [shapeCast_self]
  exact rowOf_dense_device dims128 none _ _ v5 _ p

/-! ## The layer -/

/-- The layer's block on a row: the neighbour sum scaled by the row's reciprocal count, the two products, the bias
    row, the rectifier at zero. -/
theorem rowOf_k2_pay1 (v0 : Vec Ideal S5000x128 .f32) (v2 : Vec Ideal S5000x1 .f32) (v7 : Vec Ideal S5000x128 .f32)
    (v10 v13 : Vec Ideal S128x128 .f32) (v19 : Vec Ideal S1x128 .f32) (p : Fin 5000) :
    rowOf (k2_pay1 v0 v2 v7 v10 v13 v19) p
      = sageK (rowOf v0 p) (v2 (ix2 p (0 : Fin 1))) (rowOf v7 p) v10 v13 (rowOf v19 0) (Ideal.ofBits .f32 0x00000000#32) := by
  unfold k2_pay1
  simp only [shapeCast_self]
  rw [rowOf_maximumf_splat, rowOf_addf, rowOf_addf, rowOf_matmul_zero dims128, rowOf_matmul_zero dims128, rowOf_broadcastTo]
  funext j
  unfold relu sageK
  have hb : ∀ k : Fin 128, broadcastTo S5000x128 v2 broadcasts_S5000x1_S5000x128 (ix2 p k) = v2 (ix2 p (0 : Fin 1)) :=
    fun k => broadcastTo_a1_ab_apply v2 _ p k
  show max ((∑ k : Fin 128, (v0 (ix2 p k) * broadcastTo S5000x128 v2 broadcasts_S5000x1_S5000x128 (ix2 p k)) * v10 (ix2 k j))
      + (∑ k : Fin 128, v7 (ix2 p k) * v13 (ix2 k j)) + v19 (ix2 0 j)) (Ideal.ofBits .f32 0x00000000#32) = _
  simp only [hb]
  rfl

theorem k3_pay1_eq : @k3_pay1 Ideal _ = @k2_pay1 Ideal _ := rfl
theorem k4_pay1_eq : @k4_pay1 Ideal _ = @k2_pay1 Ideal _ := rfl
theorem k5_pay1_eq : @k5_pay1 Ideal _ = @k2_pay1 Ideal _ := rfl

/-! ## The layer followed by the normalisation -/

/-- A sum along the 128 lanes kept as a unit column, read at row `p`: the sum of the row. -/
theorem laneSum_apply (X : FVec Ideal S5000x128 .f32) (hR : S5000x128.Reduces [1] S5000) (hφ : FKind.Formats .f32)
    (hacc : (0x00000000#32 : BitVec 32) = FKind.add.neutral .f32 hφ) (hc : S5000.ShapeCasts S5000x1) (p : Fin 5000) :
    shapeCast S5000x1 (multiReduction (F := Ideal) .add [1] S5000 X 0x00000000#32 hR hφ hacc) hc (ix2 p (0 : Fin 1))
      = ∑ k : Fin 128, X (ix2 p k) := by
  refine (shapeCast_apply _ hc (ix2 p (0 : Fin 1)) (ix1 p) ?_).trans ?_
  · rw [Shape.rowMajor_val_one, Shape.rowMajor_val_two]
    show p.val = p.val * 1 + 0
    omega
  · refine (Ideal.multiReduction_add_single X _ hR hφ hacc (ix1 p)).trans ?_
    exact Finset.sum_congr rfl fun k _ => congrArg X (funext fun a => Fin.ext (by
      match a with
      | ⟨0, _⟩ => rfl
      | ⟨1, _⟩ => rfl))

/-- The normalisation as the block computes it — lane sums kept as unit columns, divisions by the splat `128`,
    the reciprocal square root of the variance plus the splat `eps`, the scale and shift rows broadcast down the
    rows — sends row `p` of `X` to `lnRow` of it. -/
theorem rowOf_ln_device (X : FVec Ideal S5000x128 .f32) (g b : FVec Ideal S1x128 .f32)
    (hR : S5000x128.Reduces [1] S5000) (hφ : FKind.Formats .f32)
    (hacc : (0x00000000#32 : BitVec 32) = FKind.add.neutral .f32 hφ) (hc : S5000.ShapeCasts S5000x1)
    (hB : S5000x1.Broadcasts S5000x128) (hBr : S1x128.Broadcasts S5000x128) (p : Fin 5000) :
    let mean : FVec Ideal S5000x1 .f32 :=
      divf (shapeCast S5000x1 (multiReduction (F := Ideal) .add [1] S5000 X 0x00000000#32 hR hφ hacc) hc)
        (broadcast S5000x1 (Scalar.ofBits (F := Ideal) .f32 0x43000000#32))
    let dev : FVec Ideal S5000x128 .f32 := subf X (broadcastTo S5000x128 mean hB)
    let var : FVec Ideal S5000x1 .f32 :=
      divf (shapeCast S5000x1 (multiReduction (F := Ideal) .add [1] S5000 (mulf dev dev) 0x00000000#32 hR hφ hacc) hc)
        (broadcast S5000x1 (Scalar.ofBits (F := Ideal) .f32 0x43000000#32))
    rowOf (addf (mulf (mulf dev (broadcastTo S5000x128
        (rsqrt (addf var (broadcast S5000x1 (Scalar.ofBits (F := Ideal) .f32 0x3727C5AC#32)))) hB))
        (broadcastTo S5000x128 g hBr)) (broadcastTo S5000x128 b hBr)) p
      = lnRow (rowOf X p) (rowOf g 0) (rowOf b 0) (Ideal.ofBits .f32 0x43000000#32) (Ideal.ofBits .f32 0x3727C5AC#32) := by
  intro mean dev var
  funext j
  have hmean : mean (ix2 p (0 : Fin 1)) = Ideal.div (∑ k : Fin 128, X (ix2 p k)) (Ideal.ofBits .f32 0x43000000#32) := by
    show Ideal.div (shapeCast S5000x1 (multiReduction (F := Ideal) .add [1] S5000 X 0x00000000#32 hR hφ hacc) hc (ix2 p (0 : Fin 1))) _ = _
    rw [laneSum_apply]
    rfl
  have hdev : ∀ k : Fin 128, dev (ix2 p k)
      = X (ix2 p k) - Ideal.div (∑ k : Fin 128, X (ix2 p k)) (Ideal.ofBits .f32 0x43000000#32) := fun k => by
    show X (ix2 p k) - broadcastTo S5000x128 mean hB (ix2 p k) = _
    rw [broadcastTo_a1_ab_apply, hmean]
  have hvar : var (ix2 p (0 : Fin 1))
      = Ideal.div (∑ k : Fin 128, dev (ix2 p k) * dev (ix2 p k)) (Ideal.ofBits .f32 0x43000000#32) := by
    show Ideal.div (shapeCast S5000x1 (multiReduction (F := Ideal) .add [1] S5000 (mulf dev dev) 0x00000000#32 hR hφ hacc) hc (ix2 p (0 : Fin 1))) _ = _
    rw [laneSum_apply]
    rfl
  show (dev (ix2 p j) * broadcastTo S5000x128
        (rsqrt (addf var (broadcast S5000x1 (Scalar.ofBits (F := Ideal) .f32 0x3727C5AC#32)))) hB (ix2 p j))
      * broadcastTo S5000x128 g hBr (ix2 p j) + broadcastTo S5000x128 b hBr (ix2 p j) = _
  rw [broadcastTo_a1_ab_apply, broadcastTo_1b_ab_apply, broadcastTo_1b_ab_apply]
  show (dev (ix2 p j) * Ideal.rsqrt (var (ix2 p (0 : Fin 1)) + Ideal.ofBits .f32 0x3727C5AC#32)) * g (ix2 0 j) + b (ix2 0 j) = _
  rw [hvar]
  simp only [hdev]
  rfl

theorem k6_pay2_eq : @k6_pay2 Ideal _ = @k2_pay1 Ideal _ := rfl

/-- The last layer's block on a row: the layer, then the normalisation of its row. -/
theorem rowOf_k6_pay1 (v0 : Vec Ideal S5000x128 .f32) (v2 : Vec Ideal S5000x1 .f32) (v7 : Vec Ideal S5000x128 .f32)
    (v10 v13 : Vec Ideal S128x128 .f32) (v19 v43 v47 : Vec Ideal S1x128 .f32) (p : Fin 5000) :
    rowOf (k6_pay1 (k6_pay4 v0 v2 v7 v10 v13 v19) (k6_pay5 v0 v2 v7 v10 v13 v19) k6_pay6 v43 v47) p
      = lnRow (sageK (rowOf v0 p) (v2 (ix2 p (0 : Fin 1))) (rowOf v7 p) v10 v13 (rowOf v19 0) (Ideal.ofBits .f32 0x00000000#32))
          (rowOf v43 0) (rowOf v47 0) (Ideal.ofBits .f32 0x43000000#32) (Ideal.ofBits .f32 0x3727C5AC#32) := by
  have hX : rowOf (k6_pay2 v0 v2 v7 v10 v13 v19) p = _ := rowOf_k2_pay1 v0 v2 v7 v10 v13 v19 p
  rw [← hX]
  unfold k6_pay1 k6_pay4 k6_pay5 k6_pay3 k6_pay6
  simp only [shapeCast_self]
  exact rowOf_ln_device (k6_pay2 v0 v2 v7 v10 v13 v19) v43 v47 _ _ _ _ _ _ p

theorem k7_pay1_eq : @k7_pay1 Ideal _ = @k6_pay1 Ideal _ := rfl
theorem k7_pay2_eq : @k7_pay2 Ideal _ = @k6_pay2 Ideal _ := rfl
theorem k7_pay3_eq : @k7_pay3 Ideal _ = @k6_pay3 Ideal _ := rfl
theorem k7_pay4_eq : @k7_pay4 Ideal _ = @k6_pay4 Ideal _ := rfl
theorem k7_pay5_eq : @k7_pay5 Ideal _ = @k6_pay5 Ideal _ := rfl
theorem k7_pay6_eq : @k7_pay6 Ideal _ = @k6_pay6 Ideal _ := rfl

end Cert.SageRows

end
-- ==== Proof.RegionVal.lean ====
/-
  What each blocked kernel region leaves in its output array, as ONE function of the arrays it finds at its entry.

  Every region cuts its row-indexed arrays into blocks of 5000 rows and runs its body once per block; the body treats
  every row alone (a projection, a mean-aggregation update, or that update followed by the row normalisation). So the
  output array, read at row r and column j, is the body's row function of row r of the row-indexed inputs, the weight
  matrices and the bias row: the block a row lies in does not matter.
-/
import proofs.«113985_j6949257085118_2_alg».proof.Proof.BlocksProj
import proofs.«113985_j6949257085118_2_alg».proof.Proof.BlocksSage
import proofs.«113985_j6949257085118_2_alg».proof.Proof.BlocksNorm
import proofs.«113985_j6949257085118_2_alg».proof.Proof.RowMathKernel

set_option maxRecDepth 16384

noncomputable section

namespace Cert.KernelIdeal.RegionVal

open Cert.KernelIdeal Cert.KernelIdeal.Gen Cert.RowLayers Cert.SageRows
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The layer's row function at equal arguments. -/
theorem sageK_congr {s s' : Row} {inv inv' : EReal} {x x' : Row} {wl wl' wr wr' : Mat128} {bl bl' : Row} (z : EReal)
    (hs : s = s') (hi : inv = inv') (hx : x = x') (hl : wl = wl') (hr : wr = wr') (hb : bl = bl') :
    sageK s inv x wl wr bl z = sageK s' inv' x' wl' wr' bl' z := by
  subst hs hi hx hl hr hb; rfl

/-- A dense layer's row function at equal arguments. -/
theorem dense_congr {K J : ℕ} {h h' : Fin K → EReal} {w w' : (⟨2, ![K, J]⟩ : Shape).Idx → EReal} {b b' : Fin J → EReal}
    (hh : h = h') (hw : w = w') (hb : b = b') : dense h w b = dense h' w' b' := by
  subst hh hw hb; rfl

/-- The row normalisation at equal arguments. -/
theorem lnRow_congr {v v' g g' b b' : Row} (n eps : EReal) (hv : v = v') (hg : g = g') (hb : b = b') :
    lnRow v g b n eps = lnRow v' g' b' n eps := by
  subst hv hg hb; rfl

/-- The second, third and fourth copies of the layer's body on a row: the same term as the first. -/
theorem rowOf_k3_pay1 (v0 : Vec Ideal S5000x128 .f32) (v2 : Vec Ideal S5000x1 .f32) (v7 : Vec Ideal S5000x128 .f32)
    (v10 v13 : Vec Ideal S128x128 .f32) (v19 : Vec Ideal S1x128 .f32) (p : Fin 5000) :
    rowOf (k3_pay1 v0 v2 v7 v10 v13 v19) p
      = sageK (rowOf v0 p) (v2 (ix2 p (0 : Fin 1))) (rowOf v7 p) v10 v13 (rowOf v19 0) (Ideal.ofBits .f32 0x00000000#32) := by
  rw [k3_pay1_eq]; exact rowOf_k2_pay1 v0 v2 v7 v10 v13 v19 p
theorem rowOf_k4_pay1 (v0 : Vec Ideal S5000x128 .f32) (v2 : Vec Ideal S5000x1 .f32) (v7 : Vec Ideal S5000x128 .f32)
    (v10 v13 : Vec Ideal S128x128 .f32) (v19 : Vec Ideal S1x128 .f32) (p : Fin 5000) :
    rowOf (k4_pay1 v0 v2 v7 v10 v13 v19) p
      = sageK (rowOf v0 p) (v2 (ix2 p (0 : Fin 1))) (rowOf v7 p) v10 v13 (rowOf v19 0) (Ideal.ofBits .f32 0x00000000#32) := by
  rw [k4_pay1_eq]; exact rowOf_k2_pay1 v0 v2 v7 v10 v13 v19 p
theorem rowOf_k5_pay1 (v0 : Vec Ideal S5000x128 .f32) (v2 : Vec Ideal S5000x1 .f32) (v7 : Vec Ideal S5000x128 .f32)
    (v10 v13 : Vec Ideal S128x128 .f32) (v19 : Vec Ideal S1x128 .f32) (p : Fin 5000) :
    rowOf (k5_pay1 v0 v2 v7 v10 v13 v19) p
      = sageK (rowOf v0 p) (v2 (ix2 p (0 : Fin 1))) (rowOf v7 p) v10 v13 (rowOf v19 0) (Ideal.ofBits .f32 0x00000000#32) := by
  rw [k5_pay1_eq]; exact rowOf_k2_pay1 v0 v2 v7 v10 v13 v19 p

/-- The second copy of the last body on a row: the same term as the first. -/
theorem rowOf_k7_pay1 (v0 : Vec Ideal S5000x128 .f32) (v2 : Vec Ideal S5000x1 .f32) (v7 : Vec Ideal S5000x128 .f32)
    (v10 v13 : Vec Ideal S128x128 .f32) (v19 v43 v47 : Vec Ideal S1x128 .f32) (p : Fin 5000) :
    rowOf (k7_pay1 (k7_pay4 v0 v2 v7 v10 v13 v19) (k7_pay5 v0 v2 v7 v10 v13 v19) k7_pay6 v43 v47) p
      = lnRow (sageK (rowOf v0 p) (v2 (ix2 p (0 : Fin 1))) (rowOf v7 p) v10 v13 (rowOf v19 0) (Ideal.ofBits .f32 0x00000000#32))
          (rowOf v43 0) (rowOf v47 0) (Ideal.ofBits .f32 0x43000000#32) (Ideal.ofBits .f32 0x3727C5AC#32) := by
  rw [k7_pay1_eq, k7_pay4_eq, k7_pay5_eq, k7_pay6_eq]; exact rowOf_k6_pay1 v0 v2 v7 v10 v13 v19 v43 v47 p

/-- Region 0 at one row of one block: a dense layer of the array's row `5000 t + p`. -/
theorem point0 (t : Fin cfg0.N) (p : Fin 5000) (j : Fin 128) :
    k0_pay1 (iblk0 V c 0 t) (iblk0 V c 1 t) (iblk0 V c 2 t) (ix2 p j)
      = dense (rowOf (a := 150000) (b := 64) (V c (Pipeline.arrRef spec0 0)) (⟨5000 * t.val + p.val, Blocks.row_lt0 t p⟩ : Fin 150000)) (V c (Pipeline.arrRef spec0 1)) (rowOf (a := 1) (b := 128) (V c (Pipeline.arrRef spec0 2)) 0) j := by
  refine (congrFun (rowOf_k0_pay1 (iblk0 V c 0 t) (iblk0 V c 1 t) (iblk0 V c 2 t) p) j).trans ?_
  exact congrFun (dense_congr (funext fun k => Blocks.iblk0_w0 V c t p k) (Blocks.iblk0_w1 V c t)
    (funext fun k => Blocks.iblk0_w2_apply V c t (ix2 0 k))) j

/-- Region 0 (a projection of 150000 rows): row r of the output is the dense layer of row r of the table, the weight
    matrix and the bias row. -/
theorem region0 : (dat0 V c).arrAt 3 cfg0.N = fun i : S150000x128.Idx =>
    dense (rowOf (a := 150000) (b := 64) (V c (Pipeline.arrRef spec0 0)) (i 0)) (V c (Pipeline.arrRef spec0 1)) (rowOf (a := 1) (b := 128) (V c (Pipeline.arrRef spec0 2)) 0) (i 1) := by
  refine Blocks.arr0 V c _ (fun t p j => ?_)
  rw [Blocks.out0_eq]
  exact point0 V c t p j

/-- Region 1 at one row of one block: a dense layer of the array's row `5000 t + p`. -/
theorem point1 (t : Fin cfg1.N) (p : Fin 5000) (j : Fin 128) :
    k1_pay1 (iblk1 V c 0 t) (iblk1 V c 1 t) (iblk1 V c 2 t) (ix2 p j)
      = dense (rowOf (a := 75000) (b := 128) (V c (Pipeline.arrRef spec1 0)) (⟨5000 * t.val + p.val, Blocks.row_lt1 t p⟩ : Fin 75000)) (V c (Pipeline.arrRef spec1 1)) (rowOf (a := 1) (b := 128) (V c (Pipeline.arrRef spec1 2)) 0) j := by
  refine (congrFun (rowOf_k1_pay1 (iblk1 V c 0 t) (iblk1 V c 1 t) (iblk1 V c 2 t) p) j).trans ?_
  exact congrFun (dense_congr (funext fun k => Blocks.iblk1_w0 V c t p k) (Blocks.iblk1_w1 V c t)
    (funext fun k => Blocks.iblk1_w2_apply V c t (ix2 0 k))) j

/-- Region 1 (a projection of 75000 rows): row r of the output is the dense layer of row r of the table, the weight
    matrix and the bias row. -/
theorem region1 : (dat1 V c).arrAt 3 cfg1.N = fun i : S75000x128.Idx =>
    dense (rowOf (a := 75000) (b := 128) (V c (Pipeline.arrRef spec1 0)) (i 0)) (V c (Pipeline.arrRef spec1 1)) (rowOf (a := 1) (b := 128) (V c (Pipeline.arrRef spec1 2)) 0) (i 1) := by
  refine Blocks.arr1 V c _ (fun t p j => ?_)
  rw [Blocks.out1_eq]
  exact point1 V c t p j

/-- Region 2 at one row of one block: the layer's row function of the arrays' row `5000 t + p`. -/
theorem point2 (t : Fin cfg2.N) (p : Fin 5000) (j : Fin 128) :
    k2_pay1 (iblk2 V c 0 t) (iblk2 V c 5 t) (iblk2 V c 1 t) (iblk2 V c 2 t) (iblk2 V c 4 t) (iblk2 V c 3 t) (ix2 p j)
      = sageK (rowOf (a := 75000) (b := 128) (V c (Pipeline.arrRef spec2 0)) (⟨5000 * t.val + p.val, Blocks.row_lt2 t p⟩ : Fin 75000)) (V c (Pipeline.arrRef spec2 5) (ix2 (⟨5000 * t.val + p.val, Blocks.row_lt2 t p⟩ : Fin 75000) (0 : Fin 1)))
          (rowOf (a := 75000) (b := 128) (V c (Pipeline.arrRef spec2 1)) (⟨5000 * t.val + p.val, Blocks.row_lt2 t p⟩ : Fin 75000)) (V c (Pipeline.arrRef spec2 2)) (V c (Pipeline.arrRef spec2 4))
          (rowOf (a := 1) (b := 128) (V c (Pipeline.arrRef spec2 3)) 0) (Ideal.ofBits .f32 0x00000000#32) j := by
  refine (congrFun (rowOf_k2_pay1 (iblk2 V c 0 t) (iblk2 V c 5 t) (iblk2 V c 1 t) (iblk2 V c 2 t) (iblk2 V c 4 t) (iblk2 V c 3 t) p) j).trans ?_
  exact congrFun (sageK_congr _ (funext fun k => Blocks.iblk2_w0 V c t p k) (Blocks.iblk2_w5 V c t p 0)
    (funext fun k => Blocks.iblk2_w1 V c t p k) (Blocks.iblk2_w2 V c t) (Blocks.iblk2_w4 V c t)
    (funext fun k => Blocks.iblk2_w3_apply V c t (ix2 0 k))) j

/-- Region 2 (a mean-aggregation update over 75000 rows): row r of the output is the update's row function of row r of
    the summed messages, the inverse count at r, row r of the table itself, the two weight matrices and the bias row. -/
theorem region2 : (dat2 V c).arrAt 6 cfg2.N = fun i : S75000x128.Idx =>
    sageK (rowOf (a := 75000) (b := 128) (V c (Pipeline.arrRef spec2 0)) (i 0)) (V c (Pipeline.arrRef spec2 5) (ix2 (i 0) (0 : Fin 1)))
          (rowOf (a := 75000) (b := 128) (V c (Pipeline.arrRef spec2 1)) (i 0)) (V c (Pipeline.arrRef spec2 2)) (V c (Pipeline.arrRef spec2 4))
          (rowOf (a := 1) (b := 128) (V c (Pipeline.arrRef spec2 3)) 0) (Ideal.ofBits .f32 0x00000000#32) (i 1) := by
  refine Blocks.arr2 V c _ (fun t p j => ?_)
  rw [Blocks.out2_eq]
  exact point2 V c t p j

/-- Region 3 at one row of one block: the layer's row function of the arrays' row `5000 t + p`. -/
theorem point3 (t : Fin cfg3.N) (p : Fin 5000) (j : Fin 128) :
    k3_pay1 (iblk3 V c 0 t) (iblk3 V c 5 t) (iblk3 V c 1 t) (iblk3 V c 2 t) (iblk3 V c 4 t) (iblk3 V c 3 t) (ix2 p j)
      = sageK (rowOf (a := 150000) (b := 128) (V c (Pipeline.arrRef spec3 0)) (⟨5000 * t.val + p.val, Blocks.row_lt3 t p⟩ : Fin 150000)) (V c (Pipeline.arrRef spec3 5) (ix2 (⟨5000 * t.val + p.val, Blocks.row_lt3 t p⟩ : Fin 150000) (0 : Fin 1)))
          (rowOf (a := 150000) (b := 128) (V c (Pipeline.arrRef spec3 1)) (⟨5000 * t.val + p.val, Blocks.row_lt3 t p⟩ : Fin 150000)) (V c (Pipeline.arrRef spec3 2)) (V c (Pipeline.arrRef spec3 4))
          (rowOf (a := 1) (b := 128) (V c (Pipeline.arrRef spec3 3)) 0) (Ideal.ofBits .f32 0x00000000#32) j := by
  refine (congrFun (rowOf_k3_pay1 (iblk3 V c 0 t) (iblk3 V c 5 t) (iblk3 V c 1 t) (iblk3 V c 2 t) (iblk3 V c 4 t) (iblk3 V c 3 t) p) j).trans ?_
  exact congrFun (sageK_congr _ (funext fun k => Blocks.iblk3_w0 V c t p k) (Blocks.iblk3_w5 V c t p 0)
    (funext fun k => Blocks.iblk3_w1 V c t p k) (Blocks.iblk3_w2 V c t) (Blocks.iblk3_w4 V c t)
    (funext fun k => Blocks.iblk3_w3_apply V c t (ix2 0 k))) j

/-- Region 3 (a mean-aggregation update over 150000 rows): row r of the output is the update's row function of row r of
    the summed messages, the inverse count at r, row r of the table itself, the two weight matrices and the bias row. -/
theorem region3 : (dat3 V c).arrAt 6 cfg3.N = fun i : S150000x128.Idx =>
    sageK (rowOf (a := 150000) (b := 128) (V c (Pipeline.arrRef spec3 0)) (i 0)) (V c (Pipeline.arrRef spec3 5) (ix2 (i 0) (0 : Fin 1)))
          (rowOf (a := 150000) (b := 128) (V c (Pipeline.arrRef spec3 1)) (i 0)) (V c (Pipeline.arrRef spec3 2)) (V c (Pipeline.arrRef spec3 4))
          (rowOf (a := 1) (b := 128) (V c (Pipeline.arrRef spec3 3)) 0) (Ideal.ofBits .f32 0x00000000#32) (i 1) := by
  refine Blocks.arr3 V c _ (fun t p j => ?_)
  rw [Blocks.out3_eq]
  exact point3 V c t p j

/-- Region 4 at one row of one block: the layer's row function of the arrays' row `5000 t + p`. -/
theorem point4 (t : Fin cfg4.N) (p : Fin 5000) (j : Fin 128) :
    k4_pay1 (iblk4 V c 0 t) (iblk4 V c 5 t) (iblk4 V c 1 t) (iblk4 V c 2 t) (iblk4 V c 4 t) (iblk4 V c 3 t) (ix2 p j)
      = sageK (rowOf (a := 75000) (b := 128) (V c (Pipeline.arrRef spec4 0)) (⟨5000 * t.val + p.val, Blocks.row_lt4 t p⟩ : Fin 75000)) (V c (Pipeline.arrRef spec4 5) (ix2 (⟨5000 * t.val + p.val, Blocks.row_lt4 t p⟩ : Fin 75000) (0 : Fin 1)))
          (rowOf (a := 75000) (b := 128) (V c (Pipeline.arrRef spec4 1)) (⟨5000 * t.val + p.val, Blocks.row_lt4 t p⟩ : Fin 75000)) (V c (Pipeline.arrRef spec4 2)) (V c (Pipeline.arrRef spec4 4))
          (rowOf (a := 1) (b := 128) (V c (Pipeline.arrRef spec4 3)) 0) (Ideal.ofBits .f32 0x00000000#32) j := by
  refine (congrFun (rowOf_k4_pay1 (iblk4 V c 0 t) (iblk4 V c 5 t) (iblk4 V c 1 t) (iblk4 V c 2 t) (iblk4 V c 4 t) (iblk4 V c 3 t) p) j).trans ?_
  exact congrFun (sageK_congr _ (funext fun k => Blocks.iblk4_w0 V c t p k) (Blocks.iblk4_w5 V c t p 0)
    (funext fun k => Blocks.iblk4_w1 V c t p k) (Blocks.iblk4_w2 V c t) (Blocks.iblk4_w4 V c t)
    (funext fun k => Blocks.iblk4_w3_apply V c t (ix2 0 k))) j

/-- Region 4 (a mean-aggregation update over 75000 rows): row r of the output is the update's row function of row r of
    the summed messages, the inverse count at r, row r of the table itself, the two weight matrices and the bias row. -/
theorem region4 : (dat4 V c).arrAt 6 cfg4.N = fun i : S75000x128.Idx =>
    sageK (rowOf (a := 75000) (b := 128) (V c (Pipeline.arrRef spec4 0)) (i 0)) (V c (Pipeline.arrRef spec4 5) (ix2 (i 0) (0 : Fin 1)))
          (rowOf (a := 75000) (b := 128) (V c (Pipeline.arrRef spec4 1)) (i 0)) (V c (Pipeline.arrRef spec4 2)) (V c (Pipeline.arrRef spec4 4))
          (rowOf (a := 1) (b := 128) (V c (Pipeline.arrRef spec4 3)) 0) (Ideal.ofBits .f32 0x00000000#32) (i 1) := by
  refine Blocks.arr4 V c _ (fun t p j => ?_)
  rw [Blocks.out4_eq]
  exact point4 V c t p j

/-- Region 5 at one row of one block: the layer's row function of the arrays' row `5000 t + p`. -/
theorem point5 (t : Fin cfg5.N) (p : Fin 5000) (j : Fin 128) :
    k5_pay1 (iblk5 V c 0 t) (iblk5 V c 5 t) (iblk5 V c 1 t) (iblk5 V c 2 t) (iblk5 V c 4 t) (iblk5 V c 3 t) (ix2 p j)
      = sageK (rowOf (a := 150000) (b := 128) (V c (Pipeline.arrRef spec5 0)) (⟨5000 * t.val + p.val, Blocks.row_lt5 t p⟩ : Fin 150000)) (V c (Pipeline.arrRef spec5 5) (ix2 (⟨5000 * t.val + p.val, Blocks.row_lt5 t p⟩ : Fin 150000) (0 : Fin 1)))
          (rowOf (a := 150000) (b := 128) (V c (Pipeline.arrRef spec5 1)) (⟨5000 * t.val + p.val, Blocks.row_lt5 t p⟩ : Fin 150000)) (V c (Pipeline.arrRef spec5 2)) (V c (Pipeline.arrRef spec5 4))
          (rowOf (a := 1) (b := 128) (V c (Pipeline.arrRef spec5 3)) 0) (Ideal.ofBits .f32 0x00000000#32) j := by
  refine (congrFun (rowOf_k5_pay1 (iblk5 V c 0 t) (iblk5 V c 5 t) (iblk5 V c 1 t) (iblk5 V c 2 t) (iblk5 V c 4 t) (iblk5 V c 3 t) p) j).trans ?_
  exact congrFun (sageK_congr _ (funext fun k => Blocks.iblk5_w0 V c t p k) (Blocks.iblk5_w5 V c t p 0)
    (funext fun k => Blocks.iblk5_w1 V c t p k) (Blocks.iblk5_w2 V c t) (Blocks.iblk5_w4 V c t)
    (funext fun k => Blocks.iblk5_w3_apply V c t (ix2 0 k))) j

/-- Region 5 (a mean-aggregation update over 150000 rows): row r of the output is the update's row function of row r of
    the summed messages, the inverse count at r, row r of the table itself, the two weight matrices and the bias row. -/
theorem region5 : (dat5 V c).arrAt 6 cfg5.N = fun i : S150000x128.Idx =>
    sageK (rowOf (a := 150000) (b := 128) (V c (Pipeline.arrRef spec5 0)) (i 0)) (V c (Pipeline.arrRef spec5 5) (ix2 (i 0) (0 : Fin 1)))
          (rowOf (a := 150000) (b := 128) (V c (Pipeline.arrRef spec5 1)) (i 0)) (V c (Pipeline.arrRef spec5 2)) (V c (Pipeline.arrRef spec5 4))
          (rowOf (a := 1) (b := 128) (V c (Pipeline.arrRef spec5 3)) 0) (Ideal.ofBits .f32 0x00000000#32) (i 1) := by
  refine Blocks.arr5 V c _ (fun t p j => ?_)
  rw [Blocks.out5_eq]
  exact point5 V c t p j

/-- Region 6 at one row of one block: the layer's row function of the arrays' row `5000 t + p`, normalised. -/
theorem point6 (t : Fin cfg6.N) (p : Fin 5000) (j : Fin 128) :
    k6_pay1 (k6_pay4 (iblk6 V c 0 t) (iblk6 V c 5 t) (iblk6 V c 1 t) (iblk6 V c 2 t) (iblk6 V c 4 t) (iblk6 V c 3 t)) (k6_pay5 (iblk6 V c 0 t) (iblk6 V c 5 t) (iblk6 V c 1 t) (iblk6 V c 2 t) (iblk6 V c 4 t) (iblk6 V c 3 t)) (k6_pay6 (F := Ideal)) (iblk6 V c 6 t) (iblk6 V c 7 t) (ix2 p j)
      = lnRow (sageK (rowOf (a := 75000) (b := 128) (V c (Pipeline.arrRef spec6 0)) (⟨5000 * t.val + p.val, Blocks.row_lt6 t p⟩ : Fin 75000)) (V c (Pipeline.arrRef spec6 5) (ix2 (⟨5000 * t.val + p.val, Blocks.row_lt6 t p⟩ : Fin 75000) (0 : Fin 1)))
          (rowOf (a := 75000) (b := 128) (V c (Pipeline.arrRef spec6 1)) (⟨5000 * t.val + p.val, Blocks.row_lt6 t p⟩ : Fin 75000)) (V c (Pipeline.arrRef spec6 2)) (V c (Pipeline.arrRef spec6 4))
          (rowOf (a := 1) (b := 128) (V c (Pipeline.arrRef spec6 3)) 0) (Ideal.ofBits .f32 0x00000000#32))
          (rowOf (a := 1) (b := 128) (V c (Pipeline.arrRef spec6 6)) 0) (rowOf (a := 1) (b := 128) (V c (Pipeline.arrRef spec6 7)) 0)
          (Ideal.ofBits .f32 0x43000000#32) (Ideal.ofBits .f32 0x3727C5AC#32) j := by
  refine (congrFun (rowOf_k6_pay1 (iblk6 V c 0 t) (iblk6 V c 5 t) (iblk6 V c 1 t) (iblk6 V c 2 t) (iblk6 V c 4 t) (iblk6 V c 3 t) (iblk6 V c 6 t) (iblk6 V c 7 t) p) j).trans ?_
  exact congrFun (lnRow_congr _ _ (sageK_congr _ (funext fun k => Blocks.iblk6_w0 V c t p k) (Blocks.iblk6_w5 V c t p 0)
    (funext fun k => Blocks.iblk6_w1 V c t p k) (Blocks.iblk6_w2 V c t) (Blocks.iblk6_w4 V c t)
    (funext fun k => Blocks.iblk6_w3_apply V c t (ix2 0 k)))
    (funext fun k => Blocks.iblk6_w6_apply V c t (ix2 0 k)) (funext fun k => Blocks.iblk6_w7_apply V c t (ix2 0 k))) j

/-- Region 6 (a mean-aggregation update over 75000 rows, then the row normalisation): row r of the output is the
    normalisation, with the scale and shift rows, of the update's row function of row r of its inputs. -/
theorem region6 : (dat6 V c).arrAt 8 cfg6.N = fun i : S75000x128.Idx =>
    lnRow (sageK (rowOf (a := 75000) (b := 128) (V c (Pipeline.arrRef spec6 0)) (i 0)) (V c (Pipeline.arrRef spec6 5) (ix2 (i 0) (0 : Fin 1)))
          (rowOf (a := 75000) (b := 128) (V c (Pipeline.arrRef spec6 1)) (i 0)) (V c (Pipeline.arrRef spec6 2)) (V c (Pipeline.arrRef spec6 4))
          (rowOf (a := 1) (b := 128) (V c (Pipeline.arrRef spec6 3)) 0) (Ideal.ofBits .f32 0x00000000#32))
          (rowOf (a := 1) (b := 128) (V c (Pipeline.arrRef spec6 6)) 0) (rowOf (a := 1) (b := 128) (V c (Pipeline.arrRef spec6 7)) 0)
          (Ideal.ofBits .f32 0x43000000#32) (Ideal.ofBits .f32 0x3727C5AC#32) (i 1) := by
  refine Blocks.arr6 V c _ (fun t p j => ?_)
  rw [Blocks.out6_eq]
  exact point6 V c t p j

/-- Region 7 at one row of one block: the layer's row function of the arrays' row `5000 t + p`, normalised. -/
theorem point7 (t : Fin cfg7.N) (p : Fin 5000) (j : Fin 128) :
    k7_pay1 (k7_pay4 (iblk7 V c 0 t) (iblk7 V c 5 t) (iblk7 V c 1 t) (iblk7 V c 2 t) (iblk7 V c 4 t) (iblk7 V c 3 t)) (k7_pay5 (iblk7 V c 0 t) (iblk7 V c 5 t) (iblk7 V c 1 t) (iblk7 V c 2 t) (iblk7 V c 4 t) (iblk7 V c 3 t)) (k7_pay6 (F := Ideal)) (iblk7 V c 6 t) (iblk7 V c 7 t) (ix2 p j)
      = lnRow (sageK (rowOf (a := 150000) (b := 128) (V c (Pipeline.arrRef spec7 0)) (⟨5000 * t.val + p.val, Blocks.row_lt7 t p⟩ : Fin 150000)) (V c (Pipeline.arrRef spec7 5) (ix2 (⟨5000 * t.val + p.val, Blocks.row_lt7 t p⟩ : Fin 150000) (0 : Fin 1)))
          (rowOf (a := 150000) (b := 128) (V c (Pipeline.arrRef spec7 1)) (⟨5000 * t.val + p.val, Blocks.row_lt7 t p⟩ : Fin 150000)) (V c (Pipeline.arrRef spec7 2)) (V c (Pipeline.arrRef spec7 4))
          (rowOf (a := 1) (b := 128) (V c (Pipeline.arrRef spec7 3)) 0) (Ideal.ofBits .f32 0x00000000#32))
          (rowOf (a := 1) (b := 128) (V c (Pipeline.arrRef spec7 6)) 0) (rowOf (a := 1) (b := 128) (V c (Pipeline.arrRef spec7 7)) 0)
          (Ideal.ofBits .f32 0x43000000#32) (Ideal.ofBits .f32 0x3727C5AC#32) j := by
  refine (congrFun (rowOf_k7_pay1 (iblk7 V c 0 t) (iblk7 V c 5 t) (iblk7 V c 1 t) (iblk7 V c 2 t) (iblk7 V c 4 t) (iblk7 V c 3 t) (iblk7 V c 6 t) (iblk7 V c 7 t) p) j).trans ?_
  exact congrFun (lnRow_congr _ _ (sageK_congr _ (funext fun k => Blocks.iblk7_w0 V c t p k) (Blocks.iblk7_w5 V c t p 0)
    (funext fun k => Blocks.iblk7_w1 V c t p k) (Blocks.iblk7_w2 V c t) (Blocks.iblk7_w4 V c t)
    (funext fun k => Blocks.iblk7_w3_apply V c t (ix2 0 k)))
    (funext fun k => Blocks.iblk7_w6_apply V c t (ix2 0 k)) (funext fun k => Blocks.iblk7_w7_apply V c t (ix2 0 k))) j

/-- Region 7 (a mean-aggregation update over 150000 rows, then the row normalisation): row r of the output is the
    normalisation, with the scale and shift rows, of the update's row function of row r of its inputs. -/
theorem region7 : (dat7 V c).arrAt 8 cfg7.N = fun i : S150000x128.Idx =>
    lnRow (sageK (rowOf (a := 150000) (b := 128) (V c (Pipeline.arrRef spec7 0)) (i 0)) (V c (Pipeline.arrRef spec7 5) (ix2 (i 0) (0 : Fin 1)))
          (rowOf (a := 150000) (b := 128) (V c (Pipeline.arrRef spec7 1)) (i 0)) (V c (Pipeline.arrRef spec7 2)) (V c (Pipeline.arrRef spec7 4))
          (rowOf (a := 1) (b := 128) (V c (Pipeline.arrRef spec7 3)) 0) (Ideal.ofBits .f32 0x00000000#32))
          (rowOf (a := 1) (b := 128) (V c (Pipeline.arrRef spec7 6)) 0) (rowOf (a := 1) (b := 128) (V c (Pipeline.arrRef spec7 7)) 0)
          (Ideal.ofBits .f32 0x43000000#32) (Ideal.ofBits .f32 0x3727C5AC#32) (i 1) := by
  refine Blocks.arr7 V c _ (fun t p j => ?_)
  rw [Blocks.out7_eq]
  exact point7 V c t p j

end Cert.KernelIdeal.RegionVal

end
-- ==== Proof.KReadKeep.lean ====
/-
  Buffers that a segment of the idealized kernel's run does not write keep their contents across it.

  The run is sixteen segments: a stretch of host operations, then a blocked region, eight times. A stretch writes only
  its operations' result buffers; a region writes only its output array. So an argument array, a table an earlier region
  left, or a value an earlier stretch computed is still there at every later boundary up to its last reader — one small
  step per buffer and segment crossed, and from them the argument arrays read at the boundaries where they are used.
-/
import proofs.«113985_j6949257085118_2_alg».proof.Proof.Gen.KernelIdeal.Frame

set_option maxRecDepth 16384

noncomputable section

namespace Cert.KernelIdeal.KRead

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg) (c : Dev nD)

/-! ## One step per buffer and segment crossed -/

set_option maxHeartbeats 4000000 in
theorem keep_arg0_1 : W1 m ρ c (Proc.devRef .tc main_arg0) = W0 m ρ c (Proc.devRef .tc main_arg0) := by
  show StableHlo.after hostOps0 (W0 m ρ c) (Proc.devRef .tc main_arg0) = _
  after_results_simp
set_option maxHeartbeats 4000000 in
theorem keep_arg1_1 : W1 m ρ c (Proc.devRef .tc main_arg1) = W0 m ρ c (Proc.devRef .tc main_arg1) := by
  show StableHlo.after hostOps0 (W0 m ρ c) (Proc.devRef .tc main_arg1) = _
  after_results_simp
set_option maxHeartbeats 4000000 in
theorem keep_arg10_1 : W1 m ρ c (Proc.devRef .tc main_arg10) = W0 m ρ c (Proc.devRef .tc main_arg10) := by
  show StableHlo.after hostOps0 (W0 m ρ c) (Proc.devRef .tc main_arg10) = _
  after_results_simp
set_option maxHeartbeats 4000000 in
theorem keep_arg11_1 : W1 m ρ c (Proc.devRef .tc main_arg11) = W0 m ρ c (Proc.devRef .tc main_arg11) := by
  show StableHlo.after hostOps0 (W0 m ρ c) (Proc.devRef .tc main_arg11) = _
  after_results_simp
set_option maxHeartbeats 4000000 in
theorem keep_arg12_1 : W1 m ρ c (Proc.devRef .tc main_arg12) = W0 m ρ c (Proc.devRef .tc main_arg12) := by
  show StableHlo.after hostOps0 (W0 m ρ c) (Proc.devRef .tc main_arg12) = _
  after_results_simp
set_option maxHeartbeats 4000000 in
theorem keep_arg13_1 : W1 m ρ c (Proc.devRef .tc main_arg13) = W0 m ρ c (Proc.devRef .tc main_arg13) := by
  show StableHlo.after hostOps0 (W0 m ρ c) (Proc.devRef .tc main_arg13) = _
  after_results_simp
set_option maxHeartbeats 4000000 in
theorem keep_arg14_1 : W1 m ρ c (Proc.devRef .tc main_arg14) = W0 m ρ c (Proc.devRef .tc main_arg14) := by
  show StableHlo.after hostOps0 (W0 m ρ c) (Proc.devRef .tc main_arg14) = _
  after_results_simp
set_option maxHeartbeats 4000000 in
theorem keep_arg2_1 : W1 m ρ c (Proc.devRef .tc main_arg2) = W0 m ρ c (Proc.devRef .tc main_arg2) := by
  show StableHlo.after hostOps0 (W0 m ρ c) (Proc.devRef .tc main_arg2) = _
  after_results_simp
set_option maxHeartbeats 4000000 in
theorem keep_arg3_1 : W1 m ρ c (Proc.devRef .tc main_arg3) = W0 m ρ c (Proc.devRef .tc main_arg3) := by
  show StableHlo.after hostOps0 (W0 m ρ c) (Proc.devRef .tc main_arg3) = _
  after_results_simp
set_option maxHeartbeats 4000000 in
theorem keep_arg4_1 : W1 m ρ c (Proc.devRef .tc main_arg4) = W0 m ρ c (Proc.devRef .tc main_arg4) := by
  show StableHlo.after hostOps0 (W0 m ρ c) (Proc.devRef .tc main_arg4) = _
  after_results_simp
set_option maxHeartbeats 4000000 in
theorem keep_arg6_1 : W1 m ρ c (Proc.devRef .tc main_arg6) = W0 m ρ c (Proc.devRef .tc main_arg6) := by
  show StableHlo.after hostOps0 (W0 m ρ c) (Proc.devRef .tc main_arg6) = _
  after_results_simp
set_option maxHeartbeats 4000000 in
theorem keep_arg7_1 : W1 m ρ c (Proc.devRef .tc main_arg7) = W0 m ρ c (Proc.devRef .tc main_arg7) := by
  show StableHlo.after hostOps0 (W0 m ρ c) (Proc.devRef .tc main_arg7) = _
  after_results_simp
set_option maxHeartbeats 4000000 in
theorem keep_arg8_1 : W1 m ρ c (Proc.devRef .tc main_arg8) = W0 m ρ c (Proc.devRef .tc main_arg8) := by
  show StableHlo.after hostOps0 (W0 m ρ c) (Proc.devRef .tc main_arg8) = _
  after_results_simp
set_option maxHeartbeats 4000000 in
theorem keep_arg9_1 : W1 m ρ c (Proc.devRef .tc main_arg9) = W0 m ρ c (Proc.devRef .tc main_arg9) := by
  show StableHlo.after hostOps0 (W0 m ρ c) (Proc.devRef .tc main_arg9) = _
  after_results_simp
theorem keep_arg1_2 : W2 m ρ c (Proc.devRef .tc main_arg1) = W1 m ρ c (Proc.devRef .tc main_arg1) := W2_of_ne m ρ c main_arg1 (by decide)
theorem keep_arg10_2 : W2 m ρ c (Proc.devRef .tc main_arg10) = W1 m ρ c (Proc.devRef .tc main_arg10) := W2_of_ne m ρ c main_arg10 (by decide)
theorem keep_arg11_2 : W2 m ρ c (Proc.devRef .tc main_arg11) = W1 m ρ c (Proc.devRef .tc main_arg11) := W2_of_ne m ρ c main_arg11 (by decide)
theorem keep_arg12_2 : W2 m ρ c (Proc.devRef .tc main_arg12) = W1 m ρ c (Proc.devRef .tc main_arg12) := W2_of_ne m ρ c main_arg12 (by decide)
theorem keep_arg13_2 : W2 m ρ c (Proc.devRef .tc main_arg13) = W1 m ρ c (Proc.devRef .tc main_arg13) := W2_of_ne m ρ c main_arg13 (by decide)
theorem keep_arg14_2 : W2 m ρ c (Proc.devRef .tc main_arg14) = W1 m ρ c (Proc.devRef .tc main_arg14) := W2_of_ne m ρ c main_arg14 (by decide)
theorem keep_arg2_2 : W2 m ρ c (Proc.devRef .tc main_arg2) = W1 m ρ c (Proc.devRef .tc main_arg2) := W2_of_ne m ρ c main_arg2 (by decide)
theorem keep_arg3_2 : W2 m ρ c (Proc.devRef .tc main_arg3) = W1 m ρ c (Proc.devRef .tc main_arg3) := W2_of_ne m ρ c main_arg3 (by decide)
theorem keep_arg6_2 : W2 m ρ c (Proc.devRef .tc main_arg6) = W1 m ρ c (Proc.devRef .tc main_arg6) := W2_of_ne m ρ c main_arg6 (by decide)
theorem keep_arg7_2 : W2 m ρ c (Proc.devRef .tc main_arg7) = W1 m ρ c (Proc.devRef .tc main_arg7) := W2_of_ne m ρ c main_arg7 (by decide)
theorem keep_arg8_2 : W2 m ρ c (Proc.devRef .tc main_arg8) = W1 m ρ c (Proc.devRef .tc main_arg8) := W2_of_ne m ρ c main_arg8 (by decide)
theorem keep_arg9_2 : W2 m ρ c (Proc.devRef .tc main_arg9) = W1 m ρ c (Proc.devRef .tc main_arg9) := W2_of_ne m ρ c main_arg9 (by decide)
set_option maxHeartbeats 4000000 in
theorem keep_arg1_3 : W3 m ρ c (Proc.devRef .tc main_arg1) = W2 m ρ c (Proc.devRef .tc main_arg1) := by
  show StableHlo.after hostOps1 (W2 m ρ c) (Proc.devRef .tc main_arg1) = _
  after_results_simp
set_option maxHeartbeats 4000000 in
theorem keep_arg10_3 : W3 m ρ c (Proc.devRef .tc main_arg10) = W2 m ρ c (Proc.devRef .tc main_arg10) := by
  show StableHlo.after hostOps1 (W2 m ρ c) (Proc.devRef .tc main_arg10) = _
  after_results_simp
set_option maxHeartbeats 4000000 in
theorem keep_arg11_3 : W3 m ρ c (Proc.devRef .tc main_arg11) = W2 m ρ c (Proc.devRef .tc main_arg11) := by
  show StableHlo.after hostOps1 (W2 m ρ c) (Proc.devRef .tc main_arg11) = _
  after_results_simp
set_option maxHeartbeats 4000000 in
theorem keep_arg12_3 : W3 m ρ c (Proc.devRef .tc main_arg12) = W2 m ρ c (Proc.devRef .tc main_arg12) := by
  show StableHlo.after hostOps1 (W2 m ρ c) (Proc.devRef .tc main_arg12) = _
  after_results_simp
set_option maxHeartbeats 4000000 in
theorem keep_arg13_3 : W3 m ρ c (Proc.devRef .tc main_arg13) = W2 m ρ c (Proc.devRef .tc main_arg13) := by
  show StableHlo.after hostOps1 (W2 m ρ c) (Proc.devRef .tc main_arg13) = _
  after_results_simp
set_option maxHeartbeats 4000000 in
theorem keep_arg14_3 : W3 m ρ c (Proc.devRef .tc main_arg14) = W2 m ρ c (Proc.devRef .tc main_arg14) := by
  show StableHlo.after hostOps1 (W2 m ρ c) (Proc.devRef .tc main_arg14) = _
  after_results_simp
set_option maxHeartbeats 4000000 in
theorem keep_arg2_3 : W3 m ρ c (Proc.devRef .tc main_arg2) = W2 m ρ c (Proc.devRef .tc main_arg2) := by
  show StableHlo.after hostOps1 (W2 m ρ c) (Proc.devRef .tc main_arg2) = _
  after_results_simp
set_option maxHeartbeats 4000000 in
theorem keep_arg3_3 : W3 m ρ c (Proc.devRef .tc main_arg3) = W2 m ρ c (Proc.devRef .tc main_arg3) := by
  show StableHlo.after hostOps1 (W2 m ρ c) (Proc.devRef .tc main_arg3) = _
  after_results_simp
set_option maxHeartbeats 4000000 in
theorem keep_arg6_3 : W3 m ρ c (Proc.devRef .tc main_arg6) = W2 m ρ c (Proc.devRef .tc main_arg6) := by
  show StableHlo.after hostOps1 (W2 m ρ c) (Proc.devRef .tc main_arg6) = _
  after_results_simp
set_option maxHeartbeats 4000000 in
theorem keep_arg8_3 : W3 m ρ c (Proc.devRef .tc main_arg8) = W2 m ρ c (Proc.devRef .tc main_arg8) := by
  show StableHlo.after hostOps1 (W2 m ρ c) (Proc.devRef .tc main_arg8) = _
  after_results_simp
set_option maxHeartbeats 4000000 in
theorem keep_arg9_3 : W3 m ρ c (Proc.devRef .tc main_arg9) = W2 m ρ c (Proc.devRef .tc main_arg9) := by
  show StableHlo.after hostOps1 (W2 m ρ c) (Proc.devRef .tc main_arg9) = _
  after_results_simp
set_option maxHeartbeats 4000000 in
theorem keep_v1_3 : W3 m ρ c (Proc.devRef .tc main_v1) = W2 m ρ c (Proc.devRef .tc main_v1) := by
  show StableHlo.after hostOps1 (W2 m ρ c) (Proc.devRef .tc main_v1) = _
  after_results_simp
theorem keep_arg10_4 : W4 m ρ c (Proc.devRef .tc main_arg10) = W3 m ρ c (Proc.devRef .tc main_arg10) := W4_of_ne m ρ c main_arg10 (by decide)
theorem keep_arg11_4 : W4 m ρ c (Proc.devRef .tc main_arg11) = W3 m ρ c (Proc.devRef .tc main_arg11) := W4_of_ne m ρ c main_arg11 (by decide)
theorem keep_arg12_4 : W4 m ρ c (Proc.devRef .tc main_arg12) = W3 m ρ c (Proc.devRef .tc main_arg12) := W4_of_ne m ρ c main_arg12 (by decide)
theorem keep_arg13_4 : W4 m ρ c (Proc.devRef .tc main_arg13) = W3 m ρ c (Proc.devRef .tc main_arg13) := W4_of_ne m ρ c main_arg13 (by decide)
theorem keep_arg14_4 : W4 m ρ c (Proc.devRef .tc main_arg14) = W3 m ρ c (Proc.devRef .tc main_arg14) := W4_of_ne m ρ c main_arg14 (by decide)
theorem keep_arg2_4 : W4 m ρ c (Proc.devRef .tc main_arg2) = W3 m ρ c (Proc.devRef .tc main_arg2) := W4_of_ne m ρ c main_arg2 (by decide)
theorem keep_arg3_4 : W4 m ρ c (Proc.devRef .tc main_arg3) = W3 m ρ c (Proc.devRef .tc main_arg3) := W4_of_ne m ρ c main_arg3 (by decide)
theorem keep_arg8_4 : W4 m ρ c (Proc.devRef .tc main_arg8) = W3 m ρ c (Proc.devRef .tc main_arg8) := W4_of_ne m ρ c main_arg8 (by decide)
theorem keep_arg9_4 : W4 m ρ c (Proc.devRef .tc main_arg9) = W3 m ρ c (Proc.devRef .tc main_arg9) := W4_of_ne m ρ c main_arg9 (by decide)
theorem keep_v1_4 : W4 m ρ c (Proc.devRef .tc main_v1) = W3 m ρ c (Proc.devRef .tc main_v1) := W4_of_ne m ρ c main_v1 (by decide)
set_option maxHeartbeats 4000000 in
theorem keep_arg10_5 : W5 m ρ c (Proc.devRef .tc main_arg10) = W4 m ρ c (Proc.devRef .tc main_arg10) := by
  show StableHlo.after hostOps2 (W4 m ρ c) (Proc.devRef .tc main_arg10) = _
  after_results_simp
set_option maxHeartbeats 4000000 in
theorem keep_arg11_5 : W5 m ρ c (Proc.devRef .tc main_arg11) = W4 m ρ c (Proc.devRef .tc main_arg11) := by
  show StableHlo.after hostOps2 (W4 m ρ c) (Proc.devRef .tc main_arg11) = _
  after_results_simp
set_option maxHeartbeats 4000000 in
theorem keep_arg12_5 : W5 m ρ c (Proc.devRef .tc main_arg12) = W4 m ρ c (Proc.devRef .tc main_arg12) := by
  show StableHlo.after hostOps2 (W4 m ρ c) (Proc.devRef .tc main_arg12) = _
  after_results_simp
set_option maxHeartbeats 4000000 in
theorem keep_arg13_5 : W5 m ρ c (Proc.devRef .tc main_arg13) = W4 m ρ c (Proc.devRef .tc main_arg13) := by
  show StableHlo.after hostOps2 (W4 m ρ c) (Proc.devRef .tc main_arg13) = _
  after_results_simp
set_option maxHeartbeats 4000000 in
theorem keep_arg14_5 : W5 m ρ c (Proc.devRef .tc main_arg14) = W4 m ρ c (Proc.devRef .tc main_arg14) := by
  show StableHlo.after hostOps2 (W4 m ρ c) (Proc.devRef .tc main_arg14) = _
  after_results_simp
set_option maxHeartbeats 4000000 in
theorem keep_arg2_5 : W5 m ρ c (Proc.devRef .tc main_arg2) = W4 m ρ c (Proc.devRef .tc main_arg2) := by
  show StableHlo.after hostOps2 (W4 m ρ c) (Proc.devRef .tc main_arg2) = _
  after_results_simp
set_option maxHeartbeats 4000000 in
theorem keep_arg3_5 : W5 m ρ c (Proc.devRef .tc main_arg3) = W4 m ρ c (Proc.devRef .tc main_arg3) := by
  show StableHlo.after hostOps2 (W4 m ρ c) (Proc.devRef .tc main_arg3) = _
  after_results_simp
set_option maxHeartbeats 4000000 in
theorem keep_arg8_5 : W5 m ρ c (Proc.devRef .tc main_arg8) = W4 m ρ c (Proc.devRef .tc main_arg8) := by
  show StableHlo.after hostOps2 (W4 m ρ c) (Proc.devRef .tc main_arg8) = _
  after_results_simp
set_option maxHeartbeats 4000000 in
theorem keep_arg9_5 : W5 m ρ c (Proc.devRef .tc main_arg9) = W4 m ρ c (Proc.devRef .tc main_arg9) := by
  show StableHlo.after hostOps2 (W4 m ρ c) (Proc.devRef .tc main_arg9) = _
  after_results_simp
set_option maxHeartbeats 4000000 in
theorem keep_v1_5 : W5 m ρ c (Proc.devRef .tc main_v1) = W4 m ρ c (Proc.devRef .tc main_v1) := by
  show StableHlo.after hostOps2 (W4 m ρ c) (Proc.devRef .tc main_v1) = _
  after_results_simp
set_option maxHeartbeats 4000000 in
theorem keep_v3_5 : W5 m ρ c (Proc.devRef .tc main_v3) = W4 m ρ c (Proc.devRef .tc main_v3) := by
  show StableHlo.after hostOps2 (W4 m ρ c) (Proc.devRef .tc main_v3) = _
  after_results_simp
theorem keep_arg10_6 : W6 m ρ c (Proc.devRef .tc main_arg10) = W5 m ρ c (Proc.devRef .tc main_arg10) := W6_of_ne m ρ c main_arg10 (by decide)
theorem keep_arg11_6 : W6 m ρ c (Proc.devRef .tc main_arg11) = W5 m ρ c (Proc.devRef .tc main_arg11) := W6_of_ne m ρ c main_arg11 (by decide)
theorem keep_arg12_6 : W6 m ρ c (Proc.devRef .tc main_arg12) = W5 m ρ c (Proc.devRef .tc main_arg12) := W6_of_ne m ρ c main_arg12 (by decide)
theorem keep_arg13_6 : W6 m ρ c (Proc.devRef .tc main_arg13) = W5 m ρ c (Proc.devRef .tc main_arg13) := W6_of_ne m ρ c main_arg13 (by decide)
theorem keep_arg14_6 : W6 m ρ c (Proc.devRef .tc main_arg14) = W5 m ρ c (Proc.devRef .tc main_arg14) := W6_of_ne m ρ c main_arg14 (by decide)
theorem keep_arg2_6 : W6 m ρ c (Proc.devRef .tc main_arg2) = W5 m ρ c (Proc.devRef .tc main_arg2) := W6_of_ne m ρ c main_arg2 (by decide)
theorem keep_arg3_6 : W6 m ρ c (Proc.devRef .tc main_arg3) = W5 m ρ c (Proc.devRef .tc main_arg3) := W6_of_ne m ρ c main_arg3 (by decide)
theorem keep_arg8_6 : W6 m ρ c (Proc.devRef .tc main_arg8) = W5 m ρ c (Proc.devRef .tc main_arg8) := W6_of_ne m ρ c main_arg8 (by decide)
theorem keep_arg9_6 : W6 m ρ c (Proc.devRef .tc main_arg9) = W5 m ρ c (Proc.devRef .tc main_arg9) := W6_of_ne m ρ c main_arg9 (by decide)
theorem keep_v1_6 : W6 m ρ c (Proc.devRef .tc main_v1) = W5 m ρ c (Proc.devRef .tc main_v1) := W6_of_ne m ρ c main_v1 (by decide)
theorem keep_v26_6 : W6 m ρ c (Proc.devRef .tc main_v26) = W5 m ρ c (Proc.devRef .tc main_v26) :=
  (W6_arr m ρ c 5).trans (((dat2 (V5 m ρ) c).arrAt_in 5 rfl _).trans (A_eq2 (V5 m ρ) c 5))
theorem keep_v32_6 : W6 m ρ c (Proc.devRef .tc main_v32) = W5 m ρ c (Proc.devRef .tc main_v32) := W6_of_ne m ρ c main_v32 (by decide)
theorem keep_v62_6 : W6 m ρ c (Proc.devRef .tc main_v62) = W5 m ρ c (Proc.devRef .tc main_v62) := W6_of_ne m ρ c main_v62 (by decide)
set_option maxHeartbeats 4000000 in
theorem keep_arg10_7 : W7 m ρ c (Proc.devRef .tc main_arg10) = W6 m ρ c (Proc.devRef .tc main_arg10) := by
  show StableHlo.after hostOps3 (W6 m ρ c) (Proc.devRef .tc main_arg10) = _
  after_results_simp
set_option maxHeartbeats 4000000 in
theorem keep_arg11_7 : W7 m ρ c (Proc.devRef .tc main_arg11) = W6 m ρ c (Proc.devRef .tc main_arg11) := by
  show StableHlo.after hostOps3 (W6 m ρ c) (Proc.devRef .tc main_arg11) = _
  after_results_simp
set_option maxHeartbeats 4000000 in
theorem keep_arg12_7 : W7 m ρ c (Proc.devRef .tc main_arg12) = W6 m ρ c (Proc.devRef .tc main_arg12) := by
  show StableHlo.after hostOps3 (W6 m ρ c) (Proc.devRef .tc main_arg12) = _
  after_results_simp
set_option maxHeartbeats 4000000 in
theorem keep_arg13_7 : W7 m ρ c (Proc.devRef .tc main_arg13) = W6 m ρ c (Proc.devRef .tc main_arg13) := by
  show StableHlo.after hostOps3 (W6 m ρ c) (Proc.devRef .tc main_arg13) = _
  after_results_simp
set_option maxHeartbeats 4000000 in
theorem keep_arg14_7 : W7 m ρ c (Proc.devRef .tc main_arg14) = W6 m ρ c (Proc.devRef .tc main_arg14) := by
  show StableHlo.after hostOps3 (W6 m ρ c) (Proc.devRef .tc main_arg14) = _
  after_results_simp
set_option maxHeartbeats 4000000 in
theorem keep_arg2_7 : W7 m ρ c (Proc.devRef .tc main_arg2) = W6 m ρ c (Proc.devRef .tc main_arg2) := by
  show StableHlo.after hostOps3 (W6 m ρ c) (Proc.devRef .tc main_arg2) = _
  after_results_simp
set_option maxHeartbeats 4000000 in
theorem keep_arg3_7 : W7 m ρ c (Proc.devRef .tc main_arg3) = W6 m ρ c (Proc.devRef .tc main_arg3) := by
  show StableHlo.after hostOps3 (W6 m ρ c) (Proc.devRef .tc main_arg3) = _
  after_results_simp
set_option maxHeartbeats 4000000 in
theorem keep_arg8_7 : W7 m ρ c (Proc.devRef .tc main_arg8) = W6 m ρ c (Proc.devRef .tc main_arg8) := by
  show StableHlo.after hostOps3 (W6 m ρ c) (Proc.devRef .tc main_arg8) = _
  after_results_simp
set_option maxHeartbeats 4000000 in
theorem keep_arg9_7 : W7 m ρ c (Proc.devRef .tc main_arg9) = W6 m ρ c (Proc.devRef .tc main_arg9) := by
  show StableHlo.after hostOps3 (W6 m ρ c) (Proc.devRef .tc main_arg9) = _
  after_results_simp
set_option maxHeartbeats 4000000 in
theorem keep_v1_7 : W7 m ρ c (Proc.devRef .tc main_v1) = W6 m ρ c (Proc.devRef .tc main_v1) := by
  show StableHlo.after hostOps3 (W6 m ρ c) (Proc.devRef .tc main_v1) = _
  after_results_simp
set_option maxHeartbeats 4000000 in
theorem keep_v26_7 : W7 m ρ c (Proc.devRef .tc main_v26) = W6 m ρ c (Proc.devRef .tc main_v26) := by
  show StableHlo.after hostOps3 (W6 m ρ c) (Proc.devRef .tc main_v26) = _
  after_results_simp
set_option maxHeartbeats 4000000 in
theorem keep_v32_7 : W7 m ρ c (Proc.devRef .tc main_v32) = W6 m ρ c (Proc.devRef .tc main_v32) := by
  show StableHlo.after hostOps3 (W6 m ρ c) (Proc.devRef .tc main_v32) = _
  after_results_simp
set_option maxHeartbeats 4000000 in
theorem keep_v62_7 : W7 m ρ c (Proc.devRef .tc main_v62) = W6 m ρ c (Proc.devRef .tc main_v62) := by
  show StableHlo.after hostOps3 (W6 m ρ c) (Proc.devRef .tc main_v62) = _
  after_results_simp
set_option maxHeartbeats 4000000 in
theorem keep_v70_7 : W7 m ρ c (Proc.devRef .tc main_v70) = W6 m ρ c (Proc.devRef .tc main_v70) := by
  show StableHlo.after hostOps3 (W6 m ρ c) (Proc.devRef .tc main_v70) = _
  after_results_simp
theorem keep_arg10_8 : W8 m ρ c (Proc.devRef .tc main_arg10) = W7 m ρ c (Proc.devRef .tc main_arg10) := W8_of_ne m ρ c main_arg10 (by decide)
theorem keep_arg11_8 : W8 m ρ c (Proc.devRef .tc main_arg11) = W7 m ρ c (Proc.devRef .tc main_arg11) := W8_of_ne m ρ c main_arg11 (by decide)
theorem keep_arg12_8 : W8 m ρ c (Proc.devRef .tc main_arg12) = W7 m ρ c (Proc.devRef .tc main_arg12) := W8_of_ne m ρ c main_arg12 (by decide)
theorem keep_arg13_8 : W8 m ρ c (Proc.devRef .tc main_arg13) = W7 m ρ c (Proc.devRef .tc main_arg13) := W8_of_ne m ρ c main_arg13 (by decide)
theorem keep_arg14_8 : W8 m ρ c (Proc.devRef .tc main_arg14) = W7 m ρ c (Proc.devRef .tc main_arg14) := W8_of_ne m ρ c main_arg14 (by decide)
theorem keep_arg2_8 : W8 m ρ c (Proc.devRef .tc main_arg2) = W7 m ρ c (Proc.devRef .tc main_arg2) := W8_of_ne m ρ c main_arg2 (by decide)
theorem keep_arg3_8 : W8 m ρ c (Proc.devRef .tc main_arg3) = W7 m ρ c (Proc.devRef .tc main_arg3) := W8_of_ne m ρ c main_arg3 (by decide)
theorem keep_arg8_8 : W8 m ρ c (Proc.devRef .tc main_arg8) = W7 m ρ c (Proc.devRef .tc main_arg8) := W8_of_ne m ρ c main_arg8 (by decide)
theorem keep_arg9_8 : W8 m ρ c (Proc.devRef .tc main_arg9) = W7 m ρ c (Proc.devRef .tc main_arg9) := W8_of_ne m ρ c main_arg9 (by decide)
theorem keep_v26_8 : W8 m ρ c (Proc.devRef .tc main_v26) = W7 m ρ c (Proc.devRef .tc main_v26) := W8_of_ne m ρ c main_v26 (by decide)
theorem keep_v32_8 : W8 m ρ c (Proc.devRef .tc main_v32) = W7 m ρ c (Proc.devRef .tc main_v32) :=
  (W8_arr m ρ c 5).trans (((dat3 (V7 m ρ) c).arrAt_in 5 rfl _).trans (A_eq3 (V7 m ρ) c 5))
theorem keep_v70_8 : W8 m ρ c (Proc.devRef .tc main_v70) = W7 m ρ c (Proc.devRef .tc main_v70) := W8_of_ne m ρ c main_v70 (by decide)
set_option maxHeartbeats 4000000 in
theorem keep_arg10_9 : W9 m ρ c (Proc.devRef .tc main_arg10) = W8 m ρ c (Proc.devRef .tc main_arg10) := by
  show StableHlo.after hostOps4 (W8 m ρ c) (Proc.devRef .tc main_arg10) = _
  after_results_simp
set_option maxHeartbeats 4000000 in
theorem keep_arg11_9 : W9 m ρ c (Proc.devRef .tc main_arg11) = W8 m ρ c (Proc.devRef .tc main_arg11) := by
  show StableHlo.after hostOps4 (W8 m ρ c) (Proc.devRef .tc main_arg11) = _
  after_results_simp
set_option maxHeartbeats 4000000 in
theorem keep_arg12_9 : W9 m ρ c (Proc.devRef .tc main_arg12) = W8 m ρ c (Proc.devRef .tc main_arg12) := by
  show StableHlo.after hostOps4 (W8 m ρ c) (Proc.devRef .tc main_arg12) = _
  after_results_simp
set_option maxHeartbeats 4000000 in
theorem keep_arg13_9 : W9 m ρ c (Proc.devRef .tc main_arg13) = W8 m ρ c (Proc.devRef .tc main_arg13) := by
  show StableHlo.after hostOps4 (W8 m ρ c) (Proc.devRef .tc main_arg13) = _
  after_results_simp
set_option maxHeartbeats 4000000 in
theorem keep_arg14_9 : W9 m ρ c (Proc.devRef .tc main_arg14) = W8 m ρ c (Proc.devRef .tc main_arg14) := by
  show StableHlo.after hostOps4 (W8 m ρ c) (Proc.devRef .tc main_arg14) = _
  after_results_simp
set_option maxHeartbeats 4000000 in
theorem keep_arg2_9 : W9 m ρ c (Proc.devRef .tc main_arg2) = W8 m ρ c (Proc.devRef .tc main_arg2) := by
  show StableHlo.after hostOps4 (W8 m ρ c) (Proc.devRef .tc main_arg2) = _
  after_results_simp
set_option maxHeartbeats 4000000 in
theorem keep_arg3_9 : W9 m ρ c (Proc.devRef .tc main_arg3) = W8 m ρ c (Proc.devRef .tc main_arg3) := by
  show StableHlo.after hostOps4 (W8 m ρ c) (Proc.devRef .tc main_arg3) = _
  after_results_simp
set_option maxHeartbeats 4000000 in
theorem keep_arg8_9 : W9 m ρ c (Proc.devRef .tc main_arg8) = W8 m ρ c (Proc.devRef .tc main_arg8) := by
  show StableHlo.after hostOps4 (W8 m ρ c) (Proc.devRef .tc main_arg8) = _
  after_results_simp
set_option maxHeartbeats 4000000 in
theorem keep_arg9_9 : W9 m ρ c (Proc.devRef .tc main_arg9) = W8 m ρ c (Proc.devRef .tc main_arg9) := by
  show StableHlo.after hostOps4 (W8 m ρ c) (Proc.devRef .tc main_arg9) = _
  after_results_simp
set_option maxHeartbeats 4000000 in
theorem keep_v26_9 : W9 m ρ c (Proc.devRef .tc main_v26) = W8 m ρ c (Proc.devRef .tc main_v26) := by
  show StableHlo.after hostOps4 (W8 m ρ c) (Proc.devRef .tc main_v26) = _
  after_results_simp
set_option maxHeartbeats 4000000 in
theorem keep_v32_9 : W9 m ρ c (Proc.devRef .tc main_v32) = W8 m ρ c (Proc.devRef .tc main_v32) := by
  show StableHlo.after hostOps4 (W8 m ρ c) (Proc.devRef .tc main_v32) = _
  after_results_simp
set_option maxHeartbeats 4000000 in
theorem keep_v70_9 : W9 m ρ c (Proc.devRef .tc main_v70) = W8 m ρ c (Proc.devRef .tc main_v70) := by
  show StableHlo.after hostOps4 (W8 m ρ c) (Proc.devRef .tc main_v70) = _
  after_results_simp
set_option maxHeartbeats 4000000 in
theorem keep_v78_9 : W9 m ρ c (Proc.devRef .tc main_v78) = W8 m ρ c (Proc.devRef .tc main_v78) := by
  show StableHlo.after hostOps4 (W8 m ρ c) (Proc.devRef .tc main_v78) = _
  after_results_simp
theorem keep_arg10_10 : W10 m ρ c (Proc.devRef .tc main_arg10) = W9 m ρ c (Proc.devRef .tc main_arg10) := W10_of_ne m ρ c main_arg10 (by decide)
theorem keep_arg11_10 : W10 m ρ c (Proc.devRef .tc main_arg11) = W9 m ρ c (Proc.devRef .tc main_arg11) := W10_of_ne m ρ c main_arg11 (by decide)
theorem keep_arg12_10 : W10 m ρ c (Proc.devRef .tc main_arg12) = W9 m ρ c (Proc.devRef .tc main_arg12) := W10_of_ne m ρ c main_arg12 (by decide)
theorem keep_arg13_10 : W10 m ρ c (Proc.devRef .tc main_arg13) = W9 m ρ c (Proc.devRef .tc main_arg13) := W10_of_ne m ρ c main_arg13 (by decide)
theorem keep_arg14_10 : W10 m ρ c (Proc.devRef .tc main_arg14) = W9 m ρ c (Proc.devRef .tc main_arg14) := W10_of_ne m ρ c main_arg14 (by decide)
theorem keep_arg2_10 : W10 m ρ c (Proc.devRef .tc main_arg2) = W9 m ρ c (Proc.devRef .tc main_arg2) := W10_of_ne m ρ c main_arg2 (by decide)
theorem keep_arg3_10 : W10 m ρ c (Proc.devRef .tc main_arg3) = W9 m ρ c (Proc.devRef .tc main_arg3) := W10_of_ne m ρ c main_arg3 (by decide)
theorem keep_arg8_10 : W10 m ρ c (Proc.devRef .tc main_arg8) = W9 m ρ c (Proc.devRef .tc main_arg8) := W10_of_ne m ρ c main_arg8 (by decide)
theorem keep_arg9_10 : W10 m ρ c (Proc.devRef .tc main_arg9) = W9 m ρ c (Proc.devRef .tc main_arg9) := W10_of_ne m ρ c main_arg9 (by decide)
theorem keep_v108_10 : W10 m ρ c (Proc.devRef .tc main_v108) = W9 m ρ c (Proc.devRef .tc main_v108) := W10_of_ne m ρ c main_v108 (by decide)
theorem keep_v26_10 : W10 m ρ c (Proc.devRef .tc main_v26) = W9 m ρ c (Proc.devRef .tc main_v26) :=
  (W10_arr m ρ c 5).trans (((dat4 (V9 m ρ) c).arrAt_in 5 rfl _).trans (A_eq4 (V9 m ρ) c 5))
theorem keep_v32_10 : W10 m ρ c (Proc.devRef .tc main_v32) = W9 m ρ c (Proc.devRef .tc main_v32) := W10_of_ne m ρ c main_v32 (by decide)
theorem keep_v78_10 : W10 m ρ c (Proc.devRef .tc main_v78) = W9 m ρ c (Proc.devRef .tc main_v78) := W10_of_ne m ρ c main_v78 (by decide)
set_option maxHeartbeats 4000000 in
theorem keep_arg10_11 : W11 m ρ c (Proc.devRef .tc main_arg10) = W10 m ρ c (Proc.devRef .tc main_arg10) := by
  show StableHlo.after hostOps5 (W10 m ρ c) (Proc.devRef .tc main_arg10) = _
  after_results_simp
set_option maxHeartbeats 4000000 in
theorem keep_arg11_11 : W11 m ρ c (Proc.devRef .tc main_arg11) = W10 m ρ c (Proc.devRef .tc main_arg11) := by
  show StableHlo.after hostOps5 (W10 m ρ c) (Proc.devRef .tc main_arg11) = _
  after_results_simp
set_option maxHeartbeats 4000000 in
theorem keep_arg12_11 : W11 m ρ c (Proc.devRef .tc main_arg12) = W10 m ρ c (Proc.devRef .tc main_arg12) := by
  show StableHlo.after hostOps5 (W10 m ρ c) (Proc.devRef .tc main_arg12) = _
  after_results_simp
set_option maxHeartbeats 4000000 in
theorem keep_arg13_11 : W11 m ρ c (Proc.devRef .tc main_arg13) = W10 m ρ c (Proc.devRef .tc main_arg13) := by
  show StableHlo.after hostOps5 (W10 m ρ c) (Proc.devRef .tc main_arg13) = _
  after_results_simp
set_option maxHeartbeats 4000000 in
theorem keep_arg14_11 : W11 m ρ c (Proc.devRef .tc main_arg14) = W10 m ρ c (Proc.devRef .tc main_arg14) := by
  show StableHlo.after hostOps5 (W10 m ρ c) (Proc.devRef .tc main_arg14) = _
  after_results_simp
set_option maxHeartbeats 4000000 in
theorem keep_arg2_11 : W11 m ρ c (Proc.devRef .tc main_arg2) = W10 m ρ c (Proc.devRef .tc main_arg2) := by
  show StableHlo.after hostOps5 (W10 m ρ c) (Proc.devRef .tc main_arg2) = _
  after_results_simp
set_option maxHeartbeats 4000000 in
theorem keep_arg3_11 : W11 m ρ c (Proc.devRef .tc main_arg3) = W10 m ρ c (Proc.devRef .tc main_arg3) := by
  show StableHlo.after hostOps5 (W10 m ρ c) (Proc.devRef .tc main_arg3) = _
  after_results_simp
set_option maxHeartbeats 4000000 in
theorem keep_arg8_11 : W11 m ρ c (Proc.devRef .tc main_arg8) = W10 m ρ c (Proc.devRef .tc main_arg8) := by
  show StableHlo.after hostOps5 (W10 m ρ c) (Proc.devRef .tc main_arg8) = _
  after_results_simp
set_option maxHeartbeats 4000000 in
theorem keep_arg9_11 : W11 m ρ c (Proc.devRef .tc main_arg9) = W10 m ρ c (Proc.devRef .tc main_arg9) := by
  show StableHlo.after hostOps5 (W10 m ρ c) (Proc.devRef .tc main_arg9) = _
  after_results_simp
set_option maxHeartbeats 4000000 in
theorem keep_v108_11 : W11 m ρ c (Proc.devRef .tc main_v108) = W10 m ρ c (Proc.devRef .tc main_v108) := by
  show StableHlo.after hostOps5 (W10 m ρ c) (Proc.devRef .tc main_v108) = _
  after_results_simp
set_option maxHeartbeats 4000000 in
theorem keep_v116_11 : W11 m ρ c (Proc.devRef .tc main_v116) = W10 m ρ c (Proc.devRef .tc main_v116) := by
  show StableHlo.after hostOps5 (W10 m ρ c) (Proc.devRef .tc main_v116) = _
  after_results_simp
set_option maxHeartbeats 4000000 in
theorem keep_v26_11 : W11 m ρ c (Proc.devRef .tc main_v26) = W10 m ρ c (Proc.devRef .tc main_v26) := by
  show StableHlo.after hostOps5 (W10 m ρ c) (Proc.devRef .tc main_v26) = _
  after_results_simp
set_option maxHeartbeats 4000000 in
theorem keep_v32_11 : W11 m ρ c (Proc.devRef .tc main_v32) = W10 m ρ c (Proc.devRef .tc main_v32) := by
  show StableHlo.after hostOps5 (W10 m ρ c) (Proc.devRef .tc main_v32) = _
  after_results_simp
set_option maxHeartbeats 4000000 in
theorem keep_v78_11 : W11 m ρ c (Proc.devRef .tc main_v78) = W10 m ρ c (Proc.devRef .tc main_v78) := by
  show StableHlo.after hostOps5 (W10 m ρ c) (Proc.devRef .tc main_v78) = _
  after_results_simp
theorem keep_arg10_12 : W12 m ρ c (Proc.devRef .tc main_arg10) = W11 m ρ c (Proc.devRef .tc main_arg10) := W12_of_ne m ρ c main_arg10 (by decide)
theorem keep_arg11_12 : W12 m ρ c (Proc.devRef .tc main_arg11) = W11 m ρ c (Proc.devRef .tc main_arg11) := W12_of_ne m ρ c main_arg11 (by decide)
theorem keep_arg12_12 : W12 m ρ c (Proc.devRef .tc main_arg12) = W11 m ρ c (Proc.devRef .tc main_arg12) := W12_of_ne m ρ c main_arg12 (by decide)
theorem keep_arg13_12 : W12 m ρ c (Proc.devRef .tc main_arg13) = W11 m ρ c (Proc.devRef .tc main_arg13) := W12_of_ne m ρ c main_arg13 (by decide)
theorem keep_arg14_12 : W12 m ρ c (Proc.devRef .tc main_arg14) = W11 m ρ c (Proc.devRef .tc main_arg14) := W12_of_ne m ρ c main_arg14 (by decide)
theorem keep_arg2_12 : W12 m ρ c (Proc.devRef .tc main_arg2) = W11 m ρ c (Proc.devRef .tc main_arg2) := W12_of_ne m ρ c main_arg2 (by decide)
theorem keep_arg3_12 : W12 m ρ c (Proc.devRef .tc main_arg3) = W11 m ρ c (Proc.devRef .tc main_arg3) := W12_of_ne m ρ c main_arg3 (by decide)
theorem keep_arg8_12 : W12 m ρ c (Proc.devRef .tc main_arg8) = W11 m ρ c (Proc.devRef .tc main_arg8) := W12_of_ne m ρ c main_arg8 (by decide)
theorem keep_arg9_12 : W12 m ρ c (Proc.devRef .tc main_arg9) = W11 m ρ c (Proc.devRef .tc main_arg9) := W12_of_ne m ρ c main_arg9 (by decide)
theorem keep_v116_12 : W12 m ρ c (Proc.devRef .tc main_v116) = W11 m ρ c (Proc.devRef .tc main_v116) := W12_of_ne m ρ c main_v116 (by decide)
theorem keep_v26_12 : W12 m ρ c (Proc.devRef .tc main_v26) = W11 m ρ c (Proc.devRef .tc main_v26) := W12_of_ne m ρ c main_v26 (by decide)
theorem keep_v32_12 : W12 m ρ c (Proc.devRef .tc main_v32) = W11 m ρ c (Proc.devRef .tc main_v32) :=
  (W12_arr m ρ c 5).trans (((dat5 (V11 m ρ) c).arrAt_in 5 rfl _).trans (A_eq5 (V11 m ρ) c 5))
set_option maxHeartbeats 4000000 in
theorem keep_arg10_13 : W13 m ρ c (Proc.devRef .tc main_arg10) = W12 m ρ c (Proc.devRef .tc main_arg10) := by
  show StableHlo.after hostOps6 (W12 m ρ c) (Proc.devRef .tc main_arg10) = _
  after_results_simp
set_option maxHeartbeats 4000000 in
theorem keep_arg11_13 : W13 m ρ c (Proc.devRef .tc main_arg11) = W12 m ρ c (Proc.devRef .tc main_arg11) := by
  show StableHlo.after hostOps6 (W12 m ρ c) (Proc.devRef .tc main_arg11) = _
  after_results_simp
set_option maxHeartbeats 4000000 in
theorem keep_arg12_13 : W13 m ρ c (Proc.devRef .tc main_arg12) = W12 m ρ c (Proc.devRef .tc main_arg12) := by
  show StableHlo.after hostOps6 (W12 m ρ c) (Proc.devRef .tc main_arg12) = _
  after_results_simp
set_option maxHeartbeats 4000000 in
theorem keep_arg8_13 : W13 m ρ c (Proc.devRef .tc main_arg8) = W12 m ρ c (Proc.devRef .tc main_arg8) := by
  show StableHlo.after hostOps6 (W12 m ρ c) (Proc.devRef .tc main_arg8) = _
  after_results_simp
set_option maxHeartbeats 4000000 in
theorem keep_arg9_13 : W13 m ρ c (Proc.devRef .tc main_arg9) = W12 m ρ c (Proc.devRef .tc main_arg9) := by
  show StableHlo.after hostOps6 (W12 m ρ c) (Proc.devRef .tc main_arg9) = _
  after_results_simp
set_option maxHeartbeats 4000000 in
theorem keep_v116_13 : W13 m ρ c (Proc.devRef .tc main_v116) = W12 m ρ c (Proc.devRef .tc main_v116) := by
  show StableHlo.after hostOps6 (W12 m ρ c) (Proc.devRef .tc main_v116) = _
  after_results_simp
set_option maxHeartbeats 4000000 in
theorem keep_v124_13 : W13 m ρ c (Proc.devRef .tc main_v124) = W12 m ρ c (Proc.devRef .tc main_v124) := by
  show StableHlo.after hostOps6 (W12 m ρ c) (Proc.devRef .tc main_v124) = _
  after_results_simp
set_option maxHeartbeats 4000000 in
theorem keep_v26_13 : W13 m ρ c (Proc.devRef .tc main_v26) = W12 m ρ c (Proc.devRef .tc main_v26) := by
  show StableHlo.after hostOps6 (W12 m ρ c) (Proc.devRef .tc main_v26) = _
  after_results_simp
set_option maxHeartbeats 4000000 in
theorem keep_v32_13 : W13 m ρ c (Proc.devRef .tc main_v32) = W12 m ρ c (Proc.devRef .tc main_v32) := by
  show StableHlo.after hostOps6 (W12 m ρ c) (Proc.devRef .tc main_v32) = _
  after_results_simp
theorem keep_arg10_14 : W14 m ρ c (Proc.devRef .tc main_arg10) = W13 m ρ c (Proc.devRef .tc main_arg10) := W14_of_ne m ρ c main_arg10 (by decide)
theorem keep_arg11_14 : W14 m ρ c (Proc.devRef .tc main_arg11) = W13 m ρ c (Proc.devRef .tc main_arg11) := W14_of_ne m ρ c main_arg11 (by decide)
theorem keep_arg12_14 : W14 m ρ c (Proc.devRef .tc main_arg12) = W13 m ρ c (Proc.devRef .tc main_arg12) := W14_of_ne m ρ c main_arg12 (by decide)
theorem keep_arg8_14 : W14 m ρ c (Proc.devRef .tc main_arg8) = W13 m ρ c (Proc.devRef .tc main_arg8) := W14_of_ne m ρ c main_arg8 (by decide)
theorem keep_arg9_14 : W14 m ρ c (Proc.devRef .tc main_arg9) = W13 m ρ c (Proc.devRef .tc main_arg9) := W14_of_ne m ρ c main_arg9 (by decide)
theorem keep_v124_14 : W14 m ρ c (Proc.devRef .tc main_v124) = W13 m ρ c (Proc.devRef .tc main_v124) := W14_of_ne m ρ c main_v124 (by decide)
theorem keep_v154_14 : W14 m ρ c (Proc.devRef .tc main_v154) = W13 m ρ c (Proc.devRef .tc main_v154) := W14_of_ne m ρ c main_v154 (by decide)
theorem keep_v32_14 : W14 m ρ c (Proc.devRef .tc main_v32) = W13 m ρ c (Proc.devRef .tc main_v32) := W14_of_ne m ρ c main_v32 (by decide)
set_option maxHeartbeats 4000000 in
theorem keep_v124_15 : W15 m ρ c (Proc.devRef .tc main_v124) = W14 m ρ c (Proc.devRef .tc main_v124) := by
  show StableHlo.after hostOps7 (W14 m ρ c) (Proc.devRef .tc main_v124) = _
  after_results_simp
set_option maxHeartbeats 4000000 in
theorem keep_v154_15 : W15 m ρ c (Proc.devRef .tc main_v154) = W14 m ρ c (Proc.devRef .tc main_v154) := by
  show StableHlo.after hostOps7 (W14 m ρ c) (Proc.devRef .tc main_v154) = _
  after_results_simp
set_option maxHeartbeats 4000000 in
theorem keep_v164_15 : W15 m ρ c (Proc.devRef .tc main_v164) = W14 m ρ c (Proc.devRef .tc main_v164) := by
  show StableHlo.after hostOps7 (W14 m ρ c) (Proc.devRef .tc main_v164) = _
  after_results_simp
set_option maxHeartbeats 4000000 in
theorem keep_v32_15 : W15 m ρ c (Proc.devRef .tc main_v32) = W14 m ρ c (Proc.devRef .tc main_v32) := by
  show StableHlo.after hostOps7 (W14 m ρ c) (Proc.devRef .tc main_v32) = _
  after_results_simp
theorem keep_v164_16 : W16 m ρ c (Proc.devRef .tc main_v164) = W15 m ρ c (Proc.devRef .tc main_v164) := W16_of_ne m ρ c main_v164 (by decide)

/-! ## The argument arrays at the boundaries where they are read -/

theorem arg0_at0 : W0 m ρ c (Proc.devRef .tc main_arg0) = m ((c : Thread nD τ).loc main_arg0) := rfl
theorem arg0_at1 : W1 m ρ c (Proc.devRef .tc main_arg0) = m ((c : Thread nD τ).loc main_arg0) := (keep_arg0_1 m ρ c).trans (arg0_at0 m ρ c)
theorem arg1_at0 : W0 m ρ c (Proc.devRef .tc main_arg1) = m ((c : Thread nD τ).loc main_arg1) := rfl
theorem arg1_at1 : W1 m ρ c (Proc.devRef .tc main_arg1) = m ((c : Thread nD τ).loc main_arg1) := (keep_arg1_1 m ρ c).trans (arg1_at0 m ρ c)
theorem arg1_at2 : W2 m ρ c (Proc.devRef .tc main_arg1) = m ((c : Thread nD τ).loc main_arg1) := (keep_arg1_2 m ρ c).trans (arg1_at1 m ρ c)
theorem arg1_at3 : W3 m ρ c (Proc.devRef .tc main_arg1) = m ((c : Thread nD τ).loc main_arg1) := (keep_arg1_3 m ρ c).trans (arg1_at2 m ρ c)
theorem arg2_at0 : W0 m ρ c (Proc.devRef .tc main_arg2) = m ((c : Thread nD τ).loc main_arg2) := rfl
theorem arg2_at1 : W1 m ρ c (Proc.devRef .tc main_arg2) = m ((c : Thread nD τ).loc main_arg2) := (keep_arg2_1 m ρ c).trans (arg2_at0 m ρ c)
theorem arg2_at2 : W2 m ρ c (Proc.devRef .tc main_arg2) = m ((c : Thread nD τ).loc main_arg2) := (keep_arg2_2 m ρ c).trans (arg2_at1 m ρ c)
theorem arg2_at3 : W3 m ρ c (Proc.devRef .tc main_arg2) = m ((c : Thread nD τ).loc main_arg2) := (keep_arg2_3 m ρ c).trans (arg2_at2 m ρ c)
theorem arg2_at4 : W4 m ρ c (Proc.devRef .tc main_arg2) = m ((c : Thread nD τ).loc main_arg2) := (keep_arg2_4 m ρ c).trans (arg2_at3 m ρ c)
theorem arg2_at5 : W5 m ρ c (Proc.devRef .tc main_arg2) = m ((c : Thread nD τ).loc main_arg2) := (keep_arg2_5 m ρ c).trans (arg2_at4 m ρ c)
theorem arg2_at6 : W6 m ρ c (Proc.devRef .tc main_arg2) = m ((c : Thread nD τ).loc main_arg2) := (keep_arg2_6 m ρ c).trans (arg2_at5 m ρ c)
theorem arg2_at7 : W7 m ρ c (Proc.devRef .tc main_arg2) = m ((c : Thread nD τ).loc main_arg2) := (keep_arg2_7 m ρ c).trans (arg2_at6 m ρ c)
theorem arg2_at8 : W8 m ρ c (Proc.devRef .tc main_arg2) = m ((c : Thread nD τ).loc main_arg2) := (keep_arg2_8 m ρ c).trans (arg2_at7 m ρ c)
theorem arg2_at9 : W9 m ρ c (Proc.devRef .tc main_arg2) = m ((c : Thread nD τ).loc main_arg2) := (keep_arg2_9 m ρ c).trans (arg2_at8 m ρ c)
theorem arg2_at10 : W10 m ρ c (Proc.devRef .tc main_arg2) = m ((c : Thread nD τ).loc main_arg2) := (keep_arg2_10 m ρ c).trans (arg2_at9 m ρ c)
theorem arg2_at11 : W11 m ρ c (Proc.devRef .tc main_arg2) = m ((c : Thread nD τ).loc main_arg2) := (keep_arg2_11 m ρ c).trans (arg2_at10 m ρ c)
theorem arg2_at12 : W12 m ρ c (Proc.devRef .tc main_arg2) = m ((c : Thread nD τ).loc main_arg2) := (keep_arg2_12 m ρ c).trans (arg2_at11 m ρ c)
theorem arg3_at0 : W0 m ρ c (Proc.devRef .tc main_arg3) = m ((c : Thread nD τ).loc main_arg3) := rfl
theorem arg3_at1 : W1 m ρ c (Proc.devRef .tc main_arg3) = m ((c : Thread nD τ).loc main_arg3) := (keep_arg3_1 m ρ c).trans (arg3_at0 m ρ c)
theorem arg3_at2 : W2 m ρ c (Proc.devRef .tc main_arg3) = m ((c : Thread nD τ).loc main_arg3) := (keep_arg3_2 m ρ c).trans (arg3_at1 m ρ c)
theorem arg3_at3 : W3 m ρ c (Proc.devRef .tc main_arg3) = m ((c : Thread nD τ).loc main_arg3) := (keep_arg3_3 m ρ c).trans (arg3_at2 m ρ c)
theorem arg3_at4 : W4 m ρ c (Proc.devRef .tc main_arg3) = m ((c : Thread nD τ).loc main_arg3) := (keep_arg3_4 m ρ c).trans (arg3_at3 m ρ c)
theorem arg3_at5 : W5 m ρ c (Proc.devRef .tc main_arg3) = m ((c : Thread nD τ).loc main_arg3) := (keep_arg3_5 m ρ c).trans (arg3_at4 m ρ c)
theorem arg3_at6 : W6 m ρ c (Proc.devRef .tc main_arg3) = m ((c : Thread nD τ).loc main_arg3) := (keep_arg3_6 m ρ c).trans (arg3_at5 m ρ c)
theorem arg3_at7 : W7 m ρ c (Proc.devRef .tc main_arg3) = m ((c : Thread nD τ).loc main_arg3) := (keep_arg3_7 m ρ c).trans (arg3_at6 m ρ c)
theorem arg3_at8 : W8 m ρ c (Proc.devRef .tc main_arg3) = m ((c : Thread nD τ).loc main_arg3) := (keep_arg3_8 m ρ c).trans (arg3_at7 m ρ c)
theorem arg3_at9 : W9 m ρ c (Proc.devRef .tc main_arg3) = m ((c : Thread nD τ).loc main_arg3) := (keep_arg3_9 m ρ c).trans (arg3_at8 m ρ c)
theorem arg3_at10 : W10 m ρ c (Proc.devRef .tc main_arg3) = m ((c : Thread nD τ).loc main_arg3) := (keep_arg3_10 m ρ c).trans (arg3_at9 m ρ c)
theorem arg3_at11 : W11 m ρ c (Proc.devRef .tc main_arg3) = m ((c : Thread nD τ).loc main_arg3) := (keep_arg3_11 m ρ c).trans (arg3_at10 m ρ c)
theorem arg3_at12 : W12 m ρ c (Proc.devRef .tc main_arg3) = m ((c : Thread nD τ).loc main_arg3) := (keep_arg3_12 m ρ c).trans (arg3_at11 m ρ c)
theorem arg4_at0 : W0 m ρ c (Proc.devRef .tc main_arg4) = m ((c : Thread nD τ).loc main_arg4) := rfl
theorem arg4_at1 : W1 m ρ c (Proc.devRef .tc main_arg4) = m ((c : Thread nD τ).loc main_arg4) := (keep_arg4_1 m ρ c).trans (arg4_at0 m ρ c)
theorem arg5_at0 : W0 m ρ c (Proc.devRef .tc main_arg5) = m ((c : Thread nD τ).loc main_arg5) := rfl
theorem arg6_at0 : W0 m ρ c (Proc.devRef .tc main_arg6) = m ((c : Thread nD τ).loc main_arg6) := rfl
theorem arg6_at1 : W1 m ρ c (Proc.devRef .tc main_arg6) = m ((c : Thread nD τ).loc main_arg6) := (keep_arg6_1 m ρ c).trans (arg6_at0 m ρ c)
theorem arg6_at2 : W2 m ρ c (Proc.devRef .tc main_arg6) = m ((c : Thread nD τ).loc main_arg6) := (keep_arg6_2 m ρ c).trans (arg6_at1 m ρ c)
theorem arg6_at3 : W3 m ρ c (Proc.devRef .tc main_arg6) = m ((c : Thread nD τ).loc main_arg6) := (keep_arg6_3 m ρ c).trans (arg6_at2 m ρ c)
theorem arg7_at0 : W0 m ρ c (Proc.devRef .tc main_arg7) = m ((c : Thread nD τ).loc main_arg7) := rfl
theorem arg7_at1 : W1 m ρ c (Proc.devRef .tc main_arg7) = m ((c : Thread nD τ).loc main_arg7) := (keep_arg7_1 m ρ c).trans (arg7_at0 m ρ c)
theorem arg7_at2 : W2 m ρ c (Proc.devRef .tc main_arg7) = m ((c : Thread nD τ).loc main_arg7) := (keep_arg7_2 m ρ c).trans (arg7_at1 m ρ c)
theorem arg8_at0 : W0 m ρ c (Proc.devRef .tc main_arg8) = m ((c : Thread nD τ).loc main_arg8) := rfl
theorem arg8_at1 : W1 m ρ c (Proc.devRef .tc main_arg8) = m ((c : Thread nD τ).loc main_arg8) := (keep_arg8_1 m ρ c).trans (arg8_at0 m ρ c)
theorem arg8_at2 : W2 m ρ c (Proc.devRef .tc main_arg8) = m ((c : Thread nD τ).loc main_arg8) := (keep_arg8_2 m ρ c).trans (arg8_at1 m ρ c)
theorem arg8_at3 : W3 m ρ c (Proc.devRef .tc main_arg8) = m ((c : Thread nD τ).loc main_arg8) := (keep_arg8_3 m ρ c).trans (arg8_at2 m ρ c)
theorem arg8_at4 : W4 m ρ c (Proc.devRef .tc main_arg8) = m ((c : Thread nD τ).loc main_arg8) := (keep_arg8_4 m ρ c).trans (arg8_at3 m ρ c)
theorem arg8_at5 : W5 m ρ c (Proc.devRef .tc main_arg8) = m ((c : Thread nD τ).loc main_arg8) := (keep_arg8_5 m ρ c).trans (arg8_at4 m ρ c)
theorem arg8_at6 : W6 m ρ c (Proc.devRef .tc main_arg8) = m ((c : Thread nD τ).loc main_arg8) := (keep_arg8_6 m ρ c).trans (arg8_at5 m ρ c)
theorem arg8_at7 : W7 m ρ c (Proc.devRef .tc main_arg8) = m ((c : Thread nD τ).loc main_arg8) := (keep_arg8_7 m ρ c).trans (arg8_at6 m ρ c)
theorem arg8_at8 : W8 m ρ c (Proc.devRef .tc main_arg8) = m ((c : Thread nD τ).loc main_arg8) := (keep_arg8_8 m ρ c).trans (arg8_at7 m ρ c)
theorem arg8_at9 : W9 m ρ c (Proc.devRef .tc main_arg8) = m ((c : Thread nD τ).loc main_arg8) := (keep_arg8_9 m ρ c).trans (arg8_at8 m ρ c)
theorem arg8_at10 : W10 m ρ c (Proc.devRef .tc main_arg8) = m ((c : Thread nD τ).loc main_arg8) := (keep_arg8_10 m ρ c).trans (arg8_at9 m ρ c)
theorem arg8_at11 : W11 m ρ c (Proc.devRef .tc main_arg8) = m ((c : Thread nD τ).loc main_arg8) := (keep_arg8_11 m ρ c).trans (arg8_at10 m ρ c)
theorem arg8_at12 : W12 m ρ c (Proc.devRef .tc main_arg8) = m ((c : Thread nD τ).loc main_arg8) := (keep_arg8_12 m ρ c).trans (arg8_at11 m ρ c)
theorem arg8_at13 : W13 m ρ c (Proc.devRef .tc main_arg8) = m ((c : Thread nD τ).loc main_arg8) := (keep_arg8_13 m ρ c).trans (arg8_at12 m ρ c)
theorem arg8_at14 : W14 m ρ c (Proc.devRef .tc main_arg8) = m ((c : Thread nD τ).loc main_arg8) := (keep_arg8_14 m ρ c).trans (arg8_at13 m ρ c)
theorem arg9_at0 : W0 m ρ c (Proc.devRef .tc main_arg9) = m ((c : Thread nD τ).loc main_arg9) := rfl
theorem arg9_at1 : W1 m ρ c (Proc.devRef .tc main_arg9) = m ((c : Thread nD τ).loc main_arg9) := (keep_arg9_1 m ρ c).trans (arg9_at0 m ρ c)
theorem arg9_at2 : W2 m ρ c (Proc.devRef .tc main_arg9) = m ((c : Thread nD τ).loc main_arg9) := (keep_arg9_2 m ρ c).trans (arg9_at1 m ρ c)
theorem arg9_at3 : W3 m ρ c (Proc.devRef .tc main_arg9) = m ((c : Thread nD τ).loc main_arg9) := (keep_arg9_3 m ρ c).trans (arg9_at2 m ρ c)
theorem arg9_at4 : W4 m ρ c (Proc.devRef .tc main_arg9) = m ((c : Thread nD τ).loc main_arg9) := (keep_arg9_4 m ρ c).trans (arg9_at3 m ρ c)
theorem arg9_at5 : W5 m ρ c (Proc.devRef .tc main_arg9) = m ((c : Thread nD τ).loc main_arg9) := (keep_arg9_5 m ρ c).trans (arg9_at4 m ρ c)
theorem arg9_at6 : W6 m ρ c (Proc.devRef .tc main_arg9) = m ((c : Thread nD τ).loc main_arg9) := (keep_arg9_6 m ρ c).trans (arg9_at5 m ρ c)
theorem arg9_at7 : W7 m ρ c (Proc.devRef .tc main_arg9) = m ((c : Thread nD τ).loc main_arg9) := (keep_arg9_7 m ρ c).trans (arg9_at6 m ρ c)
theorem arg9_at8 : W8 m ρ c (Proc.devRef .tc main_arg9) = m ((c : Thread nD τ).loc main_arg9) := (keep_arg9_8 m ρ c).trans (arg9_at7 m ρ c)
theorem arg9_at9 : W9 m ρ c (Proc.devRef .tc main_arg9) = m ((c : Thread nD τ).loc main_arg9) := (keep_arg9_9 m ρ c).trans (arg9_at8 m ρ c)
theorem arg9_at10 : W10 m ρ c (Proc.devRef .tc main_arg9) = m ((c : Thread nD τ).loc main_arg9) := (keep_arg9_10 m ρ c).trans (arg9_at9 m ρ c)
theorem arg9_at11 : W11 m ρ c (Proc.devRef .tc main_arg9) = m ((c : Thread nD τ).loc main_arg9) := (keep_arg9_11 m ρ c).trans (arg9_at10 m ρ c)
theorem arg9_at12 : W12 m ρ c (Proc.devRef .tc main_arg9) = m ((c : Thread nD τ).loc main_arg9) := (keep_arg9_12 m ρ c).trans (arg9_at11 m ρ c)
theorem arg9_at13 : W13 m ρ c (Proc.devRef .tc main_arg9) = m ((c : Thread nD τ).loc main_arg9) := (keep_arg9_13 m ρ c).trans (arg9_at12 m ρ c)
theorem arg9_at14 : W14 m ρ c (Proc.devRef .tc main_arg9) = m ((c : Thread nD τ).loc main_arg9) := (keep_arg9_14 m ρ c).trans (arg9_at13 m ρ c)
theorem arg10_at0 : W0 m ρ c (Proc.devRef .tc main_arg10) = m ((c : Thread nD τ).loc main_arg10) := rfl
theorem arg10_at1 : W1 m ρ c (Proc.devRef .tc main_arg10) = m ((c : Thread nD τ).loc main_arg10) := (keep_arg10_1 m ρ c).trans (arg10_at0 m ρ c)
theorem arg10_at2 : W2 m ρ c (Proc.devRef .tc main_arg10) = m ((c : Thread nD τ).loc main_arg10) := (keep_arg10_2 m ρ c).trans (arg10_at1 m ρ c)
theorem arg10_at3 : W3 m ρ c (Proc.devRef .tc main_arg10) = m ((c : Thread nD τ).loc main_arg10) := (keep_arg10_3 m ρ c).trans (arg10_at2 m ρ c)
theorem arg10_at4 : W4 m ρ c (Proc.devRef .tc main_arg10) = m ((c : Thread nD τ).loc main_arg10) := (keep_arg10_4 m ρ c).trans (arg10_at3 m ρ c)
theorem arg10_at5 : W5 m ρ c (Proc.devRef .tc main_arg10) = m ((c : Thread nD τ).loc main_arg10) := (keep_arg10_5 m ρ c).trans (arg10_at4 m ρ c)
theorem arg10_at6 : W6 m ρ c (Proc.devRef .tc main_arg10) = m ((c : Thread nD τ).loc main_arg10) := (keep_arg10_6 m ρ c).trans (arg10_at5 m ρ c)
theorem arg10_at7 : W7 m ρ c (Proc.devRef .tc main_arg10) = m ((c : Thread nD τ).loc main_arg10) := (keep_arg10_7 m ρ c).trans (arg10_at6 m ρ c)
theorem arg10_at8 : W8 m ρ c (Proc.devRef .tc main_arg10) = m ((c : Thread nD τ).loc main_arg10) := (keep_arg10_8 m ρ c).trans (arg10_at7 m ρ c)
theorem arg10_at9 : W9 m ρ c (Proc.devRef .tc main_arg10) = m ((c : Thread nD τ).loc main_arg10) := (keep_arg10_9 m ρ c).trans (arg10_at8 m ρ c)
theorem arg10_at10 : W10 m ρ c (Proc.devRef .tc main_arg10) = m ((c : Thread nD τ).loc main_arg10) := (keep_arg10_10 m ρ c).trans (arg10_at9 m ρ c)
theorem arg10_at11 : W11 m ρ c (Proc.devRef .tc main_arg10) = m ((c : Thread nD τ).loc main_arg10) := (keep_arg10_11 m ρ c).trans (arg10_at10 m ρ c)
theorem arg10_at12 : W12 m ρ c (Proc.devRef .tc main_arg10) = m ((c : Thread nD τ).loc main_arg10) := (keep_arg10_12 m ρ c).trans (arg10_at11 m ρ c)
theorem arg10_at13 : W13 m ρ c (Proc.devRef .tc main_arg10) = m ((c : Thread nD τ).loc main_arg10) := (keep_arg10_13 m ρ c).trans (arg10_at12 m ρ c)
theorem arg10_at14 : W14 m ρ c (Proc.devRef .tc main_arg10) = m ((c : Thread nD τ).loc main_arg10) := (keep_arg10_14 m ρ c).trans (arg10_at13 m ρ c)
theorem arg11_at0 : W0 m ρ c (Proc.devRef .tc main_arg11) = m ((c : Thread nD τ).loc main_arg11) := rfl
theorem arg11_at1 : W1 m ρ c (Proc.devRef .tc main_arg11) = m ((c : Thread nD τ).loc main_arg11) := (keep_arg11_1 m ρ c).trans (arg11_at0 m ρ c)
theorem arg11_at2 : W2 m ρ c (Proc.devRef .tc main_arg11) = m ((c : Thread nD τ).loc main_arg11) := (keep_arg11_2 m ρ c).trans (arg11_at1 m ρ c)
theorem arg11_at3 : W3 m ρ c (Proc.devRef .tc main_arg11) = m ((c : Thread nD τ).loc main_arg11) := (keep_arg11_3 m ρ c).trans (arg11_at2 m ρ c)
theorem arg11_at4 : W4 m ρ c (Proc.devRef .tc main_arg11) = m ((c : Thread nD τ).loc main_arg11) := (keep_arg11_4 m ρ c).trans (arg11_at3 m ρ c)
theorem arg11_at5 : W5 m ρ c (Proc.devRef .tc main_arg11) = m ((c : Thread nD τ).loc main_arg11) := (keep_arg11_5 m ρ c).trans (arg11_at4 m ρ c)
theorem arg11_at6 : W6 m ρ c (Proc.devRef .tc main_arg11) = m ((c : Thread nD τ).loc main_arg11) := (keep_arg11_6 m ρ c).trans (arg11_at5 m ρ c)
theorem arg11_at7 : W7 m ρ c (Proc.devRef .tc main_arg11) = m ((c : Thread nD τ).loc main_arg11) := (keep_arg11_7 m ρ c).trans (arg11_at6 m ρ c)
theorem arg11_at8 : W8 m ρ c (Proc.devRef .tc main_arg11) = m ((c : Thread nD τ).loc main_arg11) := (keep_arg11_8 m ρ c).trans (arg11_at7 m ρ c)
theorem arg11_at9 : W9 m ρ c (Proc.devRef .tc main_arg11) = m ((c : Thread nD τ).loc main_arg11) := (keep_arg11_9 m ρ c).trans (arg11_at8 m ρ c)
theorem arg11_at10 : W10 m ρ c (Proc.devRef .tc main_arg11) = m ((c : Thread nD τ).loc main_arg11) := (keep_arg11_10 m ρ c).trans (arg11_at9 m ρ c)
theorem arg11_at11 : W11 m ρ c (Proc.devRef .tc main_arg11) = m ((c : Thread nD τ).loc main_arg11) := (keep_arg11_11 m ρ c).trans (arg11_at10 m ρ c)
theorem arg11_at12 : W12 m ρ c (Proc.devRef .tc main_arg11) = m ((c : Thread nD τ).loc main_arg11) := (keep_arg11_12 m ρ c).trans (arg11_at11 m ρ c)
theorem arg11_at13 : W13 m ρ c (Proc.devRef .tc main_arg11) = m ((c : Thread nD τ).loc main_arg11) := (keep_arg11_13 m ρ c).trans (arg11_at12 m ρ c)
theorem arg11_at14 : W14 m ρ c (Proc.devRef .tc main_arg11) = m ((c : Thread nD τ).loc main_arg11) := (keep_arg11_14 m ρ c).trans (arg11_at13 m ρ c)
theorem arg12_at0 : W0 m ρ c (Proc.devRef .tc main_arg12) = m ((c : Thread nD τ).loc main_arg12) := rfl
theorem arg12_at1 : W1 m ρ c (Proc.devRef .tc main_arg12) = m ((c : Thread nD τ).loc main_arg12) := (keep_arg12_1 m ρ c).trans (arg12_at0 m ρ c)
theorem arg12_at2 : W2 m ρ c (Proc.devRef .tc main_arg12) = m ((c : Thread nD τ).loc main_arg12) := (keep_arg12_2 m ρ c).trans (arg12_at1 m ρ c)
theorem arg12_at3 : W3 m ρ c (Proc.devRef .tc main_arg12) = m ((c : Thread nD τ).loc main_arg12) := (keep_arg12_3 m ρ c).trans (arg12_at2 m ρ c)
theorem arg12_at4 : W4 m ρ c (Proc.devRef .tc main_arg12) = m ((c : Thread nD τ).loc main_arg12) := (keep_arg12_4 m ρ c).trans (arg12_at3 m ρ c)
theorem arg12_at5 : W5 m ρ c (Proc.devRef .tc main_arg12) = m ((c : Thread nD τ).loc main_arg12) := (keep_arg12_5 m ρ c).trans (arg12_at4 m ρ c)
theorem arg12_at6 : W6 m ρ c (Proc.devRef .tc main_arg12) = m ((c : Thread nD τ).loc main_arg12) := (keep_arg12_6 m ρ c).trans (arg12_at5 m ρ c)
theorem arg12_at7 : W7 m ρ c (Proc.devRef .tc main_arg12) = m ((c : Thread nD τ).loc main_arg12) := (keep_arg12_7 m ρ c).trans (arg12_at6 m ρ c)
theorem arg12_at8 : W8 m ρ c (Proc.devRef .tc main_arg12) = m ((c : Thread nD τ).loc main_arg12) := (keep_arg12_8 m ρ c).trans (arg12_at7 m ρ c)
theorem arg12_at9 : W9 m ρ c (Proc.devRef .tc main_arg12) = m ((c : Thread nD τ).loc main_arg12) := (keep_arg12_9 m ρ c).trans (arg12_at8 m ρ c)
theorem arg12_at10 : W10 m ρ c (Proc.devRef .tc main_arg12) = m ((c : Thread nD τ).loc main_arg12) := (keep_arg12_10 m ρ c).trans (arg12_at9 m ρ c)
theorem arg12_at11 : W11 m ρ c (Proc.devRef .tc main_arg12) = m ((c : Thread nD τ).loc main_arg12) := (keep_arg12_11 m ρ c).trans (arg12_at10 m ρ c)
theorem arg12_at12 : W12 m ρ c (Proc.devRef .tc main_arg12) = m ((c : Thread nD τ).loc main_arg12) := (keep_arg12_12 m ρ c).trans (arg12_at11 m ρ c)
theorem arg12_at13 : W13 m ρ c (Proc.devRef .tc main_arg12) = m ((c : Thread nD τ).loc main_arg12) := (keep_arg12_13 m ρ c).trans (arg12_at12 m ρ c)
theorem arg12_at14 : W14 m ρ c (Proc.devRef .tc main_arg12) = m ((c : Thread nD τ).loc main_arg12) := (keep_arg12_14 m ρ c).trans (arg12_at13 m ρ c)
theorem arg13_at0 : W0 m ρ c (Proc.devRef .tc main_arg13) = m ((c : Thread nD τ).loc main_arg13) := rfl
theorem arg13_at1 : W1 m ρ c (Proc.devRef .tc main_arg13) = m ((c : Thread nD τ).loc main_arg13) := (keep_arg13_1 m ρ c).trans (arg13_at0 m ρ c)
theorem arg13_at2 : W2 m ρ c (Proc.devRef .tc main_arg13) = m ((c : Thread nD τ).loc main_arg13) := (keep_arg13_2 m ρ c).trans (arg13_at1 m ρ c)
theorem arg13_at3 : W3 m ρ c (Proc.devRef .tc main_arg13) = m ((c : Thread nD τ).loc main_arg13) := (keep_arg13_3 m ρ c).trans (arg13_at2 m ρ c)
theorem arg13_at4 : W4 m ρ c (Proc.devRef .tc main_arg13) = m ((c : Thread nD τ).loc main_arg13) := (keep_arg13_4 m ρ c).trans (arg13_at3 m ρ c)
theorem arg13_at5 : W5 m ρ c (Proc.devRef .tc main_arg13) = m ((c : Thread nD τ).loc main_arg13) := (keep_arg13_5 m ρ c).trans (arg13_at4 m ρ c)
theorem arg13_at6 : W6 m ρ c (Proc.devRef .tc main_arg13) = m ((c : Thread nD τ).loc main_arg13) := (keep_arg13_6 m ρ c).trans (arg13_at5 m ρ c)
theorem arg13_at7 : W7 m ρ c (Proc.devRef .tc main_arg13) = m ((c : Thread nD τ).loc main_arg13) := (keep_arg13_7 m ρ c).trans (arg13_at6 m ρ c)
theorem arg13_at8 : W8 m ρ c (Proc.devRef .tc main_arg13) = m ((c : Thread nD τ).loc main_arg13) := (keep_arg13_8 m ρ c).trans (arg13_at7 m ρ c)
theorem arg13_at9 : W9 m ρ c (Proc.devRef .tc main_arg13) = m ((c : Thread nD τ).loc main_arg13) := (keep_arg13_9 m ρ c).trans (arg13_at8 m ρ c)
theorem arg13_at10 : W10 m ρ c (Proc.devRef .tc main_arg13) = m ((c : Thread nD τ).loc main_arg13) := (keep_arg13_10 m ρ c).trans (arg13_at9 m ρ c)
theorem arg13_at11 : W11 m ρ c (Proc.devRef .tc main_arg13) = m ((c : Thread nD τ).loc main_arg13) := (keep_arg13_11 m ρ c).trans (arg13_at10 m ρ c)
theorem arg13_at12 : W12 m ρ c (Proc.devRef .tc main_arg13) = m ((c : Thread nD τ).loc main_arg13) := (keep_arg13_12 m ρ c).trans (arg13_at11 m ρ c)
theorem arg14_at0 : W0 m ρ c (Proc.devRef .tc main_arg14) = m ((c : Thread nD τ).loc main_arg14) := rfl
theorem arg14_at1 : W1 m ρ c (Proc.devRef .tc main_arg14) = m ((c : Thread nD τ).loc main_arg14) := (keep_arg14_1 m ρ c).trans (arg14_at0 m ρ c)
theorem arg14_at2 : W2 m ρ c (Proc.devRef .tc main_arg14) = m ((c : Thread nD τ).loc main_arg14) := (keep_arg14_2 m ρ c).trans (arg14_at1 m ρ c)
theorem arg14_at3 : W3 m ρ c (Proc.devRef .tc main_arg14) = m ((c : Thread nD τ).loc main_arg14) := (keep_arg14_3 m ρ c).trans (arg14_at2 m ρ c)
theorem arg14_at4 : W4 m ρ c (Proc.devRef .tc main_arg14) = m ((c : Thread nD τ).loc main_arg14) := (keep_arg14_4 m ρ c).trans (arg14_at3 m ρ c)
theorem arg14_at5 : W5 m ρ c (Proc.devRef .tc main_arg14) = m ((c : Thread nD τ).loc main_arg14) := (keep_arg14_5 m ρ c).trans (arg14_at4 m ρ c)
theorem arg14_at6 : W6 m ρ c (Proc.devRef .tc main_arg14) = m ((c : Thread nD τ).loc main_arg14) := (keep_arg14_6 m ρ c).trans (arg14_at5 m ρ c)
theorem arg14_at7 : W7 m ρ c (Proc.devRef .tc main_arg14) = m ((c : Thread nD τ).loc main_arg14) := (keep_arg14_7 m ρ c).trans (arg14_at6 m ρ c)
theorem arg14_at8 : W8 m ρ c (Proc.devRef .tc main_arg14) = m ((c : Thread nD τ).loc main_arg14) := (keep_arg14_8 m ρ c).trans (arg14_at7 m ρ c)
theorem arg14_at9 : W9 m ρ c (Proc.devRef .tc main_arg14) = m ((c : Thread nD τ).loc main_arg14) := (keep_arg14_9 m ρ c).trans (arg14_at8 m ρ c)
theorem arg14_at10 : W10 m ρ c (Proc.devRef .tc main_arg14) = m ((c : Thread nD τ).loc main_arg14) := (keep_arg14_10 m ρ c).trans (arg14_at9 m ρ c)
theorem arg14_at11 : W11 m ρ c (Proc.devRef .tc main_arg14) = m ((c : Thread nD τ).loc main_arg14) := (keep_arg14_11 m ρ c).trans (arg14_at10 m ρ c)
theorem arg14_at12 : W12 m ρ c (Proc.devRef .tc main_arg14) = m ((c : Thread nD τ).loc main_arg14) := (keep_arg14_12 m ρ c).trans (arg14_at11 m ρ c)

end Cert.KernelIdeal.KRead

end
-- ==== Proof.KDefs.lean ====
/-
  The idealized kernel's host-side pieces, named: what the stretches of host operations between its blocked regions
  compute from the argument arrays and from the tables the regions leave.

  Between two regions the program gathers one table's rows at the edges' wrapped node numbers and adds them up at the
  edges' wrapped node numbers of the other kind (the summed messages); once, before the first round, it counts every
  node's edges with integers, converts the count, takes the larger of it and 1 and inverts it (the inverse count, a
  column); and it cuts each round's weight matrices and bias out of the stacked arrays, the bias and the two
  normalisation vectors laid out as one row.
-/
import proofs.«113985_j6949257085118_2_alg».proof.Proof.Gen.KernelIdeal
import Idealize.ShloMosaic.PureOps.Ideal

set_option maxRecDepth 16384

noncomputable section

namespace Cert.KernelIdeal.KDefs

open Cert.KernelIdeal Cert.KernelIdeal.Gen Idealize.ShloMosaic Idealize.ShloMosaic.TcCoe Idealize.SL.Sem

variable {F : FTy → Type} [FloatOps F]

/-- An edge's user number with a negative one wrapped around the table's length. -/
def wrapSrc (A2 : IVec S1500000 32) : IVec S1500000 32 := select (cmpi .slt A2 (broadcastInDim S1500000 ![] bcast_S_S1500000 (constantI S_ 32 0#32))) (addi A2 (broadcastInDim S1500000 ![] bcast_S_S1500000 (constantI S_ 32 150000#32))) A2
/-- An edge's book number, wrapped likewise. -/
def wrapDst (A3 : IVec S1500000 32) : IVec S1500000 32 := select (cmpi .slt A3 (broadcastInDim S1500000 ![] bcast_S_S1500000 (constantI S_ 32 0#32))) (addi A3 (broadcastInDim S1500000 ![] bcast_S_S1500000 (constantI S_ 32 75000#32))) A3

/-- Per book, the sum of the user rows over the edges naming the book (both node numbers wrapped). -/
def aggBook (A2 A3 : IVec S1500000 32) (u : FVec F S150000x128 .f32) : FVec F S75000x128 .f32 :=
  Host.scatterAdd scatter_S75000x128_S1500000x1_S1500000x128_1_0_0_1 (broadcastInDim S75000x128 ![] bcast_S_S75000x128 (constant S_ .f32 0x00000000#32)) (broadcastInDim S1500000x1 ![0] bcast_S1500000_S1500000x1_0 (wrapDst A3)) (Host.gather gather_S150000x128_S1500000x1_S1500000x128_1_0_n_n_0_1_1128 u (broadcastInDim S1500000x1 ![0] bcast_S1500000_S1500000x1_0 (wrapSrc A2)))
/-- Per user, the sum of the book rows over the edges naming the user. -/
def aggUser (A2 A3 : IVec S1500000 32) (b : FVec F S75000x128 .f32) : FVec F S150000x128 .f32 :=
  Host.scatterAdd scatter_S150000x128_S1500000x1_S1500000x128_1_0_0_1 (broadcastInDim S150000x128 ![] bcast_S_S150000x128 (constant S_ .f32 0x00000000#32)) (broadcastInDim S1500000x1 ![0] bcast_S1500000_S1500000x1_0 (wrapSrc A2)) (Host.gather gather_S75000x128_S1500000x1_S1500000x128_1_0_n_n_0_1_1128 b (broadcastInDim S1500000x1 ![0] bcast_S1500000_S1500000x1_0 (wrapDst A3)))

/-- Per book, 1 over the larger of its (integer) number of edges and 1, as a column. -/
def invBook (A3 : IVec S1500000 32) : FVec F S75000x1 .f32 :=
  shapeCast S75000x1 (Host.divf (broadcastInDim S75000 ![] bcast_S_S75000 (constant S_ .f32 0x3F800000#32)) (maximumf (sitofp .f32 (Host.scatter scatter_S75000_S1500000x1_S1500000_n_0_0_1 IntOp.addi (broadcastInDim S75000 ![] bcast_S_S75000 (constantI S_ 32 0#32)) (broadcastInDim S1500000x1 ![0] bcast_S1500000_S1500000x1_0 (wrapDst A3)) (broadcastInDim S1500000 ![] bcast_S_S1500000 (constantI S_ 32 1#32)))) (broadcastInDim S75000 ![] bcast_S_S75000 (constant S_ .f32 0x3F800000#32)))) shapeCasts_S75000_S75000x1
/-- Per user, the same. -/
def invUser (A2 : IVec S1500000 32) : FVec F S150000x1 .f32 :=
  shapeCast S150000x1 (Host.divf (broadcastInDim S150000 ![] bcast_S_S150000 (constant S_ .f32 0x3F800000#32)) (maximumf (sitofp .f32 (Host.scatter scatter_S150000_S1500000x1_S1500000_n_0_0_1 IntOp.addi (broadcastInDim S150000 ![] bcast_S_S150000 (constantI S_ 32 0#32)) (broadcastInDim S1500000x1 ![0] bcast_S1500000_S1500000x1_0 (wrapSrc A2)) (broadcastInDim S1500000 ![] bcast_S_S1500000 (constantI S_ 32 1#32)))) (broadcastInDim S150000 ![] bcast_S_S150000 (constant S_ .f32 0x3F800000#32)))) shapeCasts_S150000_S150000x1

/-- Round `i`'s left weights, right weights and bias row: slab `i` of the stacked arrays. -/
def wl0 (A8 : FVec F S3x128x128 .f32) : FVec F S128x128 .f32 := shapeCast S128x128 (extractStridedSlice S1x128x128 ![0, 0, 0] A8 slices_S3x128x128_S1x128x128_0_0_0) shapeCasts_S1x128x128_S128x128
def wl1 (A8 : FVec F S3x128x128 .f32) : FVec F S128x128 .f32 := shapeCast S128x128 (extractStridedSlice S1x128x128 ![1, 0, 0] A8 slices_S3x128x128_S1x128x128_1_0_0) shapeCasts_S1x128x128_S128x128
def wl2 (A8 : FVec F S3x128x128 .f32) : FVec F S128x128 .f32 := shapeCast S128x128 (extractStridedSlice S1x128x128 ![2, 0, 0] A8 slices_S3x128x128_S1x128x128_2_0_0) shapeCasts_S1x128x128_S128x128
def wr0 (A10 : FVec F S3x128x128 .f32) : FVec F S128x128 .f32 := shapeCast S128x128 (extractStridedSlice S1x128x128 ![0, 0, 0] A10 slices_S3x128x128_S1x128x128_0_0_0) shapeCasts_S1x128x128_S128x128
def wr1 (A10 : FVec F S3x128x128 .f32) : FVec F S128x128 .f32 := shapeCast S128x128 (extractStridedSlice S1x128x128 ![1, 0, 0] A10 slices_S3x128x128_S1x128x128_1_0_0) shapeCasts_S1x128x128_S128x128
def wr2 (A10 : FVec F S3x128x128 .f32) : FVec F S128x128 .f32 := shapeCast S128x128 (extractStridedSlice S1x128x128 ![2, 0, 0] A10 slices_S3x128x128_S1x128x128_2_0_0) shapeCasts_S1x128x128_S128x128
def blRow0 (A9 : FVec F S3x128 .f32) : FVec F S1x128 .f32 := shapeCast S1x128 (shapeCast S128 (extractStridedSlice S1x128 ![0, 0] A9 slices_S3x128_S1x128_0_0) shapeCasts_S1x128_S128) shapeCasts_S128_S1x128
def blRow1 (A9 : FVec F S3x128 .f32) : FVec F S1x128 .f32 := shapeCast S1x128 (shapeCast S128 (extractStridedSlice S1x128 ![1, 0] A9 slices_S3x128_S1x128_1_0) shapeCasts_S1x128_S128) shapeCasts_S128_S1x128
def blRow2 (A9 : FVec F S3x128 .f32) : FVec F S1x128 .f32 := shapeCast S1x128 (shapeCast S128 (extractStridedSlice S1x128 ![2, 0] A9 slices_S3x128_S1x128_2_0) shapeCasts_S1x128_S128) shapeCasts_S128_S1x128
/-- A 128-vector laid out as one row. -/
def rowVec (A : FVec F S128 .f32) : FVec F S1x128 .f32 := shapeCast S1x128 A shapeCasts_S128_S1x128

end Cert.KernelIdeal.KDefs

end
-- ==== Proof.KRead.lean ====
/-
  What every blocked region of the idealized kernel finds in its windows' arrays when it is entered.

  Each region's inputs are: argument arrays, tables that earlier regions left, and values the stretches of host
  operations computed from those — the summed messages (a gather and a scatter-add over the edges), the inverse
  counts, each round's slab of the stacked weights, and the bias and normalisation vectors laid out as rows. Reading
  the run's boundary contents back through the segments gives each of them as a named term of the argument arrays and
  of the earlier regions' tables.
-/
import proofs.«113985_j6949257085118_2_alg».proof.Proof.KReadKeep
import proofs.«113985_j6949257085118_2_alg».proof.Proof.KDefs

set_option maxRecDepth 16384

noncomputable section

namespace Cert.KernelIdeal.KRead

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg) (c : Dev nD)

/-! ## The argument arrays, typed -/

abbrev A0 (m : (ℓ : Loc nD τ sig) → Buf (Elt F) ℓ) (c : Dev nD) : FVec F S150000x64 .f32 := m ((c : Thread nD τ).loc main_arg0)
abbrev A1 (m : (ℓ : Loc nD τ sig) → Buf (Elt F) ℓ) (c : Dev nD) : FVec F S75000x128 .f32 := m ((c : Thread nD τ).loc main_arg1)
abbrev A2 (m : (ℓ : Loc nD τ sig) → Buf (Elt F) ℓ) (c : Dev nD) : IVec S1500000 32 := m ((c : Thread nD τ).loc main_arg2)
abbrev A3 (m : (ℓ : Loc nD τ sig) → Buf (Elt F) ℓ) (c : Dev nD) : IVec S1500000 32 := m ((c : Thread nD τ).loc main_arg3)
abbrev A4 (m : (ℓ : Loc nD τ sig) → Buf (Elt F) ℓ) (c : Dev nD) : FVec F S64x128 .f32 := m ((c : Thread nD τ).loc main_arg4)
abbrev A5 (m : (ℓ : Loc nD τ sig) → Buf (Elt F) ℓ) (c : Dev nD) : FVec F S128 .f32 := m ((c : Thread nD τ).loc main_arg5)
abbrev A6 (m : (ℓ : Loc nD τ sig) → Buf (Elt F) ℓ) (c : Dev nD) : FVec F S128x128 .f32 := m ((c : Thread nD τ).loc main_arg6)
abbrev A7 (m : (ℓ : Loc nD τ sig) → Buf (Elt F) ℓ) (c : Dev nD) : FVec F S128 .f32 := m ((c : Thread nD τ).loc main_arg7)
abbrev A8 (m : (ℓ : Loc nD τ sig) → Buf (Elt F) ℓ) (c : Dev nD) : FVec F S3x128x128 .f32 := m ((c : Thread nD τ).loc main_arg8)
abbrev A9 (m : (ℓ : Loc nD τ sig) → Buf (Elt F) ℓ) (c : Dev nD) : FVec F S3x128 .f32 := m ((c : Thread nD τ).loc main_arg9)
abbrev A10 (m : (ℓ : Loc nD τ sig) → Buf (Elt F) ℓ) (c : Dev nD) : FVec F S3x128x128 .f32 := m ((c : Thread nD τ).loc main_arg10)
abbrev A11 (m : (ℓ : Loc nD τ sig) → Buf (Elt F) ℓ) (c : Dev nD) : FVec F S128 .f32 := m ((c : Thread nD τ).loc main_arg11)
abbrev A12 (m : (ℓ : Loc nD τ sig) → Buf (Elt F) ℓ) (c : Dev nD) : FVec F S128 .f32 := m ((c : Thread nD τ).loc main_arg12)
abbrev A13 (m : (ℓ : Loc nD τ sig) → Buf (Elt F) ℓ) (c : Dev nD) : FVec F S128 .f32 := m ((c : Thread nD τ).loc main_arg13)
abbrev A14 (m : (ℓ : Loc nD τ sig) → Buf (Elt F) ℓ) (c : Dev nD) : FVec F S128 .f32 := m ((c : Thread nD τ).loc main_arg14)

/-! ## The tables the regions leave -/

/-- The table region 0 leaves. -/
def Ku0 : FVec F S150000x128 .f32 := (dat0 (V1 m ρ) c).arrAt 3 cfg0.N
/-- The table region 1 leaves. -/
def Kb0 : FVec F S75000x128 .f32 := (dat1 (V3 m ρ) c).arrAt 3 cfg1.N
/-- The table region 2 leaves. -/
def Kb1 : FVec F S75000x128 .f32 := (dat2 (V5 m ρ) c).arrAt 6 cfg2.N
/-- The table region 3 leaves. -/
def Ku1 : FVec F S150000x128 .f32 := (dat3 (V7 m ρ) c).arrAt 6 cfg3.N
/-- The table region 4 leaves. -/
def Kb2 : FVec F S75000x128 .f32 := (dat4 (V9 m ρ) c).arrAt 6 cfg4.N
/-- The table region 5 leaves. -/
def Ku2 : FVec F S150000x128 .f32 := (dat5 (V11 m ρ) c).arrAt 6 cfg5.N
/-- The table region 6 leaves. -/
def Kb3 : FVec F S75000x128 .f32 := (dat6 (V13 m ρ) c).arrAt 8 cfg6.N
/-- The table region 7 leaves. -/
def Ku3 : FVec F S150000x128 .f32 := (dat7 (V15 m ρ) c).arrAt 8 cfg7.N

theorem Ku0_at2 : W2 m ρ c (Proc.devRef .tc main_v1) = Ku0 m ρ c := W2_arr m ρ c 3
theorem Ku0_at4 : W4 m ρ c (Proc.devRef .tc main_v1) = Ku0 m ρ c := ((keep_v1_4 m ρ c).trans (keep_v1_3 m ρ c)).trans (Ku0_at2 m ρ c)
theorem Ku0_at7 : W7 m ρ c (Proc.devRef .tc main_v1) = Ku0 m ρ c := (((((keep_v1_7 m ρ c).trans (keep_v1_6 m ρ c)).trans (keep_v1_5 m ρ c)).trans (keep_v1_4 m ρ c)).trans (keep_v1_3 m ρ c)).trans (Ku0_at2 m ρ c)
theorem Kb0_at4 : W4 m ρ c (Proc.devRef .tc main_v3) = Kb0 m ρ c := W4_arr m ρ c 3
theorem Kb0_at5 : W5 m ρ c (Proc.devRef .tc main_v3) = Kb0 m ρ c := (keep_v3_5 m ρ c).trans (Kb0_at4 m ρ c)
theorem Kb1_at6 : W6 m ρ c (Proc.devRef .tc main_v70) = Kb1 m ρ c := W6_arr m ρ c 6
theorem Kb1_at8 : W8 m ρ c (Proc.devRef .tc main_v70) = Kb1 m ρ c := ((keep_v70_8 m ρ c).trans (keep_v70_7 m ρ c)).trans (Kb1_at6 m ρ c)
theorem Kb1_at9 : W9 m ρ c (Proc.devRef .tc main_v70) = Kb1 m ρ c := (((keep_v70_9 m ρ c).trans (keep_v70_8 m ρ c)).trans (keep_v70_7 m ρ c)).trans (Kb1_at6 m ρ c)
theorem Ku1_at8 : W8 m ρ c (Proc.devRef .tc main_v78) = Ku1 m ρ c := W8_arr m ρ c 6
theorem Ku1_at11 : W11 m ρ c (Proc.devRef .tc main_v78) = Ku1 m ρ c := (((keep_v78_11 m ρ c).trans (keep_v78_10 m ρ c)).trans (keep_v78_9 m ρ c)).trans (Ku1_at8 m ρ c)
theorem Kb2_at10 : W10 m ρ c (Proc.devRef .tc main_v116) = Kb2 m ρ c := W10_arr m ρ c 6
theorem Kb2_at12 : W12 m ρ c (Proc.devRef .tc main_v116) = Kb2 m ρ c := ((keep_v116_12 m ρ c).trans (keep_v116_11 m ρ c)).trans (Kb2_at10 m ρ c)
theorem Kb2_at13 : W13 m ρ c (Proc.devRef .tc main_v116) = Kb2 m ρ c := (((keep_v116_13 m ρ c).trans (keep_v116_12 m ρ c)).trans (keep_v116_11 m ρ c)).trans (Kb2_at10 m ρ c)
theorem Ku2_at12 : W12 m ρ c (Proc.devRef .tc main_v124) = Ku2 m ρ c := W12_arr m ρ c 6
theorem Ku2_at15 : W15 m ρ c (Proc.devRef .tc main_v124) = Ku2 m ρ c := (((keep_v124_15 m ρ c).trans (keep_v124_14 m ρ c)).trans (keep_v124_13 m ρ c)).trans (Ku2_at12 m ρ c)
theorem Kb3_at14 : W14 m ρ c (Proc.devRef .tc main_v164) = Kb3 m ρ c := W14_arr m ρ c 8
theorem Kb3_at16 : W16 m ρ c (Proc.devRef .tc main_v164) = Kb3 m ρ c := ((keep_v164_16 m ρ c).trans (keep_v164_15 m ρ c)).trans (Kb3_at14 m ρ c)
theorem Ku3_at16 : W16 m ρ c (Proc.devRef .tc main_v174) = Ku3 m ρ c := W16_arr m ρ c 8

/-! ## What the stretches of host operations compute -/

set_option maxHeartbeats 4000000 in
theorem v0_at1 : W1 m ρ c (Proc.devRef .tc main_v0) = KDefs.rowVec (A5 m c) := by
  show StableHlo.after hostOps0 (W0 m ρ c) (Proc.devRef .tc main_v0) = _
  after_results_simp
  rw [arg5_at0 m ρ c]
  rfl
set_option maxHeartbeats 4000000 in
theorem v2_at3 : W3 m ρ c (Proc.devRef .tc main_v2) = KDefs.rowVec (A7 m c) := by
  show StableHlo.after hostOps1 (W2 m ρ c) (Proc.devRef .tc main_v2) = _
  after_results_simp
  rw [arg7_at2 m ρ c]
  rfl
set_option maxHeartbeats 4000000 in
theorem v47_at5 : W5 m ρ c (Proc.devRef .tc main_v47) = KDefs.aggBook (A2 m c) (A3 m c) (Ku0 m ρ c) := by
  show StableHlo.after hostOps2 (W4 m ρ c) (Proc.devRef .tc main_v47) = _
  after_results_simp
  rw [arg3_at4 m ρ c, arg2_at4 m ρ c, Ku0_at4 m ρ c]
  rfl
set_option maxHeartbeats 4000000 in
theorem v64_at5 : W5 m ρ c (Proc.devRef .tc main_v64) = KDefs.wl0 (A8 m c) := by
  show StableHlo.after hostOps2 (W4 m ρ c) (Proc.devRef .tc main_v64) = _
  after_results_simp
  rw [arg8_at4 m ρ c]
  rfl
set_option maxHeartbeats 4000000 in
theorem v69_at5 : W5 m ρ c (Proc.devRef .tc main_v69) = KDefs.blRow0 (A9 m c) := by
  show StableHlo.after hostOps2 (W4 m ρ c) (Proc.devRef .tc main_v69) = _
  after_results_simp
  rw [arg9_at4 m ρ c]
  rfl
set_option maxHeartbeats 4000000 in
theorem v68_at5 : W5 m ρ c (Proc.devRef .tc main_v68) = KDefs.wr0 (A10 m c) := by
  show StableHlo.after hostOps2 (W4 m ρ c) (Proc.devRef .tc main_v68) = _
  after_results_simp
  rw [arg10_at4 m ρ c]
  rfl
set_option maxHeartbeats 4000000 in
theorem v26_at5 : W5 m ρ c (Proc.devRef .tc main_v26) = KDefs.invBook (A3 m c) := by
  show StableHlo.after hostOps2 (W4 m ρ c) (Proc.devRef .tc main_v26) = _
  after_results_simp
  rw [arg3_at4 m ρ c]
  rfl
set_option maxHeartbeats 4000000 in
theorem v62_at5 : W5 m ρ c (Proc.devRef .tc main_v62) = KDefs.aggUser (A2 m c) (A3 m c) (Kb0 m ρ c) := by
  show StableHlo.after hostOps2 (W4 m ρ c) (Proc.devRef .tc main_v62) = _
  after_results_simp
  rw [arg2_at4 m ρ c, arg3_at4 m ρ c, Kb0_at4 m ρ c]
  rfl
set_option maxHeartbeats 4000000 in
theorem v32_at5 : W5 m ρ c (Proc.devRef .tc main_v32) = KDefs.invUser (A2 m c) := by
  show StableHlo.after hostOps2 (W4 m ρ c) (Proc.devRef .tc main_v32) = _
  after_results_simp
  rw [arg2_at4 m ρ c]
  rfl
set_option maxHeartbeats 4000000 in
theorem v72_at7 : W7 m ρ c (Proc.devRef .tc main_v72) = KDefs.wl0 (A8 m c) := by
  show StableHlo.after hostOps3 (W6 m ρ c) (Proc.devRef .tc main_v72) = _
  after_results_simp
  rw [arg8_at6 m ρ c]
  rfl
set_option maxHeartbeats 4000000 in
theorem v77_at7 : W7 m ρ c (Proc.devRef .tc main_v77) = KDefs.blRow0 (A9 m c) := by
  show StableHlo.after hostOps3 (W6 m ρ c) (Proc.devRef .tc main_v77) = _
  after_results_simp
  rw [arg9_at6 m ρ c]
  rfl
set_option maxHeartbeats 4000000 in
theorem v76_at7 : W7 m ρ c (Proc.devRef .tc main_v76) = KDefs.wr0 (A10 m c) := by
  show StableHlo.after hostOps3 (W6 m ρ c) (Proc.devRef .tc main_v76) = _
  after_results_simp
  rw [arg10_at6 m ρ c]
  rfl
set_option maxHeartbeats 4000000 in
theorem v93_at9 : W9 m ρ c (Proc.devRef .tc main_v93) = KDefs.aggBook (A2 m c) (A3 m c) (Ku1 m ρ c) := by
  show StableHlo.after hostOps4 (W8 m ρ c) (Proc.devRef .tc main_v93) = _
  after_results_simp
  rw [arg3_at8 m ρ c, arg2_at8 m ρ c, Ku1_at8 m ρ c]
  rfl
set_option maxHeartbeats 4000000 in
theorem v110_at9 : W9 m ρ c (Proc.devRef .tc main_v110) = KDefs.wl1 (A8 m c) := by
  show StableHlo.after hostOps4 (W8 m ρ c) (Proc.devRef .tc main_v110) = _
  after_results_simp
  rw [arg8_at8 m ρ c]
  rfl
set_option maxHeartbeats 4000000 in
theorem v115_at9 : W9 m ρ c (Proc.devRef .tc main_v115) = KDefs.blRow1 (A9 m c) := by
  show StableHlo.after hostOps4 (W8 m ρ c) (Proc.devRef .tc main_v115) = _
  after_results_simp
  rw [arg9_at8 m ρ c]
  rfl
set_option maxHeartbeats 4000000 in
theorem v114_at9 : W9 m ρ c (Proc.devRef .tc main_v114) = KDefs.wr1 (A10 m c) := by
  show StableHlo.after hostOps4 (W8 m ρ c) (Proc.devRef .tc main_v114) = _
  after_results_simp
  rw [arg10_at8 m ρ c]
  rfl
set_option maxHeartbeats 4000000 in
theorem v108_at9 : W9 m ρ c (Proc.devRef .tc main_v108) = KDefs.aggUser (A2 m c) (A3 m c) (Kb1 m ρ c) := by
  show StableHlo.after hostOps4 (W8 m ρ c) (Proc.devRef .tc main_v108) = _
  after_results_simp
  rw [arg2_at8 m ρ c, arg3_at8 m ρ c, Kb1_at8 m ρ c]
  rfl
set_option maxHeartbeats 4000000 in
theorem v118_at11 : W11 m ρ c (Proc.devRef .tc main_v118) = KDefs.wl1 (A8 m c) := by
  show StableHlo.after hostOps5 (W10 m ρ c) (Proc.devRef .tc main_v118) = _
  after_results_simp
  rw [arg8_at10 m ρ c]
  rfl
set_option maxHeartbeats 4000000 in
theorem v123_at11 : W11 m ρ c (Proc.devRef .tc main_v123) = KDefs.blRow1 (A9 m c) := by
  show StableHlo.after hostOps5 (W10 m ρ c) (Proc.devRef .tc main_v123) = _
  after_results_simp
  rw [arg9_at10 m ρ c]
  rfl
set_option maxHeartbeats 4000000 in
theorem v122_at11 : W11 m ρ c (Proc.devRef .tc main_v122) = KDefs.wr1 (A10 m c) := by
  show StableHlo.after hostOps5 (W10 m ρ c) (Proc.devRef .tc main_v122) = _
  after_results_simp
  rw [arg10_at10 m ρ c]
  rfl
set_option maxHeartbeats 4000000 in
theorem v139_at13 : W13 m ρ c (Proc.devRef .tc main_v139) = KDefs.aggBook (A2 m c) (A3 m c) (Ku2 m ρ c) := by
  show StableHlo.after hostOps6 (W12 m ρ c) (Proc.devRef .tc main_v139) = _
  after_results_simp
  rw [arg3_at12 m ρ c, arg2_at12 m ρ c, Ku2_at12 m ρ c]
  rfl
set_option maxHeartbeats 4000000 in
theorem v156_at13 : W13 m ρ c (Proc.devRef .tc main_v156) = KDefs.wl2 (A8 m c) := by
  show StableHlo.after hostOps6 (W12 m ρ c) (Proc.devRef .tc main_v156) = _
  after_results_simp
  rw [arg8_at12 m ρ c]
  rfl
set_option maxHeartbeats 4000000 in
theorem v161_at13 : W13 m ρ c (Proc.devRef .tc main_v161) = KDefs.blRow2 (A9 m c) := by
  show StableHlo.after hostOps6 (W12 m ρ c) (Proc.devRef .tc main_v161) = _
  after_results_simp
  rw [arg9_at12 m ρ c]
  rfl
set_option maxHeartbeats 4000000 in
theorem v160_at13 : W13 m ρ c (Proc.devRef .tc main_v160) = KDefs.wr2 (A10 m c) := by
  show StableHlo.after hostOps6 (W12 m ρ c) (Proc.devRef .tc main_v160) = _
  after_results_simp
  rw [arg10_at12 m ρ c]
  rfl
set_option maxHeartbeats 4000000 in
theorem v162_at13 : W13 m ρ c (Proc.devRef .tc main_v162) = KDefs.rowVec (A13 m c) := by
  show StableHlo.after hostOps6 (W12 m ρ c) (Proc.devRef .tc main_v162) = _
  after_results_simp
  rw [arg13_at12 m ρ c]
  rfl
set_option maxHeartbeats 4000000 in
theorem v163_at13 : W13 m ρ c (Proc.devRef .tc main_v163) = KDefs.rowVec (A14 m c) := by
  show StableHlo.after hostOps6 (W12 m ρ c) (Proc.devRef .tc main_v163) = _
  after_results_simp
  rw [arg14_at12 m ρ c]
  rfl
set_option maxHeartbeats 4000000 in
theorem v154_at13 : W13 m ρ c (Proc.devRef .tc main_v154) = KDefs.aggUser (A2 m c) (A3 m c) (Kb2 m ρ c) := by
  show StableHlo.after hostOps6 (W12 m ρ c) (Proc.devRef .tc main_v154) = _
  after_results_simp
  rw [arg2_at12 m ρ c, arg3_at12 m ρ c, Kb2_at12 m ρ c]
  rfl
set_option maxHeartbeats 4000000 in
theorem v166_at15 : W15 m ρ c (Proc.devRef .tc main_v166) = KDefs.wl2 (A8 m c) := by
  show StableHlo.after hostOps7 (W14 m ρ c) (Proc.devRef .tc main_v166) = _
  after_results_simp
  rw [arg8_at14 m ρ c]
  rfl
set_option maxHeartbeats 4000000 in
theorem v171_at15 : W15 m ρ c (Proc.devRef .tc main_v171) = KDefs.blRow2 (A9 m c) := by
  show StableHlo.after hostOps7 (W14 m ρ c) (Proc.devRef .tc main_v171) = _
  after_results_simp
  rw [arg9_at14 m ρ c]
  rfl
set_option maxHeartbeats 4000000 in
theorem v170_at15 : W15 m ρ c (Proc.devRef .tc main_v170) = KDefs.wr2 (A10 m c) := by
  show StableHlo.after hostOps7 (W14 m ρ c) (Proc.devRef .tc main_v170) = _
  after_results_simp
  rw [arg10_at14 m ρ c]
  rfl
set_option maxHeartbeats 4000000 in
theorem v172_at15 : W15 m ρ c (Proc.devRef .tc main_v172) = KDefs.rowVec (A11 m c) := by
  show StableHlo.after hostOps7 (W14 m ρ c) (Proc.devRef .tc main_v172) = _
  after_results_simp
  rw [arg11_at14 m ρ c]
  rfl
set_option maxHeartbeats 4000000 in
theorem v173_at15 : W15 m ρ c (Proc.devRef .tc main_v173) = KDefs.rowVec (A12 m c) := by
  show StableHlo.after hostOps7 (W14 m ρ c) (Proc.devRef .tc main_v173) = _
  after_results_simp
  rw [arg12_at14 m ρ c]
  rfl

theorem v62_at7 : W7 m ρ c (Proc.devRef .tc main_v62) = KDefs.aggUser (A2 m c) (A3 m c) (Kb0 m ρ c) := ((keep_v62_7 m ρ c).trans (keep_v62_6 m ρ c)).trans (v62_at5 m ρ c)
theorem v32_at7 : W7 m ρ c (Proc.devRef .tc main_v32) = KDefs.invUser (A2 m c) := ((keep_v32_7 m ρ c).trans (keep_v32_6 m ρ c)).trans (v32_at5 m ρ c)
theorem v32_at11 : W11 m ρ c (Proc.devRef .tc main_v32) = KDefs.invUser (A2 m c) := ((((((keep_v32_11 m ρ c).trans (keep_v32_10 m ρ c)).trans (keep_v32_9 m ρ c)).trans (keep_v32_8 m ρ c)).trans (keep_v32_7 m ρ c)).trans (keep_v32_6 m ρ c)).trans (v32_at5 m ρ c)
theorem v32_at15 : W15 m ρ c (Proc.devRef .tc main_v32) = KDefs.invUser (A2 m c) := ((((((((((keep_v32_15 m ρ c).trans (keep_v32_14 m ρ c)).trans (keep_v32_13 m ρ c)).trans (keep_v32_12 m ρ c)).trans (keep_v32_11 m ρ c)).trans (keep_v32_10 m ρ c)).trans (keep_v32_9 m ρ c)).trans (keep_v32_8 m ρ c)).trans (keep_v32_7 m ρ c)).trans (keep_v32_6 m ρ c)).trans (v32_at5 m ρ c)
theorem v26_at9 : W9 m ρ c (Proc.devRef .tc main_v26) = KDefs.invBook (A3 m c) := ((((keep_v26_9 m ρ c).trans (keep_v26_8 m ρ c)).trans (keep_v26_7 m ρ c)).trans (keep_v26_6 m ρ c)).trans (v26_at5 m ρ c)
theorem v26_at13 : W13 m ρ c (Proc.devRef .tc main_v26) = KDefs.invBook (A3 m c) := ((((((((keep_v26_13 m ρ c).trans (keep_v26_12 m ρ c)).trans (keep_v26_11 m ρ c)).trans (keep_v26_10 m ρ c)).trans (keep_v26_9 m ρ c)).trans (keep_v26_8 m ρ c)).trans (keep_v26_7 m ρ c)).trans (keep_v26_6 m ρ c)).trans (v26_at5 m ρ c)
theorem v108_at11 : W11 m ρ c (Proc.devRef .tc main_v108) = KDefs.aggUser (A2 m c) (A3 m c) (Kb1 m ρ c) := ((keep_v108_11 m ρ c).trans (keep_v108_10 m ρ c)).trans (v108_at9 m ρ c)
theorem v154_at15 : W15 m ρ c (Proc.devRef .tc main_v154) = KDefs.aggUser (A2 m c) (A3 m c) (Kb2 m ρ c) := ((keep_v154_15 m ρ c).trans (keep_v154_14 m ρ c)).trans (v154_at13 m ρ c)

/-! ## Each region's windows at its entry -/

theorem entry0_0 : V1 m ρ c (Pipeline.arrRef spec0 0) = (A0 m c) := arg0_at1 m ρ c
theorem entry0_1 : V1 m ρ c (Pipeline.arrRef spec0 1) = (A4 m c) := arg4_at1 m ρ c
theorem entry0_2 : V1 m ρ c (Pipeline.arrRef spec0 2) = KDefs.rowVec (A5 m c) := v0_at1 m ρ c
theorem entry1_0 : V3 m ρ c (Pipeline.arrRef spec1 0) = (A1 m c) := arg1_at3 m ρ c
theorem entry1_1 : V3 m ρ c (Pipeline.arrRef spec1 1) = (A6 m c) := arg6_at3 m ρ c
theorem entry1_2 : V3 m ρ c (Pipeline.arrRef spec1 2) = KDefs.rowVec (A7 m c) := v2_at3 m ρ c
theorem entry2_0 : V5 m ρ c (Pipeline.arrRef spec2 0) = KDefs.aggBook (A2 m c) (A3 m c) (Ku0 m ρ c) := v47_at5 m ρ c
theorem entry2_1 : V5 m ρ c (Pipeline.arrRef spec2 1) = Kb0 m ρ c := Kb0_at5 m ρ c
theorem entry2_2 : V5 m ρ c (Pipeline.arrRef spec2 2) = KDefs.wl0 (A8 m c) := v64_at5 m ρ c
theorem entry2_3 : V5 m ρ c (Pipeline.arrRef spec2 3) = KDefs.blRow0 (A9 m c) := v69_at5 m ρ c
theorem entry2_4 : V5 m ρ c (Pipeline.arrRef spec2 4) = KDefs.wr0 (A10 m c) := v68_at5 m ρ c
theorem entry2_5 : V5 m ρ c (Pipeline.arrRef spec2 5) = KDefs.invBook (A3 m c) := v26_at5 m ρ c
theorem entry3_0 : V7 m ρ c (Pipeline.arrRef spec3 0) = KDefs.aggUser (A2 m c) (A3 m c) (Kb0 m ρ c) := v62_at7 m ρ c
theorem entry3_1 : V7 m ρ c (Pipeline.arrRef spec3 1) = Ku0 m ρ c := Ku0_at7 m ρ c
theorem entry3_2 : V7 m ρ c (Pipeline.arrRef spec3 2) = KDefs.wl0 (A8 m c) := v72_at7 m ρ c
theorem entry3_3 : V7 m ρ c (Pipeline.arrRef spec3 3) = KDefs.blRow0 (A9 m c) := v77_at7 m ρ c
theorem entry3_4 : V7 m ρ c (Pipeline.arrRef spec3 4) = KDefs.wr0 (A10 m c) := v76_at7 m ρ c
theorem entry3_5 : V7 m ρ c (Pipeline.arrRef spec3 5) = KDefs.invUser (A2 m c) := v32_at7 m ρ c
theorem entry4_0 : V9 m ρ c (Pipeline.arrRef spec4 0) = KDefs.aggBook (A2 m c) (A3 m c) (Ku1 m ρ c) := v93_at9 m ρ c
theorem entry4_1 : V9 m ρ c (Pipeline.arrRef spec4 1) = Kb1 m ρ c := Kb1_at9 m ρ c
theorem entry4_2 : V9 m ρ c (Pipeline.arrRef spec4 2) = KDefs.wl1 (A8 m c) := v110_at9 m ρ c
theorem entry4_3 : V9 m ρ c (Pipeline.arrRef spec4 3) = KDefs.blRow1 (A9 m c) := v115_at9 m ρ c
theorem entry4_4 : V9 m ρ c (Pipeline.arrRef spec4 4) = KDefs.wr1 (A10 m c) := v114_at9 m ρ c
theorem entry4_5 : V9 m ρ c (Pipeline.arrRef spec4 5) = KDefs.invBook (A3 m c) := v26_at9 m ρ c
theorem entry5_0 : V11 m ρ c (Pipeline.arrRef spec5 0) = KDefs.aggUser (A2 m c) (A3 m c) (Kb1 m ρ c) := v108_at11 m ρ c
theorem entry5_1 : V11 m ρ c (Pipeline.arrRef spec5 1) = Ku1 m ρ c := Ku1_at11 m ρ c
theorem entry5_2 : V11 m ρ c (Pipeline.arrRef spec5 2) = KDefs.wl1 (A8 m c) := v118_at11 m ρ c
theorem entry5_3 : V11 m ρ c (Pipeline.arrRef spec5 3) = KDefs.blRow1 (A9 m c) := v123_at11 m ρ c
theorem entry5_4 : V11 m ρ c (Pipeline.arrRef spec5 4) = KDefs.wr1 (A10 m c) := v122_at11 m ρ c
theorem entry5_5 : V11 m ρ c (Pipeline.arrRef spec5 5) = KDefs.invUser (A2 m c) := v32_at11 m ρ c
theorem entry6_0 : V13 m ρ c (Pipeline.arrRef spec6 0) = KDefs.aggBook (A2 m c) (A3 m c) (Ku2 m ρ c) := v139_at13 m ρ c
theorem entry6_1 : V13 m ρ c (Pipeline.arrRef spec6 1) = Kb2 m ρ c := Kb2_at13 m ρ c
theorem entry6_2 : V13 m ρ c (Pipeline.arrRef spec6 2) = KDefs.wl2 (A8 m c) := v156_at13 m ρ c
theorem entry6_3 : V13 m ρ c (Pipeline.arrRef spec6 3) = KDefs.blRow2 (A9 m c) := v161_at13 m ρ c
theorem entry6_4 : V13 m ρ c (Pipeline.arrRef spec6 4) = KDefs.wr2 (A10 m c) := v160_at13 m ρ c
theorem entry6_5 : V13 m ρ c (Pipeline.arrRef spec6 5) = KDefs.invBook (A3 m c) := v26_at13 m ρ c
theorem entry6_6 : V13 m ρ c (Pipeline.arrRef spec6 6) = KDefs.rowVec (A13 m c) := v162_at13 m ρ c
theorem entry6_7 : V13 m ρ c (Pipeline.arrRef spec6 7) = KDefs.rowVec (A14 m c) := v163_at13 m ρ c
theorem entry7_0 : V15 m ρ c (Pipeline.arrRef spec7 0) = KDefs.aggUser (A2 m c) (A3 m c) (Kb2 m ρ c) := v154_at15 m ρ c
theorem entry7_1 : V15 m ρ c (Pipeline.arrRef spec7 1) = Ku2 m ρ c := Ku2_at15 m ρ c
theorem entry7_2 : V15 m ρ c (Pipeline.arrRef spec7 2) = KDefs.wl2 (A8 m c) := v166_at15 m ρ c
theorem entry7_3 : V15 m ρ c (Pipeline.arrRef spec7 3) = KDefs.blRow2 (A9 m c) := v171_at15 m ρ c
theorem entry7_4 : V15 m ρ c (Pipeline.arrRef spec7 4) = KDefs.wr2 (A10 m c) := v170_at15 m ρ c
theorem entry7_5 : V15 m ρ c (Pipeline.arrRef spec7 5) = KDefs.invUser (A2 m c) := v32_at15 m ρ c
theorem entry7_6 : V15 m ρ c (Pipeline.arrRef spec7 6) = KDefs.rowVec (A11 m c) := v172_at15 m ρ c
theorem entry7_7 : V15 m ρ c (Pipeline.arrRef spec7 7) = KDefs.rowVec (A12 m c) := v173_at15 m ρ c

end Cert.KernelIdeal.KRead

end
-- ==== Proof.GlueFacts.lean ====
import proofs.«113985_j6949257085118_2_alg».proof.Proof.KDefs
import proofs.«113985_j6949257085118_2_alg».proof.Proof.RefDefs
import proofs.«113985_j6949257085118_2_alg».proof.Proof.IndexFacts
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.GlueFacts

open Idealize.ShloMosaic Idealize.ShloMosaic.ValueIdx

/-! ## The kernel's host glue against the reference's

Both programs wrap a negative node number around the table's length before gathering; the kernel also wraps the
node numbers it sums at and counts at, the reference uses those as given. Where the node numbers are
non-negative the wrap is the identity, so the summed messages agree, and the kernel's integer count converted
is the reference's float count. -/

/-- The kernel's wrapped book numbers are the numbers themselves when none is negative. -/
theorem wrapDst_eq (A3 : IVec Cert.KernelIdeal.S1500000 32) (h3 : ∀ e, 0 ≤ (A3 e).toInt) : Cert.KernelIdeal.KDefs.wrapDst A3 = A3 :=
  Cert.IndexFacts.wrap_of_nonneg A3 h3 _ _ _

/-- The kernel's wrapped user numbers are the numbers themselves when none is negative. -/
theorem wrapSrc_eq (A2 : IVec Cert.KernelIdeal.S1500000 32) (h2 : ∀ e, 0 ≤ (A2 e).toInt) : Cert.KernelIdeal.KDefs.wrapSrc A2 = A2 :=
  Cert.IndexFacts.wrap_of_nonneg A2 h2 _ _ _

/-- The two programs wrap alike (the same term, each over its own copy of the shapes). -/
theorem wrapSrc_kernel_eq_ref (A2 : IVec Cert.KernelIdeal.S1500000 32) : Cert.KernelIdeal.KDefs.wrapSrc A2 = Cert.ReferenceIdeal.RefDefs.wrapSrc A2 := rfl
theorem wrapDst_kernel_eq_ref (A3 : IVec Cert.KernelIdeal.S1500000 32) : Cert.KernelIdeal.KDefs.wrapDst A3 = Cert.ReferenceIdeal.RefDefs.wrapDst A3 := rfl

section Agg
variable {F : FTy → Type} [FloatOps F]

/-- Per book, the kernel's summed user rows are the reference's. -/
theorem aggBook_eq (A2 A3 : IVec Cert.KernelIdeal.S1500000 32) (h3 : ∀ e, 0 ≤ (A3 e).toInt)
    (u : FVec F Cert.KernelIdeal.S150000x128 .f32) :
    Cert.KernelIdeal.KDefs.aggBook A2 A3 u = Cert.ReferenceIdeal.RefDefs.sumBook A2 A3 u := by
  unfold Cert.KernelIdeal.KDefs.aggBook Cert.ReferenceIdeal.RefDefs.sumBook
  rw [wrapDst_eq A3 h3]
  rfl

/-- Per user, the kernel's summed book rows are the reference's. -/
theorem aggUser_eq (A2 A3 : IVec Cert.KernelIdeal.S1500000 32) (h2 : ∀ e, 0 ≤ (A2 e).toInt)
    (b : FVec F Cert.KernelIdeal.S75000x128 .f32) :
    Cert.KernelIdeal.KDefs.aggUser A2 A3 b = Cert.ReferenceIdeal.RefDefs.sumUser A2 A3 b := by
  unfold Cert.KernelIdeal.KDefs.aggUser Cert.ReferenceIdeal.RefDefs.sumUser
  rw [wrapSrc_eq A2 h2]
  rfl

end Agg

section Inv

/-- A vector laid out as a column, read at row `i`: the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section KernelForm
variable {F : FTy → Type} [FloatOps F]
open Cert.KernelIdeal.Facts₀

/-- The reference's clamped book count, spelled over the kernel's copies of the shapes and the dimension record
    (the same term). -/
theorem cntBook_kernel_form (A3 : IVec Cert.KernelIdeal.S1500000 32) :
    maximumf (Host.scatterAdd (F := F) Cert.KernelIdeal.scatter_S75000_S1500000x1_S1500000_n_0_0_1
        (broadcastInDim Cert.KernelIdeal.S75000 ![] bcast_S_S75000 (constant Cert.KernelIdeal.S_ .f32 0x00000000#32))
        (broadcastInDim Cert.KernelIdeal.S1500000x1 ![0] bcast_S1500000_S1500000x1_0 A3)
        (broadcastInDim Cert.KernelIdeal.S1500000 ![] bcast_S_S1500000 (constant Cert.KernelIdeal.S_ .f32 0x3F800000#32)))
      (broadcastInDim Cert.KernelIdeal.S75000 ![] bcast_S_S75000 (constant Cert.KernelIdeal.S_ .f32 0x3F800000#32))
      = Cert.ReferenceIdeal.RefDefs.cntBook (F := F) A3 := rfl

/-- The reference's clamped user count, likewise. -/
theorem cntUser_kernel_form (A2 : IVec Cert.KernelIdeal.S1500000 32) :
    maximumf (Host.scatterAdd (F := F) Cert.KernelIdeal.scatter_S150000_S1500000x1_S1500000_n_0_0_1
        (broadcastInDim Cert.KernelIdeal.S150000 ![] bcast_S_S150000 (constant Cert.KernelIdeal.S_ .f32 0x00000000#32))
        (broadcastInDim Cert.KernelIdeal.S1500000x1 ![0] bcast_S1500000_S1500000x1_0 A2)
        (broadcastInDim Cert.KernelIdeal.S1500000 ![] bcast_S_S1500000 (constant Cert.KernelIdeal.S_ .f32 0x3F800000#32)))
      (broadcastInDim Cert.KernelIdeal.S150000 ![] bcast_S_S150000 (constant Cert.KernelIdeal.S_ .f32 0x3F800000#32))
      = Cert.ReferenceIdeal.RefDefs.cntUser (F := F) A2 := rfl

/-- The kernel's inverse-count column is the column layout of one over (its converted integer count clamped below
    by one): its definition, with the node numbers unwrapped. -/
theorem invBook_unfold (A3 : IVec Cert.KernelIdeal.S1500000 32) (h3 : ∀ e, 0 ≤ (A3 e).toInt) :
    Cert.KernelIdeal.KDefs.invBook (F := F) A3
      = shapeCast Cert.KernelIdeal.S75000x1 (Host.divf (broadcastInDim Cert.KernelIdeal.S75000 ![] bcast_S_S75000 (constant Cert.KernelIdeal.S_ .f32 0x3F800000#32))
          (maximumf (sitofp .f32 (Host.scatter Cert.KernelIdeal.scatter_S75000_S1500000x1_S1500000_n_0_0_1 IntOp.addi
              (broadcastInDim Cert.KernelIdeal.S75000 ![] bcast_S_S75000 (constantI Cert.KernelIdeal.S_ 32 0#32))
              (broadcastInDim Cert.KernelIdeal.S1500000x1 ![0] bcast_S1500000_S1500000x1_0 A3)
              (broadcastInDim Cert.KernelIdeal.S1500000 ![] bcast_S_S1500000 (constantI Cert.KernelIdeal.S_ 32 1#32))))
            (broadcastInDim Cert.KernelIdeal.S75000 ![] bcast_S_S75000 (constant Cert.KernelIdeal.S_ .f32 0x3F800000#32))))
          shapeCasts_S75000_S75000x1 := by
  unfold Cert.KernelIdeal.KDefs.invBook
  rw [wrapDst_eq A3 h3]

theorem invUser_unfold (A2 : IVec Cert.KernelIdeal.S1500000 32) (h2 : ∀ e, 0 ≤ (A2 e).toInt) :
    Cert.KernelIdeal.KDefs.invUser (F := F) A2
      = shapeCast Cert.KernelIdeal.S150000x1 (Host.divf (broadcastInDim Cert.KernelIdeal.S150000 ![] bcast_S_S150000 (constant Cert.KernelIdeal.S_ .f32 0x3F800000#32))
          (maximumf (sitofp .f32 (Host.scatter Cert.KernelIdeal.scatter_S150000_S1500000x1_S1500000_n_0_0_1 IntOp.addi
              (broadcastInDim Cert.KernelIdeal.S150000 ![] bcast_S_S150000 (constantI Cert.KernelIdeal.S_ 32 0#32))
              (broadcastInDim Cert.KernelIdeal.S1500000x1 ![0] bcast_S1500000_S1500000x1_0 A2)
              (broadcastInDim Cert.KernelIdeal.S1500000 ![] bcast_S_S1500000 (constantI Cert.KernelIdeal.S_ 32 1#32))))
            (broadcastInDim Cert.KernelIdeal.S150000 ![] bcast_S_S150000 (constant Cert.KernelIdeal.S_ .f32 0x3F800000#32))))
          shapeCasts_S150000_S150000x1 := by
  unfold Cert.KernelIdeal.KDefs.invUser
  rw [wrapSrc_eq A2 h2]

end KernelForm

open Cert.KernelIdeal.Facts₀ in
/-- At the exact values the kernel's inverse-count column is the column layout of one over the reference's count. -/
theorem invBook_eq (A3 : IVec Cert.KernelIdeal.S1500000 32) (h3 : ∀ e, 0 ≤ (A3 e).toInt) :
    Cert.KernelIdeal.KDefs.invBook (F := Ideal) A3
      = shapeCast Cert.KernelIdeal.S75000x1 (Host.divf (broadcastInDim Cert.KernelIdeal.S75000 ![] bcast_S_S75000 (constant Cert.KernelIdeal.S_ .f32 0x3F800000#32))
          (Cert.ReferenceIdeal.RefDefs.cntBook (F := Ideal) A3)) shapeCasts_S75000_S75000x1 := by
  have hu : Cert.KernelIdeal.S1500000.numel < 2 ^ 31 := by decide
  rw [invBook_unfold A3 h3,
    Cert.IndexFacts.sitofp_scatter_ones Cert.KernelIdeal.scatter_S75000_S1500000x1_S1500000_n_0_0_1 hu _
      bcast_S_S75000 bcast_S_S75000 bcast_S_S1500000 bcast_S_S1500000,
    cntBook_kernel_form A3]

open Cert.KernelIdeal.Facts₀ in
theorem invUser_eq (A2 : IVec Cert.KernelIdeal.S1500000 32) (h2 : ∀ e, 0 ≤ (A2 e).toInt) :
    Cert.KernelIdeal.KDefs.invUser (F := Ideal) A2
      = shapeCast Cert.KernelIdeal.S150000x1 (Host.divf (broadcastInDim Cert.KernelIdeal.S150000 ![] bcast_S_S150000 (constant Cert.KernelIdeal.S_ .f32 0x3F800000#32))
          (Cert.ReferenceIdeal.RefDefs.cntUser (F := Ideal) A2)) shapeCasts_S150000_S150000x1 := by
  have hu : Cert.KernelIdeal.S1500000.numel < 2 ^ 31 := by decide
  rw [invUser_unfold A2 h2,
    Cert.IndexFacts.sitofp_scatter_ones Cert.KernelIdeal.scatter_S150000_S1500000x1_S1500000_n_0_0_1 hu _
      bcast_S_S150000 bcast_S_S150000 bcast_S_S1500000 bcast_S_S1500000,
    cntUser_kernel_form A2]

/-- The host's division of a splat by a vector, at the exact values, read at an index. -/
theorem hostDivf_splat_apply {s : Shape} (b : BitVec 32)
    (h : (⟨0, ![]⟩ : Shape).BroadcastsInDim s (![] : Fin 0 → Fin s.rank)) (y : FVec Ideal s .f32) (i : s.Idx) :
    Host.divf (broadcastInDim s ![] h (constant ⟨0, ![]⟩ .f32 b)) y i = Ideal.div (Ideal.ofBits .f32 b) (y i) := rfl

/-- Per book: the reference's count (clamped below by one) is a real number at least one, and the kernel's
    inverse-count column holds one over it. -/
theorem invBook_spec (A3 : IVec Cert.KernelIdeal.S1500000 32) (h3 : ∀ e, 0 ≤ (A3 e).toInt) (r : Fin 75000) :
    ∃ q : ℝ, 1 ≤ q ∧ Cert.ReferenceIdeal.RefDefs.cntBook (F := Ideal) A3 (ix1 r) = ((q : ℝ) : EReal)
      ∧ Cert.KernelIdeal.KDefs.invBook (F := Ideal) A3 (ix2 r (0 : Fin 1))
        = Ideal.div (Ideal.ofBits .f32 0x3F800000#32) (Cert.ReferenceIdeal.RefDefs.cntBook (F := Ideal) A3 (ix1 r)) := by
  obtain ⟨q, hq, hc⟩ : ∃ q : ℝ, 1 ≤ q ∧ Cert.ReferenceIdeal.RefDefs.cntBook (F := Ideal) A3 (ix1 r) = ((q : ℝ) : EReal) := by
    rw [← cntBook_kernel_form A3]
    exact Cert.IndexFacts.degree_ge_one _ _ _ _ _ _
  refine ⟨q, hq, hc, ?_⟩
  rw [invBook_eq A3 h3, shapeCast_a_a1_apply, hostDivf_splat_apply]

/-- Per user, likewise. -/
theorem invUser_spec (A2 : IVec Cert.KernelIdeal.S1500000 32) (h2 : ∀ e, 0 ≤ (A2 e).toInt) (r : Fin 150000) :
    ∃ q : ℝ, 1 ≤ q ∧ Cert.ReferenceIdeal.RefDefs.cntUser (F := Ideal) A2 (ix1 r) = ((q : ℝ) : EReal)
      ∧ Cert.KernelIdeal.KDefs.invUser (F := Ideal) A2 (ix2 r (0 : Fin 1))
        = Ideal.div (Ideal.ofBits .f32 0x3F800000#32) (Cert.ReferenceIdeal.RefDefs.cntUser (F := Ideal) A2 (ix1 r)) := by
  obtain ⟨q, hq, hc⟩ : ∃ q : ℝ, 1 ≤ q ∧ Cert.ReferenceIdeal.RefDefs.cntUser (F := Ideal) A2 (ix1 r) = ((q : ℝ) : EReal) := by
    rw [← cntUser_kernel_form A2]
    exact Cert.IndexFacts.degree_ge_one _ _ _ _ _ _
  refine ⟨q, hq, hc, ?_⟩
  rw [invUser_eq A2 h2, shapeCast_a_a1_apply, hostDivf_splat_apply]

end Inv

/-! ## The rounds' weights and rows

Each program cuts round `i`'s matrices and bias out of the stacked arrays by the same slice and reshape; the
kernel lays the bias (and the normalisation vectors) out as one row, whose entry `j` is the vector's. -/

section Weights
variable {F : FTy → Type} [FloatOps F]

theorem wl0_eq (A8 : FVec F Cert.KernelIdeal.S3x128x128 .f32) : Cert.KernelIdeal.KDefs.wl0 A8 = Cert.ReferenceIdeal.RefDefs.wl0 A8 := rfl
theorem wl1_eq (A8 : FVec F Cert.KernelIdeal.S3x128x128 .f32) : Cert.KernelIdeal.KDefs.wl1 A8 = Cert.ReferenceIdeal.RefDefs.wl1 A8 := rfl
theorem wl2_eq (A8 : FVec F Cert.KernelIdeal.S3x128x128 .f32) : Cert.KernelIdeal.KDefs.wl2 A8 = Cert.ReferenceIdeal.RefDefs.wl2 A8 := rfl
theorem wr0_eq (A10 : FVec F Cert.KernelIdeal.S3x128x128 .f32) : Cert.KernelIdeal.KDefs.wr0 A10 = Cert.ReferenceIdeal.RefDefs.wr0 A10 := rfl
theorem wr1_eq (A10 : FVec F Cert.KernelIdeal.S3x128x128 .f32) : Cert.KernelIdeal.KDefs.wr1 A10 = Cert.ReferenceIdeal.RefDefs.wr1 A10 := rfl
theorem wr2_eq (A10 : FVec F Cert.KernelIdeal.S3x128x128 .f32) : Cert.KernelIdeal.KDefs.wr2 A10 = Cert.ReferenceIdeal.RefDefs.wr2 A10 := rfl

theorem blRow0_apply (A9 : FVec F Cert.KernelIdeal.S3x128 .f32) (j : Fin 128) :
    Cert.KernelIdeal.KDefs.blRow0 A9 (ix2 (0 : Fin 1) j) = Cert.ReferenceIdeal.RefDefs.bl0 A9 (ix1 j) := by
  unfold Cert.KernelIdeal.KDefs.blRow0
  rw [shapeCast_a_1a_apply]
  rfl
theorem blRow1_apply (A9 : FVec F Cert.KernelIdeal.S3x128 .f32) (j : Fin 128) :
    Cert.KernelIdeal.KDefs.blRow1 A9 (ix2 (0 : Fin 1) j) = Cert.ReferenceIdeal.RefDefs.bl1 A9 (ix1 j) := by
  unfold Cert.KernelIdeal.KDefs.blRow1
  rw [shapeCast_a_1a_apply]
  rfl
theorem blRow2_apply (A9 : FVec F Cert.KernelIdeal.S3x128 .f32) (j : Fin 128) :
    Cert.KernelIdeal.KDefs.blRow2 A9 (ix2 (0 : Fin 1) j) = Cert.ReferenceIdeal.RefDefs.bl2 A9 (ix1 j) := by
  unfold Cert.KernelIdeal.KDefs.blRow2
  rw [shapeCast_a_1a_apply]
  rfl

theorem rowVec_apply (A : FVec F Cert.KernelIdeal.S128 .f32) (j : Fin 128) :
    Cert.KernelIdeal.KDefs.rowVec A (ix2 (0 : Fin 1) j) = A (ix1 j) := by
  unfold Cert.KernelIdeal.KDefs.rowVec
  rw [shapeCast_a_1a_apply]

end Weights

end Cert.GlueFacts

end
-- ==== Proof.RowMathRef.lean ====
/-
  The reference's operations, row by row, at the ideal values, for an array of any number of rows.

  The reference computes the same network on whole arrays with host operations: matrix products with no
  accumulator, a division by a per-row count spread over the row, a bias vector given a unit leading axis and
  broadcast down the rows, a maximum with a broadcast zero, sums along the columns kept as unit columns. Row `p`
  of each result is a function of row `p` of the operands: the layer `sageR` (`rowOf_sage_host`) and the
  normalisation `lnRow` (`rowOf_ln_host`). The shape facts and the dimension numbers are hypotheses, so the
  statements serve every row count the program uses.
-/
import proofs.«113985_j6949257085118_2_alg».proof.Proof.LibRowLayers
import proofs.«113985_j6949257085118_2_alg».proof.Proof.RowMath
import Idealize.ShloMosaic.PureOps.Ideal
import Idealize.ShloMosaic.PureOps.Ideal.Laws
import Idealize.ShloMosaic.Lib.ValueIdx
import Idealize.ShloMosaic.Lib.Pipeline.Value

noncomputable section
namespace Cert.SageRows
open Idealize.ShloMosaic Idealize.ShloMosaic.ValueIdx Cert.RowLayers

section Host
variable {a : ℕ}

/-- A length-`a` vector given a trailing unit axis and then broadcast along 128 columns reads, at `(p, k)`, the
    vector at `p`: the per-row count as the reference spreads it over a row. -/
theorem colBroadcast_apply {α : Type} {b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (k : Fin b) :
    broadcastInDim ⟨2, ![a, b]⟩ ![0, 1] h2 (broadcastInDim ⟨2, ![a, 1]⟩ ![0] h1 x) (ix2 p k) = x (ix1 p) := by
  rw [broadcastInDim_apply ![0, 1] h2 _ (ix2 p k) (ix2 p (0 : Fin 1)) (fun ax => by
        match ax with
        | ⟨0, _⟩ => show p.val = if a = 1 then 0 else p.val; split <;> [(have := p.isLt; omega); rfl]
        | ⟨1, _⟩ => show (0 : ℕ) = if (1 : ℕ) = 1 then 0 else k.val; rw [if_pos rfl]),
      broadcastInDim_apply ![0] h1 x (ix2 p (0 : Fin 1)) (ix1 p) (fun ax => by
        match ax with
        | ⟨0, _⟩ => show p.val = if a = 1 then 0 else p.val; split <;> [(have := p.isLt; omega); rfl])]

/-- The reference's layer on a row: the neighbour sums divided by the row's count, the product with `wl`, the
    bias, the product of the row itself with `wr`, the rectifier at zero. -/
theorem rowOf_sage_host {d : DotDims ⟨2, ![a, 128]⟩ ⟨2, ![128, 128]⟩ ⟨2, ![a, 128]⟩} (H : RowsTimesCols d)
    (S X : FVec Ideal ⟨2, ![a, 128]⟩ .f32) (wl wr : FVec Ideal ⟨2, ![128, 128]⟩ .f32)
    (cnt : FVec Ideal ⟨1, ![a]⟩ .f32) (bl : FVec Ideal ⟨1, ![128]⟩ .f32)
    (hb1 : (⟨1, ![a]⟩ : Shape).BroadcastsInDim ⟨2, ![a, 1]⟩ ![0])
    (hb2 : (⟨2, ![a, 1]⟩ : Shape).BroadcastsInDim ⟨2, ![a, 128]⟩ ![0, 1])
    (hbb1 : (⟨1, ![128]⟩ : Shape).BroadcastsInDim ⟨2, ![1, 128]⟩ ![1])
    (hbb2 : (⟨2, ![1, 128]⟩ : Shape).BroadcastsInDim ⟨2, ![a, 128]⟩ ![0, 1])
    (hz : (⟨0, ![]⟩ : Shape).BroadcastsInDim ⟨2, ![a, 128]⟩ ![]) (p : Fin a) :
    rowOf (maximumf (addf (addf
        (Host.dotGeneral (F := Ideal) d none
          (Host.divf S (broadcastInDim ⟨2, ![a, 128]⟩ ![0, 1] hb2 (broadcastInDim ⟨2, ![a, 1]⟩ ![0] hb1 cnt))) wl)
        (broadcastInDim ⟨2, ![a, 128]⟩ ![0, 1] hbb2 (broadcastInDim ⟨2, ![1, 128]⟩ ![1] hbb1 bl)))
        (Host.dotGeneral (F := Ideal) d none X wr))
        (broadcastInDim ⟨2, ![a, 128]⟩ ![] hz (constant (F := Ideal) ⟨0, ![]⟩ .f32 0x00000000#32))) p
      = sageR (rowOf S p) (cnt (ix1 p)) (rowOf X p) wl wr (fun j => bl (ix1 j)) (Ideal.ofBits .f32 0x00000000#32) := by
  rw [rowOf_maximumf_const, rowOf_addf, rowOf_addf, rowOf_dotGeneral H, rowOf_dotGeneral H, rowOf_broadcastInDim_vec]
  funext j
  unfold relu sageR
  show max ((∑ k : Fin 128, Ideal.div (S (ix2 p k))
        (broadcastInDim ⟨2, ![a, 128]⟩ ![0, 1] hb2 (broadcastInDim ⟨2, ![a, 1]⟩ ![0] hb1 cnt) (ix2 p k)) * wl (ix2 k j))
      + bl (ix1 j) + ∑ k : Fin 128, X (ix2 p k) * wr (ix2 k j)) (Ideal.ofBits .f32 0x00000000#32) = _
  have hc : ∀ k : Fin 128, broadcastInDim ⟨2, ![a, 128]⟩ ![0, 1] hb2 (broadcastInDim ⟨2, ![a, 1]⟩ ![0] hb1 cnt) (ix2 p k)
      = cnt (ix1 p) := fun k => colBroadcast_apply cnt hb1 hb2 p k
  simp only [hc]
  rfl

end Host

section HostNorm
variable {a : ℕ}

/-- The host's sum along the 128 columns, given a trailing unit axis, read at row `p`: the sum of the row (the
    initial value is the constant zero). -/
theorem hostRowSum_apply (X : FVec Ideal ⟨2, ![a, 128]⟩ .f32)
    (hred : (⟨2, ![a, 128]⟩ : Shape).ReducesTo [1] ⟨1, ![a]⟩) (hS : 0 < (⟨0, ![]⟩ : Shape).numel)
    (h1 : (⟨1, ![a]⟩ : Shape).BroadcastsInDim ⟨2, ![a, 1]⟩ ![0]) (p : Fin a) :
    broadcastInDim ⟨2, ![a, 1]⟩ ![0] h1
        (Host.reduceAdd (F := Ideal) X (constant (F := Ideal) ⟨0, ![]⟩ .f32 0x00000000#32) hred hS) (ix2 p (0 : Fin 1))
      = ∑ k : Fin 128, X (ix2 p k) := by
  have hR : (⟨2, ![a, 128]⟩ : Shape).Reduces [1] ⟨1, ![a]⟩ := ⟨hred.1, Nat.one_pos, hred.2⟩
  refine (broadcastInDim_apply ![0] h1 _ (ix2 p (0 : Fin 1)) (ix1 p) (fun ax => by
    match ax with
    | ⟨0, _⟩ => show p.val = if a = 1 then 0 else p.val; split <;> [(have := p.isLt; omega); rfl])).trans ?_
  show Ideal.hostReduceAdd hred X (Ideal.ofBits .f32 0x00000000#32) (ix1 p) = _
  rw [Ideal.hostReduceAdd_single hred hR, Ideal.ofBits_zero_f32, zero_add]
  exact Finset.sum_congr rfl fun k _ => congrArg X (funext fun c => Fin.ext (by
    match c with
    | ⟨0, _⟩ => rfl
    | ⟨1, _⟩ => rfl))

/-- The reference's normalisation on a row: the row sums as unit columns divided by the constant `128`, the
    deviations, the reciprocal square root of the variance plus the constant `eps`, the scale and the shift. -/
theorem rowOf_ln_host (X : FVec Ideal ⟨2, ![a, 128]⟩ .f32) (gamma beta : FVec Ideal ⟨1, ![128]⟩ .f32)
    (hred : (⟨2, ![a, 128]⟩ : Shape).ReducesTo [1] ⟨1, ![a]⟩) (hS : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, 128]⟩ ![0, 1])
    (hbb1 : (⟨1, ![128]⟩ : Shape).BroadcastsInDim ⟨2, ![1, 128]⟩ ![1])
    (hbb2 : (⟨2, ![1, 128]⟩ : Shape).BroadcastsInDim ⟨2, ![a, 128]⟩ ![0, 1]) (p : Fin a) :
    let mean : FVec Ideal ⟨2, ![a, 1]⟩ .f32 :=
      Host.divf (broadcastInDim ⟨2, ![a, 1]⟩ ![0] h1
          (Host.reduceAdd (F := Ideal) X (constant (F := Ideal) ⟨0, ![]⟩ .f32 0x00000000#32) hred hS))
        (broadcastInDim ⟨2, ![a, 1]⟩ ![] h0 (constant (F := Ideal) ⟨0, ![]⟩ .f32 0x43000000#32))
    let dev : FVec Ideal ⟨2, ![a, 128]⟩ .f32 := subf X (broadcastInDim ⟨2, ![a, 128]⟩ ![0, 1] h2 mean)
    let var : FVec Ideal ⟨2, ![a, 1]⟩ .f32 :=
      Host.divf (broadcastInDim ⟨2, ![a, 1]⟩ ![0] h1
          (Host.reduceAdd (F := Ideal) (mulf dev dev) (constant (F := Ideal) ⟨0, ![]⟩ .f32 0x00000000#32) hred hS))
        (broadcastInDim ⟨2, ![a, 1]⟩ ![] h0 (constant (F := Ideal) ⟨0, ![]⟩ .f32 0x43000000#32))
    rowOf (addf (mulf (mulf dev (broadcastInDim ⟨2, ![a, 128]⟩ ![0, 1] h2
        (Host.rsqrt (addf var (broadcastInDim ⟨2, ![a, 1]⟩ ![] h0 (constant (F := Ideal) ⟨0, ![]⟩ .f32 0x3727C5AC#32))))))
        (broadcastInDim ⟨2, ![a, 128]⟩ ![0, 1] hbb2 (broadcastInDim ⟨2, ![1, 128]⟩ ![1] hbb1 gamma)))
        (broadcastInDim ⟨2, ![a, 128]⟩ ![0, 1] hbb2 (broadcastInDim ⟨2, ![1, 128]⟩ ![1] hbb1 beta))) p
      = lnRow (rowOf X p) (fun j => gamma (ix1 j)) (fun j => beta (ix1 j))
          (Ideal.ofBits .f32 0x43000000#32) (Ideal.ofBits .f32 0x3727C5AC#32) := by
  intro mean dev var
  have hcol : ∀ (v : FVec Ideal ⟨2, ![a, 1]⟩ .f32) (k : Fin 128),
      broadcastInDim ⟨2, ![a, 128]⟩ ![0, 1] h2 v (ix2 p k) = v (ix2 p (0 : Fin 1)) := fun v k =>
    broadcastInDim_apply ![0, 1] h2 v (ix2 p k) (ix2 p (0 : Fin 1)) (fun ax => by
      match ax with
      | ⟨0, _⟩ => show p.val = if a = 1 then 0 else p.val; split <;> [(have := p.isLt; omega); rfl]
      | ⟨1, _⟩ => show (0 : ℕ) = if (1 : ℕ) = 1 then 0 else k.val; rw [if_pos rfl])
  have hmean : mean (ix2 p (0 : Fin 1)) = Ideal.div (∑ k : Fin 128, X (ix2 p k)) (Ideal.ofBits .f32 0x43000000#32) := by
    show Ideal.div (broadcastInDim ⟨2, ![a, 1]⟩ ![0] h1
      (Host.reduceAdd (F := Ideal) X (constant (F := Ideal) ⟨0, ![]⟩ .f32 0x00000000#32) hred hS) (ix2 p (0 : Fin 1))) _ = _
    rw [hostRowSum_apply]
    rfl
  have hdev : ∀ k : Fin 128, dev (ix2 p k)
      = X (ix2 p k) - Ideal.div (∑ k : Fin 128, X (ix2 p k)) (Ideal.ofBits .f32 0x43000000#32) := fun k => by
    show X (ix2 p k) - broadcastInDim ⟨2, ![a, 128]⟩ ![0, 1] h2 mean (ix2 p k) = _
    rw [hcol, hmean]
  have hvar : var (ix2 p (0 : Fin 1))
      = Ideal.div (∑ k : Fin 128, dev (ix2 p k) * dev (ix2 p k)) (Ideal.ofBits .f32 0x43000000#32) := by
    show Ideal.div (broadcastInDim ⟨2, ![a, 1]⟩ ![0] h1
      (Host.reduceAdd (F := Ideal) (mulf dev dev) (constant (F := Ideal) ⟨0, ![]⟩ .f32 0x00000000#32) hred hS)
      (ix2 p (0 : Fin 1))) _ = _
    rw [hostRowSum_apply]
    rfl
  rw [rowOf_addf, rowOf_broadcastInDim_vec]
  funext j
  show (dev (ix2 p j) * broadcastInDim ⟨2, ![a, 128]⟩ ![0, 1] h2
        (Host.rsqrt (addf var (broadcastInDim ⟨2, ![a, 1]⟩ ![] h0 (constant (F := Ideal) ⟨0, ![]⟩ .f32 0x3727C5AC#32))))
        (ix2 p j))
      * rowOf (broadcastInDim ⟨2, ![a, 128]⟩ ![0, 1] hbb2 (broadcastInDim ⟨2, ![1, 128]⟩ ![1] hbb1 gamma)) p j
      + beta (ix1 j) = _
  rw [rowOf_broadcastInDim_vec, hcol]
  show (dev (ix2 p j) * Ideal.rsqrt (var (ix2 p (0 : Fin 1)) + Ideal.ofBits .f32 0x3727C5AC#32)) * gamma (ix1 j) + beta (ix1 j) = _
  rw [hvar]
  simp only [hdev]
  rfl

end HostNorm

end Cert.SageRows

end
-- ==== Proof.LayerBridge.lean ====
/-
  The kernel's row form of each table is the reference's structured term, as arrays.

  The kernel's blocks compute, row by row, a dense projection, the mean-aggregating layer with a reciprocal count
  (`sageK`) and the row normalisation (`lnRow`). The reference computes the same three steps on whole arrays
  (its `u0` / `b0`, `layerUser` / `layerBook`, `normUser` / `normBook`). Reading the reference's arrays row by
  row turns each into the same row function, once the kernel's one-row bias, scale and shift arrays are known to
  hold the reference's vectors and the kernel's reciprocal count is known to be one over a count that is a real
  number at least one: then multiplying by the reciprocal is dividing by the count, and the two layers agree.
-/
import proofs.«113985_j6949257085118_2_alg».proof.Proof.RefDefs
import proofs.«113985_j6949257085118_2_alg».proof.Proof.RowMath
import proofs.«113985_j6949257085118_2_alg».proof.Proof.RowMathRef
import proofs.«113985_j6949257085118_2_alg».proof.Proof.LibRowLayers
import Idealize.ShloMosaic.PureOps.Ideal
import Idealize.ShloMosaic.PureOps.Ideal.Laws
import Idealize.ShloMosaic.PureOps.IdealRules
import Idealize.ShloMosaic.Lib.ValueIdx

noncomputable section
namespace Cert.LayerBridge
open Idealize.ShloMosaic Idealize.ShloMosaic.ValueIdx Cert.RowLayers Cert.SageRows Cert.ReferenceIdeal Cert.ReferenceIdeal.Gen Cert.ReferenceIdeal.RefDefs

/-- The reference's three products say "rows times columns". -/
theorem dimsU64 : RowsTimesCols dot_S150000x64_S64x128_S150000x128_1_0_0_1_n_n :=
  ⟨rfl, rfl, fun _ _ => rfl, fun _ _ => rfl, fun _ _ => rfl, fun _ _ => rfl⟩
theorem dimsU : RowsTimesCols dot_S150000x128_S128x128_S150000x128_1_0_0_1_n_n :=
  ⟨rfl, rfl, fun _ _ => rfl, fun _ _ => rfl, fun _ _ => rfl, fun _ _ => rfl⟩
theorem dimsB : RowsTimesCols dot_S75000x128_S128x128_S75000x128_1_0_0_1_n_n :=
  ⟨rfl, rfl, fun _ _ => rfl, fun _ _ => rfl, fun _ _ => rfl, fun _ _ => rfl⟩

/-- A one-row array whose entries are a vector's has that vector as its row. -/
theorem row_eq {b : ℕ} (R : FVec Ideal ⟨2, ![1, b]⟩ .f32) (v : FVec Ideal ⟨1, ![b]⟩ .f32)
    (h : ∀ j : Fin b, R (ix2 (0 : Fin 1) j) = v (ix1 j)) : rowOf (a := 1) (b := b) R 0 = fun j => v (ix1 j) := funext h

/-- The pattern of the float `1.0` denotes the extended real one. -/
theorem one_f32 : Ideal.ofBits .f32 0x3F800000#32 = 1 := IdealRules.sign_bit.ideal_onePat .f32

/-- The user projection, row by row, is the reference's. -/
theorem proj_user (A0 : FVec Ideal S150000x64 .f32) (A4 : FVec Ideal S64x128 .f32) (BR : FVec Ideal S1x128 .f32) (A5 : FVec Ideal S128 .f32)
    (hb : ∀ j : Fin 128, BR (ix2 (0 : Fin 1) j) = A5 (ix1 j)) :
    (fun i : S150000x128.Idx => dense (rowOf (a := 150000) (b := 64) A0 (i 0)) A4 (rowOf (a := 1) (b := 128) BR 0) (i 1)) = u0 A0 A4 A5 := by
  funext i
  rw [row_eq BR A5 hb]
  refine Eq.trans ?_ (apply_eq_rowOf (u0 A0 A4 A5) i).symm
  exact (congrFun (rowOf_dense_host dimsU64 none A0 A4 A5 _ _ (i 0)) (i 1)).symm

/-- One round for the users, row by row with the reciprocal count, is the reference's round with the count. -/
theorem layer_user (S X : FVec Ideal S150000x128 .f32) (cnt : FVec Ideal S150000 .f32) (INV : FVec Ideal S150000x1 .f32)
    (wl wr : FVec Ideal S128x128 .f32) (BL : FVec Ideal S1x128 .f32) (bl : FVec Ideal S128 .f32)
    (hinv : ∀ r : Fin 150000, ∃ q : ℝ, 1 ≤ q ∧ cnt (ix1 r) = ((q : ℝ) : EReal)
      ∧ INV (ix2 r (0 : Fin 1)) = Ideal.div (Ideal.ofBits .f32 0x3F800000#32) (cnt (ix1 r)))
    (hbl : ∀ j : Fin 128, BL (ix2 (0 : Fin 1) j) = bl (ix1 j)) :
    (fun i : S150000x128.Idx => sageK (rowOf S (i 0)) (INV (ix2 (i 0) (0 : Fin 1))) (rowOf X (i 0)) wl wr
        (rowOf (a := 1) (b := 128) BL 0) (Ideal.ofBits .f32 0x00000000#32) (i 1)) = layerUser S cnt X wl bl wr := by
  funext i
  rw [row_eq BL bl hbl]
  refine Eq.trans ?_ (apply_eq_rowOf (layerUser S cnt X wl bl wr) i).symm
  obtain ⟨q, hq, hc, hi⟩ := hinv (i 0)
  rw [sageK_eq_sageR (cnt := cnt (ix1 (i 0))) (fun v => by rw [hi, hc, one_f32]; exact mul_div_one_of_one_le hq v)]
  exact (congrFun (rowOf_sage_host dimsU S X wl wr cnt bl _ _ _ _ _ (i 0)) (i 1)).symm

/-- The normalisation of the user table, row by row, is the reference's. -/
theorem norm_user (Y : FVec Ideal S150000x128 .f32) (GR BR : FVec Ideal S1x128 .f32) (g b : FVec Ideal S128 .f32)
    (hg : ∀ j : Fin 128, GR (ix2 (0 : Fin 1) j) = g (ix1 j)) (hb : ∀ j : Fin 128, BR (ix2 (0 : Fin 1) j) = b (ix1 j)) :
    (fun i : S150000x128.Idx => lnRow (rowOf Y (i 0)) (rowOf (a := 1) (b := 128) GR 0) (rowOf (a := 1) (b := 128) BR 0)
        (Ideal.ofBits .f32 0x43000000#32) (Ideal.ofBits .f32 0x3727C5AC#32) (i 1)) = normUser Y g b := by
  funext i
  rw [row_eq GR g hg, row_eq BR b hb]
  refine Eq.trans ?_ (apply_eq_rowOf (normUser Y g b) i).symm
  exact (congrFun (rowOf_ln_host Y g b reducesTo_S150000x128_S150000_d1 h_S_ bcast_S150000_S150000x1_0 bcast_S_S150000x1
    bcast_S150000x1_S150000x128_0_1 bcast_S128_S1x128_1 bcast_S1x128_S150000x128_0_1 (i 0)) (i 1)).symm

/-- The book projection, row by row, is the reference's. -/
theorem proj_book (A1 : FVec Ideal S75000x128 .f32) (A6 : FVec Ideal S128x128 .f32) (BR : FVec Ideal S1x128 .f32) (A7 : FVec Ideal S128 .f32)
    (hb : ∀ j : Fin 128, BR (ix2 (0 : Fin 1) j) = A7 (ix1 j)) :
    (fun i : S75000x128.Idx => dense (rowOf (a := 75000) (b := 128) A1 (i 0)) A6 (rowOf (a := 1) (b := 128) BR 0) (i 1)) = b0 A1 A6 A7 := by
  funext i
  rw [row_eq BR A7 hb]
  refine Eq.trans ?_ (apply_eq_rowOf (b0 A1 A6 A7) i).symm
  exact (congrFun (rowOf_dense_host dimsB none A1 A6 A7 _ _ (i 0)) (i 1)).symm

/-- One round for the books, row by row with the reciprocal count, is the reference's round with the count. -/
theorem layer_book (S X : FVec Ideal S75000x128 .f32) (cnt : FVec Ideal S75000 .f32) (INV : FVec Ideal S75000x1 .f32)
    (wl wr : FVec Ideal S128x128 .f32) (BL : FVec Ideal S1x128 .f32) (bl : FVec Ideal S128 .f32)
    (hinv : ∀ r : Fin 75000, ∃ q : ℝ, 1 ≤ q ∧ cnt (ix1 r) = ((q : ℝ) : EReal)
      ∧ INV (ix2 r (0 : Fin 1)) = Ideal.div (Ideal.ofBits .f32 0x3F800000#32) (cnt (ix1 r)))
    (hbl : ∀ j : Fin 128, BL (ix2 (0 : Fin 1) j) = bl (ix1 j)) :
    (fun i : S75000x128.Idx => sageK (rowOf S (i 0)) (INV (ix2 (i 0) (0 : Fin 1))) (rowOf X (i 0)) wl wr
        (rowOf (a := 1) (b := 128) BL 0) (Ideal.ofBits .f32 0x00000000#32) (i 1)) = layerBook S cnt X wl bl wr := by
  funext i
  rw [row_eq BL bl hbl]
  refine Eq.trans ?_ (apply_eq_rowOf (layerBook S cnt X wl bl wr) i).symm
  obtain ⟨q, hq, hc, hi⟩ := hinv (i 0)
  rw [sageK_eq_sageR (cnt := cnt (ix1 (i 0))) (fun v => by rw [hi, hc, one_f32]; exact mul_div_one_of_one_le hq v)]
  exact (congrFun (rowOf_sage_host dimsB S X wl wr cnt bl _ _ _ _ _ (i 0)) (i 1)).symm

/-- The normalisation of the book table, row by row, is the reference's. -/
theorem norm_book (Y : FVec Ideal S75000x128 .f32) (GR BR : FVec Ideal S1x128 .f32) (g b : FVec Ideal S128 .f32)
    (hg : ∀ j : Fin 128, GR (ix2 (0 : Fin 1) j) = g (ix1 j)) (hb : ∀ j : Fin 128, BR (ix2 (0 : Fin 1) j) = b (ix1 j)) :
    (fun i : S75000x128.Idx => lnRow (rowOf Y (i 0)) (rowOf (a := 1) (b := 128) GR 0) (rowOf (a := 1) (b := 128) BR 0)
        (Ideal.ofBits .f32 0x43000000#32) (Ideal.ofBits .f32 0x3727C5AC#32) (i 1)) = normBook Y g b := by
  funext i
  rw [row_eq GR g hg, row_eq BR b hb]
  refine Eq.trans ?_ (apply_eq_rowOf (normBook Y g b) i).symm
  exact (congrFun (rowOf_ln_host Y g b reducesTo_S75000x128_S75000_d1 h_S_ bcast_S75000_S75000x1_0 bcast_S_S75000x1
    bcast_S75000x1_S75000x128_0_1 bcast_S128_S1x128_1 bcast_S1x128_S75000x128_0_1 (i 0)) (i 1)).symm

end Cert.LayerBridge

end
-- ==== Proof.Bridge.lean ====
/-
  The idealized kernel's tables are the reference's, one after the other, when no edge carries a negative node number.

  Both programs project the two node tables, run three rounds of mean aggregation and normalise the rows. Round by
  round: the kernel's summed messages are the reference's (wrapping a non-negative node number changes nothing); its
  inverse count, an integer count converted and inverted, is 1 over the reference's count, a real number at least 1, so
  multiplying by it is dividing by the count; its weight slabs and bias rows are the reference's; and the round's update
  on a row is the same sum of products in another order of additions. So each table the kernel's regions leave equals the
  reference's table of the same round, and the last two regions' normalised tables are the reference's results.
-/
import proofs.«113985_j6949257085118_2_alg».proof.Proof.RegionVal
import proofs.«113985_j6949257085118_2_alg».proof.Proof.KRead
import proofs.«113985_j6949257085118_2_alg».proof.Proof.GlueFacts
import proofs.«113985_j6949257085118_2_alg».proof.Proof.LayerBridge

set_option maxRecDepth 16384

noncomputable section

namespace Cert.Bridge

open Cert.KernelIdeal Cert.KernelIdeal.Gen Cert.KernelIdeal.KRead Cert.RowLayers Cert.SageRows
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The user projection. -/
theorem Ku0_eq : Ku0 m ρ c = Cert.ReferenceIdeal.RefDefs.u0 (A0 m c) (A4 m c) (A5 m c) := by
  unfold Ku0
  rw [RegionVal.region0 (V1 m ρ) c, entry0_0, entry0_1, entry0_2]
  exact LayerBridge.proj_user _ _ _ _ (GlueFacts.rowVec_apply _)

/-- The book projection. -/
theorem Kb0_eq : Kb0 m ρ c = Cert.ReferenceIdeal.RefDefs.b0 (A1 m c) (A6 m c) (A7 m c) := by
  unfold Kb0
  rw [RegionVal.region1 (V3 m ρ) c, entry1_0, entry1_1, entry1_2]
  exact LayerBridge.proj_book _ _ _ _ (GlueFacts.rowVec_apply _)

section Rounds
variable (h2 : ∀ e, 0 ≤ (A2 m c e).toInt) (h3 : ∀ e, 0 ≤ (A3 m c e).toInt)
include h2 h3

/-- Round 1, books. -/
theorem Kb1_eq : Kb1 m ρ c = Cert.ReferenceIdeal.RefDefs.b1 (A0 m c) (A1 m c) (A2 m c) (A3 m c) (A4 m c) (A5 m c) (A6 m c) (A7 m c) (A8 m c) (A9 m c) (A10 m c) := by
  unfold Kb1
  rw [RegionVal.region2 (V5 m ρ) c, entry2_0, entry2_1, entry2_2, entry2_3, entry2_4, entry2_5,
    Ku0_eq m ρ c, Kb0_eq m ρ c, GlueFacts.aggBook_eq _ _ h3, GlueFacts.wl0_eq, GlueFacts.wr0_eq]
  exact LayerBridge.layer_book _ _ _ _ _ _ _ _ (GlueFacts.invBook_spec _ h3) (GlueFacts.blRow0_apply _)

/-- Round 1, users. -/
theorem Ku1_eq : Ku1 m ρ c = Cert.ReferenceIdeal.RefDefs.u1 (A0 m c) (A1 m c) (A2 m c) (A3 m c) (A4 m c) (A5 m c) (A6 m c) (A7 m c) (A8 m c) (A9 m c) (A10 m c) := by
  unfold Ku1
  rw [RegionVal.region3 (V7 m ρ) c, entry3_0, entry3_1, entry3_2, entry3_3, entry3_4, entry3_5,
    Ku0_eq m ρ c, Kb0_eq m ρ c, GlueFacts.aggUser_eq _ _ h2, GlueFacts.wl0_eq, GlueFacts.wr0_eq]
  exact LayerBridge.layer_user _ _ _ _ _ _ _ _ (GlueFacts.invUser_spec _ h2) (GlueFacts.blRow0_apply _)

/-- Round 2, books. -/
theorem Kb2_eq : Kb2 m ρ c = Cert.ReferenceIdeal.RefDefs.b2 (A0 m c) (A1 m c) (A2 m c) (A3 m c) (A4 m c) (A5 m c) (A6 m c) (A7 m c) (A8 m c) (A9 m c) (A10 m c) := by
  unfold Kb2
  rw [RegionVal.region4 (V9 m ρ) c, entry4_0, entry4_1, entry4_2, entry4_3, entry4_4, entry4_5,
    Ku1_eq m ρ c h2 h3, Kb1_eq m ρ c h2 h3, GlueFacts.aggBook_eq _ _ h3, GlueFacts.wl1_eq, GlueFacts.wr1_eq]
  exact LayerBridge.layer_book _ _ _ _ _ _ _ _ (GlueFacts.invBook_spec _ h3) (GlueFacts.blRow1_apply _)

/-- Round 2, users. -/
theorem Ku2_eq : Ku2 m ρ c = Cert.ReferenceIdeal.RefDefs.u2 (A0 m c) (A1 m c) (A2 m c) (A3 m c) (A4 m c) (A5 m c) (A6 m c) (A7 m c) (A8 m c) (A9 m c) (A10 m c) := by
  unfold Ku2
  rw [RegionVal.region5 (V11 m ρ) c, entry5_0, entry5_1, entry5_2, entry5_3, entry5_4, entry5_5,
    Ku1_eq m ρ c h2 h3, Kb1_eq m ρ c h2 h3, GlueFacts.aggUser_eq _ _ h2, GlueFacts.wl1_eq, GlueFacts.wr1_eq]
  exact LayerBridge.layer_user _ _ _ _ _ _ _ _ (GlueFacts.invUser_spec _ h2) (GlueFacts.blRow1_apply _)

set_option maxHeartbeats 2000000 in
/-- Round 3 and the row normalisation, books: the seventh region's table is the reference's book result. -/
theorem Kb3_eq : Kb3 m ρ c = Cert.ReferenceIdeal.RefDefs.normBook (Cert.ReferenceIdeal.RefDefs.b3 (A0 m c) (A1 m c) (A2 m c) (A3 m c) (A4 m c) (A5 m c) (A6 m c) (A7 m c) (A8 m c) (A9 m c) (A10 m c)) (A13 m c) (A14 m c) := by
  unfold Kb3
  rw [RegionVal.region6 (V13 m ρ) c, entry6_0, entry6_1, entry6_2, entry6_3, entry6_4, entry6_5, entry6_6, entry6_7,
    Ku2_eq m ρ c h2 h3, Kb2_eq m ρ c h2 h3, GlueFacts.aggBook_eq _ _ h3, GlueFacts.wl2_eq, GlueFacts.wr2_eq]
  have hY := LayerBridge.layer_book (Cert.ReferenceIdeal.RefDefs.sumBook (A2 m c) (A3 m c) (Cert.ReferenceIdeal.RefDefs.u2 (A0 m c) (A1 m c) (A2 m c) (A3 m c) (A4 m c) (A5 m c) (A6 m c) (A7 m c) (A8 m c) (A9 m c) (A10 m c))) (Cert.ReferenceIdeal.RefDefs.b2 (A0 m c) (A1 m c) (A2 m c) (A3 m c) (A4 m c) (A5 m c) (A6 m c) (A7 m c) (A8 m c) (A9 m c) (A10 m c)) (Cert.ReferenceIdeal.RefDefs.cntBook (A3 m c))
    (KDefs.invBook (A3 m c)) (Cert.ReferenceIdeal.RefDefs.wl2 (A8 m c)) (Cert.ReferenceIdeal.RefDefs.wr2 (A10 m c)) (KDefs.blRow2 (A9 m c)) (Cert.ReferenceIdeal.RefDefs.bl2 (A9 m c))
    (GlueFacts.invBook_spec _ h3) (GlueFacts.blRow2_apply _)
  refine Eq.trans ?_ (LayerBridge.norm_book (Cert.ReferenceIdeal.RefDefs.b3 (A0 m c) (A1 m c) (A2 m c) (A3 m c) (A4 m c) (A5 m c) (A6 m c) (A7 m c) (A8 m c) (A9 m c) (A10 m c)) (KDefs.rowVec (A13 m c)) (KDefs.rowVec (A14 m c)) (A13 m c) (A14 m c)
    (GlueFacts.rowVec_apply _) (GlueFacts.rowVec_apply _))
  funext i
  refine congrArg (fun v => lnRow v _ _ _ _ (i 1)) ?_
  exact funext fun j => congrFun hY (ix2 (i 0) j)

set_option maxHeartbeats 2000000 in
/-- Round 3 and the row normalisation, users: the eighth region's table is the reference's user result. -/
theorem Ku3_eq : Ku3 m ρ c = Cert.ReferenceIdeal.RefDefs.normUser (Cert.ReferenceIdeal.RefDefs.u3 (A0 m c) (A1 m c) (A2 m c) (A3 m c) (A4 m c) (A5 m c) (A6 m c) (A7 m c) (A8 m c) (A9 m c) (A10 m c)) (A11 m c) (A12 m c) := by
  unfold Ku3
  rw [RegionVal.region7 (V15 m ρ) c, entry7_0, entry7_1, entry7_2, entry7_3, entry7_4, entry7_5, entry7_6, entry7_7,
    Ku2_eq m ρ c h2 h3, Kb2_eq m ρ c h2 h3, GlueFacts.aggUser_eq _ _ h2, GlueFacts.wl2_eq, GlueFacts.wr2_eq]
  have hY := LayerBridge.layer_user (Cert.ReferenceIdeal.RefDefs.sumUser (A2 m c) (A3 m c) (Cert.ReferenceIdeal.RefDefs.b2 (A0 m c) (A1 m c) (A2 m c) (A3 m c) (A4 m c) (A5 m c) (A6 m c) (A7 m c) (A8 m c) (A9 m c) (A10 m c))) (Cert.ReferenceIdeal.RefDefs.u2 (A0 m c) (A1 m c) (A2 m c) (A3 m c) (A4 m c) (A5 m c) (A6 m c) (A7 m c) (A8 m c) (A9 m c) (A10 m c)) (Cert.ReferenceIdeal.RefDefs.cntUser (A2 m c))
    (KDefs.invUser (A2 m c)) (Cert.ReferenceIdeal.RefDefs.wl2 (A8 m c)) (Cert.ReferenceIdeal.RefDefs.wr2 (A10 m c)) (KDefs.blRow2 (A9 m c)) (Cert.ReferenceIdeal.RefDefs.bl2 (A9 m c))
    (GlueFacts.invUser_spec _ h2) (GlueFacts.blRow2_apply _)
  refine Eq.trans ?_ (LayerBridge.norm_user (Cert.ReferenceIdeal.RefDefs.u3 (A0 m c) (A1 m c) (A2 m c) (A3 m c) (A4 m c) (A5 m c) (A6 m c) (A7 m c) (A8 m c) (A9 m c) (A10 m c)) (KDefs.rowVec (A11 m c)) (KDefs.rowVec (A12 m c)) (A11 m c) (A12 m c)
    (GlueFacts.rowVec_apply _) (GlueFacts.rowVec_apply _))
  funext i
  refine congrArg (fun v => lnRow v _ _ _ _ (i 1)) ?_
  exact funext fun j => congrFun hY (ix2 (i 0) j)

end Rounds

end Cert.Bridge

end
-- ==== Proof.lean ====
/-
  The certificate: a graph network on a user table and a book table — two input projections, three rounds of mean
  aggregation over the edges with shared weights and a rectifier, and a final row normalisation — computed by a kernel
  whose dense work runs in blocked regions of 5000 rows, against its plain reference, over the extended reals.

  The precondition asks every float input to be finite and every edge's two node numbers to be non-negative: the kernel
  adds a message at a negative node number wrapped around the table, the reference drops it, so outside that domain the
  two programs differ. Inside it they agree without any use of finiteness: every step is the same sum of products, the
  kernel multiplying by the inverse of a count at least 1 where the reference divides by the count, and adding the bias
  after the second product where the reference adds it before.

  The three frames are the generated ones (the reference's is its run with the results dropped); the kernel's
  idealization rewrote no operation; and the two runs end with equal results: the kernel's last two regions leave the
  reference's normalised tables (Bridge), which is what the reference's composed term is (RefTerm).
-/
import proofs.«113985_j6949257085118_2_alg».proof.Defs
import proofs.«113985_j6949257085118_2_alg».proof.Proof.Gen.Kernel
import proofs.«113985_j6949257085118_2_alg».proof.Proof.Gen.Kernel.Frame
import proofs.«113985_j6949257085118_2_alg».proof.Proof.Gen.KernelIdeal
import proofs.«113985_j6949257085118_2_alg».proof.Proof.Gen.KernelIdeal.Frame
import proofs.«113985_j6949257085118_2_alg».proof.Proof.Gen.ReferenceIdeal
import proofs.«113985_j6949257085118_2_alg».proof.Proof.Gen.Pre_finite_inputs
import proofs.«113985_j6949257085118_2_alg».proof.Proof.KRun
import proofs.«113985_j6949257085118_2_alg».proof.Proof.RefTerm
import proofs.«113985_j6949257085118_2_alg».proof.Proof.IndexFacts
import proofs.«113985_j6949257085118_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference's frame is its run with the two results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- The two idealized programs end with equal results when run from memories that agree on the arguments. -/
theorem algebraic : Cert.algebraic_KernelIdeal_ReferenceIdeal := by
  intro m ρ m' ρ' hpre hagree
  have hnn := fun c => Cert.IndexFacts.src_dst_nonneg m hpre c
  refine ⟨fun c => Cert.ReferenceIdeal.RefDefs.normUser (Cert.ReferenceIdeal.RefDefs.u3 (Cert.KernelIdeal.KRead.A0 m c) (Cert.KernelIdeal.KRead.A1 m c) (Cert.KernelIdeal.KRead.A2 m c) (Cert.KernelIdeal.KRead.A3 m c) (Cert.KernelIdeal.KRead.A4 m c) (Cert.KernelIdeal.KRead.A5 m c) (Cert.KernelIdeal.KRead.A6 m c) (Cert.KernelIdeal.KRead.A7 m c) (Cert.KernelIdeal.KRead.A8 m c) (Cert.KernelIdeal.KRead.A9 m c) (Cert.KernelIdeal.KRead.A10 m c)) (Cert.KernelIdeal.KRead.A11 m c) (Cert.KernelIdeal.KRead.A12 m c),
    fun c => Cert.ReferenceIdeal.RefDefs.normBook (Cert.ReferenceIdeal.RefDefs.b3 (Cert.KernelIdeal.KRead.A0 m c) (Cert.KernelIdeal.KRead.A1 m c) (Cert.KernelIdeal.KRead.A2 m c) (Cert.KernelIdeal.KRead.A3 m c) (Cert.KernelIdeal.KRead.A4 m c) (Cert.KernelIdeal.KRead.A5 m c) (Cert.KernelIdeal.KRead.A6 m c) (Cert.KernelIdeal.KRead.A7 m c) (Cert.KernelIdeal.KRead.A8 m c) (Cert.KernelIdeal.KRead.A9 m c) (Cert.KernelIdeal.KRead.A10 m c)) (Cert.KernelIdeal.KRead.A13 m c) (Cert.KernelIdeal.KRead.A14 m c), ?_, ?_⟩
  · refine (θ_run Cert.KernelIdeal.defs _ _).mono (fun r h c => ⟨(h c).1.trans ?_, (h c).2.1.trans ?_, (h c).2.2⟩)
      (Cert.KernelIdeal.KRun.run_vals (F := Ideal) m ρ)
    · exact (Cert.KernelIdeal.KRead.Ku3_at16 m ρ c).trans (Cert.Bridge.Ku3_eq m ρ c (hnn c).1 (hnn c).2)
    · exact (Cert.KernelIdeal.KRead.Kb3_at16 m ρ c).trans (Cert.Bridge.Kb3_eq m ρ c (hnn c).1 (hnn c).2)
  · refine (θ_run Cert.ReferenceIdeal.defs _ _).mono (fun r h c => ⟨(h c).1.trans ?_, (h c).2.1.trans ?_, (h c).2.2⟩)
      (Cert.ReferenceIdeal.RunP.run (F := Ideal) m' ρ')
    · rw [Cert.ReferenceIdeal.RefTerm.user_result]
      obtain ⟨e0, e1, e2, e3, e4, e5, e6, e7, e8, e9, e10, e11, e12, e13, e14⟩ := hagree c
      simp only [Cert.ReferenceIdeal.RefTerm.arg0, Cert.ReferenceIdeal.RefTerm.arg1, Cert.ReferenceIdeal.RefTerm.arg2, Cert.ReferenceIdeal.RefTerm.arg3, Cert.ReferenceIdeal.RefTerm.arg4, Cert.ReferenceIdeal.RefTerm.arg5, Cert.ReferenceIdeal.RefTerm.arg6, Cert.ReferenceIdeal.RefTerm.arg7, Cert.ReferenceIdeal.RefTerm.arg8, Cert.ReferenceIdeal.RefTerm.arg9, Cert.ReferenceIdeal.RefTerm.arg10, Cert.ReferenceIdeal.RefTerm.arg11, Cert.ReferenceIdeal.RefTerm.arg12]
      rw [e0, e1, e2, e3, e4, e5, e6, e7, e8, e9, e10, e11, e12]
    · rw [Cert.ReferenceIdeal.RefTerm.book_result]
      obtain ⟨e0, e1, e2, e3, e4, e5, e6, e7, e8, e9, e10, e11, e12, e13, e14⟩ := hagree c
      simp only [Cert.ReferenceIdeal.RefTerm.arg0, Cert.ReferenceIdeal.RefTerm.arg1, Cert.ReferenceIdeal.RefTerm.arg2, Cert.ReferenceIdeal.RefTerm.arg3, Cert.ReferenceIdeal.RefTerm.arg4, Cert.ReferenceIdeal.RefTerm.arg5, Cert.ReferenceIdeal.RefTerm.arg6, Cert.ReferenceIdeal.RefTerm.arg7, Cert.ReferenceIdeal.RefTerm.arg8, Cert.ReferenceIdeal.RefTerm.arg9, Cert.ReferenceIdeal.RefTerm.arg10, Cert.ReferenceIdeal.RefTerm.arg13, Cert.ReferenceIdeal.RefTerm.arg14]
      rw [e0, e1, e2, e3, e4, e5, e6, e7, e8, e9, e10, e13, e14]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
